-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x512 : Shape := ⟨3, ![1, 512, 512]⟩
abbrev S_ : Shape := ⟨0, ![]⟩

class Facts : Prop where
  bcast_S_S1x512x512 : S_.BroadcastsInDim S1x512x512 (![] : Fin 0 → Fin S1x512x512.rank)
  reducesTo_S1x512x512_S_d0_1_2 : S1x512x512.ReducesTo [0, 1, 2] S_
  h_S_ : 0 < S_.numel

variable [Facts]

def fn {F : FTy → Type} [FloatOps F] (main_arg0 : FVec F S1x512x512 .f32) : IVec S_ 1 :=
  let main_v0 : FVec F S1x512x512 .f32 := Host.absf main_arg0
  let main_cst : FVec F S_ .f32 := constant S_ .f32 0x7F800000#32
  let main_v1 : FVec F S1x512x512 .f32 := broadcastInDim S1x512x512 ![] bcast_S_S1x512x512 main_cst
  let main_v2 : IVec S1x512x512 1 := cmpf .olt main_v0 main_v1
  let main_c : IVec S_ 1 := constantI S_ 1 1#1
  let main_v3 : IVec S_ 1 := (fun x v => Host.reduce IntOp.andi x v reducesTo_S1x512x512_S_d0_1_2 h_S_) main_v2 main_c
  main_v3
-- ==== Pre_finite_inputs_ReferenceIdeal.lean ====
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : FVec F S8x512x512 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  main_v3
-- ==== Kernel.lean ====
abbrev S1x512x512 : Shape := ⟨3, ![1, 512, 512]⟩
abbrev S512x512 : Shape := ⟨2, ![512, 512]⟩
abbrev S64x512 : Shape := ⟨2, ![64, 512]⟩
abbrev S2x7x32x512 : Shape := ⟨4, ![2, 7, 32, 512]⟩
abbrev S14 : Shape := ⟨1, ![14]⟩
abbrev S_ : Shape := ⟨0, ![]⟩
abbrev S1 : Shape := ⟨1, ![1]⟩
abbrev S1x1x32x512 : Shape := ⟨4, ![1, 1, 32, 512]⟩
abbrev S32x512 : Shape := ⟨2, ![32, 512]⟩
abbrev S1x32x512 : Shape := ⟨3, ![1, 32, 512]⟩

abbrev nBuf : Space → Nat
  | .hbm => 2
  | .vmem => 6
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S512x512, .bf16⟩
  | .local _ .vmem, ⟨3, _⟩ => ⟨S64x512, .bf16⟩
  | .local _ .vmem, ⟨4, _⟩ => ⟨S2x7x32x512, .bf16⟩
  | .local _ .vmem, ⟨5, _⟩ => ⟨S2x7x32x512, .bf16⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  { ofTc nBuf bufTy 1 58 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v10 : BitVec 32 := Scalar.xori v2 c6_i32
  let c1_i32_5 : BitVec 32 := 1#32
  let v11 : BitVec 32 := Scalar.muli v10 c1_i32_5
  let v12 : BitVec 32 := Scalar.addi c0_i32 v11
  v12.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.xori v2 c2_i32
  let c1_i32_7 : BitVec 32 := 1#32
  let v14 : BitVec 32 := Scalar.muli v13 c1_i32_7
  let v15 : BitVec 32 := Scalar.addi c0_i32_8 v14
  v15.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_10 : BitVec 32 := 1#32
  let v17 : BitVec 32 := Scalar.muli v16 c1_i32_10
  let v18 : BitVec 32 := Scalar.addi c0_i32_11 v17
  v18.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v19 : BitVec 32 := Scalar.xori v2 c7_i32
  let c1_i32_13 : BitVec 32 := 1#32
  let v20 : BitVec 32 := Scalar.muli v19 c1_i32_13
  let v21 : BitVec 32 := Scalar.addi c0_i32_14 v20
  v21.toNat
def k0_dev5 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v22 : BitVec 32 := Scalar.xori v2 c1_i32_15
  let c1_i32_17 : BitVec 32 := 1#32
  let v23 : BitVec 32 := Scalar.muli v22 c1_i32_17
  let v24 : BitVec 32 := Scalar.addi c0_i32_18 v23
  v24.toNat
def k0_dev6 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v25 : BitVec 32 := Scalar.xori v2 c3_i32
  let c1_i32_20 : BitVec 32 := 1#32
  let v26 : BitVec 32 := Scalar.muli v25 c1_i32_20
  let v27 : BitVec 32 := Scalar.addi c0_i32_21 v26
  v27.toNat
def k0_dev7 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v28 : BitVec 32 := Scalar.xori v2 c4_i32
  let c1_i32_23 : BitVec 32 := 1#32
  let v29 : BitVec 32 := Scalar.muli v28 c1_i32_23
  let v30 : BitVec 32 := Scalar.addi c0_i32_24 v29
  v30.toNat
def k0_off1 (d0 : Dev nD) (c6_i32_26 : BitVec 32) (c0_i32_27 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v31 : BitVec 32 := Scalar.xori v2 c6_i32_26
  let c64_i32 : BitVec 32 := 64#32
  let v32 : BitVec 32 := Scalar.muli v31 c64_i32
  let v33 : BitVec 32 := Scalar.addi v32 c0_i32_27
  let c0_i32_36 : BitVec 32 := 0#32
  ![v33.toNat, 0]
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_26 : BitVec 32 := 6#32
  let v31 : BitVec 32 := Scalar.xori v2 c6_i32_26
  let c1_i32_32 : BitVec 32 := 1#32
  let v34 : BitVec 32 := Scalar.muli v31 c1_i32_32
  let v35 : BitVec 32 := Scalar.addi c0_i32_33 v34
  v35.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v43 : BitVec 32 := Scalar.xori v2 c2_i32_37
  let c1_i32_44 : BitVec 32 := 1#32
  let v46 : BitVec 32 := Scalar.muli v43 c1_i32_44
  let v47 : BitVec 32 := Scalar.addi c0_i32_45 v46
  v47.toNat
def k0_dev10 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v55 : BitVec 32 := Scalar.xori v2 c5_i32_49
  let c1_i32_56 : BitVec 32 := 1#32
  let v58 : BitVec 32 := Scalar.muli v55 c1_i32_56
  let v59 : BitVec 32 := Scalar.addi c0_i32_57 v58
  v59.toNat
def k0_dev11 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_61 : BitVec 32 := 7#32
  let v67 : BitVec 32 := Scalar.xori v2 c7_i32_61
  let c1_i32_68 : BitVec 32 := 1#32
  let v70 : BitVec 32 := Scalar.muli v67 c1_i32_68
  let v71 : BitVec 32 := Scalar.addi c0_i32_69 v70
  v71.toNat
def k0_dev12 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_73 : BitVec 32 := 1#32
  let v79 : BitVec 32 := Scalar.xori v2 c1_i32_73
  let c1_i32_80 : BitVec 32 := 1#32
  let v82 : BitVec 32 := Scalar.muli v79 c1_i32_80
  let v83 : BitVec 32 := Scalar.addi c0_i32_81 v82
  v83.toNat
def k0_dev13 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_85 : BitVec 32 := 3#32
  let v91 : BitVec 32 := Scalar.xori v2 c3_i32_85
  let c1_i32_92 : BitVec 32 := 1#32
  let v94 : BitVec 32 := Scalar.muli v91 c1_i32_92
  let v95 : BitVec 32 := Scalar.addi c0_i32_93 v94
  v95.toNat
def k0_dev14 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_97 : BitVec 32 := 4#32
  let v103 : BitVec 32 := Scalar.xori v2 c4_i32_97
  let c1_i32_104 : BitVec 32 := 1#32
  let v106 : BitVec 32 := Scalar.muli v103 c1_i32_104
  let v107 : BitVec 32 := Scalar.addi c0_i32_105 v106
  v107.toNat
def k0_dev15 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_109 : BitVec 32 := 6#32
  let v115 : BitVec 32 := Scalar.xori v2 c6_i32_109
  let c1_i32_114 : BitVec 32 := 1#32
  let v118 : BitVec 32 := Scalar.muli v115 c1_i32_114
  let v119 : BitVec 32 := Scalar.addi c0_i32_115 v118
  v119.toNat
def k0_dev16 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_119 : BitVec 32 := 2#32
  let v127 : BitVec 32 := Scalar.xori v2 c2_i32_119
  let c1_i32_126 : BitVec 32 := 1#32
  let v130 : BitVec 32 := Scalar.muli v127 c1_i32_126
  let v131 : BitVec 32 := Scalar.addi c0_i32_127 v130
  v131.toNat
def k0_dev17 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_131 : BitVec 32 := 5#32
  let v139 : BitVec 32 := Scalar.xori v2 c5_i32_131
  let c1_i32_137 : BitVec 32 := 1#32
  let v142 : BitVec 32 := Scalar.muli v139 c1_i32_137
  let v143 : BitVec 32 := Scalar.addi c0_i32_138 v142
  v143.toNat
def k0_dev18 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_142 : BitVec 32 := 7#32
  let v151 : BitVec 32 := Scalar.xori v2 c7_i32_142
  let c1_i32_148 : BitVec 32 := 1#32
  let v154 : BitVec 32 := Scalar.muli v151 c1_i32_148
  let v155 : BitVec 32 := Scalar.addi c0_i32_149 v154
  v155.toNat
def k0_dev19 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let v163 : BitVec 32 := Scalar.xori v2 c1_i32_153
  let c1_i32_160 : BitVec 32 := 1#32
  let v166 : BitVec 32 := Scalar.muli v163 c1_i32_160
  let v167 : BitVec 32 := Scalar.addi c0_i32_161 v166
  v167.toNat
def k0_dev20 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_165 : BitVec 32 := 3#32
  let v175 : BitVec 32 := Scalar.xori v2 c3_i32_165
  let c1_i32_171 : BitVec 32 := 1#32
  let v178 : BitVec 32 := Scalar.muli v175 c1_i32_171
  let v179 : BitVec 32 := Scalar.addi c0_i32_172 v178
  v179.toNat
def k0_dev21 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_176 : BitVec 32 := 4#32
  let v187 : BitVec 32 := Scalar.xori v2 c4_i32_176
  let c1_i32_182 : BitVec 32 := 1#32
  let v190 : BitVec 32 := Scalar.muli v187 c1_i32_182
  let v191 : BitVec 32 := Scalar.addi c0_i32_183 v190
  v191.toNat
def k0_off2 (d0 : Dev nD) (c0_i32_188 : BitVec 32) : Fin 3 → Nat :=
  let c0_189 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_187 : BitVec 32 := 64#32
  let v199 : BitVec 32 := Scalar.muli v2 c64_i32_187
  let v200 : BitVec 32 := Scalar.addi v199 c0_i32_188
  let v201 : Index := Scalar.indexCast v200
  let c0_190 : Index := 0#32
  ![0, v201.toNat, 0]
def k0_off3 (d0 : Dev nD) (c0_i32_277 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_276 : BitVec 32 := 64#32
  let v281 : BitVec 32 := Scalar.muli v2 c64_i32_276
  let v282 : BitVec 32 := Scalar.addi v281 c0_i32_277
  let v283 : Index := Scalar.indexCast v282
  let c0_278 : Index := 0#32
  ![v283.toNat, 0]
def k0_dev22 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_281 : BitVec 32 := 6#32
  let v289 : BitVec 32 := Scalar.xori v2 c6_i32_281
  let c1_i32_286 : BitVec 32 := 1#32
  let v290 : BitVec 32 := Scalar.muli v289 c1_i32_286
  let v291 : BitVec 32 := Scalar.addi c0_i32_287 v290
  v291.toNat
def k0_dev23 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_292 : BitVec 32 := 2#32
  let v299 : BitVec 32 := Scalar.xori v2 c2_i32_292
  let c1_i32_297 : BitVec 32 := 1#32
  let v300 : BitVec 32 := Scalar.muli v299 c1_i32_297
  let v301 : BitVec 32 := Scalar.addi c0_i32_298 v300
  v301.toNat
def k0_dev24 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_303 : BitVec 32 := 5#32
  let v309 : BitVec 32 := Scalar.xori v2 c5_i32_303
  let c1_i32_308 : BitVec 32 := 1#32
  let v310 : BitVec 32 := Scalar.muli v309 c1_i32_308
  let v311 : BitVec 32 := Scalar.addi c0_i32_309 v310
  v311.toNat
def k0_dev25 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_314 : BitVec 32 := 7#32
  let v319 : BitVec 32 := Scalar.xori v2 c7_i32_314
  let c1_i32_319 : BitVec 32 := 1#32
  let v320 : BitVec 32 := Scalar.muli v319 c1_i32_319
  let v321 : BitVec 32 := Scalar.addi c0_i32_320 v320
  v321.toNat
def k0_dev26 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_325 : BitVec 32 := 1#32
  let v329 : BitVec 32 := Scalar.xori v2 c1_i32_325
  let c1_i32_330 : BitVec 32 := 1#32
  let v330 : BitVec 32 := Scalar.muli v329 c1_i32_330
  let v331 : BitVec 32 := Scalar.addi c0_i32_331 v330
  v331.toNat
def k0_dev27 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v339 : BitVec 32 := Scalar.xori v2 c3_i32_336
  let c1_i32_341 : BitVec 32 := 1#32
  let v340 : BitVec 32 := Scalar.muli v339 c1_i32_341
  let v341 : BitVec 32 := Scalar.addi c0_i32_342 v340
  v341.toNat
def k0_dev28 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_347 : BitVec 32 := 4#32
  let v349 : BitVec 32 := Scalar.xori v2 c4_i32_347
  let c1_i32_352 : BitVec 32 := 1#32
  let v350 : BitVec 32 := Scalar.muli v349 c1_i32_352
  let v351 : BitVec 32 := Scalar.addi c0_i32_353 v350
  v351.toNat
def k0_dev29 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_457 : BitVec 32 := 6#32
  let v449 : BitVec 32 := Scalar.xori v2 c6_i32_457
  let c1_i32_462 : BitVec 32 := 1#32
  let v450 : BitVec 32 := Scalar.muli v449 c1_i32_462
  let v451 : BitVec 32 := Scalar.addi c0_i32_463 v450
  v451.toNat
def k0_dev30 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_468 : BitVec 32 := 2#32
  let v459 : BitVec 32 := Scalar.xori v2 c2_i32_468
  let c1_i32_473 : BitVec 32 := 1#32
  let v460 : BitVec 32 := Scalar.muli v459 c1_i32_473
  let v461 : BitVec 32 := Scalar.addi c0_i32_474 v460
  v461.toNat
def k0_dev31 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_479 : BitVec 32 := 5#32
  let v469 : BitVec 32 := Scalar.xori v2 c5_i32_479
  let c1_i32_484 : BitVec 32 := 1#32
  let v470 : BitVec 32 := Scalar.muli v469 c1_i32_484
  let v471 : BitVec 32 := Scalar.addi c0_i32_485 v470
  v471.toNat
def k0_dev32 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_490 : BitVec 32 := 7#32
  let v479 : BitVec 32 := Scalar.xori v2 c7_i32_490
  let c1_i32_495 : BitVec 32 := 1#32
  let v480 : BitVec 32 := Scalar.muli v479 c1_i32_495
  let v481 : BitVec 32 := Scalar.addi c0_i32_496 v480
  v481.toNat
def k0_dev33 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  let v489 : BitVec 32 := Scalar.xori v2 c1_i32_501
  let c1_i32_506 : BitVec 32 := 1#32
  let v490 : BitVec 32 := Scalar.muli v489 c1_i32_506
  let v491 : BitVec 32 := Scalar.addi c0_i32_507 v490
  v491.toNat
def k0_dev34 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_512 : BitVec 32 := 3#32
  let v499 : BitVec 32 := Scalar.xori v2 c3_i32_512
  let c1_i32_517 : BitVec 32 := 1#32
  let v500 : BitVec 32 := Scalar.muli v499 c1_i32_517
  let v501 : BitVec 32 := Scalar.addi c0_i32_518 v500
  v501.toNat
def k0_dev35 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_523 : BitVec 32 := 4#32
  let v509 : BitVec 32 := Scalar.xori v2 c4_i32_523
  let c1_i32_528 : BitVec 32 := 1#32
  let v510 : BitVec 32 := Scalar.muli v509 c1_i32_528
  let v511 : BitVec 32 := Scalar.addi c0_i32_529 v510
  v511.toNat
def k0_off4 (d0 : Dev nD) (c6_i32_534 : BitVec 32) (c0_i32_550 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v519 : BitVec 32 := Scalar.xori v2 c6_i32_534
  let c64_i32_549 : BitVec 32 := 64#32
  let v530 : BitVec 32 := Scalar.muli v519 c64_i32_549
  let v531 : BitVec 32 := Scalar.addi v530 c0_i32_550
  let v532 : Index := Scalar.indexCast v531
  let c0_551 : Index := 0#32
  ![v532.toNat, 0]
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  hamt_1 : (1#32 : BitVec 32).msb = false
  hamt_7 : (7#32 : BitVec 32).msb = false
  inb_S14_S1_5 : ∀ a, (![5] : Fin 1 → Nat) a + S1.size a ≤ S14.size a
  squeezes_S1_S_ : S1.Squeezes S_
  inb_S2x7x32x512_S1x1x32x512_0_5_0_0 : ∀ a, (![0, 5, 0, 0] : Fin 4 → Nat) a + S1x1x32x512.size a ≤ S2x7x32x512.size a
  squeezes_S1x1x32x512_S32x512 : S1x1x32x512.Squeezes S32x512
  wordsbf16_S2x7x32x512_S1x1x32x512_0_5_0_0 : (Rect.unit (s := S2x7x32x512) ![0, 5, 0, 0] S1x1x32x512.size inb_S2x7x32x512_S1x1x32x512_0_5_0_0).WholeWords (EltTy.packing .bf16)
  inb_S14_S1_1 : ∀ a, (![1] : Fin 1 → Nat) a + S1.size a ≤ S14.size a
  inb_S2x7x32x512_S1x1x32x512_0_1_0_0 : ∀ a, (![0, 1, 0, 0] : Fin 4 → Nat) a + S1x1x32x512.size a ≤ S2x7x32x512.size a
  wordsbf16_S2x7x32x512_S1x1x32x512_0_1_0_0 : (Rect.unit (s := S2x7x32x512) ![0, 1, 0, 0] S1x1x32x512.size inb_S2x7x32x512_S1x1x32x512_0_1_0_0).WholeWords (EltTy.packing .bf16)
  inb_S14_S1_4 : ∀ a, (![4] : Fin 1 → Nat) a + S1.size a ≤ S14.size a
  inb_S2x7x32x512_S1x1x32x512_0_4_0_0 : ∀ a, (![0, 4, 0, 0] : Fin 4 → Nat) a + S1x1x32x512.size a ≤ S2x7x32x512.size a
  wordsbf16_S2x7x32x512_S1x1x32x512_0_4_0_0 : (Rect.unit (s := S2x7x32x512) ![0, 4, 0, 0] S1x1x32x512.size inb_S2x7x32x512_S1x1x32x512_0_4_0_0).WholeWords (EltTy.packing .bf16)
  inb_S14_S1_6 : ∀ a, (![6] : Fin 1 → Nat) a + S1.size a ≤ S14.size a
  inb_S2x7x32x512_S1x1x32x512_0_6_0_0 : ∀ a, (![0, 6, 0, 0] : Fin 4 → Nat) a + S1x1x32x512.size a ≤ S2x7x32x512.size a
  wordsbf16_S2x7x32x512_S1x1x32x512_0_6_0_0 : (Rect.unit (s := S2x7x32x512) ![0, 6, 0, 0] S1x1x32x512.size inb_S2x7x32x512_S1x1x32x512_0_6_0_0).WholeWords (EltTy.packing .bf16)
  inb_S14_S1_0 : ∀ a, (![0] : Fin 1 → Nat) a + S1.size a ≤ S14.size a
  inb_S2x7x32x512_S1x1x32x512_0_0_0_0 : ∀ a, (![0, 0, 0, 0] : Fin 4 → Nat) a + S1x1x32x512.size a ≤ S2x7x32x512.size a
  wordsbf16_S2x7x32x512_S1x1x32x512_0_0_0_0 : (Rect.unit (s := S2x7x32x512) ![0, 0, 0, 0] S1x1x32x512.size inb_S2x7x32x512_S1x1x32x512_0_0_0_0).WholeWords (EltTy.packing .bf16)
  inb_S14_S1_2 : ∀ a, (![2] : Fin 1 → Nat) a + S1.size a ≤ S14.size a
  inb_S2x7x32x512_S1x1x32x512_0_2_0_0 : ∀ a, (![0, 2, 0, 0] : Fin 4 → Nat) a + S1x1x32x512.size a ≤ S2x7x32x512.size a
  wordsbf16_S2x7x32x512_S1x1x32x512_0_2_0_0 : (Rect.unit (s := S2x7x32x512) ![0, 2, 0, 0] S1x1x32x512.size inb_S2x7x32x512_S1x1x32x512_0_2_0_0).WholeWords (EltTy.packing .bf16)
  inb_S14_S1_3 : ∀ a, (![3] : Fin 1 → Nat) a + S1.size a ≤ S14.size a
  inb_S2x7x32x512_S1x1x32x512_0_3_0_0 : ∀ a, (![0, 3, 0, 0] : Fin 4 → Nat) a + S1x1x32x512.size a ≤ S2x7x32x512.size a
  wordsbf16_S2x7x32x512_S1x1x32x512_0_3_0_0 : (Rect.unit (s := S2x7x32x512) ![0, 3, 0, 0] S1x1x32x512.size inb_S2x7x32x512_S1x1x32x512_0_3_0_0).WholeWords (EltTy.packing .bf16)
  inb_S14_S1_12 : ∀ a, (![12] : Fin 1 → Nat) a + S1.size a ≤ S14.size a
  inb_S2x7x32x512_S1x1x32x512_1_5_0_0 : ∀ a, (![1, 5, 0, 0] : Fin 4 → Nat) a + S1x1x32x512.size a ≤ S2x7x32x512.size a
  wordsbf16_S2x7x32x512_S1x1x32x512_1_5_0_0 : (Rect.unit (s := S2x7x32x512) ![1, 5, 0, 0] S1x1x32x512.size inb_S2x7x32x512_S1x1x32x512_1_5_0_0).WholeWords (EltTy.packing .bf16)
  inb_S14_S1_8 : ∀ a, (![8] : Fin 1 → Nat) a + S1.size a ≤ S14.size a
  inb_S2x7x32x512_S1x1x32x512_1_1_0_0 : ∀ a, (![1, 1, 0, 0] : Fin 4 → Nat) a + S1x1x32x512.size a ≤ S2x7x32x512.size a
  wordsbf16_S2x7x32x512_S1x1x32x512_1_1_0_0 : (Rect.unit (s := S2x7x32x512) ![1, 1, 0, 0] S1x1x32x512.size inb_S2x7x32x512_S1x1x32x512_1_1_0_0).WholeWords (EltTy.packing .bf16)
  inb_S14_S1_11 : ∀ a, (![11] : Fin 1 → Nat) a + S1.size a ≤ S14.size a
  inb_S2x7x32x512_S1x1x32x512_1_4_0_0 : ∀ a, (![1, 4, 0, 0] : Fin 4 → Nat) a + S1x1x32x512.size a ≤ S2x7x32x512.size a
  wordsbf16_S2x7x32x512_S1x1x32x512_1_4_0_0 : (Rect.unit (s := S2x7x32x512) ![1, 4, 0, 0] S1x1x32x512.size inb_S2x7x32x512_S1x1x32x512_1_4_0_0).WholeWords (EltTy.packing .bf16)
  inb_S14_S1_13 : ∀ a, (![13] : Fin 1 → Nat) a + S1.size a ≤ S14.size a
  inb_S2x7x32x512_S1x1x32x512_1_6_0_0 : ∀ a, (![1, 6, 0, 0] : Fin 4 → Nat) a + S1x1x32x512.size a ≤ S2x7x32x512.size a
  wordsbf16_S2x7x32x512_S1x1x32x512_1_6_0_0 : (Rect.unit (s := S2x7x32x512) ![1, 6, 0, 0] S1x1x32x512.size inb_S2x7x32x512_S1x1x32x512_1_6_0_0).WholeWords (EltTy.packing .bf16)
  inb_S14_S1_7 : ∀ a, (![7] : Fin 1 → Nat) a + S1.size a ≤ S14.size a
  inb_S2x7x32x512_S1x1x32x512_1_0_0_0 : ∀ a, (![1, 0, 0, 0] : Fin 4 → Nat) a + S1x1x32x512.size a ≤ S2x7x32x512.size a
  wordsbf16_S2x7x32x512_S1x1x32x512_1_0_0_0 : (Rect.unit (s := S2x7x32x512) ![1, 0, 0, 0] S1x1x32x512.size inb_S2x7x32x512_S1x1x32x512_1_0_0_0).WholeWords (EltTy.packing .bf16)
  inb_S14_S1_9 : ∀ a, (![9] : Fin 1 → Nat) a + S1.size a ≤ S14.size a
  inb_S2x7x32x512_S1x1x32x512_1_2_0_0 : ∀ a, (![1, 2, 0, 0] : Fin 4 → Nat) a + S1x1x32x512.size a ≤ S2x7x32x512.size a
  wordsbf16_S2x7x32x512_S1x1x32x512_1_2_0_0 : (Rect.unit (s := S2x7x32x512) ![1, 2, 0, 0] S1x1x32x512.size inb_S2x7x32x512_S1x1x32x512_1_2_0_0).WholeWords (EltTy.packing .bf16)
  inb_S14_S1_10 : ∀ a, (![10] : Fin 1 → Nat) a + S1.size a ≤ S14.size a
  inb_S2x7x32x512_S1x1x32x512_1_3_0_0 : ∀ a, (![1, 3, 0, 0] : Fin 4 → Nat) a + S1x1x32x512.size a ≤ S2x7x32x512.size a
  wordsbf16_S2x7x32x512_S1x1x32x512_1_3_0_0 : (Rect.unit (s := S2x7x32x512) ![1, 3, 0, 0] S1x1x32x512.size inb_S2x7x32x512_S1x1x32x512_1_3_0_0).WholeWords (EltTy.packing .bf16)
  h_S1x32x512 : 0 < S1x32x512.numel
  shapeCasts_S1x32x512_S32x512 : S1x32x512.ShapeCasts S32x512
  h_S1x1x32x512 : 0 < S1x1x32x512.numel
  shapeCasts_S1x1x32x512_S32x512 : S1x1x32x512.ShapeCasts S32x512
  h_S32x512 : 0 < S32x512.numel
  inb_S64x512_S32x512_0_0 : ∀ a, (![0, 0] : Fin 2 → Nat) a + S32x512.size a ≤ S64x512.size a
  shapeCasts_S32x512_S32x512 : S32x512.ShapeCasts S32x512
  packedbf16_S64x512_S32x512_0_0 : (Rect.unit (s := S64x512) ![0, 0] S32x512.size inb_S64x512_S32x512_0_0).PackedRows (EltTy.packing .bf16)
  wordsbf16_S64x512_S32x512_0_0 : (Rect.unit (s := S64x512) ![0, 0] S32x512.size inb_S64x512_S32x512_0_0).WholeWords (EltTy.packing .bf16)
  inb_S64x512_S32x512_32_0 : ∀ a, (![32, 0] : Fin 2 → Nat) a + S32x512.size a ≤ S64x512.size a
  packedbf16_S64x512_S32x512_32_0 : (Rect.unit (s := S64x512) ![32, 0] S32x512.size inb_S64x512_S32x512_32_0).PackedRows (EltTy.packing .bf16)
  wordsbf16_S64x512_S32x512_32_0 : (Rect.unit (s := S64x512) ![32, 0] S32x512.size inb_S64x512_S32x512_32_0).WholeWords (EltTy.packing .bf16)
  hcc0_scratch4 : 2 + S14.numel ≤ 58
  hcc0_scratch5 : 16 + S14.numel ≤ 58
  hcc0_scratch6 : 30 + S14.numel ≤ 58
  hcc0_scratch7 : 44 + S14.numel ≤ 58
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r₁ : Fin 7) (r₂ : Fin 2), ∀ a, (k0_off1 d0 (BitVec.ofNat 32 (1 + r₁.val)) (BitVec.ofNat 32 (32 * r₂.val))) a + S32x512.size a ≤ S512x512.size a
  k0_off1_wordsbf16 : ∀ d0 : Dev nD, ∀ (r₁ : Fin 7) (r₂ : Fin 2), (Rect.unit (s := S512x512) (k0_off1 d0 (BitVec.ofNat 32 (1 + r₁.val)) (BitVec.ofNat 32 (32 * r₂.val))) S32x512.size (k0_off1_inb d0 r₁ r₂)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off2_inb : ∀ d0 : Dev nD, ∀ (r : Fin 2), ∀ a, (k0_off2 d0 (BitVec.ofNat 32 (32 * r.val))) a + S1x32x512.size a ≤ S1x512x512.size a
  k0_off3_inb : ∀ d0 : Dev nD, ∀ (r : Fin 2), ∀ a, (k0_off3 d0 (BitVec.ofNat 32 (32 * r.val))) a + S32x512.size a ≤ S512x512.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off4_inb : ∀ d0 : Dev nD, ∀ (r₁ : Fin 7) (r₂ : Fin 2), ∀ a, (k0_off4 d0 (BitVec.ofNat 32 (1 + r₁.val)) (BitVec.ofNat 32 (32 * r₂.val))) a + S32x512.size a ≤ S512x512.size a
  hstage0_0 : ∀ j, (stage0_0 j).IsWhole
  hstage0_1 : ∀ j, (stage0_1 j).IsWhole

variable [Facts₀]

abbrev cc0_scratch4 : DmaSems sig S14 := SemArray.consecutive 2 S14 hcc0_scratch4
abbrev cc0_scratch5 : DmaSems sig S14 := SemArray.consecutive 16 S14 hcc0_scratch5
abbrev cc0_scratch6 : DmaSems sig S14 := SemArray.consecutive 30 S14 hcc0_scratch6
abbrev cc0_scratch7 : DmaSems sig S14 := SemArray.consecutive 44 S14 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S_ : Shape := ⟨0, ![]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S_, .f32⟩
  | .hbm, ⟨2, _⟩ => ⟨S512x512, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S8x512x512_S512x512_d0 : S8x512x512.ReducesTo [0] S512x512
  h_S_ : 0 < S_.numel

variable [Facts₀]

class Facts : Prop extends Facts₀ where

variable [Facts]
-- ==== Proof.ProtoKernel.lean ====
import proofs.«900485_g7700000000000486_dist_treered_v7x_i8_m512_n512_f32_1_alg».proof.Proof.Gen.Kernel
import proofs.«900485_g7700000000000486_dist_treered_v7x_i8_m512_n512_f32_1_alg».proof.Proof.Gen.Kernel.Skeleton
import proofs.«900485_g7700000000000486_dist_treered_v7x_i8_m512_n512_f32_1_alg».proof.Proof.Gen.Kernel.Launch
import proofs.«900485_g7700000000000486_dist_treered_v7x_i8_m512_n512_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The partner of a device under mask `j + 1`, and the printed device chains -/

/-- Device `c`'s partner under the exclusive-or mask `j + 1`. -/
def peer (j : Fin 7) (c : Dev nD) : Dev nD := ⟨c.val ^^^ (j.val + 1), by revert c j; decide⟩

theorem peer_peer (j : Fin 7) (c : Dev nD) : peer j (peer j c) = c := by revert c j; decide
theorem peer_ne (j : Fin 7) (c : Dev nD) : peer j c ≠ c := by revert c j; decide
theorem peer_inj (j j' : Fin 7) (c : Dev nD) (h : peer j c = peer j' c) : j = j' := by revert c j j'; decide
theorem peer_surj (c q : Dev nD) (h : q ≠ c) : ∃ j : Fin 7, peer j c = q := by revert c q; decide

theorem dev1_eq (c : Dev nD) : (⟨k0_dev1 c, k0_dev1_lt c⟩ : Dev nD) = peer 5 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 4 c := by revert c; decide +kernel
theorem dev4_eq (c : Dev nD) : (⟨k0_dev4 c, k0_dev4_lt c⟩ : Dev nD) = peer 6 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 3 c := by revert c; decide +kernel
theorem dev8_eq (c : Dev nD) : (⟨k0_dev8 c, k0_dev8_lt c⟩ : Dev nD) = peer 5 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 4 c := by revert c; decide +kernel
theorem dev11_eq (c : Dev nD) : (⟨k0_dev11 c, k0_dev11_lt c⟩ : Dev nD) = peer 6 c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 3 c := by revert c; decide +kernel
theorem dev15_eq (c : Dev nD) : (⟨k0_dev15 c, k0_dev15_lt c⟩ : Dev nD) = peer 5 c := by revert c; decide +kernel
theorem dev16_eq (c : Dev nD) : (⟨k0_dev16 c, k0_dev16_lt c⟩ : Dev nD) = peer 1 c := by revert c; decide +kernel
theorem dev17_eq (c : Dev nD) : (⟨k0_dev17 c, k0_dev17_lt c⟩ : Dev nD) = peer 4 c := by revert c; decide +kernel
theorem dev18_eq (c : Dev nD) : (⟨k0_dev18 c, k0_dev18_lt c⟩ : Dev nD) = peer 6 c := by revert c; decide +kernel
theorem dev19_eq (c : Dev nD) : (⟨k0_dev19 c, k0_dev19_lt c⟩ : Dev nD) = peer 0 c := by revert c; decide +kernel
theorem dev20_eq (c : Dev nD) : (⟨k0_dev20 c, k0_dev20_lt c⟩ : Dev nD) = peer 2 c := by revert c; decide +kernel
theorem dev21_eq (c : Dev nD) : (⟨k0_dev21 c, k0_dev21_lt c⟩ : Dev nD) = peer 3 c := by revert c; decide +kernel
theorem dev22_eq (c : Dev nD) : (⟨k0_dev22 c, k0_dev22_lt c⟩ : Dev nD) = peer 5 c := by revert c; decide +kernel
theorem dev23_eq (c : Dev nD) : (⟨k0_dev23 c, k0_dev23_lt c⟩ : Dev nD) = peer 1 c := by revert c; decide +kernel
theorem dev24_eq (c : Dev nD) : (⟨k0_dev24 c, k0_dev24_lt c⟩ : Dev nD) = peer 4 c := by revert c; decide +kernel
theorem dev25_eq (c : Dev nD) : (⟨k0_dev25 c, k0_dev25_lt c⟩ : Dev nD) = peer 6 c := by revert c; decide +kernel
theorem dev26_eq (c : Dev nD) : (⟨k0_dev26 c, k0_dev26_lt c⟩ : Dev nD) = peer 0 c := by revert c; decide +kernel
theorem dev27_eq (c : Dev nD) : (⟨k0_dev27 c, k0_dev27_lt c⟩ : Dev nD) = peer 2 c := by revert c; decide +kernel
theorem dev28_eq (c : Dev nD) : (⟨k0_dev28 c, k0_dev28_lt c⟩ : Dev nD) = peer 3 c := by revert c; decide +kernel
theorem dev29_eq (c : Dev nD) : (⟨k0_dev29 c, k0_dev29_lt c⟩ : Dev nD) = peer 5 c := by revert c; decide +kernel
theorem dev30_eq (c : Dev nD) : (⟨k0_dev30 c, k0_dev30_lt c⟩ : Dev nD) = peer 1 c := by revert c; decide +kernel
theorem dev31_eq (c : Dev nD) : (⟨k0_dev31 c, k0_dev31_lt c⟩ : Dev nD) = peer 4 c := by revert c; decide +kernel
theorem dev32_eq (c : Dev nD) : (⟨k0_dev32 c, k0_dev32_lt c⟩ : Dev nD) = peer 6 c := by revert c; decide +kernel
theorem dev33_eq (c : Dev nD) : (⟨k0_dev33 c, k0_dev33_lt c⟩ : Dev nD) = peer 0 c := by revert c; decide +kernel
theorem dev34_eq (c : Dev nD) : (⟨k0_dev34 c, k0_dev34_lt c⟩ : Dev nD) = peer 2 c := by revert c; decide +kernel
theorem dev35_eq (c : Dev nD) : (⟨k0_dev35 c, k0_dev35_lt c⟩ : Dev nD) = peer 3 c := by revert c; decide +kernel

theorem off1_eq : ∀ d0 : Dev nD, ∀ (r₁ : Fin 7) (r₂ : Fin 2), k0_off1 d0 (BitVec.ofNat 32 (1 + r₁.val)) (BitVec.ofNat 32 (32 * r₂.val)) = ![64 * (peer r₁ d0).val + 32 * r₂.val, 0] := by decide +kernel
theorem off4_eq : ∀ d0 : Dev nD, ∀ (r₁ : Fin 7) (r₂ : Fin 2), k0_off4 d0 (BitVec.ofNat 32 (1 + r₁.val)) (BitVec.ofNat 32 (32 * r₂.val)) = ![64 * (peer r₁ d0).val + 32 * r₂.val, 0] := by decide +kernel

/-! ## The resource algebra: the pipeline library's copy beside the rounds library's, duties named by masks -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, slots and cells -/

abbrev xM : Memref sig .tc .vmem S1x512x512 .f32 := Memref.whole cc0_stg0_0
abbrev oM : Memref sig .tc .vmem S512x512 .f32 := Memref.whole cc0_stg1_0
abbrev hM : Memref sig .tc .vmem S512x512 .bf16 := Memref.whole cc0_scratch0
abbrev gM : Memref sig .tc .vmem S64x512 .bf16 := Memref.whole cc0_scratch1
abbrev rM : Memref sig .tc .vmem S2x7x32x512 .bf16 := Memref.whole cc0_scratch2
abbrev aM : Memref sig .tc .vmem S2x7x32x512 .bf16 := Memref.whole cc0_scratch3

theorem slot_inb (sb : Fin 2) (j : Fin 7) : ∀ a, (![sb.val, j.val, 0, 0] : Fin 4 → Nat) a + S1x1x32x512.size a ≤ S2x7x32x512.size a := by
  revert sb j; decide
theorem half_inb (sb : Fin 2) : ∀ a, (![32 * sb.val, 0] : Fin 2 → Nat) a + S32x512.size a ≤ S64x512.size a := by
  revert sb; decide

/-- Slot `(sb, j)` of a receive buffer: 32 rows of 512, as the transfers and the loads name it. -/
abbrev slotR (sb : Fin 2) (j : Fin 7) : Rect S2x7x32x512 := Rect.unit (s := S2x7x32x512) ![sb.val, j.val, 0, 0] S1x1x32x512.size (slot_inb sb j)
abbrev slotM (M : Memref sig .tc .vmem S2x7x32x512 .bf16) (sb : Fin 2) (j : Fin 7) : Memref sig .tc .vmem S32x512 .bf16 :=
  (M.slice (slotR sb j) (fun _ => rfl)).squeeze S32x512 squeezes_S1x1x32x512_S32x512
/-- The 32 rows of the 16-bit copy of the block that go to the partner under mask `j + 1`, half `sb`. -/
abbrev hSl (c : Dev nD) (j : Fin 7) (sb : Fin 2) : Memref sig .tc .vmem S32x512 .bf16 :=
  hM.slice (Rect.unit (s := S512x512) (k0_off1 c (BitVec.ofNat 32 (1 + j.val)) (BitVec.ofNat 32 (32 * sb.val))) S32x512.size (k0_off1_inb c j sb)) (fun _ => rfl)
/-- Half `sb` of the reduced segment's 16-bit copy. -/
abbrev gRect (sb : Fin 2) : Rect S64x512 := Rect.unit (s := S64x512) ![32 * sb.val, 0] S32x512.size (half_inb sb)
abbrev gSl (sb : Fin 2) : Memref sig .tc .vmem S32x512 .bf16 := gM.slice (gRect sb) (fun _ => rfl)

abbrev barS : Sem sig := (SemArray.scalar (sig.barrier 0 rfl) : Sems sig S_).sem

/-- DMA semaphore `i` of the kernel's `k`-th semaphore array (0: first-phase send, 1: first-phase receive,
    2: second-phase send, 3: second-phase receive). -/
def dsem (k : Fin 4) (i : Fin 14) : DmaSem sig := ⟨2 + 14 * k.val + i.val, by have := k.isLt; have := i.isLt; show _ < 58; omega⟩

abbrev barCell (c : Dev nD) : GSem nD τ sig := ((c : Thread nD τ), .reg barS)
abbrev dCell (c : Dev nD) (k : Fin 4) (i : Fin 14) : GSem nD τ sig := ((c : Thread nD τ), .dma (dsem k i))

def decode (s : DmaSem sig) : Option (Fin 4 × Fin 14) :=
  if h : 2 ≤ s.val then some (⟨(s.val - 2) / 14, by have : s.val < 58 := s.isLt; omega⟩, ⟨(s.val - 2) % 14, Nat.mod_lt _ (by decide)⟩) else none
theorem decode_dsem (k : Fin 4) (i : Fin 14) : decode (dsem k i) = some (k, i) := by revert k i; decide
theorem dsem_inj : ∀ k k' i i', dsem k i = dsem k' i' → k = k' ∧ i = i' := by decide

def sbOf (i : Fin 14) : Fin 2 := ⟨i.val / 7, by have := i.isLt; omega⟩
def jOf (i : Fin 14) : Fin 7 := ⟨i.val % 7, Nat.mod_lt _ (by decide)⟩

abbrev N32 : ℕ := (slotM rM 0 0 : Memref sig .tc .vmem S32x512 .bf16).view.dmaCredit
theorem N32_pos : 0 < N32 := View.dmaCredit_pos _ (by decide)

/-! ## Contents

Everything a buffer holds during the run is a function of the argument blocks at launch: the block `x` of a device,
its 16-bit copy, the rows each partner sends (first phase), the sum of the eight devices' rows of one segment, its 16-bit
copy (second phase). -/

/-- Device `c`'s block of the argument, as its staging buffer holds it. -/
def Xb (c : Dev nD) : (cc0_stg0_0 : Ref sig .tc).ty.Contents (Elt F) :=
  (win0_0.blk (0 : Fin 1)).view.read (Elt F) ((s₀ m ρ).mem ((c : Thread nD τ).loc main_arg0))

abbrev xRect : Rect S1x512x512 := Rect.unit (s := S1x512x512) ![0, 0, 0] S1x512x512.size inb_S1x512x512_S1x512x512_0_0_0
abbrev hRect : Rect S512x512 := Rect.unit (s := S512x512) ![0, 0] S512x512.size inb_S512x512_S512x512_0_0
abbrev xRows (c : Dev nD) (sb : Fin 2) : Rect S1x512x512 :=
  Rect.unit (s := S1x512x512) (k0_off2 c (BitVec.ofNat 32 (32 * sb.val))) S1x32x512.size (k0_off2_inb c sb)

/-- The block's 16-bit copy. -/
def X16 (c : Dev nD) : (cc0_scratch0 : Ref sig .tc).ty.Contents (Elt F) :=
  k0_pay1 (xM.view.readAt (Elt F) xRect.toLoadRect (Xb m ρ c))

/-- What lands in device `c`'s first-phase slot `(sb, j)`: the rows of segment `c`, half `sb`, of the 16-bit copy of
    the partner's block. -/
def wRS (c : Dev nD) (sb : Fin 2) (j : Fin 7) : FVec F S32x512 .bf16 :=
  (hSl (peer j c) j sb).view.read (Elt F) (X16 m ρ (peer j c))

/-- One accumulation: the running sum plus a received 16-bit block widened. -/
def accStep (a : FVec F S32x512 .f32) (w : FVec F S32x512 .bf16) : FVec F S32x512 .f32 := addf a (extf .f32 w bitsLt_bf16_f32)

/-- The sum over the eight devices of rows `64 c + 32 sb …` of their blocks, in the kernel's order of addition. -/
def acc (c : Dev nD) (sb : Fin 2) : FVec F S32x512 .f32 :=
  accStep (accStep (accStep (accStep (accStep (accStep (accStep
    (shapeCast S32x512 (xM.view.readAt (Elt F) (xRows c sb).toLoadRect (Xb m ρ c)) shapeCasts_S1x32x512_S32x512)
    (wRS m ρ c sb 5)) (wRS m ρ c sb 1)) (wRS m ρ c sb 4)) (wRS m ρ c sb 6)) (wRS m ρ c sb 0)) (wRS m ρ c sb 2)) (wRS m ρ c sb 3)

/-- Its 16-bit copy. -/
def wG (c : Dev nD) (sb : Fin 2) : FVec F S32x512 .bf16 :=
  shapeCast S32x512 (truncf .bf16 (acc m ρ c sb) bitsLt_bf16_f32) shapeCasts_S32x512_S32x512

instance eltNonempty (e : EltTy) : Nonempty (Elt F e) := inferInstance

/-- The segment buffer with half `sb` holding the reduced segment's 16-bit copy (the other half irrelevant). -/
def G16 (c : Dev nD) (sb : Fin 2) : (cc0_scratch1 : Ref sig .tc).ty.Contents (Elt F) :=
  (gM.access (gRect sb)).write (Elt F) (fun _ => Classical.choice inferInstance) (wG m ρ c sb) Finset.univ

/-- What lands in device `c`'s second-phase slot `(sb, j)`: half `sb` of the partner's reduced segment. -/
def wAG (c : Dev nD) (sb : Fin 2) (j : Fin 7) : FVec F S32x512 .bf16 :=
  (gSl sb).view.read (Elt F) (G16 m ρ (peer j c) sb)

omit [FloatOps F] in
theorem slot_read (M : Memref sig .tc .vmem S2x7x32x512 .bf16) (sb : Fin 2) (j : Fin 7) (fd : BufTy.Contents (Elt F) M.view.ty) (w : FVec F S32x512 .bf16) :
    shapeCast S32x512 (M.view.readAt (Elt F) (slotR sb j).toLoadRect ((slotM M sb j).view.write (Elt F) fd w Finset.univ)) shapeCasts_S1x1x32x512_S32x512 = w := by
  rw [← Memref.read_squeeze_slice M (slotR sb j) (fun _ => rfl) squeezes_S1x1x32x512_S32x512 shapeCasts_S1x1x32x512_S32x512]
  exact View.read_write_univ _ _

theorem wAG_eq (c : Dev nD) (sb : Fin 2) (j : Fin 7) : wAG m ρ c sb j = wG m ρ (peer j c) sb := by
  unfold wAG G16; exact View.read_write_univ _ _

/-! ## The schedule

One round. A device's barrier cell has seven duties of one unit, duty `j` paid by its partner under mask `j + 1` and
handing over that partner's four receive slots `(·, j)` (what this device's transfers to it write). Each DMA cell has one
duty of a 32×512 block's credit: a send cell's returns the source rows lent to the transfer, a receive cell's hands the
owner its slot holding what the partner sent. -/

abbrev slotPts (M : Memref sig .tc .vmem S2x7x32x512 .bf16) (q : Dev nD) (sb : Fin 2) (j : Fin 7)
    (f : Buf (Elt F) ((slotM M sb j).view.loc (q : Thread nD τ))) : sProp 𝕄 :=
  (slotM M sb j).view.loc (q : Thread nD τ) ↦[(slotM M sb j).view.set]{fullShare} f

def barPay (c : Dev nD) (j : Fin 7) : sProp 𝕄 :=
  iprop((∃ f, slotPts rM (peer j c) 0 j f) ∗ (∃ f, slotPts rM (peer j c) 1 j f)
    ∗ (∃ f, slotPts aM (peer j c) 0 j f) ∗ (∃ f, slotPts aM (peer j c) 1 j f))

/-- The share of the segment buffer's half still held before the `n`-th of its seven transfers; each lends the left half of it. -/
def shr : ℕ → PosShare TreeShare
  | 0 => fullShare
  | n + 1 => (shr n).right
/-- The position of mask `j + 1` in the kernel's order of masks (6, 2, 5, 7, 1, 3, 4). -/
def posOf (j : Fin 7) : ℕ := if j = 5 then 0 else if j = 1 then 1 else if j = 4 then 2 else if j = 6 then 3 else if j = 0 then 4 else if j = 2 then 5 else 6

def payD (c : Dev nD) (k : Fin 4) (i : Fin 14) : sProp 𝕄 :=
  if k = 0 then ((hSl c (jOf i) (sbOf i)).view.loc (c : Thread nD τ) ↦[(hSl c (jOf i) (sbOf i)).view.set]{fullShare} X16 m ρ c)
  else if k = 1 then iprop(∃ fd, slotPts rM c (sbOf i) (jOf i) ((slotM rM (sbOf i) (jOf i)).view.write (Elt F) fd (wRS m ρ c (sbOf i) (jOf i)) Finset.univ))
  else if k = 2 then ((gSl (sbOf i)).view.loc (c : Thread nD τ) ↦[(gSl (sbOf i)).view.set]{(shr (posOf (jOf i))).left} G16 m ρ c (sbOf i))
  else iprop(∃ fd, slotPts aM c (sbOf i) (jOf i) ((slotM aM (sbOf i) (jOf i)).view.write (Elt F) fd (wAG m ρ c (sbOf i) (jOf i)) Finset.univ))

def sched : Rounds.Schedule (GSem nD τ sig) (Fin 7) 𝕄 where
  duties g r := if r = 0 ∧ g.1.2 = .tc then
      (match g.2 with | .reg _ => Finset.univ | .dma s => if (decode s).isSome then {0} else ∅) else ∅
  unitless _ := False
  amount g _ _ := match g.2 with | .reg _ => 1 | .dma _ => N32
  payload g _ d := match g.2 with
    | .reg _ => barPay g.1.1 d
    | .dma s => match decode s with | some (k, i) => payD m ρ g.1.1 k i | none => iprop(emp)
  amount_pos g _ _ _ := by
    cases g.2 with
    | reg _ => exact Nat.one_pos
    | dma _ => exact N32_pos

set_option synthInstance.maxHeartbeats 400000 in
set_option maxHeartbeats 800000 in
instance sched_payload_storable (g : GSem nD τ sig) (r : ℕ) (d : Fin 7) :
    BI.Storable (upEmb : UEmb _ 𝕄) ((sched (F := F) m ρ).payload g r d) := by
  unfold sched; dsimp only
  cases g.2 with
  | reg _ => dsimp only; unfold barPay; infer_instance
  | dma s =>
    dsimp only
    cases decode s with
    | none => dsimp only; infer_instance
    | some ki => obtain ⟨k, i⟩ := ki; dsimp only; unfold payD; (repeat' split) <;> infer_instance

section Tables
variable (c : Dev nD)

theorem duties_bar : (sched (F := F) m ρ).duties (barCell c) 0 = Finset.univ := by
  dsimp only [sched]; rw [if_pos ⟨rfl, rfl⟩]
theorem duties_d (k : Fin 4) (i : Fin 14) : (sched (F := F) m ρ).duties (dCell c k i) 0 = {0} := by
  dsimp only [sched]; rw [if_pos ⟨rfl, rfl⟩, decode_dsem]; rfl
theorem duties_later (g : GSem nD τ sig) : ∀ r, 1 ≤ r → (sched (F := F) m ρ).duties g r = ∅ :=
  fun r hr => by dsimp only [sched]; rw [if_neg fun h => by omega]
theorem amount_bar (d : Fin 7) : (sched (F := F) m ρ).amount (barCell c) 0 d = 1 := rfl
theorem amount_d (k : Fin 4) (i : Fin 14) (d : Fin 7) : (sched (F := F) m ρ).amount (dCell c k i) 0 d = N32 := rfl
theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_d (k : Fin 4) (i : Fin 14) : (sched (F := F) m ρ).expect (dCell c k i) 0 = N32 := by
  unfold Schedule.expect Schedule.amountOf; rw [duties_d, Finset.sum_singleton, amount_d]
theorem payload_bar (j : Fin 7) : (sched (F := F) m ρ).payload (barCell c) 0 j = barPay c j := rfl
theorem payload_d (k : Fin 4) (i : Fin 14) (d : Fin 7) : (sched (F := F) m ρ).payload (dCell c k i) 0 d = payD m ρ c k i := by
  dsimp only [sched]; rw [decode_dsem]
theorem rest_d (k : Fin 4) (i : Fin 14) :
    bigSep ((sched (F := F) m ρ).duties (dCell c k i) 0 \ ∅) (fun d => (sched (F := F) m ρ).payload (dCell c k i) 0 d) = payD m ρ c k i := by
  rw [Finset.sdiff_empty, duties_d, bigSep_singleton, payload_d]
theorem rest_bar :
    bigSep ((sched (F := F) m ρ).duties (barCell c) 0 \ ∅) (fun d => (sched (F := F) m ρ).payload (barCell c) 0 d)
      = bigSepL [(5 : Fin 7), 1, 4, 6, 0, 2, 3] (fun j => barPay (F := F) c j) := by
  rw [Finset.sdiff_empty, duties_bar, bigSep_univ_eq_bigSepL [(5 : Fin 7), 1, 4, 6, 0, 2, 3] (by decide) (by decide)]
  rfl

end Tables

/-! ## What each device owes at launch; the levels -/

/-- What a device owes, as the list of its signals and transfers still to come, the next one first. -/
def owedL : List (GSem nD τ sig × ℕ) → CellTallies nD τ sig Unit
  | [] => 0
  | e :: l => owedL l + tallyAt e.1 () e.2

theorem owedL_pos {l : List (GSem nD τ sig × ℕ)} {g : GSem nD τ sig} {u : Unit} (h : 0 < owedL l g u) : ∃ e ∈ l, e.1 = g := by
  induction l with
  | nil => exact absurd h (Nat.lt_irrefl 0)
  | cons e l ih =>
    unfold owedL at h
    rw [Pi.add_apply, Finsupp.add_apply, tallyAt_apply] at h
    by_cases he : g = e.1 ∧ u = ()
    · exact ⟨e, List.mem_cons_self, he.1.symm⟩
    · rw [if_neg he, Nat.add_zero] at h
      obtain ⟨e', he', hg⟩ := ih h
      exact ⟨e', List.mem_cons_of_mem _ he', hg⟩

def sigL (c : Dev nD) : List (GSem nD τ sig × ℕ) := [(5 : Fin 7), 1, 4, 6, 0, 2, 3].map fun j => (barCell (peer j c), 1)
def xferL (c : Dev nD) (k : Fin 4) (l : List (Fin 14)) : List (GSem nD τ sig × ℕ) := l.map fun i => (dCell (peer (jOf i) c) k i, N32)
abbrev il0 : List (Fin 14) := [5, 1, 4, 6, 0, 2, 3]
abbrev il1 : List (Fin 14) := [12, 8, 11, 13, 7, 9, 10]

def O₀ (c : Dev nD) : CellTallies nD τ sig Unit := owedL (sigL c ++ (xferL c 1 (il0 ++ il1) ++ (xferL c 3 il0 ++ xferL c 3 il1)))

def L (g : GSem nD τ sig) : Finset Unit := if g.1.2 = .tc then {()} else ∅
/-- Barrier cells at 1, first-phase receive cells at 2, second-phase receive cells at 3, everything else at 0. -/
def lv (g : GSem nD τ sig) (_ : Unit) : ℕ :=
  match g.2 with
  | .reg _ => 1
  | .dma s => match decode s with | some (k, _) => if k = 1 then 2 else if k = 3 then 3 else 0 | none => 0

theorem L_of_ne (g : GSem nD τ sig) (h : g.1.2 ≠ .tc) : L g = ∅ := if_neg h
theorem L_tc (c : Dev nD) (sm : SemLoc sig) : L ((c : Thread nD τ), sm) = {()} := if_pos rfl

/-- A wait on a cell of level `b` is allowed while everything still owed lies on TensorCore cells of higher levels. -/
theorem mayWait_list (c : Dev nD) (s : SemLoc sig) (l : List (GSem nD τ sig × ℕ))
    (hl : ∀ e ∈ l, e.1.1.2 = .tc ∧ lv ((c : Thread nD τ), s) () < lv e.1 ()) :
    (levAts L lv : sProp 𝕄) ⊢ MayWait (c : Thread nD τ) s () (owedL l) :=
  Pipeline.mayWait_of_levAts (by rw [L_tc]; exact Finset.mem_singleton_self _) fun g u hg => by
    obtain ⟨e, he, rfl⟩ := owedL_pos hg
    exact ⟨by unfold L; rw [if_pos (hl e he).1]; exact Finset.mem_singleton_self _, (hl e he).2⟩

end Cert.KernelProof

end
-- ==== Proof.StateKernel.lean ====
import proofs.«900485_g7700000000000486_dist_treered_v7x_i8_m512_n512_f32_1_alg».proof.Proof.Gen.Kernel
import proofs.«900485_g7700000000000486_dist_treered_v7x_i8_m512_n512_f32_1_alg».proof.Proof.Gen.Kernel.Skeleton
import proofs.«900485_g7700000000000486_dist_treered_v7x_i8_m512_n512_f32_1_alg».proof.Proof.Gen.Kernel.Launch
import proofs.«900485_g7700000000000486_dist_treered_v7x_i8_m512_n512_f32_1_alg».proof.Proof.Gen.Kernel.Points
import proofs.«900485_g7700000000000486_dist_treered_v7x_i8_m512_n512_f32_1_alg».proof.Proof.ProtoKernel
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells by index; the invariants and reached-marks every device may use -/

/-- A device's cells: `none` its barrier cell, `some (k, i)` DMA cell `i` of semaphore array `k`. -/
abbrev CI : Type := Option (Fin 4 × Fin 14)
abbrev csem : CI → SemLoc sig
  | none => .reg barS
  | some ki => .dma (dsem ki.1 ki.2)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) : records m ρ K ⊢ cellInv ER (sched m ρ) (K ck) (kcell ck) := by
  unfold records; exact sep_elim_left.trans (bigSep_elim (Finset.mem_univ ck))
theorem reached_at (K : Dev nD × CI → ℕ) (ck : Dev nD × CI) : records m ρ K ⊢ reached ER (kcell ck) 0 := by
  unfold records; exact sep_elim_right.trans (bigSep_elim (Finset.mem_univ ck))

/-! ## What a device's body starts from and ends with -/

abbrev jl : List (Fin 7) := [5, 1, 4, 6, 0, 2, 3]
abbrev il : List (Fin 14) := [5, 1, 4, 6, 0, 2, 3, 12, 8, 11, 13, 7, 9, 10]

/-- The ghost state device `c` starts from: every cell's invariant and reached-mark; its positions at round 0 of its own
    57 cells; the tokens of the duties it pays: its partners' barrier duties, its own send duties, its partners' receive duties. -/
def ghost (K : Dev nD × CI → ℕ) (c : Dev nD) : sProp 𝕄 :=
  iprop(records m ρ K
    ∗ atPos ER (barCell c) 0 ∅ 0
    ∗ bigSepL il (fun i => atPos ER (dCell c 0 i) 0 ∅ 0) ∗ bigSepL il (fun i => atPos ER (dCell c 1 i) 0 ∅ 0)
    ∗ bigSepL il (fun i => atPos ER (dCell c 2 i) 0 ∅ 0) ∗ bigSepL il (fun i => atPos ER (dCell c 3 i) 0 ∅ 0)
    ∗ bigSepL jl (fun j => dutyTok ER (barCell (peer j c)) 0 j)
    ∗ bigSepL il (fun i => dutyTok ER (dCell c 0 i) 0 (0 : Fin 7)) ∗ bigSepL il (fun i => dutyTok ER (dCell (peer (jOf i) c) 1 i) 0 (0 : Fin 7))
    ∗ bigSepL il (fun i => dutyTok ER (dCell c 2 i) 0 (0 : Fin 7)) ∗ bigSepL il (fun i => dutyTok ER (dCell (peer (jOf i) c) 3 i) 0 (0 : Fin 7)))

/-- `ghost` with its lists written out, in the order the body uses them. -/
def ghostX (K : Dev nD × CI → ℕ) (c : Dev nD) : sProp 𝕄 :=
  iprop(records m ρ K
    ∗ atPos ER (barCell c) 0 ∅ 0
    ∗ (atPos ER (dCell c 0 5) 0 ∅ 0 ∗ atPos ER (dCell c 0 1) 0 ∅ 0 ∗ atPos ER (dCell c 0 4) 0 ∅ 0 ∗ atPos ER (dCell c 0 6) 0 ∅ 0 ∗ atPos ER (dCell c 0 0) 0 ∅ 0 ∗ atPos ER (dCell c 0 2) 0 ∅ 0 ∗ atPos ER (dCell c 0 3) 0 ∅ 0 ∗ atPos ER (dCell c 0 12) 0 ∅ 0 ∗ atPos ER (dCell c 0 8) 0 ∅ 0 ∗ atPos ER (dCell c 0 11) 0 ∅ 0 ∗ atPos ER (dCell c 0 13) 0 ∅ 0 ∗ atPos ER (dCell c 0 7) 0 ∅ 0 ∗ atPos ER (dCell c 0 9) 0 ∅ 0 ∗ atPos ER (dCell c 0 10) 0 ∅ 0)
    ∗ (atPos ER (dCell c 1 5) 0 ∅ 0 ∗ atPos ER (dCell c 1 1) 0 ∅ 0 ∗ atPos ER (dCell c 1 4) 0 ∅ 0 ∗ atPos ER (dCell c 1 6) 0 ∅ 0 ∗ atPos ER (dCell c 1 0) 0 ∅ 0 ∗ atPos ER (dCell c 1 2) 0 ∅ 0 ∗ atPos ER (dCell c 1 3) 0 ∅ 0 ∗ atPos ER (dCell c 1 12) 0 ∅ 0 ∗ atPos ER (dCell c 1 8) 0 ∅ 0 ∗ atPos ER (dCell c 1 11) 0 ∅ 0 ∗ atPos ER (dCell c 1 13) 0 ∅ 0 ∗ atPos ER (dCell c 1 7) 0 ∅ 0 ∗ atPos ER (dCell c 1 9) 0 ∅ 0 ∗ atPos ER (dCell c 1 10) 0 ∅ 0)
    ∗ (atPos ER (dCell c 2 5) 0 ∅ 0 ∗ atPos ER (dCell c 2 1) 0 ∅ 0 ∗ atPos ER (dCell c 2 4) 0 ∅ 0 ∗ atPos ER (dCell c 2 6) 0 ∅ 0 ∗ atPos ER (dCell c 2 0) 0 ∅ 0 ∗ atPos ER (dCell c 2 2) 0 ∅ 0 ∗ atPos ER (dCell c 2 3) 0 ∅ 0 ∗ atPos ER (dCell c 2 12) 0 ∅ 0 ∗ atPos ER (dCell c 2 8) 0 ∅ 0 ∗ atPos ER (dCell c 2 11) 0 ∅ 0 ∗ atPos ER (dCell c 2 13) 0 ∅ 0 ∗ atPos ER (dCell c 2 7) 0 ∅ 0 ∗ atPos ER (dCell c 2 9) 0 ∅ 0 ∗ atPos ER (dCell c 2 10) 0 ∅ 0)
    ∗ (atPos ER (dCell c 3 5) 0 ∅ 0 ∗ atPos ER (dCell c 3 1) 0 ∅ 0 ∗ atPos ER (dCell c 3 4) 0 ∅ 0 ∗ atPos ER (dCell c 3 6) 0 ∅ 0 ∗ atPos ER (dCell c 3 0) 0 ∅ 0 ∗ atPos ER (dCell c 3 2) 0 ∅ 0 ∗ atPos ER (dCell c 3 3) 0 ∅ 0 ∗ atPos ER (dCell c 3 12) 0 ∅ 0 ∗ atPos ER (dCell c 3 8) 0 ∅ 0 ∗ atPos ER (dCell c 3 11) 0 ∅ 0 ∗ atPos ER (dCell c 3 13) 0 ∅ 0 ∗ atPos ER (dCell c 3 7) 0 ∅ 0 ∗ atPos ER (dCell c 3 9) 0 ∅ 0 ∗ atPos ER (dCell c 3 10) 0 ∅ 0)
    ∗ (dutyTok ER (barCell (peer 5 c)) 0 (5 : Fin 7) ∗ dutyTok ER (barCell (peer 1 c)) 0 (1 : Fin 7) ∗ dutyTok ER (barCell (peer 4 c)) 0 (4 : Fin 7) ∗ dutyTok ER (barCell (peer 6 c)) 0 (6 : Fin 7) ∗ dutyTok ER (barCell (peer 0 c)) 0 (0 : Fin 7) ∗ dutyTok ER (barCell (peer 2 c)) 0 (2 : Fin 7) ∗ dutyTok ER (barCell (peer 3 c)) 0 (3 : Fin 7))
    ∗ (dutyTok ER (dCell c 0 5) 0 (0 : Fin 7) ∗ dutyTok ER (dCell c 0 1) 0 (0 : Fin 7) ∗ dutyTok ER (dCell c 0 4) 0 (0 : Fin 7) ∗ dutyTok ER (dCell c 0 6) 0 (0 : Fin 7) ∗ dutyTok ER (dCell c 0 0) 0 (0 : Fin 7) ∗ dutyTok ER (dCell c 0 2) 0 (0 : Fin 7) ∗ dutyTok ER (dCell c 0 3) 0 (0 : Fin 7) ∗ dutyTok ER (dCell c 0 12) 0 (0 : Fin 7) ∗ dutyTok ER (dCell c 0 8) 0 (0 : Fin 7) ∗ dutyTok ER (dCell c 0 11) 0 (0 : Fin 7) ∗ dutyTok ER (dCell c 0 13) 0 (0 : Fin 7) ∗ dutyTok ER (dCell c 0 7) 0 (0 : Fin 7) ∗ dutyTok ER (dCell c 0 9) 0 (0 : Fin 7) ∗ dutyTok ER (dCell c 0 10) 0 (0 : Fin 7))
    ∗ (dutyTok ER (dCell (peer 5 c) 1 5) 0 (0 : Fin 7) ∗ dutyTok ER (dCell (peer 1 c) 1 1) 0 (0 : Fin 7) ∗ dutyTok ER (dCell (peer 4 c) 1 4) 0 (0 : Fin 7) ∗ dutyTok ER (dCell (peer 6 c) 1 6) 0 (0 : Fin 7) ∗ dutyTok ER (dCell (peer 0 c) 1 0) 0 (0 : Fin 7) ∗ dutyTok ER (dCell (peer 2 c) 1 2) 0 (0 : Fin 7) ∗ dutyTok ER (dCell (peer 3 c) 1 3) 0 (0 : Fin 7) ∗ dutyTok ER (dCell (peer 5 c) 1 12) 0 (0 : Fin 7) ∗ dutyTok ER (dCell (peer 1 c) 1 8) 0 (0 : Fin 7) ∗ dutyTok ER (dCell (peer 4 c) 1 11) 0 (0 : Fin 7) ∗ dutyTok ER (dCell (peer 6 c) 1 13) 0 (0 : Fin 7) ∗ dutyTok ER (dCell (peer 0 c) 1 7) 0 (0 : Fin 7) ∗ dutyTok ER (dCell (peer 2 c) 1 9) 0 (0 : Fin 7) ∗ dutyTok ER (dCell (peer 3 c) 1 10) 0 (0 : Fin 7))
    ∗ (dutyTok ER (dCell c 2 5) 0 (0 : Fin 7) ∗ dutyTok ER (dCell c 2 1) 0 (0 : Fin 7) ∗ dutyTok ER (dCell c 2 4) 0 (0 : Fin 7) ∗ dutyTok ER (dCell c 2 6) 0 (0 : Fin 7) ∗ dutyTok ER (dCell c 2 0) 0 (0 : Fin 7) ∗ dutyTok ER (dCell c 2 2) 0 (0 : Fin 7) ∗ dutyTok ER (dCell c 2 3) 0 (0 : Fin 7) ∗ dutyTok ER (dCell c 2 12) 0 (0 : Fin 7) ∗ dutyTok ER (dCell c 2 8) 0 (0 : Fin 7) ∗ dutyTok ER (dCell c 2 11) 0 (0 : Fin 7) ∗ dutyTok ER (dCell c 2 13) 0 (0 : Fin 7) ∗ dutyTok ER (dCell c 2 7) 0 (0 : Fin 7) ∗ dutyTok ER (dCell c 2 9) 0 (0 : Fin 7) ∗ dutyTok ER (dCell c 2 10) 0 (0 : Fin 7))
    ∗ (dutyTok ER (dCell (peer 5 c) 3 5) 0 (0 : Fin 7) ∗ dutyTok ER (dCell (peer 1 c) 3 1) 0 (0 : Fin 7) ∗ dutyTok ER (dCell (peer 4 c) 3 4) 0 (0 : Fin 7) ∗ dutyTok ER (dCell (peer 6 c) 3 6) 0 (0 : Fin 7) ∗ dutyTok ER (dCell (peer 0 c) 3 0) 0 (0 : Fin 7) ∗ dutyTok ER (dCell (peer 2 c) 3 2) 0 (0 : Fin 7) ∗ dutyTok ER (dCell (peer 3 c) 3 3) 0 (0 : Fin 7) ∗ dutyTok ER (dCell (peer 5 c) 3 12) 0 (0 : Fin 7) ∗ dutyTok ER (dCell (peer 1 c) 3 8) 0 (0 : Fin 7) ∗ dutyTok ER (dCell (peer 4 c) 3 11) 0 (0 : Fin 7) ∗ dutyTok ER (dCell (peer 6 c) 3 13) 0 (0 : Fin 7) ∗ dutyTok ER (dCell (peer 0 c) 3 7) 0 (0 : Fin 7) ∗ dutyTok ER (dCell (peer 2 c) 3 9) 0 (0 : Fin 7) ∗ dutyTok ER (dCell (peer 3 c) 3 10) 0 (0 : Fin 7)))

theorem ghostX_eq (K : Dev nD × CI → ℕ) (c : Dev nD) : ghost m ρ K c = ghostX m ρ K c := by
  unfold ghost ghostX; simp only [bigSepL_cons_cons, bigSepL_singleton]; rfl

/-- The credit the launch deals a device on its receive cells, cell by cell in the order the body waits on them. -/
def credX (c : Dev nD) : sProp 𝕄 :=
  iprop((cred (tallyAt (dCell c 1 5) () N32) ∗ cred (tallyAt (dCell c 1 1) () N32) ∗ cred (tallyAt (dCell c 1 4) () N32) ∗ cred (tallyAt (dCell c 1 6) () N32) ∗ cred (tallyAt (dCell c 1 0) () N32) ∗ cred (tallyAt (dCell c 1 2) () N32) ∗ cred (tallyAt (dCell c 1 3) () N32) ∗ cred (tallyAt (dCell c 1 12) () N32) ∗ cred (tallyAt (dCell c 1 8) () N32) ∗ cred (tallyAt (dCell c 1 11) () N32) ∗ cred (tallyAt (dCell c 1 13) () N32) ∗ cred (tallyAt (dCell c 1 7) () N32) ∗ cred (tallyAt (dCell c 1 9) () N32) ∗ cred (tallyAt (dCell c 1 10) () N32))
    ∗ (cred (tallyAt (dCell c 3 5) () N32) ∗ cred (tallyAt (dCell c 3 1) () N32) ∗ cred (tallyAt (dCell c 3 4) () N32) ∗ cred (tallyAt (dCell c 3 6) () N32) ∗ cred (tallyAt (dCell c 3 0) () N32) ∗ cred (tallyAt (dCell c 3 2) () N32) ∗ cred (tallyAt (dCell c 3 3) () N32) ∗ cred (tallyAt (dCell c 3 12) () N32) ∗ cred (tallyAt (dCell c 3 8) () N32) ∗ cred (tallyAt (dCell c 3 11) () N32) ∗ cred (tallyAt (dCell c 3 13) () N32) ∗ cred (tallyAt (dCell c 3 7) () N32) ∗ cred (tallyAt (dCell c 3 9) () N32) ∗ cred (tallyAt (dCell c 3 10) () N32)))

def start (c : Dev nD) : sProp 𝕄 :=
  iprop((∃ K, ghost m ρ K c) ∗ cred (tallyAt (barCell c) () 7) ∗ credX c ∗ levAts L lv)

/-- A scratch buffer held whole at some contents. -/
def scr (c : Dev nD) (b : Ref sig .tc) : sProp 𝕄 :=
  iprop(∃ f : Buf (Elt F) ((c : Thread nD τ).loc b), ((c : Thread nD τ).loc b) ↦{fullShare} f)

def Φ₀ (c : Dev nD) : sProp 𝕄 :=
  iprop(start m ρ c ∗ scr c cc0_scratch0 ∗ scr c cc0_scratch1 ∗ scr c cc0_scratch2 ∗ scr c cc0_scratch3)

abbrev osem : Fin 4 × Fin 14 → SemLoc sig := fun ki => .dma (dsem ki.1 ki.2)

abbrev allKI : List (Fin 4 × Fin 14) := [(0, 5), (0, 1), (0, 4), (0, 6), (0, 0), (0, 2), (0, 3), (0, 12), (0, 8), (0, 11), (0, 13), (0, 7), (0, 9), (0, 10), (1, 5), (1, 1), (1, 4), (1, 6), (1, 0), (1, 2), (1, 3), (1, 12), (1, 8), (1, 11), (1, 13), (1, 7), (1, 9), (1, 10), (2, 5), (2, 1), (2, 4), (2, 6), (2, 0), (2, 2), (2, 3), (2, 12), (2, 8), (2, 11), (2, 13), (2, 7), (2, 9), (2, 10), (3, 5), (3, 1), (3, 4), (3, 6), (3, 0), (3, 2), (3, 3), (3, 12), (3, 8), (3, 11), (3, 13), (3, 7), (3, 9), (3, 10)]

def Φ₁ (c : Dev nD) : sProp 𝕄 :=
  iprop(scr (F := F) c cc0_scratch0 ∗ scr c cc0_scratch1 ∗ scr c cc0_scratch2 ∗ scr c cc0_scratch3
    ∗ bigSepL allKI fun ki : Fin 4 × Fin 14 => semVal ((c : Thread nD τ), osem ki) 0)

/-! ## The result -/

abbrev oOwn (c : Dev nD) (sb : Fin 2) : Rect S512x512 :=
  Rect.unit (s := S512x512) (k0_off3 c (BitVec.ofNat 32 (32 * sb.val))) S32x512.size (k0_off3_inb c sb)
abbrev oPeer (c : Dev nD) (j : Fin 7) (sb : Fin 2) : Rect S512x512 :=
  Rect.unit (s := S512x512) (k0_off4 c (BitVec.ofNat 32 (1 + j.val)) (BitVec.ofNat 32 (32 * sb.val))) S32x512.size (k0_off4_inb c j sb)

/-- A received reduced half, widened. -/
def wOut (c : Dev nD) (sb : Fin 2) (j : Fin 7) : FVec F S32x512 .f32 := extf .f32 (wAG m ρ c sb j) bitsLt_bf16_f32

/-- The result's staging buffer after the body's sixteen stores, over what it held before. -/
def outW (c : Dev nD) (g : (cc0_stg1_0 : Ref sig .tc).ty.Contents (Elt F)) : (cc0_stg1_0 : Ref sig .tc).ty.Contents (Elt F) :=
  ((oM.access (oPeer c 3 1)).write (Elt F) ((oM.access (oPeer c 2 1)).write (Elt F) ((oM.access (oPeer c 0 1)).write (Elt F) ((oM.access (oPeer c 6 1)).write (Elt F) ((oM.access (oPeer c 4 1)).write (Elt F) ((oM.access (oPeer c 1 1)).write (Elt F) ((oM.access (oPeer c 5 1)).write (Elt F) ((oM.access (oPeer c 3 0)).write (Elt F) ((oM.access (oPeer c 2 0)).write (Elt F) ((oM.access (oPeer c 0 0)).write (Elt F) ((oM.access (oPeer c 6 0)).write (Elt F) ((oM.access (oPeer c 4 0)).write (Elt F) ((oM.access (oPeer c 1 0)).write (Elt F) ((oM.access (oPeer c 5 0)).write (Elt F) ((oM.access (oOwn c 1)).write (Elt F) ((oM.access (oOwn c 0)).write (Elt F) g (acc m ρ c 0) Finset.univ) (acc m ρ c 1) Finset.univ) (wOut m ρ c 0 5) Finset.univ) (wOut m ρ c 0 1) Finset.univ) (wOut m ρ c 0 4) Finset.univ) (wOut m ρ c 0 6) Finset.univ) (wOut m ρ c 0 0) Finset.univ) (wOut m ρ c 0 2) Finset.univ) (wOut m ρ c 0 3) Finset.univ) (wOut m ρ c 1 5) Finset.univ) (wOut m ρ c 1 1) Finset.univ) (wOut m ρ c 1 4) Finset.univ) (wOut m ρ c 1 6) Finset.univ) (wOut m ρ c 1 0) Finset.univ) (wOut m ρ c 1 2) Finset.univ) (wOut m ρ c 1 3) Finset.univ)

/-- The kernel's result on device `c`: its own two halves of the sum, and each partner's two halves as received. -/
def outFin (c : Dev nD) : (cc0_stg1_0 : Ref sig .tc).ty.Contents (Elt F) := outW m ρ c (fun _ => Classical.choice inferInstance)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xb m ρ c
    | ⟨1, _⟩ => outFin m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (Xb m ρ c) ∗ stg c cc0_stg1_0 (outFin m ρ c))

end Cert.KernelProof

end
-- ==== Proof.GeomKernel.lean ====
import proofs.«900485_g7700000000000486_dist_treered_v7x_i8_m512_n512_f32_1_alg».proof.Proof.Gen.Kernel
import proofs.«900485_g7700000000000486_dist_treered_v7x_i8_m512_n512_f32_1_alg».proof.Proof.Gen.Kernel.Skeleton
import proofs.«900485_g7700000000000486_dist_treered_v7x_i8_m512_n512_f32_1_alg».proof.Proof.Gen.Kernel.Launch
import proofs.«900485_g7700000000000486_dist_treered_v7x_i8_m512_n512_f32_1_alg».proof.Proof.Gen.Kernel.Points
import proofs.«900485_g7700000000000486_dist_treered_v7x_i8_m512_n512_f32_1_alg».proof.Proof.ProtoKernel
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Which elements a slot, a row block, a half holds; pieces of a buffer taken apart and put back -/

theorem mem_rslot (sb : Fin 2) (j : Fin 7) (x : (cc0_scratch2 : Ref sig .tc).ty.shape.Idx) :
    x ∈ (slotM rM sb j).view.set ↔ (x 0).val = sb.val ∧ (x 1).val = j.val := by
  rw [Memref.set_view_squeeze]
  show x ∈ ((View.whole cc0_scratch2).slice (slotR sb j)).set ↔ _
  rw [View.set_slice_whole, Rect.mem_set_unit]
  constructor
  · intro h
    have h0 := h 0; have h1 := h 1
    simp only [Matrix.cons_val_zero, Matrix.cons_val_one, Matrix.head_cons] at h0 h1
    exact ⟨by omega, by omega⟩
  · intro h a
    have hx : (x a).val < (![2, 7, 32, 512] : Fin 4 → ℕ) a := (x a).isLt
    fin_cases a <;> simp at hx ⊢ <;> omega

theorem mem_aslot (sb : Fin 2) (j : Fin 7) (x : (cc0_scratch3 : Ref sig .tc).ty.shape.Idx) :
    x ∈ (slotM aM sb j).view.set ↔ (x 0).val = sb.val ∧ (x 1).val = j.val := by
  rw [Memref.set_view_squeeze]
  show x ∈ ((View.whole cc0_scratch3).slice (slotR sb j)).set ↔ _
  rw [View.set_slice_whole, Rect.mem_set_unit]
  constructor
  · intro h
    have h0 := h 0; have h1 := h 1
    simp only [Matrix.cons_val_zero, Matrix.cons_val_one, Matrix.head_cons] at h0 h1
    exact ⟨by omega, by omega⟩
  · intro h a
    have hx : (x a).val < (![2, 7, 32, 512] : Fin 4 → ℕ) a := (x a).isLt
    fin_cases a <;> simp at hx ⊢ <;> omega

theorem mem_hsl (c : Dev nD) (j : Fin 7) (sb : Fin 2) (x : (cc0_scratch0 : Ref sig .tc).ty.shape.Idx) :
    x ∈ (hSl c j sb).view.set ↔ 64 * (peer j c).val + 32 * sb.val ≤ (x 0).val ∧ (x 0).val < 64 * (peer j c).val + 32 * sb.val + 32 := by
  show x ∈ ((View.whole cc0_scratch0).slice (Rect.unit (s := S512x512) (k0_off1 c (BitVec.ofNat 32 (1 + j.val)) (BitVec.ofNat 32 (32 * sb.val))) S32x512.size (k0_off1_inb c j sb))).set ↔ _
  rw [View.set_slice_whole, Rect.mem_set_unit, off1_eq]
  constructor
  · intro h
    have h0 := h 0
    simp only [Matrix.cons_val_zero] at h0
    exact h0
  · intro h a
    have hx : (x a).val < (![512, 512] : Fin 2 → ℕ) a := (x a).isLt
    fin_cases a <;> simp at hx ⊢ <;> omega

theorem mem_gsl (sb : Fin 2) (x : (cc0_scratch1 : Ref sig .tc).ty.shape.Idx) :
    x ∈ (gSl sb).view.set ↔ 32 * sb.val ≤ (x 0).val ∧ (x 0).val < 32 * sb.val + 32 := by
  show x ∈ ((View.whole cc0_scratch1).slice (gRect sb)).set ↔ _
  rw [View.set_slice_whole, Rect.mem_set_unit]
  constructor
  · intro h
    have h0 := h 0
    simp only [Matrix.cons_val_zero] at h0
    exact h0
  · intro h a
    have hx : (x a).val < (![64, 512] : Fin 2 → ℕ) a := (x a).isLt
    fin_cases a <;> simp at hx ⊢ <;> omega

omit [FloatOps F] in
theorem give_piece {ℓ : Loc nD τ sig} {S I : Finset (Idx ℓ)} (h : I ⊆ S) (f g : Buf (Elt F) ℓ) :
    iprop((ℓ ↦[I]{fullShare} g) ∗ (ℓ ↦[S \ I]{fullShare} f)) ⊢ (∃ f' : Buf (Elt F) ℓ, ℓ ↦[S]{fullShare} f' : sProp 𝕄) := by
  refine (BI.Region.is_join (Finset.disjoint_sdiff)).trans ?_
  rw [Finset.union_sdiff_of_subset h]
  iintro H; iexists _; iexact H

omit [FloatOps F] in
theorem take_piece {ℓ : Loc nD τ sig} {S I : Finset (Idx ℓ)} (h : I ⊆ S) (q : PosShare TreeShare) (f : Buf (Elt F) ℓ) :
    (ℓ ↦[S]{q} f : sProp 𝕄) ⊢ iprop((ℓ ↦[I]{q} f) ∗ (ℓ ↦[S \ I]{q} f)) :=
  (BI.Region.is_split_subset h).1

/-! ### What is left of a buffer after pieces were taken out, the last taken first in the list -/

def restR : List (Fin 2 × Fin 7) → Finset (cc0_scratch2 : Ref sig .tc).ty.shape.Idx
  | [] => Finset.univ
  | p :: l => restR l \ (slotM rM p.1 p.2).view.set
def restA : List (Fin 2 × Fin 7) → Finset (cc0_scratch3 : Ref sig .tc).ty.shape.Idx
  | [] => Finset.univ
  | p :: l => restA l \ (slotM aM p.1 p.2).view.set
def restH (c : Dev nD) : List (Fin 14) → Finset (cc0_scratch0 : Ref sig .tc).ty.shape.Idx
  | [] => Finset.univ
  | i :: l => restH c l \ (hSl c (jOf i) (sbOf i)).view.set

theorem rslot_sub (p : Fin 2 × Fin 7) (l : List (Fin 2 × Fin 7)) (h : ∀ p' ∈ l, p ≠ p') : (slotM rM p.1 p.2).view.set ⊆ restR l := by
  induction l with
  | nil => exact Finset.subset_univ _
  | cons p' l ih =>
    refine Finset.subset_sdiff.2 ⟨ih fun q hq => h q (List.mem_cons_of_mem _ hq), Finset.disjoint_left.2 fun x hx hx' => ?_⟩
    rw [mem_rslot] at hx hx'
    exact h p' List.mem_cons_self (Prod.ext (Fin.ext (hx.1.symm.trans hx'.1)) (Fin.ext (hx.2.symm.trans hx'.2)))
theorem aslot_sub (p : Fin 2 × Fin 7) (l : List (Fin 2 × Fin 7)) (h : ∀ p' ∈ l, p ≠ p') : (slotM aM p.1 p.2).view.set ⊆ restA l := by
  induction l with
  | nil => exact Finset.subset_univ _
  | cons p' l ih =>
    refine Finset.subset_sdiff.2 ⟨ih fun q hq => h q (List.mem_cons_of_mem _ hq), Finset.disjoint_left.2 fun x hx hx' => ?_⟩
    rw [mem_aslot] at hx hx'
    exact h p' List.mem_cons_self (Prod.ext (Fin.ext (hx.1.symm.trans hx'.1)) (Fin.ext (hx.2.symm.trans hx'.2)))

theorem ix_ext : ∀ i i' : Fin 14, sbOf i = sbOf i' → jOf i = jOf i' → i = i' := by decide

theorem hsl_sub (c : Dev nD) (i : Fin 14) (l : List (Fin 14)) (h : ∀ i' ∈ l, i ≠ i') : (hSl c (jOf i) (sbOf i)).view.set ⊆ restH c l := by
  induction l with
  | nil => exact Finset.subset_univ _
  | cons i' l ih =>
    refine Finset.subset_sdiff.2 ⟨ih fun q hq => h q (List.mem_cons_of_mem _ hq), Finset.disjoint_left.2 fun x hx hx' => ?_⟩
    rw [mem_hsl] at hx hx'
    have hne := h i' List.mem_cons_self
    have hq : (peer (jOf i) c).val = (peer (jOf i') c).val → (sbOf i).val ≠ (sbOf i').val := fun e hs =>
      hne (ix_ext i i' (Fin.ext hs) (peer_inj _ _ c (Fin.ext e)))
    have h1 := (sbOf i).isLt; have h2 := (sbOf i').isLt
    by_cases e : (peer (jOf i) c).val = (peer (jOf i') c).val
    · have := hq e; omega
    · omega

theorem gsl_sub : (gSl 1).view.set ⊆ (Finset.univ : Finset (cc0_scratch1 : Ref sig .tc).ty.shape.Idx) \ (gSl 0).view.set :=
  Finset.subset_sdiff.2 ⟨Finset.subset_univ _, Finset.disjoint_left.2 fun x hx hx' => by
    rw [mem_gsl] at hx hx'; simp at hx hx'; omega⟩

theorem rload_sub (sb : Fin 2) (j : Fin 7) : (rM : Memref sig .tc .vmem S2x7x32x512 .bf16).view.setOn (slotR sb j).toLoadRect.set ⊆ (slotM rM sb j).view.set := by
  rw [Memref.set_view_squeeze]
  exact Memref.setOn_subset_slice_of_within rM (slotR sb j) (fun _ => rfl) _ (by revert sb j; decide)
theorem aload_sub (sb : Fin 2) (j : Fin 7) : (aM : Memref sig .tc .vmem S2x7x32x512 .bf16).view.setOn (slotR sb j).toLoadRect.set ⊆ (slotM aM sb j).view.set := by
  rw [Memref.set_view_squeeze]
  exact Memref.setOn_subset_slice_of_within aM (slotR sb j) (fun _ => rfl) _ (by revert sb j; decide)
theorem gload_sub (sb : Fin 2) : (gM : Memref sig .tc .vmem S64x512 .bf16).view.setOn (gRect sb).toLoadRect.set ⊆ (gSl sb).view.set :=
  Memref.setOn_subset_slice_of_within gM (gRect sb) (fun _ => rfl) _ (by revert sb; decide)

omit [FloatOps F] in
/-- A whole write through a view leaves, on the view's own elements, what was written, whatever was there before. -/
theorem write_congr_set {κ : Kind} {sp : Space} {s : Shape} {e : EltTy} (v : View sig κ sp s e) (f f' : BufTy.Contents (Elt F) v.ty) (w : s.Idx → Elt F e) :
    ∀ i ∈ v.set, v.write (Elt F) f w Finset.univ i = v.write (Elt F) f' w Finset.univ i := fun i hi => by
  obtain ⟨y, rfl⟩ := View.exists_emb_of_mem_set v hi
  rw [View.write_emb_of_mem f w (Finset.mem_univ y), View.write_emb_of_mem f' w (Finset.mem_univ y)]

/-! ### Taking a slot, a row block out of what is left, and putting it back -/

omit [FloatOps F] in
theorem to_restR (c : Dev nD) (f : Buf (Elt F) ((c : Thread nD τ).loc cc0_scratch2)) :
    (((c : Thread nD τ).loc cc0_scratch2) ↦{fullShare} f : sProp 𝕄) ⊢ (((c : Thread nD τ).loc cc0_scratch2) ↦[restR []]{fullShare} f) := Entails.of_eq rfl
omit [FloatOps F] in
theorem from_restR (c : Dev nD) (f : Buf (Elt F) ((c : Thread nD τ).loc cc0_scratch2)) :
    (((c : Thread nD τ).loc cc0_scratch2) ↦[restR []]{fullShare} f : sProp 𝕄) ⊢ (((c : Thread nD τ).loc cc0_scratch2) ↦{fullShare} f) := Entails.of_eq rfl
omit [FloatOps F] in
theorem to_restA (c : Dev nD) (f : Buf (Elt F) ((c : Thread nD τ).loc cc0_scratch3)) :
    (((c : Thread nD τ).loc cc0_scratch3) ↦{fullShare} f : sProp 𝕄) ⊢ (((c : Thread nD τ).loc cc0_scratch3) ↦[restA []]{fullShare} f) := Entails.of_eq rfl
omit [FloatOps F] in
theorem from_restA (c : Dev nD) (f : Buf (Elt F) ((c : Thread nD τ).loc cc0_scratch3)) :
    (((c : Thread nD τ).loc cc0_scratch3) ↦[restA []]{fullShare} f : sProp 𝕄) ⊢ (((c : Thread nD τ).loc cc0_scratch3) ↦{fullShare} f) := Entails.of_eq rfl
omit [FloatOps F] in
theorem to_restH (c : Dev nD) (f : Buf (Elt F) ((c : Thread nD τ).loc cc0_scratch0)) :
    (((c : Thread nD τ).loc cc0_scratch0) ↦{fullShare} f : sProp 𝕄) ⊢ (((c : Thread nD τ).loc cc0_scratch0) ↦[restH c []]{fullShare} f) := Entails.of_eq rfl
omit [FloatOps F] in
theorem from_restH (c : Dev nD) (f : Buf (Elt F) ((c : Thread nD τ).loc cc0_scratch0)) :
    (((c : Thread nD τ).loc cc0_scratch0) ↦[restH c []]{fullShare} f : sProp 𝕄) ⊢ (((c : Thread nD τ).loc cc0_scratch0) ↦{fullShare} f) := Entails.of_eq rfl

omit [FloatOps F] in
theorem take_rslot (c : Dev nD) (p : Fin 2 × Fin 7) (l : List (Fin 2 × Fin 7)) (h : ∀ p' ∈ l, p ≠ p') (f : Buf (Elt F) ((c : Thread nD τ).loc cc0_scratch2)) :
    (((c : Thread nD τ).loc cc0_scratch2) ↦[restR l]{fullShare} f : sProp 𝕄)
      ⊢ iprop(slotPts rM c p.1 p.2 f ∗ (((c : Thread nD τ).loc cc0_scratch2) ↦[restR (p :: l)]{fullShare} f)) :=
  take_piece (rslot_sub p l h) fullShare f
omit [FloatOps F] in
theorem give_rslot (c : Dev nD) (p : Fin 2 × Fin 7) (l : List (Fin 2 × Fin 7)) (h : ∀ p' ∈ l, p ≠ p') (f g : Buf (Elt F) ((c : Thread nD τ).loc cc0_scratch2)) :
    iprop(slotPts rM c p.1 p.2 g ∗ (((c : Thread nD τ).loc cc0_scratch2) ↦[restR (p :: l)]{fullShare} f))
      ⊢ (∃ f' : Buf (Elt F) ((c : Thread nD τ).loc cc0_scratch2), ((c : Thread nD τ).loc cc0_scratch2) ↦[restR l]{fullShare} f' : sProp 𝕄) :=
  give_piece (rslot_sub p l h) f g
omit [FloatOps F] in
theorem take_aslot (c : Dev nD) (p : Fin 2 × Fin 7) (l : List (Fin 2 × Fin 7)) (h : ∀ p' ∈ l, p ≠ p') (f : Buf (Elt F) ((c : Thread nD τ).loc cc0_scratch3)) :
    (((c : Thread nD τ).loc cc0_scratch3) ↦[restA l]{fullShare} f : sProp 𝕄)
      ⊢ iprop(slotPts aM c p.1 p.2 f ∗ (((c : Thread nD τ).loc cc0_scratch3) ↦[restA (p :: l)]{fullShare} f)) :=
  take_piece (aslot_sub p l h) fullShare f
omit [FloatOps F] in
theorem give_aslot (c : Dev nD) (p : Fin 2 × Fin 7) (l : List (Fin 2 × Fin 7)) (h : ∀ p' ∈ l, p ≠ p') (f g : Buf (Elt F) ((c : Thread nD τ).loc cc0_scratch3)) :
    iprop(slotPts aM c p.1 p.2 g ∗ (((c : Thread nD τ).loc cc0_scratch3) ↦[restA (p :: l)]{fullShare} f))
      ⊢ (∃ f' : Buf (Elt F) ((c : Thread nD τ).loc cc0_scratch3), ((c : Thread nD τ).loc cc0_scratch3) ↦[restA l]{fullShare} f' : sProp 𝕄) :=
  give_piece (aslot_sub p l h) f g
omit [FloatOps F] in
theorem take_hsl (c : Dev nD) (i : Fin 14) (l : List (Fin 14)) (h : ∀ i' ∈ l, i ≠ i') (f : Buf (Elt F) ((c : Thread nD τ).loc cc0_scratch0)) :
    (((c : Thread nD τ).loc cc0_scratch0) ↦[restH c l]{fullShare} f : sProp 𝕄)
      ⊢ iprop(((hSl c (jOf i) (sbOf i)).view.loc (c : Thread nD τ) ↦[(hSl c (jOf i) (sbOf i)).view.set]{fullShare} f) ∗ (((c : Thread nD τ).loc cc0_scratch0) ↦[restH c (i :: l)]{fullShare} f)) :=
  take_piece (hsl_sub c i l h) fullShare f
omit [FloatOps F] in
theorem give_hsl (c : Dev nD) (i : Fin 14) (l : List (Fin 14)) (h : ∀ i' ∈ l, i ≠ i') (f g : Buf (Elt F) ((c : Thread nD τ).loc cc0_scratch0)) :
    iprop(((hSl c (jOf i) (sbOf i)).view.loc (c : Thread nD τ) ↦[(hSl c (jOf i) (sbOf i)).view.set]{fullShare} g) ∗ (((c : Thread nD τ).loc cc0_scratch0) ↦[restH c (i :: l)]{fullShare} f))
      ⊢ (∃ f' : Buf (Elt F) ((c : Thread nD τ).loc cc0_scratch0), ((c : Thread nD τ).loc cc0_scratch0) ↦[restH c l]{fullShare} f' : sProp 𝕄) :=
  give_piece (hsl_sub c i l h) f g

end Cert.KernelProof
end
-- ==== Proof.StepsKernel.lean ====
import proofs.«900485_g7700000000000486_dist_treered_v7x_i8_m512_n512_f32_1_alg».proof.Proof.Gen.Kernel
import proofs.«900485_g7700000000000486_dist_treered_v7x_i8_m512_n512_f32_1_alg».proof.Proof.Gen.Kernel.Skeleton
import proofs.«900485_g7700000000000486_dist_treered_v7x_i8_m512_n512_f32_1_alg».proof.Proof.Gen.Kernel.Launch
import proofs.«900485_g7700000000000486_dist_treered_v7x_i8_m512_n512_f32_1_alg».proof.Proof.Gen.Kernel.Points
import proofs.«900485_g7700000000000486_dist_treered_v7x_i8_m512_n512_f32_1_alg».proof.Proof.StateKernel
import proofs.«900485_g7700000000000486_dist_treered_v7x_i8_m512_n512_f32_1_alg».proof.Proof.GeomKernel
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## What a device still owes after its first `n` signals and transfers -/

def allSteps (c : Dev nD) : List (GSem nD τ sig × ℕ) := sigL c ++ (xferL c 1 (il0 ++ il1) ++ (xferL c 3 il0 ++ xferL c 3 il1))
def owedFrom (c : Dev nD) (n : ℕ) : CellTallies nD τ sig Unit := owedL ((allSteps c).drop n)

theorem O₀_eq (c : Dev nD) : O₀ c = owedFrom c 0 := rfl
theorem owedFrom_end (c : Dev nD) : owedFrom c 35 = 0 := rfl

theorem lv_bar (q : Dev nD) : lv (barCell q) () = 1 := rfl
theorem lv_d (q : Dev nD) (k : Fin 4) (i : Fin 14) : lv (dCell q k i) () = if k = 1 then 2 else if k = 3 then 3 else 0 := by
  unfold lv; dsimp only; rw [decode_dsem]

theorem xferL_mem {c : Dev nD} {k : Fin 4} {l : List (Fin 14)} {e : GSem nD τ sig × ℕ} (he : e ∈ xferL c k l) :
    e.1.1.2 = .tc ∧ lv e.1 () = if k = 1 then 2 else if k = 3 then 3 else 0 := by
  unfold xferL at he
  obtain ⟨i, _, rfl⟩ := List.mem_map.1 he
  exact ⟨rfl, lv_d _ _ _⟩

/-- At its barrier wait a device owes its transfers only: receive cells, above its barrier cell. -/
theorem mw_bar (c : Dev nD) : (levAts L lv : sProp 𝕄) ⊢ MayWait (c : Thread nD τ) (.reg barS) () (owedFrom c 7) :=
  mayWait_list c _ _ fun e he => by
    have he' : e ∈ xferL c 1 (il0 ++ il1) ++ (xferL c 3 il0 ++ xferL c 3 il1) := he
    rcases List.mem_append.1 he' with h | h
    · obtain ⟨h1, h2⟩ := xferL_mem h; exact ⟨h1, by rw [lv_bar, h2]; decide⟩
    · rcases List.mem_append.1 h with h | h <;> (obtain ⟨h1, h2⟩ := xferL_mem h; exact ⟨h1, by rw [lv_bar, h2]; decide⟩)

/-- At a first-phase receive wait a device owes second-phase transfers only. -/
theorem mw_rr0 (c : Dev nD) (i : Fin 14) : (levAts L lv : sProp 𝕄) ⊢ MayWait (c : Thread nD τ) (.dma (dsem 1 i)) () (owedFrom c 21) :=
  mayWait_list c _ _ fun e he => by
    have he' : e ∈ xferL c 3 il0 ++ xferL c 3 il1 := he
    rcases List.mem_append.1 he' with h | h <;> (obtain ⟨h1, h2⟩ := xferL_mem h; exact ⟨h1, by rw [lv_d, h2]; decide⟩)
theorem mw_rr1 (c : Dev nD) (i : Fin 14) : (levAts L lv : sProp 𝕄) ⊢ MayWait (c : Thread nD τ) (.dma (dsem 1 i)) () (owedFrom c 28) :=
  mayWait_list c _ _ fun e he => by
    have he' : e ∈ xferL c 3 il1 := he
    obtain ⟨h1, h2⟩ := xferL_mem he'; exact ⟨h1, by rw [lv_d, h2]; decide⟩
/-- Once everything is sent a device may wait on any of its cells. -/
theorem mw_end (c : Dev nD) (s : SemLoc sig) : (levAts L lv : sProp 𝕄) ⊢ MayWait (c : Thread nD τ) s () (owedFrom c 35) :=
  mayWait_list c _ _ fun e he => absurd he List.not_mem_nil

/-! ## The DMA cells' payloads, one lemma per semaphore array -/

theorem payD_0 (c : Dev nD) (sb : Fin 2) (j : Fin 7) (i : Fin 14) (hsb : sbOf i = sb) (hj : jOf i = j) :
    payD m ρ c 0 i = ((hSl c j sb).view.loc (c : Thread nD τ) ↦[(hSl c j sb).view.set]{fullShare} X16 m ρ c) := by
  subst hsb hj; unfold payD; rw [if_pos rfl]
theorem payD_1 (c : Dev nD) (sb : Fin 2) (j : Fin 7) (i : Fin 14) (hsb : sbOf i = sb) (hj : jOf i = j) :
    payD m ρ c 1 i = iprop(∃ fd, slotPts rM c sb j ((slotM rM sb j).view.write (Elt F) fd (wRS m ρ c sb j) Finset.univ)) := by
  subst hsb hj; unfold payD; rw [if_neg (by decide), if_pos rfl]
theorem payD_2 (c : Dev nD) (sb : Fin 2) (j : Fin 7) (i : Fin 14) (p : ℕ) (hsb : sbOf i = sb) (hj : jOf i = j) (hp : posOf j = p) :
    payD m ρ c 2 i = ((gSl sb).view.loc (c : Thread nD τ) ↦[(gSl sb).view.set]{(shr p).left} G16 m ρ c sb) := by
  subst hsb hj hp; unfold payD; rw [if_neg (by decide), if_neg (by decide), if_pos rfl]
theorem payD_3 (c : Dev nD) (sb : Fin 2) (j : Fin 7) (i : Fin 14) (hsb : sbOf i = sb) (hj : jOf i = j) :
    payD m ρ c 3 i = iprop(∃ fd, slotPts aM c sb j ((slotM aM sb j).view.write (Elt F) fd (wAG m ρ c sb j) Finset.univ)) := by
  subst hsb hj; unfold payD; rw [if_neg (by decide), if_neg (by decide), if_neg (by decide)]

/-! ## The two transfers, at the cells of this protocol -/

/-- A first-phase transfer: 32 rows of the 16-bit copy into the partner's slot `(sb, j)`. -/
theorem wp_rs_send (K : Dev nD × CI → ℕ) (c n : Dev nD) (sb : Fin 2) (j : Fin 7) (i : Fin 14) (hsb : sbOf i = sb) (hj : jOf i = j) (hn : n = peer j c)
    (sS sR : DmaSem sig) (hsS : sS = dsem 0 i) (hsR : sR = dsem 1 i) (N : ℕ)
    {hsc : (slotM rM sb j : Memref sig (Dev.tc n : Thread nD τ).2.kind .vmem S32x512 .bf16).view.ref.isScScratch = false}
    {hsrc : (hSl c j sb : Memref sig .tc .vmem S32x512 .bf16).view.WordExact} {hdst : (slotM rM sb j : Memref sig .tc .vmem S32x512 .bf16).view.WordExact}
    {hsem : DmaTarget.Typed .vmem (.dma sR) (.remote (Dev.tc n : Thread nD τ) (slotM rM sb j : Memref sig .tc .vmem S32x512 .bf16) (.dma sS) hsc)}
    {α : Type} {Q : α → sProp 𝕄} {k : PUnit → Prog (TpuEff nD τ sig (Elt F) Λ₀ .tc) α}
    (fn : Buf (Elt F) ((slotM rM sb j : Memref sig .tc .vmem S32x512 .bf16).view.loc (peer j c : Thread nD τ))) (W : Waits sig Unit)
    (hO : owedFrom c N = owedFrom c (N + 1) + tallyAt (dCell (peer j c) 1 i) () N32) :
    iprop(records m ρ K
        ∗ ((hSl c j sb).view.loc (c : Thread nD τ) ↦[(hSl c j sb).view.set]{fullShare} X16 m ρ c) ∗ slotPts rM (peer j c) sb j fn
        ∗ owes (c : Thread nD τ) (owedFrom c N) W
        ∗ dutyTok ER (dCell c 0 i) 0 (0 : Fin 7) ∗ dutyTok ER (dCell (peer j c) 1 i) 0 (0 : Fin 7))
      ⊢ iprop(((cred (tallyAt (dCell c 0 i) () N32) ∗ owes (c : Thread nD τ) (owedFrom c (N + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hSl c j sb) (.remote (Dev.tc n : Thread nD τ) (slotM rM sb j) (.dma sS) hsc) (.dma sR) hsrc hdst hsem) k) Q) := by
  subst hn hsS hsR
  iintro ⟨#HR, Hsrc, Hdst, HO, Ht0, Ht1⟩
  iapply (Rounds.wp_send_pointsTo 𝒱₀ ER (sched m ρ) (c : Thread nD τ) none (κ₁ := K (c, some (0, i))) (κ₂ := K (peer j c, some (1, i)))
    (r₁ := 0) (r₂ := 0) (d₁ := (0 : Fin 7)) (d₂ := (0 : Fin 7)) (fd := fn) (src := hSl c j sb) (dst := slotM rM sb j) (q := fullShare) (fs := X16 m ρ c) (c' := (peer j c : Thread nD τ))
    (by rw [duties_d]; exact Finset.mem_singleton_self _) (by rw [duties_d]; exact Finset.mem_singleton_self _)
    () () N32 rfl (amount_d m ρ c 0 i 0) (amount_d m ρ (peer j c) 1 i 0) (owedFrom c (N + 1)) hO (W := W)
    (by rw [payload_d, payD_0 m ρ c sb j i hsb hj])
    (by
      rw [payload_d, payD_1 m ρ (peer j c) sb j i hsb hj]; unfold wRS; rw [peer_peer]
      iintro H; iexists fn; iexact H))
  isplitr; · iapply (inv_at m ρ K (c, some (0, i))); iexact HR
  isplitr; · iapply (inv_at m ρ K (peer j c, some (1, i))); iexact HR
  isplitl [Hsrc]; · iexact Hsrc
  isplitl [Hdst]; · iexact Hdst
  isplitl [HO]; · iexact HO
  isplitl [Ht0]; · iexact Ht0
  isplitr; · iapply (reached_at m ρ K (c, some (0, i))); iexact HR
  isplitl [Ht1]; · iexact Ht1
  iapply (reached_at m ρ K (peer j c, some (1, i))); iexact HR

/-- A second-phase transfer: half `sb` of the reduced segment's 16-bit copy into the partner's slot `(sb, j)`, lending the
    left half of the share still held. -/
theorem wp_ag_send (K : Dev nD × CI → ℕ) (c n : Dev nD) (sb : Fin 2) (j : Fin 7) (i : Fin 14) (p : ℕ) (hsb : sbOf i = sb) (hj : jOf i = j) (hp : posOf j = p) (hn : n = peer j c)
    (sS sR : DmaSem sig) (hsS : sS = dsem 2 i) (hsR : sR = dsem 3 i) (N : ℕ)
    {hsc : (slotM aM sb j : Memref sig (Dev.tc n : Thread nD τ).2.kind .vmem S32x512 .bf16).view.ref.isScScratch = false}
    {hsrc : (gSl sb : Memref sig .tc .vmem S32x512 .bf16).view.WordExact} {hdst : (slotM aM sb j : Memref sig .tc .vmem S32x512 .bf16).view.WordExact}
    {hsem : DmaTarget.Typed .vmem (.dma sR) (.remote (Dev.tc n : Thread nD τ) (slotM aM sb j : Memref sig .tc .vmem S32x512 .bf16) (.dma sS) hsc)}
    {α : Type} {Q : α → sProp 𝕄} {k : PUnit → Prog (TpuEff nD τ sig (Elt F) Λ₀ .tc) α}
    (fn : Buf (Elt F) ((slotM aM sb j : Memref sig .tc .vmem S32x512 .bf16).view.loc (peer j c : Thread nD τ))) (W : Waits sig Unit)
    (hO : owedFrom c N = owedFrom c (N + 1) + tallyAt (dCell (peer j c) 3 i) () N32) :
    iprop(records m ρ K
        ∗ ((gSl sb).view.loc (c : Thread nD τ) ↦[(gSl sb).view.set]{(shr p).left} G16 m ρ c sb) ∗ slotPts aM (peer j c) sb j fn
        ∗ owes (c : Thread nD τ) (owedFrom c N) W
        ∗ dutyTok ER (dCell c 2 i) 0 (0 : Fin 7) ∗ dutyTok ER (dCell (peer j c) 3 i) 0 (0 : Fin 7))
      ⊢ iprop(((cred (tallyAt (dCell c 2 i) () N32) ∗ owes (c : Thread nD τ) (owedFrom c (N + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gSl sb) (.remote (Dev.tc n : Thread nD τ) (slotM aM sb j) (.dma sS) hsc) (.dma sR) hsrc hdst hsem) k) Q) := by
  subst hn hsS hsR
  iintro ⟨#HR, Hsrc, Hdst, HO, Ht0, Ht1⟩
  iapply (Rounds.wp_send_pointsTo 𝒱₀ ER (sched m ρ) (c : Thread nD τ) none (κ₁ := K (c, some (2, i))) (κ₂ := K (peer j c, some (3, i)))
    (r₁ := 0) (r₂ := 0) (d₁ := (0 : Fin 7)) (d₂ := (0 : Fin 7)) (fd := fn) (src := gSl sb) (dst := slotM aM sb j) (q := (shr p).left) (fs := G16 m ρ c sb) (c' := (peer j c : Thread nD τ))
    (by rw [duties_d]; exact Finset.mem_singleton_self _) (by rw [duties_d]; exact Finset.mem_singleton_self _)
    () () N32 rfl (amount_d m ρ c 2 i 0) (amount_d m ρ (peer j c) 3 i 0) (owedFrom c (N + 1)) hO (W := W)
    (by rw [payload_d, payD_2 m ρ c sb j i p hsb hj hp])
    (by
      rw [payload_d, payD_3 m ρ (peer j c) sb j i hsb hj]; unfold wAG; rw [peer_peer]
      iintro H; iexists fn; iexact H))
  isplitr; · iapply (inv_at m ρ K (c, some (2, i))); iexact HR
  isplitr; · iapply (inv_at m ρ K (peer j c, some (3, i))); iexact HR
  isplitl [Hsrc]; · iexact Hsrc
  isplitl [Hdst]; · iexact Hdst
  isplitl [HO]; · iexact HO
  isplitl [Ht0]; · iexact Ht0
  isplitr; · iapply (reached_at m ρ K (c, some (2, i))); iexact HR
  isplitl [Ht1]; · iexact Ht1
  iapply (reached_at m ρ K (peer j c, some (3, i))); iexact HR

/-- A signal to the partner under mask `j + 1`: its barrier duty `j`, handing over this device's four receive slots `(·, j)`. -/
theorem wp_sig (K : Dev nD × CI → ℕ) (c n : Dev nD) (j : Fin 7) (hn : n = peer j c) (N : ℕ) (sem : Sem sig) (hsem : sem = barS) (k' : ℕ) (hk : k' = 1)
    {α : Type} {Q : α → sProp 𝕄} {k : PUnit → Prog (TpuEff nD τ sig (Elt F) Λ₀ .tc) α}
    (f1 f2 : Buf (Elt F) ((slotM rM 0 j : Memref sig .tc .vmem S32x512 .bf16).view.loc (c : Thread nD τ)))
    (f3 f4 : Buf (Elt F) ((slotM aM 0 j : Memref sig .tc .vmem S32x512 .bf16).view.loc (c : Thread nD τ))) (W : Waits sig Unit)
    (hO : owedFrom c N = owedFrom c (N + 1) + tallyAt (barCell (peer j c)) () 1) :
    iprop(records m ρ K ∗ owes (c : Thread nD τ) (owedFrom c N) W ∗ dutyTok ER (barCell (peer j c)) 0 j
        ∗ slotPts rM c 0 j f1 ∗ slotPts rM c 1 j f2 ∗ slotPts aM c 0 j f3 ∗ slotPts aM c 1 j f4)
      ⊢ iprop((owes (c : Thread nD τ) (owedFrom c (N + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, Proc.tc) : Thread nD τ) sem k') k) Q) := by
  subst hn hsem hk
  iintro ⟨#HR, HO, Ht, H1, H2, H3, H4⟩
  iapply (Rounds.wp_signal 𝒱₀ ER (sched m ρ) (c : Thread nD τ) none (dst := (peer j c : Thread nD τ)) (κ := K (peer j c, none))
      (d := j) (by rw [duties_bar]; exact Finset.mem_univ _) (amount_bar m ρ (peer j c) j) () (owedFrom c (N + 1)) hO)
  isplitr; · iapply (inv_at m ρ K (peer j c, none)); iexact HR
  isplitl [HO]; · iexact HO
  isplitl [Ht]; · iexact Ht
  isplitl [H1 H2 H3 H4]
  · rw [payload_bar]; unfold barPay; rw [peer_peer]
    isplitl [H1]; · iexists _; iexact H1
    isplitl [H2]; · iexists _; iexact H2
    isplitl [H3]; · iexists _; iexact H3
    iexists _; iexact H4
  · iapply (reached_at m ρ K (peer j c, none)); iexact HR

/-- The wait for the seven partners' signals: the partners' slots this device writes come with it. -/
theorem wp_wait_bar (K : Dev nD × CI → ℕ) (c : Dev nD) (sem : Sem sig) (hsem : sem = barS) (k' : ℕ) (hk : k' = 7)
    {α : Type} {Q : α → sProp 𝕄} {k : PUnit → Prog (TpuEff nD τ sig (Elt F) Λ₀ .tc) α} (W : Waits sig Unit) :
    iprop(records m ρ K ∗ levAts L lv ∗ cred (tallyAt (barCell c) () 7) ∗ owes (c : Thread nD τ) (owedFrom c 7) W ∗ atPos ER (barCell c) 0 ∅ 0)
      ⊢ iprop(((owes (c : Thread nD τ) (owedFrom c 7) (insert (SemLoc.reg barS, ()) W) ∗ atPos ER (barCell c) 1 ∅ 0
              ∗ (barPay (F := F) c 5 ∗ barPay c 1 ∗ barPay c 4 ∗ barPay c 6 ∗ barPay c 0 ∗ barPay c 2 ∗ barPay c 3))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk
  iintro ⟨#HR, #Hlev, Hc, HO, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := owedFrom c 7) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mw_bar c); iexact Hlev
    iexact Hat
  iintro ⟨HO, Hat, -, Hpay⟩
  iapply Hk
  isplitl [HO]; · iexact HO
  isplitl [Hat]; · iexact Hat
  iapply (Entails.of_eq ((rest_bar m ρ c).trans (by simp only [bigSepL_cons_cons, bigSepL_singleton]; rfl))); iexact Hpay

/-- A wait on one of the device's own DMA cells: its one duty's payload comes with it. -/
theorem wp_wait_d (K : Dev nD × CI → ℕ) (c : Dev nD) (k : Fin 4) (i : Fin 14) (s : DmaSem sig) (hs : s = dsem k i) (N : ℕ)
    {sp sp' : Space} {s1 s2 : Shape} {e1 e2 : EltTy} {src : Memref sig .tc sp' s2 e2} {dst : Memref sig .tc sp s1 e1}
    {hsrc : src.view.WordExact} {hdst : dst.view.WordExact} (hN : dst.view.dmaCredit = N32)
    {α : Type} {Q : α → sProp 𝕄} {kk : PUnit → Prog (TpuEff nD τ sig (Elt F) Λ₀ .tc) α} (W : Waits sig Unit)
    (hmw : (levAts L lv : sProp 𝕄) ⊢ MayWait (c : Thread nD τ) (.dma (dsem k i)) () (owedFrom c N)) :
    iprop(records m ρ K ∗ levAts L lv ∗ cred (tallyAt (dCell c k i) () N32) ∗ owes (c : Thread nD τ) (owedFrom c N) W ∗ atPos ER (dCell c k i) 0 ∅ 0)
      ⊢ iprop(((owes (c : Thread nD τ) (owedFrom c N) (insert (SemLoc.dma (dsem k i), ()) W) ∗ atPos ER (dCell c k i) 1 ∅ 0 ∗ payD m ρ c k i)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  have hc : (cred (tallyAt (dCell c k i) () N32) : sProp 𝕄) = cred (tallyAt (dCell c k i) () dst.view.dmaCredit) := by rw [hN]
  iintro ⟨#HR, #Hlev, Hc, HO, Hat⟩ Hk
  ihave Hc := (Entails.of_eq hc) $$ Hc
  iapply (Rounds.wp_wait_rest_token 𝒱₀ ER (sched m ρ) (c : Thread nD τ) none (κ := K (c, some (k, i)))
      (wpE_waitDma2_eq 𝒱₀ (c : Thread nD τ) none Set.univ) (Set.mem_univ _) () (O := owedFrom c N) (W := W) (R := 0) (m := 0) (T := ∅)
      (by rw [Nat.zero_add, expect_d, hN])) $$ [Hc HO Hat]
  · isplitr; · iapply (inv_at m ρ K (c, some (k, i))); iexact HR
    isplitl [Hc]; · iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iapply (Entails.of_eq (rest_d m ρ c k i)); iexact Hpay

/-- A cell whose one round is over closes: its counter at zero is the device's again. -/
theorem close_d (K : Dev nD × CI → ℕ) (c : Dev nD) (k : Fin 4) (i : Fin 14) :
    iprop(records m ρ K ∗ atPos ER (dCell c k i) 1 ∅ 0) ⊢ (|={Set.univ}=> semVal (dCell c k i) 0 : sProp 𝕄) := by
  iintro ⟨#HR, Hat⟩
  iapply (Rounds.cell_close ER (sched m ρ) (Set.mem_univ (K (c, some (k, i)))) (fun h => h) (R := 0 + 1) (duties_later m ρ (dCell c k i)))
  isplitr; · iapply (inv_at m ρ K (c, some (k, i))); iexact HR
  iexact Hat

end Cert.KernelProof
end
-- ==== Proof.ConvKernel.lean ====
import proofs.«900485_g7700000000000486_dist_treered_v7x_i8_m512_n512_f32_1_alg».proof.Proof.Gen.Kernel
import proofs.«900485_g7700000000000486_dist_treered_v7x_i8_m512_n512_f32_1_alg».proof.Proof.Gen.Kernel.Skeleton
import proofs.«900485_g7700000000000486_dist_treered_v7x_i8_m512_n512_f32_1_alg».proof.Proof.Gen.Kernel.Launch
import proofs.«900485_g7700000000000486_dist_treered_v7x_i8_m512_n512_f32_1_alg».proof.Proof.Gen.Kernel.Points
import proofs.«900485_g7700000000000486_dist_treered_v7x_i8_m512_n512_f32_1_alg».proof.Proof.StateKernel
import proofs.«900485_g7700000000000486_dist_treered_v7x_i8_m512_n512_f32_1_alg».proof.Proof.GeomKernel
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## What the body loads, and what its stores leave, as the functions of the launch contents they are -/

/-- A first-phase slot as the body loads it, the slot holding what the partner sent over anything. -/
abbrev rsRaw (c : Dev nD) (sb : Fin 2) (j : Fin 7) (fd : (cc0_scratch2 : Ref sig .tc).ty.Contents (Elt F)) : Vec F S1x1x32x512 .bf16 :=
  rM.view.readAt (Elt F) (slotR sb j).toLoadRect ((slotM rM sb j).view.write (Elt F) fd (wRS m ρ c sb j) Finset.univ)
abbrev agRaw (c : Dev nD) (sb : Fin 2) (j : Fin 7) (fd : (cc0_scratch3 : Ref sig .tc).ty.Contents (Elt F)) : Vec F S1x1x32x512 .bf16 :=
  aM.view.readAt (Elt F) (slotR sb j).toLoadRect ((slotM aM sb j).view.write (Elt F) fd (wAG m ρ c sb j) Finset.univ)
abbrev xRaw (c : Dev nD) (sb : Fin 2) : Vec F S1x32x512 .f32 := xM.view.readAt (Elt F) (xRows c sb).toLoadRect (Xb m ρ c)

theorem rsRaw_cast (c : Dev nD) (sb : Fin 2) (j : Fin 7) (fd : (cc0_scratch2 : Ref sig .tc).ty.Contents (Elt F)) :
    shapeCast S32x512 (rsRaw m ρ c sb j fd) shapeCasts_S1x1x32x512_S32x512 = wRS m ρ c sb j := slot_read rM sb j fd _
theorem agRaw_cast (c : Dev nD) (sb : Fin 2) (j : Fin 7) (fd : (cc0_scratch3 : Ref sig .tc).ty.Contents (Elt F)) :
    shapeCast S32x512 (agRaw m ρ c sb j fd) shapeCasts_S1x1x32x512_S32x512 = wAG m ρ c sb j := slot_read aM sb j fd _

theorem acc0_raw (c : Dev nD) (f5 f1 f4 f6 f0 f2 f3 : (cc0_scratch2 : Ref sig .tc).ty.Contents (Elt F)) :
    k0_pay5 (k0_pay4 (k0_pay3 (k0_pay2 (xRaw m ρ c 0) (rsRaw m ρ c 0 5 f5)) (rsRaw m ρ c 0 1 f1) (rsRaw m ρ c 0 4 f4) (rsRaw m ρ c 0 6 f6)) (rsRaw m ρ c 0 0 f0) (rsRaw m ρ c 0 2 f2)) (rsRaw m ρ c 0 3 f3) = acc m ρ c 0 := by
  unfold k0_pay5 k0_pay4 k0_pay3 k0_pay2 acc accStep
  rw [rsRaw_cast, rsRaw_cast, rsRaw_cast, rsRaw_cast, rsRaw_cast, rsRaw_cast, rsRaw_cast]
theorem acc1_raw (c : Dev nD) (h5 h1 h4 h6 h0 h2 h3 : (cc0_scratch2 : Ref sig .tc).ty.Contents (Elt F)) :
    k0_pay10 (k0_pay9 (k0_pay8 (k0_pay7 (xRaw m ρ c 1) (rsRaw m ρ c 1 5 h5) (rsRaw m ρ c 1 1 h1)) (rsRaw m ρ c 1 4 h4) (rsRaw m ρ c 1 6 h6)) (rsRaw m ρ c 1 0 h0) (rsRaw m ρ c 1 2 h2)) (rsRaw m ρ c 1 3 h3) = acc m ρ c 1 := by
  unfold k0_pay10 k0_pay9 k0_pay8 k0_pay7 acc accStep
  rw [rsRaw_cast, rsRaw_cast, rsRaw_cast, rsRaw_cast, rsRaw_cast, rsRaw_cast, rsRaw_cast]
theorem seg0_raw (c : Dev nD) (f5 f1 f4 f6 f0 f2 f3 : (cc0_scratch2 : Ref sig .tc).ty.Contents (Elt F)) :
    k0_pay6 (k0_pay4 (k0_pay3 (k0_pay2 (xRaw m ρ c 0) (rsRaw m ρ c 0 5 f5)) (rsRaw m ρ c 0 1 f1) (rsRaw m ρ c 0 4 f4) (rsRaw m ρ c 0 6 f6)) (rsRaw m ρ c 0 0 f0) (rsRaw m ρ c 0 2 f2)) (rsRaw m ρ c 0 3 f3) = wG m ρ c 0 := by
  unfold k0_pay6 wG; rw [acc0_raw]
theorem seg1_raw (c : Dev nD) (h5 h1 h4 h6 h0 h2 h3 : (cc0_scratch2 : Ref sig .tc).ty.Contents (Elt F)) :
    k0_pay11 (k0_pay9 (k0_pay8 (k0_pay7 (xRaw m ρ c 1) (rsRaw m ρ c 1 5 h5) (rsRaw m ρ c 1 1 h1)) (rsRaw m ρ c 1 4 h4) (rsRaw m ρ c 1 6 h6)) (rsRaw m ρ c 1 0 h0) (rsRaw m ρ c 1 2 h2)) (rsRaw m ρ c 1 3 h3) = wG m ρ c 1 := by
  unfold k0_pay11 wG; rw [acc1_raw]

theorem pay_0_5 (c : Dev nD) (a : (cc0_scratch3 : Ref sig .tc).ty.Contents (Elt F)) : k0_pay12 (agRaw m ρ c 0 5 a) = wOut m ρ c 0 5 := by
  unfold k0_pay12 wOut; rw [agRaw_cast]
theorem pay_0_1 (c : Dev nD) (a : (cc0_scratch3 : Ref sig .tc).ty.Contents (Elt F)) : k0_pay13 (agRaw m ρ c 0 1 a) = wOut m ρ c 0 1 := by
  unfold k0_pay13 wOut; rw [agRaw_cast]
theorem pay_0_4 (c : Dev nD) (a : (cc0_scratch3 : Ref sig .tc).ty.Contents (Elt F)) : k0_pay14 (agRaw m ρ c 0 4 a) = wOut m ρ c 0 4 := by
  unfold k0_pay14 wOut; rw [agRaw_cast]
theorem pay_0_6 (c : Dev nD) (a : (cc0_scratch3 : Ref sig .tc).ty.Contents (Elt F)) : k0_pay15 (agRaw m ρ c 0 6 a) = wOut m ρ c 0 6 := by
  unfold k0_pay15 wOut; rw [agRaw_cast]
theorem pay_0_0 (c : Dev nD) (a : (cc0_scratch3 : Ref sig .tc).ty.Contents (Elt F)) : k0_pay16 (agRaw m ρ c 0 0 a) = wOut m ρ c 0 0 := by
  unfold k0_pay16 wOut; rw [agRaw_cast]
theorem pay_0_2 (c : Dev nD) (a : (cc0_scratch3 : Ref sig .tc).ty.Contents (Elt F)) : k0_pay17 (agRaw m ρ c 0 2 a) = wOut m ρ c 0 2 := by
  unfold k0_pay17 wOut; rw [agRaw_cast]
theorem pay_0_3 (c : Dev nD) (a : (cc0_scratch3 : Ref sig .tc).ty.Contents (Elt F)) : k0_pay18 (agRaw m ρ c 0 3 a) = wOut m ρ c 0 3 := by
  unfold k0_pay18 wOut; rw [agRaw_cast]
theorem pay_1_5 (c : Dev nD) (a : (cc0_scratch3 : Ref sig .tc).ty.Contents (Elt F)) : k0_pay19 (agRaw m ρ c 1 5 a) = wOut m ρ c 1 5 := by
  unfold k0_pay19 wOut; rw [agRaw_cast]
theorem pay_1_1 (c : Dev nD) (a : (cc0_scratch3 : Ref sig .tc).ty.Contents (Elt F)) : k0_pay21 (k0_pay20 (agRaw m ρ c 1 1 a)) = wOut m ρ c 1 1 := by
  unfold k0_pay21 k0_pay20 wOut; rw [agRaw_cast]
theorem pay_1_4 (c : Dev nD) (a : (cc0_scratch3 : Ref sig .tc).ty.Contents (Elt F)) : k0_pay22 (agRaw m ρ c 1 4 a) = wOut m ρ c 1 4 := by
  unfold k0_pay22 wOut; rw [agRaw_cast]
theorem pay_1_6 (c : Dev nD) (a : (cc0_scratch3 : Ref sig .tc).ty.Contents (Elt F)) : k0_pay23 (agRaw m ρ c 1 6 a) = wOut m ρ c 1 6 := by
  unfold k0_pay23 wOut; rw [agRaw_cast]
theorem pay_1_0 (c : Dev nD) (a : (cc0_scratch3 : Ref sig .tc).ty.Contents (Elt F)) : k0_pay24 (agRaw m ρ c 1 0 a) = wOut m ρ c 1 0 := by
  unfold k0_pay24 wOut; rw [agRaw_cast]
theorem pay_1_2 (c : Dev nD) (a : (cc0_scratch3 : Ref sig .tc).ty.Contents (Elt F)) : k0_pay25 (agRaw m ρ c 1 2 a) = wOut m ρ c 1 2 := by
  unfold k0_pay25 wOut; rw [agRaw_cast]
theorem pay_1_3 (c : Dev nD) (a : (cc0_scratch3 : Ref sig .tc).ty.Contents (Elt F)) : k0_pay26 (agRaw m ρ c 1 3 a) = wOut m ρ c 1 3 := by
  unfold k0_pay26 wOut; rw [agRaw_cast]

omit [FloatOps F] in
theorem hz2 : (![0, 0] : Fin 2 → Nat) = fun _ => 0 := funext fun a => by fin_cases a <;> rfl

/-- The 16-bit copy stored whole. -/
theorem conv_x16 (c : Dev nD) (fh : (cc0_scratch0 : Ref sig .tc).ty.Contents (Elt F)) :
    (((c : Thread nD τ).loc cc0_scratch0) ↦{fullShare} ((hM.access hRect).write (Elt F) fh (k0_pay1 (xM.view.readAt (Elt F) xRect.toLoadRect (Xb m ρ c))) Finset.univ) : sProp 𝕄)
      ⊢ (((c : Thread nD τ).loc cc0_scratch0) ↦{fullShare} X16 m ρ c) := by
  rw [show (hM.access hRect).write (Elt F) fh (k0_pay1 (xM.view.readAt (Elt F) xRect.toLoadRect (Xb m ρ c))) Finset.univ = X16 m ρ c from
    Memref.write_access_unit_zero_univ (Elt F) cc0_scratch0 hz2 _ fh _]

/-- A half of the segment buffer after its store, on its own elements, whatever the buffer held. -/
theorem conv_seg0 (c : Dev nD) (fg : (cc0_scratch1 : Ref sig .tc).ty.Contents (Elt F)) (f5 f1 f4 f6 f0 f2 f3 : (cc0_scratch2 : Ref sig .tc).ty.Contents (Elt F)) :
    ((gSl 0).view.loc (c : Thread nD τ) ↦[(gSl 0).view.set]{fullShare} ((gM.access (gRect 0)).write (Elt F) fg (k0_pay6 (k0_pay4 (k0_pay3 (k0_pay2 (xRaw m ρ c 0) (rsRaw m ρ c 0 5 f5)) (rsRaw m ρ c 0 1 f1) (rsRaw m ρ c 0 4 f4) (rsRaw m ρ c 0 6 f6)) (rsRaw m ρ c 0 0 f0) (rsRaw m ρ c 0 2 f2)) (rsRaw m ρ c 0 3 f3)) Finset.univ) : sProp 𝕄)
      ⊢ ((gSl 0).view.loc (c : Thread nD τ) ↦[(gSl 0).view.set]{fullShare} G16 m ρ c 0) := by
  rw [seg0_raw]; exact Entails.of_eq (BI.Region.is_congr fun i hi => by unfold G16; exact write_congr_set (gM.access (gRect 0)) _ _ _ i hi)
theorem conv_seg1 (c : Dev nD) (fg : (cc0_scratch1 : Ref sig .tc).ty.Contents (Elt F)) (h5 h1 h4 h6 h0 h2 h3 : (cc0_scratch2 : Ref sig .tc).ty.Contents (Elt F)) :
    ((gSl 1).view.loc (c : Thread nD τ) ↦[(gSl 1).view.set]{fullShare} ((gM.access (gRect 1)).write (Elt F) fg (k0_pay11 (k0_pay9 (k0_pay8 (k0_pay7 (xRaw m ρ c 1) (rsRaw m ρ c 1 5 h5) (rsRaw m ρ c 1 1 h1)) (rsRaw m ρ c 1 4 h4) (rsRaw m ρ c 1 6 h6)) (rsRaw m ρ c 1 0 h0) (rsRaw m ρ c 1 2 h2)) (rsRaw m ρ c 1 3 h3)) Finset.univ) : sProp 𝕄)
      ⊢ ((gSl 1).view.loc (c : Thread nD τ) ↦[(gSl 1).view.set]{fullShare} G16 m ρ c 1) := by
  rw [seg1_raw]; exact Entails.of_eq (BI.Region.is_congr fun i hi => by unfold G16; exact write_congr_set (gM.access (gRect 1)) _ _ _ i hi)

/-! ### The sixteen stores into the result cover it -/

theorem mem_oOwn (c : Dev nD) (sb : Fin 2) (x : (cc0_stg1_0 : Ref sig .tc).ty.shape.Idx) :
    x ∈ (oM.access (oOwn c sb)).setOn Finset.univ ↔ 64 * c.val + 32 * sb.val ≤ (x 0).val ∧ (x 0).val < 64 * c.val + 32 * sb.val + 32 := by
  show x ∈ ((View.whole cc0_stg1_0).slice (oOwn c sb)).set ↔ _
  rw [View.set_slice_whole, Rect.mem_set_unit, k0_off3_eq]
  constructor
  · intro h
    have h0 := h 0
    simp only [Matrix.cons_val_zero] at h0
    exact h0
  · intro h a
    have hx : (x a).val < (![512, 512] : Fin 2 → ℕ) a := (x a).isLt
    fin_cases a <;> simp at hx ⊢ <;> omega

theorem mem_oPeer (c : Dev nD) (j : Fin 7) (sb : Fin 2) (x : (cc0_stg1_0 : Ref sig .tc).ty.shape.Idx) :
    x ∈ (oM.access (oPeer c j sb)).setOn Finset.univ ↔ 64 * (peer j c).val + 32 * sb.val ≤ (x 0).val ∧ (x 0).val < 64 * (peer j c).val + 32 * sb.val + 32 := by
  show x ∈ ((View.whole cc0_stg1_0).slice (oPeer c j sb)).set ↔ _
  rw [View.set_slice_whole, Rect.mem_set_unit, off4_eq]
  constructor
  · intro h
    have h0 := h 0
    simp only [Matrix.cons_val_zero] at h0
    exact h0
  · intro h a
    have hx : (x a).val < (![512, 512] : Fin 2 → ℕ) a := (x a).isLt
    fin_cases a <;> simp at hx ⊢ <;> omega

end Cert.KernelProof
end
-- ==== Proof.OutKernel.lean ====
import proofs.«900485_g7700000000000486_dist_treered_v7x_i8_m512_n512_f32_1_alg».proof.Proof.Gen.Kernel
import proofs.«900485_g7700000000000486_dist_treered_v7x_i8_m512_n512_f32_1_alg».proof.Proof.Gen.Kernel.Skeleton
import proofs.«900485_g7700000000000486_dist_treered_v7x_i8_m512_n512_f32_1_alg».proof.Proof.Gen.Kernel.Launch
import proofs.«900485_g7700000000000486_dist_treered_v7x_i8_m512_n512_f32_1_alg».proof.Proof.Gen.Kernel.Points
import proofs.«900485_g7700000000000486_dist_treered_v7x_i8_m512_n512_f32_1_alg».proof.Proof.ConvKernel
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The sixteen stores into the result cover it: what it held before does not matter -/

theorem peer_cases : ∀ c q : Dev nD, q ≠ c → (peer 0 c = q ∨ peer 1 c = q ∨ peer 2 c = q ∨ peer 3 c = q ∨ peer 4 c = q ∨ peer 5 c = q ∨ peer 6 c = q) := by decide

set_option maxHeartbeats 1600000 in
theorem out_cover (c : Dev nD) (g g' : (cc0_stg1_0 : Ref sig .tc).ty.Contents (Elt F)) : outW m ρ c g = outW m ρ c g' := by
  funext x
  unfold outW
  refine View.write_congr (fun _ _ _ => rfl) fun h_p_1_3 => ?_
  refine View.write_congr (fun _ _ _ => rfl) fun h_p_1_2 => ?_
  refine View.write_congr (fun _ _ _ => rfl) fun h_p_1_0 => ?_
  refine View.write_congr (fun _ _ _ => rfl) fun h_p_1_6 => ?_
  refine View.write_congr (fun _ _ _ => rfl) fun h_p_1_4 => ?_
  refine View.write_congr (fun _ _ _ => rfl) fun h_p_1_1 => ?_
  refine View.write_congr (fun _ _ _ => rfl) fun h_p_1_5 => ?_
  refine View.write_congr (fun _ _ _ => rfl) fun h_p_0_3 => ?_
  refine View.write_congr (fun _ _ _ => rfl) fun h_p_0_2 => ?_
  refine View.write_congr (fun _ _ _ => rfl) fun h_p_0_0 => ?_
  refine View.write_congr (fun _ _ _ => rfl) fun h_p_0_6 => ?_
  refine View.write_congr (fun _ _ _ => rfl) fun h_p_0_4 => ?_
  refine View.write_congr (fun _ _ _ => rfl) fun h_p_0_1 => ?_
  refine View.write_congr (fun _ _ _ => rfl) fun h_p_0_5 => ?_
  refine View.write_congr (fun _ _ _ => rfl) fun h_own1 => ?_
  refine View.write_congr (fun _ _ _ => rfl) fun h_own0 => ?_
  exfalso
  rw [mem_oOwn] at h_own0 h_own1
  rw [mem_oPeer] at h_p_0_5 h_p_0_1 h_p_0_4 h_p_0_6 h_p_0_0 h_p_0_2 h_p_0_3 h_p_1_5 h_p_1_1 h_p_1_4 h_p_1_6 h_p_1_0 h_p_1_2 h_p_1_3
  have hr : (x 0).val < 512 := (x 0).isLt
  have hc := c.isLt
  by_cases hq : (x 0).val / 64 = c.val
  · simp only [Fin.val_zero, Fin.val_one] at h_own0 h_own1; omega
  · have hne : (⟨(x 0).val / 64, by show (x 0).val / 64 < 8; omega⟩ : Dev nD) ≠ c := fun h => hq (congrArg Fin.val h)
    rcases peer_cases c _ hne with h | h | h | h | h | h | h
    · have hv : (peer 0 c).val = (x 0).val / 64 := by rw [h]
      simp only [Fin.val_zero, Fin.val_one] at *; omega
    · have hv : (peer 1 c).val = (x 0).val / 64 := by rw [h]
      simp only [Fin.val_zero, Fin.val_one] at *; omega
    · have hv : (peer 2 c).val = (x 0).val / 64 := by rw [h]
      simp only [Fin.val_zero, Fin.val_one] at *; omega
    · have hv : (peer 3 c).val = (x 0).val / 64 := by rw [h]
      simp only [Fin.val_zero, Fin.val_one] at *; omega
    · have hv : (peer 4 c).val = (x 0).val / 64 := by rw [h]
      simp only [Fin.val_zero, Fin.val_one] at *; omega
    · have hv : (peer 5 c).val = (x 0).val / 64 := by rw [h]
      simp only [Fin.val_zero, Fin.val_one] at *; omega
    · have hv : (peer 6 c).val = (x 0).val / 64 := by rw [h]
      simp only [Fin.val_zero, Fin.val_one] at *; omega

/-- The result after the body, whatever the loaded slots and the result buffer held before. -/
theorem conv_out (c : Dev nD) (g : (cc0_stg1_0 : Ref sig .tc).ty.Contents (Elt F)) (f5 f1 f4 f6 f0 f2 f3 h5 h1 h4 h6 h0 h2 h3 : (cc0_scratch2 : Ref sig .tc).ty.Contents (Elt F)) (a5 a1 a4 a6 a0 a2 a3 b5 b1 b4 b6 b0 b2 b3 : (cc0_scratch3 : Ref sig .tc).ty.Contents (Elt F)) :
    (((c : Thread nD τ).loc cc0_stg1_0) ↦{fullShare} ((oM.access (oPeer c 3 1)).write (Elt F) ((oM.access (oPeer c 2 1)).write (Elt F) ((oM.access (oPeer c 0 1)).write (Elt F) ((oM.access (oPeer c 6 1)).write (Elt F) ((oM.access (oPeer c 4 1)).write (Elt F) ((oM.access (oPeer c 1 1)).write (Elt F) ((oM.access (oPeer c 5 1)).write (Elt F) ((oM.access (oPeer c 3 0)).write (Elt F) ((oM.access (oPeer c 2 0)).write (Elt F) ((oM.access (oPeer c 0 0)).write (Elt F) ((oM.access (oPeer c 6 0)).write (Elt F) ((oM.access (oPeer c 4 0)).write (Elt F) ((oM.access (oPeer c 1 0)).write (Elt F) ((oM.access (oPeer c 5 0)).write (Elt F) ((oM.access (oOwn c 1)).write (Elt F) ((oM.access (oOwn c 0)).write (Elt F) g (k0_pay5 (k0_pay4 (k0_pay3 (k0_pay2 (xRaw m ρ c 0) (rsRaw m ρ c 0 5 f5)) (rsRaw m ρ c 0 1 f1) (rsRaw m ρ c 0 4 f4) (rsRaw m ρ c 0 6 f6)) (rsRaw m ρ c 0 0 f0) (rsRaw m ρ c 0 2 f2)) (rsRaw m ρ c 0 3 f3)) Finset.univ) (k0_pay10 (k0_pay9 (k0_pay8 (k0_pay7 (xRaw m ρ c 1) (rsRaw m ρ c 1 5 h5) (rsRaw m ρ c 1 1 h1)) (rsRaw m ρ c 1 4 h4) (rsRaw m ρ c 1 6 h6)) (rsRaw m ρ c 1 0 h0) (rsRaw m ρ c 1 2 h2)) (rsRaw m ρ c 1 3 h3)) Finset.univ) (k0_pay12 (agRaw m ρ c 0 5 a5)) Finset.univ) (k0_pay13 (agRaw m ρ c 0 1 a1)) Finset.univ) (k0_pay14 (agRaw m ρ c 0 4 a4)) Finset.univ) (k0_pay15 (agRaw m ρ c 0 6 a6)) Finset.univ) (k0_pay16 (agRaw m ρ c 0 0 a0)) Finset.univ) (k0_pay17 (agRaw m ρ c 0 2 a2)) Finset.univ) (k0_pay18 (agRaw m ρ c 0 3 a3)) Finset.univ) (k0_pay19 (agRaw m ρ c 1 5 b5)) Finset.univ) (k0_pay21 (k0_pay20 (agRaw m ρ c 1 1 b1))) Finset.univ) (k0_pay22 (agRaw m ρ c 1 4 b4)) Finset.univ) (k0_pay23 (agRaw m ρ c 1 6 b6)) Finset.univ) (k0_pay24 (agRaw m ρ c 1 0 b0)) Finset.univ) (k0_pay25 (agRaw m ρ c 1 2 b2)) Finset.univ) (k0_pay26 (agRaw m ρ c 1 3 b3)) Finset.univ) : sProp 𝕄)
      ⊢ (((c : Thread nD τ).loc cc0_stg1_0) ↦{fullShare} outFin m ρ c) := by
  rw [acc0_raw, acc1_raw, pay_0_5, pay_0_1, pay_0_4, pay_0_6, pay_0_0, pay_0_2, pay_0_3, pay_1_5, pay_1_1, pay_1_4, pay_1_6, pay_1_0, pay_1_2, pay_1_3]
  exact Entails.of_eq (congrArg (fun f => (((c : Thread nD τ).loc cc0_stg1_0) ↦{fullShare} f : sProp 𝕄)) (out_cover m ρ c g _))

end Cert.KernelProof
end
-- ==== Proof.BodyKernel.lean ====
import proofs.«900485_g7700000000000486_dist_treered_v7x_i8_m512_n512_f32_1_alg».proof.Proof.Gen.Kernel
import proofs.«900485_g7700000000000486_dist_treered_v7x_i8_m512_n512_f32_1_alg».proof.Proof.Gen.Kernel.Skeleton
import proofs.«900485_g7700000000000486_dist_treered_v7x_i8_m512_n512_f32_1_alg».proof.Proof.Gen.Kernel.Launch
import proofs.«900485_g7700000000000486_dist_treered_v7x_i8_m512_n512_f32_1_alg».proof.Proof.Gen.Kernel.Points
import proofs.«900485_g7700000000000486_dist_treered_v7x_i8_m512_n512_f32_1_alg».proof.Proof.StepsKernel
import proofs.«900485_g7700000000000486_dist_treered_v7x_i8_m512_n512_f32_1_alg».proof.Proof.OutKernel
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The body -/

/-- The own DMA cells' counters at zero, cell by cell in the order the body closes them. -/
def semX (c : Dev nD) : sProp 𝕄 :=
  iprop(semVal (dCell c 0 5) 0 ∗ semVal (dCell c 0 1) 0 ∗ semVal (dCell c 0 4) 0 ∗ semVal (dCell c 0 6) 0 ∗ semVal (dCell c 0 0) 0 ∗ semVal (dCell c 0 2) 0 ∗ semVal (dCell c 0 3) 0 ∗ semVal (dCell c 0 12) 0 ∗ semVal (dCell c 0 8) 0 ∗ semVal (dCell c 0 11) 0 ∗ semVal (dCell c 0 13) 0 ∗ semVal (dCell c 0 7) 0 ∗ semVal (dCell c 0 9) 0 ∗ semVal (dCell c 0 10) 0 ∗ semVal (dCell c 1 5) 0 ∗ semVal (dCell c 1 1) 0 ∗ semVal (dCell c 1 4) 0 ∗ semVal (dCell c 1 6) 0 ∗ semVal (dCell c 1 0) 0 ∗ semVal (dCell c 1 2) 0 ∗ semVal (dCell c 1 3) 0 ∗ semVal (dCell c 1 12) 0 ∗ semVal (dCell c 1 8) 0 ∗ semVal (dCell c 1 11) 0 ∗ semVal (dCell c 1 13) 0 ∗ semVal (dCell c 1 7) 0 ∗ semVal (dCell c 1 9) 0 ∗ semVal (dCell c 1 10) 0 ∗ semVal (dCell c 2 5) 0 ∗ semVal (dCell c 2 1) 0 ∗ semVal (dCell c 2 4) 0 ∗ semVal (dCell c 2 6) 0 ∗ semVal (dCell c 2 0) 0 ∗ semVal (dCell c 2 2) 0 ∗ semVal (dCell c 2 3) 0 ∗ semVal (dCell c 2 12) 0 ∗ semVal (dCell c 2 8) 0 ∗ semVal (dCell c 2 11) 0 ∗ semVal (dCell c 2 13) 0 ∗ semVal (dCell c 2 7) 0 ∗ semVal (dCell c 2 9) 0 ∗ semVal (dCell c 2 10) 0 ∗ semVal (dCell c 3 5) 0 ∗ semVal (dCell c 3 1) 0 ∗ semVal (dCell c 3 4) 0 ∗ semVal (dCell c 3 6) 0 ∗ semVal (dCell c 3 0) 0 ∗ semVal (dCell c 3 2) 0 ∗ semVal (dCell c 3 3) 0 ∗ semVal (dCell c 3 12) 0 ∗ semVal (dCell c 3 8) 0 ∗ semVal (dCell c 3 11) 0 ∗ semVal (dCell c 3 13) 0 ∗ semVal (dCell c 3 7) 0 ∗ semVal (dCell c 3 9) 0 ∗ semVal (dCell c 3 10) 0)
omit [FloatOps F] in
theorem semX_eq (c : Dev nD) : (bigSepL allKI fun ki : Fin 4 × Fin 14 => (semVal ((c : Thread nD τ), osem ki) 0 : sProp 𝕄)) = semX c := by
  unfold semX; simp only [bigSepL_cons_cons, bigSepL_singleton]; rfl

/-! ### Pieces and shares, at the names the body's statements use -/

omit [FloatOps F] in
theorem take_hsl' (c : Dev nD) (sb : Fin 2) (j : Fin 7) (i : Fin 14) (hsb : sbOf i = sb) (hj : jOf i = j) (l : List (Fin 14)) (h : ∀ i' ∈ l, i ≠ i')
    (f : Buf (Elt F) ((c : Thread nD τ).loc cc0_scratch0)) :
    (((c : Thread nD τ).loc cc0_scratch0) ↦[restH c l]{fullShare} f : sProp 𝕄)
      ⊢ iprop(((hSl c j sb).view.loc (c : Thread nD τ) ↦[(hSl c j sb).view.set]{fullShare} f) ∗ (((c : Thread nD τ).loc cc0_scratch0) ↦[restH c (i :: l)]{fullShare} f)) := by
  subst hsb hj; exact take_hsl c i l h f
omit [FloatOps F] in
theorem give_hsl' (c : Dev nD) (sb : Fin 2) (j : Fin 7) (i : Fin 14) (hsb : sbOf i = sb) (hj : jOf i = j) (l : List (Fin 14)) (h : ∀ i' ∈ l, i ≠ i')
    (f g : Buf (Elt F) ((c : Thread nD τ).loc cc0_scratch0)) :
    iprop(((hSl c j sb).view.loc (c : Thread nD τ) ↦[(hSl c j sb).view.set]{fullShare} g) ∗ (((c : Thread nD τ).loc cc0_scratch0) ↦[restH c (i :: l)]{fullShare} f))
      ⊢ (∃ f' : Buf (Elt F) ((c : Thread nD τ).loc cc0_scratch0), ((c : Thread nD τ).loc cc0_scratch0) ↦[restH c l]{fullShare} f' : sProp 𝕄) := by
  subst hsb hj; exact give_hsl c i l h f g
omit [FloatOps F] in
theorem to_shr0 (c : Dev nD) (sb : Fin 2) (f : Buf (Elt F) ((gSl sb).view.loc (c : Thread nD τ))) :
    ((gSl sb).view.loc (c : Thread nD τ) ↦[(gSl sb).view.set]{fullShare} f : sProp 𝕄) ⊢ ((gSl sb).view.loc (c : Thread nD τ) ↦[(gSl sb).view.set]{shr 0} f) := Entails.of_eq rfl
omit [FloatOps F] in
theorem from_shr0 (c : Dev nD) (sb : Fin 2) (f : Buf (Elt F) ((gSl sb).view.loc (c : Thread nD τ))) :
    ((gSl sb).view.loc (c : Thread nD τ) ↦[(gSl sb).view.set]{shr 0} f : sProp 𝕄) ⊢ ((gSl sb).view.loc (c : Thread nD τ) ↦[(gSl sb).view.set]{fullShare} f) := Entails.of_eq rfl
omit [FloatOps F] in
theorem share_split (c : Dev nD) (sb : Fin 2) (p q : ℕ) (hq : q = p + 1) (f : Buf (Elt F) ((gSl sb).view.loc (c : Thread nD τ))) :
    ((gSl sb).view.loc (c : Thread nD τ) ↦[(gSl sb).view.set]{shr p} f : sProp 𝕄)
      ⊢ iprop(((gSl sb).view.loc (c : Thread nD τ) ↦[(gSl sb).view.set]{(shr p).left} f) ∗ ((gSl sb).view.loc (c : Thread nD τ) ↦[(gSl sb).view.set]{shr q} f)) := by
  subst hq; exact (BI.Region.is_share (PosShare.mem_left_op_right (shr p))).1
omit [FloatOps F] in
theorem share_join (c : Dev nD) (sb : Fin 2) (p q : ℕ) (hq : q = p + 1) (f : Buf (Elt F) ((gSl sb).view.loc (c : Thread nD τ))) :
    iprop(((gSl sb).view.loc (c : Thread nD τ) ↦[(gSl sb).view.set]{(shr p).left} f) ∗ ((gSl sb).view.loc (c : Thread nD τ) ↦[(gSl sb).view.set]{shr q} f))
      ⊢ ((gSl sb).view.loc (c : Thread nD τ) ↦[(gSl sb).view.set]{shr p} f : sProp 𝕄) := by
  subst hq; exact (BI.Region.is_share (PosShare.mem_left_op_right (shr p))).2

def bodyPreK (K : Dev nD × CI → ℕ) (c : Dev nD) : sProp 𝕄 :=
  iprop(((ghostX m ρ K c ∗ cred (tallyAt (barCell c) () 7) ∗ credX c ∗ levAts L lv)
      ∗ scr c cc0_scratch0 ∗ scr c cc0_scratch1 ∗ scr c cc0_scratch2 ∗ scr c cc0_scratch3)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 4000000 in
set_option maxRecDepth 65536 in
theorem sound_body (K : Dev nD × CI → ℕ) (c : Dev nD) (Kt : PUnit → sProp 𝕄) :
    iprop(bodyPreK m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part34_eq_skeleton]; unfold k0_part34_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, wp_deviceId]
  unfold bodyPreK ghostX credX scr
  iintro ⟨⟨⟨⟨⟨#HR, HpB, ⟨Hp0_5, Hp0_1, Hp0_4, Hp0_6, Hp0_0, Hp0_2, Hp0_3, Hp0_12, Hp0_8, Hp0_11, Hp0_13, Hp0_7, Hp0_9, Hp0_10⟩, ⟨Hp1_5, Hp1_1, Hp1_4, Hp1_6, Hp1_0, Hp1_2, Hp1_3, Hp1_12, Hp1_8, Hp1_11, Hp1_13, Hp1_7, Hp1_9, Hp1_10⟩, ⟨Hp2_5, Hp2_1, Hp2_4, Hp2_6, Hp2_0, Hp2_2, Hp2_3, Hp2_12, Hp2_8, Hp2_11, Hp2_13, Hp2_7, Hp2_9, Hp2_10⟩, ⟨Hp3_5, Hp3_1, Hp3_4, Hp3_6, Hp3_0, Hp3_2, Hp3_3, Hp3_12, Hp3_8, Hp3_11, Hp3_13, Hp3_7, Hp3_9, Hp3_10⟩, ⟨HtB_5, HtB_1, HtB_4, HtB_6, HtB_0, HtB_2, HtB_3⟩, ⟨Ht0_5, Ht0_1, Ht0_4, Ht0_6, Ht0_0, Ht0_2, Ht0_3, Ht0_12, Ht0_8, Ht0_11, Ht0_13, Ht0_7, Ht0_9, Ht0_10⟩, ⟨Ht1_5, Ht1_1, Ht1_4, Ht1_6, Ht1_0, Ht1_2, Ht1_3, Ht1_12, Ht1_8, Ht1_11, Ht1_13, Ht1_7, Ht1_9, Ht1_10⟩, ⟨Ht2_5, Ht2_1, Ht2_4, Ht2_6, Ht2_0, Ht2_2, Ht2_3, Ht2_12, Ht2_8, Ht2_11, Ht2_13, Ht2_7, Ht2_9, Ht2_10⟩, ⟨Ht3_5, Ht3_1, Ht3_4, Ht3_6, Ht3_0, Ht3_2, Ht3_3, Ht3_12, Ht3_8, Ht3_11, Ht3_13, Ht3_7, Ht3_9, Ht3_10⟩⟩, HcB, ⟨⟨Hc1_5, Hc1_1, Hc1_4, Hc1_6, Hc1_0, Hc1_2, Hc1_3, Hc1_12, Hc1_8, Hc1_11, Hc1_13, Hc1_7, Hc1_9, Hc1_10⟩, ⟨Hc3_5, Hc3_1, Hc3_4, Hc3_6, Hc3_0, Hc3_2, Hc3_3, Hc3_12, Hc3_8, Hc3_11, Hc3_13, Hc3_7, Hc3_9, Hc3_10⟩⟩, #Hlev⟩, ⟨%fh, Hh⟩, ⟨%fg, Hg⟩, ⟨%fr, Hr⟩, ⟨%fa, Ha⟩⟩, Ho, ⟨%d0, %g0, %hg0, Hx⟩, ⟨%d1, %g1, %hg1, Hout⟩⟩, Hk⟩
  have hx : g0 = Xb m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedFrom c 0 from rfl]
  -- the block read whole; its 16-bit copy stored whole
  iapply (wp_load 𝒱₀ (c : Thread nD τ) none Set.univ (m := xM) (Finset.subset_univ _)) $$ Hx; iintro Hx
  iapply (wp_load 𝒱₀ (c : Thread nD τ) none Set.univ (m := hM) (Finset.subset_univ _)) $$ Hh; iintro Hh
  iapply (wp_store 𝒱₀ (c : Thread nD τ) none Set.univ (m := hM) (r := hRect) (Mk := Finset.univ) (Finset.subset_univ _)) $$ Hh; iintro Hh
  ihave Hh := (conv_x16 m ρ c fh) $$ Hh
  ihave Hh := (to_restH c _) $$ Hh
  ihave Hr := (to_restR c fr) $$ Hr
  ihave Ha := (to_restA c fa) $$ Ha
  -- the two receive buffers taken apart into their fourteen slots, the segment buffer into its halves
  ihave Hs := (take_rslot c (0, 5) [] (by decide) fr) $$ Hr; icases Hs with ⟨Hrs_5, Hr⟩
  ihave Hs := (take_aslot c (0, 5) [] (by decide) fa) $$ Ha; icases Hs with ⟨Hag_5, Ha⟩
  ihave Hs := (take_rslot c (0, 1) [(0, 5)] (by decide) fr) $$ Hr; icases Hs with ⟨Hrs_1, Hr⟩
  ihave Hs := (take_aslot c (0, 1) [(0, 5)] (by decide) fa) $$ Ha; icases Hs with ⟨Hag_1, Ha⟩
  ihave Hs := (take_rslot c (0, 4) [(0, 1), (0, 5)] (by decide) fr) $$ Hr; icases Hs with ⟨Hrs_4, Hr⟩
  ihave Hs := (take_aslot c (0, 4) [(0, 1), (0, 5)] (by decide) fa) $$ Ha; icases Hs with ⟨Hag_4, Ha⟩
  ihave Hs := (take_rslot c (0, 6) [(0, 4), (0, 1), (0, 5)] (by decide) fr) $$ Hr; icases Hs with ⟨Hrs_6, Hr⟩
  ihave Hs := (take_aslot c (0, 6) [(0, 4), (0, 1), (0, 5)] (by decide) fa) $$ Ha; icases Hs with ⟨Hag_6, Ha⟩
  ihave Hs := (take_rslot c (0, 0) [(0, 6), (0, 4), (0, 1), (0, 5)] (by decide) fr) $$ Hr; icases Hs with ⟨Hrs_0, Hr⟩
  ihave Hs := (take_aslot c (0, 0) [(0, 6), (0, 4), (0, 1), (0, 5)] (by decide) fa) $$ Ha; icases Hs with ⟨Hag_0, Ha⟩
  ihave Hs := (take_rslot c (0, 2) [(0, 0), (0, 6), (0, 4), (0, 1), (0, 5)] (by decide) fr) $$ Hr; icases Hs with ⟨Hrs_2, Hr⟩
  ihave Hs := (take_aslot c (0, 2) [(0, 0), (0, 6), (0, 4), (0, 1), (0, 5)] (by decide) fa) $$ Ha; icases Hs with ⟨Hag_2, Ha⟩
  ihave Hs := (take_rslot c (0, 3) [(0, 2), (0, 0), (0, 6), (0, 4), (0, 1), (0, 5)] (by decide) fr) $$ Hr; icases Hs with ⟨Hrs_3, Hr⟩
  ihave Hs := (take_aslot c (0, 3) [(0, 2), (0, 0), (0, 6), (0, 4), (0, 1), (0, 5)] (by decide) fa) $$ Ha; icases Hs with ⟨Hag_3, Ha⟩
  ihave Hs := (take_rslot c (1, 5) [(0, 3), (0, 2), (0, 0), (0, 6), (0, 4), (0, 1), (0, 5)] (by decide) fr) $$ Hr; icases Hs with ⟨Hrs_12, Hr⟩
  ihave Hs := (take_aslot c (1, 5) [(0, 3), (0, 2), (0, 0), (0, 6), (0, 4), (0, 1), (0, 5)] (by decide) fa) $$ Ha; icases Hs with ⟨Hag_12, Ha⟩
  ihave Hs := (take_rslot c (1, 1) [(1, 5), (0, 3), (0, 2), (0, 0), (0, 6), (0, 4), (0, 1), (0, 5)] (by decide) fr) $$ Hr; icases Hs with ⟨Hrs_8, Hr⟩
  ihave Hs := (take_aslot c (1, 1) [(1, 5), (0, 3), (0, 2), (0, 0), (0, 6), (0, 4), (0, 1), (0, 5)] (by decide) fa) $$ Ha; icases Hs with ⟨Hag_8, Ha⟩
  ihave Hs := (take_rslot c (1, 4) [(1, 1), (1, 5), (0, 3), (0, 2), (0, 0), (0, 6), (0, 4), (0, 1), (0, 5)] (by decide) fr) $$ Hr; icases Hs with ⟨Hrs_11, Hr⟩
  ihave Hs := (take_aslot c (1, 4) [(1, 1), (1, 5), (0, 3), (0, 2), (0, 0), (0, 6), (0, 4), (0, 1), (0, 5)] (by decide) fa) $$ Ha; icases Hs with ⟨Hag_11, Ha⟩
  ihave Hs := (take_rslot c (1, 6) [(1, 4), (1, 1), (1, 5), (0, 3), (0, 2), (0, 0), (0, 6), (0, 4), (0, 1), (0, 5)] (by decide) fr) $$ Hr; icases Hs with ⟨Hrs_13, Hr⟩
  ihave Hs := (take_aslot c (1, 6) [(1, 4), (1, 1), (1, 5), (0, 3), (0, 2), (0, 0), (0, 6), (0, 4), (0, 1), (0, 5)] (by decide) fa) $$ Ha; icases Hs with ⟨Hag_13, Ha⟩
  ihave Hs := (take_rslot c (1, 0) [(1, 6), (1, 4), (1, 1), (1, 5), (0, 3), (0, 2), (0, 0), (0, 6), (0, 4), (0, 1), (0, 5)] (by decide) fr) $$ Hr; icases Hs with ⟨Hrs_7, Hr⟩
  ihave Hs := (take_aslot c (1, 0) [(1, 6), (1, 4), (1, 1), (1, 5), (0, 3), (0, 2), (0, 0), (0, 6), (0, 4), (0, 1), (0, 5)] (by decide) fa) $$ Ha; icases Hs with ⟨Hag_7, Ha⟩
  ihave Hs := (take_rslot c (1, 2) [(1, 0), (1, 6), (1, 4), (1, 1), (1, 5), (0, 3), (0, 2), (0, 0), (0, 6), (0, 4), (0, 1), (0, 5)] (by decide) fr) $$ Hr; icases Hs with ⟨Hrs_9, Hr⟩
  ihave Hs := (take_aslot c (1, 2) [(1, 0), (1, 6), (1, 4), (1, 1), (1, 5), (0, 3), (0, 2), (0, 0), (0, 6), (0, 4), (0, 1), (0, 5)] (by decide) fa) $$ Ha; icases Hs with ⟨Hag_9, Ha⟩
  ihave Hs := (take_rslot c (1, 3) [(1, 2), (1, 0), (1, 6), (1, 4), (1, 1), (1, 5), (0, 3), (0, 2), (0, 0), (0, 6), (0, 4), (0, 1), (0, 5)] (by decide) fr) $$ Hr; icases Hs with ⟨Hrs_10, Hr⟩
  ihave Hs := (take_aslot c (1, 3) [(1, 2), (1, 0), (1, 6), (1, 4), (1, 1), (1, 5), (0, 3), (0, 2), (0, 0), (0, 6), (0, 4), (0, 1), (0, 5)] (by decide) fa) $$ Ha; icases Hs with ⟨Hag_10, Ha⟩
  ihave Hs := (take_piece (Finset.subset_univ (gSl 0).view.set) fullShare fg) $$ Hg; icases Hs with ⟨Hg_0, Hg⟩
  ihave Hs := (take_piece gsl_sub fullShare fg) $$ Hg; icases Hs with ⟨Hg_1, Hg⟩
  -- the signal to the partner under mask 6
  iapply (wp_sig m ρ K c _ (5 : Fin 7) (dev1_eq c) 0 _ rfl _ rfl _ _ _ _ _ rfl) $$ [HO HtB_5 Hrs_5 Hrs_12 Hag_5 Hag_12]
  · isplitr; · iexact HR
    isplitl [HO]; · iexact HO
    isplitl [HtB_5]; · iexact HtB_5
    isplitl [Hrs_5]; · iexact Hrs_5
    isplitl [Hrs_12]; · iexact Hrs_12
    isplitl [Hag_5]; · iexact Hag_5
    iexact Hag_12
  iintro HO
  -- the signal to the partner under mask 2
  iapply (wp_sig m ρ K c _ (1 : Fin 7) (dev2_eq c) 1 _ rfl _ rfl _ _ _ _ _ rfl) $$ [HO HtB_1 Hrs_1 Hrs_8 Hag_1 Hag_8]
  · isplitr; · iexact HR
    isplitl [HO]; · iexact HO
    isplitl [HtB_1]; · iexact HtB_1
    isplitl [Hrs_1]; · iexact Hrs_1
    isplitl [Hrs_8]; · iexact Hrs_8
    isplitl [Hag_1]; · iexact Hag_1
    iexact Hag_8
  iintro HO
  -- the signal to the partner under mask 5
  iapply (wp_sig m ρ K c _ (4 : Fin 7) (dev3_eq c) 2 _ rfl _ rfl _ _ _ _ _ rfl) $$ [HO HtB_4 Hrs_4 Hrs_11 Hag_4 Hag_11]
  · isplitr; · iexact HR
    isplitl [HO]; · iexact HO
    isplitl [HtB_4]; · iexact HtB_4
    isplitl [Hrs_4]; · iexact Hrs_4
    isplitl [Hrs_11]; · iexact Hrs_11
    isplitl [Hag_4]; · iexact Hag_4
    iexact Hag_11
  iintro HO
  -- the signal to the partner under mask 7
  iapply (wp_sig m ρ K c _ (6 : Fin 7) (dev4_eq c) 3 _ rfl _ rfl _ _ _ _ _ rfl) $$ [HO HtB_6 Hrs_6 Hrs_13 Hag_6 Hag_13]
  · isplitr; · iexact HR
    isplitl [HO]; · iexact HO
    isplitl [HtB_6]; · iexact HtB_6
    isplitl [Hrs_6]; · iexact Hrs_6
    isplitl [Hrs_13]; · iexact Hrs_13
    isplitl [Hag_6]; · iexact Hag_6
    iexact Hag_13
  iintro HO
  -- the signal to the partner under mask 1
  iapply (wp_sig m ρ K c _ (0 : Fin 7) (dev5_eq c) 4 _ rfl _ rfl _ _ _ _ _ rfl) $$ [HO HtB_0 Hrs_0 Hrs_7 Hag_0 Hag_7]
  · isplitr; · iexact HR
    isplitl [HO]; · iexact HO
    isplitl [HtB_0]; · iexact HtB_0
    isplitl [Hrs_0]; · iexact Hrs_0
    isplitl [Hrs_7]; · iexact Hrs_7
    isplitl [Hag_0]; · iexact Hag_0
    iexact Hag_7
  iintro HO
  -- the signal to the partner under mask 3
  iapply (wp_sig m ρ K c _ (2 : Fin 7) (dev6_eq c) 5 _ rfl _ rfl _ _ _ _ _ rfl) $$ [HO HtB_2 Hrs_2 Hrs_9 Hag_2 Hag_9]
  · isplitr; · iexact HR
    isplitl [HO]; · iexact HO
    isplitl [HtB_2]; · iexact HtB_2
    isplitl [Hrs_2]; · iexact Hrs_2
    isplitl [Hrs_9]; · iexact Hrs_9
    isplitl [Hag_2]; · iexact Hag_2
    iexact Hag_9
  iintro HO
  -- the signal to the partner under mask 4
  iapply (wp_sig m ρ K c _ (3 : Fin 7) (dev7_eq c) 6 _ rfl _ rfl _ _ _ _ _ rfl) $$ [HO HtB_3 Hrs_3 Hrs_10 Hag_3 Hag_10]
  · isplitr; · iexact HR
    isplitl [HO]; · iexact HO
    isplitl [HtB_3]; · iexact HtB_3
    isplitl [Hrs_3]; · iexact Hrs_3
    isplitl [Hrs_10]; · iexact Hrs_10
    isplitl [Hag_3]; · iexact Hag_3
    iexact Hag_10
  iintro HO
  -- the wait for the seven partners: their slots come with it
  iapply (wp_wait_bar m ρ K c _ rfl _ rfl _) $$ [HcB HO HpB]
  · isplitr; · iexact HR
    isplitr; · iexact Hlev
    isplitl [HcB]; · iexact HcB
    isplitl [HO]; · iexact HO
    iexact HpB
  iintro ⟨HO, HpB, Hpay⟩
  unfold barPay
  icases Hpay with ⟨⟨⟨%qr_5, Hqr_5⟩, ⟨%qr_12, Hqr_12⟩, ⟨%qa_5, Hqa_5⟩, ⟨%qa_12, Hqa_12⟩⟩, ⟨⟨%qr_1, Hqr_1⟩, ⟨%qr_8, Hqr_8⟩, ⟨%qa_1, Hqa_1⟩, ⟨%qa_8, Hqa_8⟩⟩, ⟨⟨%qr_4, Hqr_4⟩, ⟨%qr_11, Hqr_11⟩, ⟨%qa_4, Hqa_4⟩, ⟨%qa_11, Hqa_11⟩⟩, ⟨⟨%qr_6, Hqr_6⟩, ⟨%qr_13, Hqr_13⟩, ⟨%qa_6, Hqa_6⟩, ⟨%qa_13, Hqa_13⟩⟩, ⟨⟨%qr_0, Hqr_0⟩, ⟨%qr_7, Hqr_7⟩, ⟨%qa_0, Hqa_0⟩, ⟨%qa_7, Hqa_7⟩⟩, ⟨⟨%qr_2, Hqr_2⟩, ⟨%qr_9, Hqr_9⟩, ⟨%qa_2, Hqa_2⟩, ⟨%qa_9, Hqa_9⟩⟩, ⟨⟨%qr_3, Hqr_3⟩, ⟨%qr_10, Hqr_10⟩, ⟨%qa_3, Hqa_3⟩, ⟨%qa_10, Hqa_10⟩⟩⟩
  -- first phase: the rows of the partner under mask 6's segment, half 0, to its slot (0, 5)
  ihave Hs := (take_hsl' c 0 5 5 rfl rfl [] (by decide) (X16 m ρ c)) $$ Hh; icases Hs with ⟨Hh_5, Hh⟩
  iapply (wp_rs_send m ρ K c _ 0 5 5 rfl rfl (dev8_eq c) _ _ rfl rfl 7 _ _ rfl) $$ [Hh_5 Hqr_5 HO Ht0_5 Ht1_5]
  · isplitr; · iexact HR
    isplitl [Hh_5]; · iexact Hh_5
    isplitl [Hqr_5]; · iexact Hqr_5
    isplitl [HO]; · iexact HO
    isplitl [Ht0_5]; · iexact Ht0_5
    iexact Ht1_5
  iintro ⟨Hcs0_5, HO⟩
  -- first phase: the rows of the partner under mask 2's segment, half 0, to its slot (0, 1)
  ihave Hs := (take_hsl' c 0 1 1 rfl rfl [5] (by decide) (X16 m ρ c)) $$ Hh; icases Hs with ⟨Hh_1, Hh⟩
  iapply (wp_rs_send m ρ K c _ 0 1 1 rfl rfl (dev9_eq c) _ _ rfl rfl 8 _ _ rfl) $$ [Hh_1 Hqr_1 HO Ht0_1 Ht1_1]
  · isplitr; · iexact HR
    isplitl [Hh_1]; · iexact Hh_1
    isplitl [Hqr_1]; · iexact Hqr_1
    isplitl [HO]; · iexact HO
    isplitl [Ht0_1]; · iexact Ht0_1
    iexact Ht1_1
  iintro ⟨Hcs0_1, HO⟩
  -- first phase: the rows of the partner under mask 5's segment, half 0, to its slot (0, 4)
  ihave Hs := (take_hsl' c 0 4 4 rfl rfl [1, 5] (by decide) (X16 m ρ c)) $$ Hh; icases Hs with ⟨Hh_4, Hh⟩
  iapply (wp_rs_send m ρ K c _ 0 4 4 rfl rfl (dev10_eq c) _ _ rfl rfl 9 _ _ rfl) $$ [Hh_4 Hqr_4 HO Ht0_4 Ht1_4]
  · isplitr; · iexact HR
    isplitl [Hh_4]; · iexact Hh_4
    isplitl [Hqr_4]; · iexact Hqr_4
    isplitl [HO]; · iexact HO
    isplitl [Ht0_4]; · iexact Ht0_4
    iexact Ht1_4
  iintro ⟨Hcs0_4, HO⟩
  -- first phase: the rows of the partner under mask 7's segment, half 0, to its slot (0, 6)
  ihave Hs := (take_hsl' c 0 6 6 rfl rfl [4, 1, 5] (by decide) (X16 m ρ c)) $$ Hh; icases Hs with ⟨Hh_6, Hh⟩
  iapply (wp_rs_send m ρ K c _ 0 6 6 rfl rfl (dev11_eq c) _ _ rfl rfl 10 _ _ rfl) $$ [Hh_6 Hqr_6 HO Ht0_6 Ht1_6]
  · isplitr; · iexact HR
    isplitl [Hh_6]; · iexact Hh_6
    isplitl [Hqr_6]; · iexact Hqr_6
    isplitl [HO]; · iexact HO
    isplitl [Ht0_6]; · iexact Ht0_6
    iexact Ht1_6
  iintro ⟨Hcs0_6, HO⟩
  -- first phase: the rows of the partner under mask 1's segment, half 0, to its slot (0, 0)
  ihave Hs := (take_hsl' c 0 0 0 rfl rfl [6, 4, 1, 5] (by decide) (X16 m ρ c)) $$ Hh; icases Hs with ⟨Hh_0, Hh⟩
  iapply (wp_rs_send m ρ K c _ 0 0 0 rfl rfl (dev12_eq c) _ _ rfl rfl 11 _ _ rfl) $$ [Hh_0 Hqr_0 HO Ht0_0 Ht1_0]
  · isplitr; · iexact HR
    isplitl [Hh_0]; · iexact Hh_0
    isplitl [Hqr_0]; · iexact Hqr_0
    isplitl [HO]; · iexact HO
    isplitl [Ht0_0]; · iexact Ht0_0
    iexact Ht1_0
  iintro ⟨Hcs0_0, HO⟩
  -- first phase: the rows of the partner under mask 3's segment, half 0, to its slot (0, 2)
  ihave Hs := (take_hsl' c 0 2 2 rfl rfl [0, 6, 4, 1, 5] (by decide) (X16 m ρ c)) $$ Hh; icases Hs with ⟨Hh_2, Hh⟩
  iapply (wp_rs_send m ρ K c _ 0 2 2 rfl rfl (dev13_eq c) _ _ rfl rfl 12 _ _ rfl) $$ [Hh_2 Hqr_2 HO Ht0_2 Ht1_2]
  · isplitr; · iexact HR
    isplitl [Hh_2]; · iexact Hh_2
    isplitl [Hqr_2]; · iexact Hqr_2
    isplitl [HO]; · iexact HO
    isplitl [Ht0_2]; · iexact Ht0_2
    iexact Ht1_2
  iintro ⟨Hcs0_2, HO⟩
  -- first phase: the rows of the partner under mask 4's segment, half 0, to its slot (0, 3)
  ihave Hs := (take_hsl' c 0 3 3 rfl rfl [2, 0, 6, 4, 1, 5] (by decide) (X16 m ρ c)) $$ Hh; icases Hs with ⟨Hh_3, Hh⟩
  iapply (wp_rs_send m ρ K c _ 0 3 3 rfl rfl (dev14_eq c) _ _ rfl rfl 13 _ _ rfl) $$ [Hh_3 Hqr_3 HO Ht0_3 Ht1_3]
  · isplitr; · iexact HR
    isplitl [Hh_3]; · iexact Hh_3
    isplitl [Hqr_3]; · iexact Hqr_3
    isplitl [HO]; · iexact HO
    isplitl [Ht0_3]; · iexact Ht0_3
    iexact Ht1_3
  iintro ⟨Hcs0_3, HO⟩
  -- first phase: the rows of the partner under mask 6's segment, half 1, to its slot (1, 5)
  ihave Hs := (take_hsl' c 1 5 12 rfl rfl [3, 2, 0, 6, 4, 1, 5] (by decide) (X16 m ρ c)) $$ Hh; icases Hs with ⟨Hh_12, Hh⟩
  iapply (wp_rs_send m ρ K c _ 1 5 12 rfl rfl (dev15_eq c) _ _ rfl rfl 14 _ _ rfl) $$ [Hh_12 Hqr_12 HO Ht0_12 Ht1_12]
  · isplitr; · iexact HR
    isplitl [Hh_12]; · iexact Hh_12
    isplitl [Hqr_12]; · iexact Hqr_12
    isplitl [HO]; · iexact HO
    isplitl [Ht0_12]; · iexact Ht0_12
    iexact Ht1_12
  iintro ⟨Hcs0_12, HO⟩
  -- first phase: the rows of the partner under mask 2's segment, half 1, to its slot (1, 1)
  ihave Hs := (take_hsl' c 1 1 8 rfl rfl [12, 3, 2, 0, 6, 4, 1, 5] (by decide) (X16 m ρ c)) $$ Hh; icases Hs with ⟨Hh_8, Hh⟩
  iapply (wp_rs_send m ρ K c _ 1 1 8 rfl rfl (dev16_eq c) _ _ rfl rfl 15 _ _ rfl) $$ [Hh_8 Hqr_8 HO Ht0_8 Ht1_8]
  · isplitr; · iexact HR
    isplitl [Hh_8]; · iexact Hh_8
    isplitl [Hqr_8]; · iexact Hqr_8
    isplitl [HO]; · iexact HO
    isplitl [Ht0_8]; · iexact Ht0_8
    iexact Ht1_8
  iintro ⟨Hcs0_8, HO⟩
  -- first phase: the rows of the partner under mask 5's segment, half 1, to its slot (1, 4)
  ihave Hs := (take_hsl' c 1 4 11 rfl rfl [8, 12, 3, 2, 0, 6, 4, 1, 5] (by decide) (X16 m ρ c)) $$ Hh; icases Hs with ⟨Hh_11, Hh⟩
  iapply (wp_rs_send m ρ K c _ 1 4 11 rfl rfl (dev17_eq c) _ _ rfl rfl 16 _ _ rfl) $$ [Hh_11 Hqr_11 HO Ht0_11 Ht1_11]
  · isplitr; · iexact HR
    isplitl [Hh_11]; · iexact Hh_11
    isplitl [Hqr_11]; · iexact Hqr_11
    isplitl [HO]; · iexact HO
    isplitl [Ht0_11]; · iexact Ht0_11
    iexact Ht1_11
  iintro ⟨Hcs0_11, HO⟩
  -- first phase: the rows of the partner under mask 7's segment, half 1, to its slot (1, 6)
  ihave Hs := (take_hsl' c 1 6 13 rfl rfl [11, 8, 12, 3, 2, 0, 6, 4, 1, 5] (by decide) (X16 m ρ c)) $$ Hh; icases Hs with ⟨Hh_13, Hh⟩
  iapply (wp_rs_send m ρ K c _ 1 6 13 rfl rfl (dev18_eq c) _ _ rfl rfl 17 _ _ rfl) $$ [Hh_13 Hqr_13 HO Ht0_13 Ht1_13]
  · isplitr; · iexact HR
    isplitl [Hh_13]; · iexact Hh_13
    isplitl [Hqr_13]; · iexact Hqr_13
    isplitl [HO]; · iexact HO
    isplitl [Ht0_13]; · iexact Ht0_13
    iexact Ht1_13
  iintro ⟨Hcs0_13, HO⟩
  -- first phase: the rows of the partner under mask 1's segment, half 1, to its slot (1, 0)
  ihave Hs := (take_hsl' c 1 0 7 rfl rfl [13, 11, 8, 12, 3, 2, 0, 6, 4, 1, 5] (by decide) (X16 m ρ c)) $$ Hh; icases Hs with ⟨Hh_7, Hh⟩
  iapply (wp_rs_send m ρ K c _ 1 0 7 rfl rfl (dev19_eq c) _ _ rfl rfl 18 _ _ rfl) $$ [Hh_7 Hqr_7 HO Ht0_7 Ht1_7]
  · isplitr; · iexact HR
    isplitl [Hh_7]; · iexact Hh_7
    isplitl [Hqr_7]; · iexact Hqr_7
    isplitl [HO]; · iexact HO
    isplitl [Ht0_7]; · iexact Ht0_7
    iexact Ht1_7
  iintro ⟨Hcs0_7, HO⟩
  -- first phase: the rows of the partner under mask 3's segment, half 1, to its slot (1, 2)
  ihave Hs := (take_hsl' c 1 2 9 rfl rfl [7, 13, 11, 8, 12, 3, 2, 0, 6, 4, 1, 5] (by decide) (X16 m ρ c)) $$ Hh; icases Hs with ⟨Hh_9, Hh⟩
  iapply (wp_rs_send m ρ K c _ 1 2 9 rfl rfl (dev20_eq c) _ _ rfl rfl 19 _ _ rfl) $$ [Hh_9 Hqr_9 HO Ht0_9 Ht1_9]
  · isplitr; · iexact HR
    isplitl [Hh_9]; · iexact Hh_9
    isplitl [Hqr_9]; · iexact Hqr_9
    isplitl [HO]; · iexact HO
    isplitl [Ht0_9]; · iexact Ht0_9
    iexact Ht1_9
  iintro ⟨Hcs0_9, HO⟩
  -- first phase: the rows of the partner under mask 4's segment, half 1, to its slot (1, 3)
  ihave Hs := (take_hsl' c 1 3 10 rfl rfl [9, 7, 13, 11, 8, 12, 3, 2, 0, 6, 4, 1, 5] (by decide) (X16 m ρ c)) $$ Hh; icases Hs with ⟨Hh_10, Hh⟩
  iapply (wp_rs_send m ρ K c _ 1 3 10 rfl rfl (dev21_eq c) _ _ rfl rfl 20 _ _ rfl) $$ [Hh_10 Hqr_10 HO Ht0_10 Ht1_10]
  · isplitr; · iexact HR
    isplitl [Hh_10]; · iexact Hh_10
    isplitl [Hqr_10]; · iexact Hqr_10
    isplitl [HO]; · iexact HO
    isplitl [Ht0_10]; · iexact Ht0_10
    iexact Ht1_10
  iintro ⟨Hcs0_10, HO⟩
  -- half 0 of this device's own segment: its rows, then the seven partners' rows as they land
  iapply (wp_load 𝒱₀ (c : Thread nD τ) none Set.univ (m := xM) (r := (xRows c 0).toLoadRect) (Finset.subset_univ _)) $$ Hx; iintro Hx
  iapply (wp_wait_d m ρ K c 1 5 _ rfl 21 (dst := slotM rM 0 5) rfl _ (mw_rr0 c 5)) $$ [Hc1_5 HO Hp1_5]
  · isplitr; · iexact HR
    isplitr; · iexact Hlev
    isplitl [Hc1_5]; · iexact Hc1_5
    isplitl [HO]; · iexact HO
    iexact Hp1_5
  iintro ⟨HO, Hp1_5, Hpay⟩
  ihave Hpay := (Entails.of_eq (payD_1 m ρ c 0 5 5 rfl rfl)) $$ Hpay
  icases Hpay with ⟨%fd_5, Hrr_5⟩
  iapply (wp_load 𝒱₀ (c : Thread nD τ) none Set.univ (m := rM) (rload_sub 0 5)) $$ Hrr_5; iintro Hrr_5
  iapply (wp_wait_d m ρ K c 1 1 _ rfl 21 (dst := slotM rM 0 1) rfl _ (mw_rr0 c 1)) $$ [Hc1_1 HO Hp1_1]
  · isplitr; · iexact HR
    isplitr; · iexact Hlev
    isplitl [Hc1_1]; · iexact Hc1_1
    isplitl [HO]; · iexact HO
    iexact Hp1_1
  iintro ⟨HO, Hp1_1, Hpay⟩
  ihave Hpay := (Entails.of_eq (payD_1 m ρ c 0 1 1 rfl rfl)) $$ Hpay
  icases Hpay with ⟨%fd_1, Hrr_1⟩
  iapply (wp_load 𝒱₀ (c : Thread nD τ) none Set.univ (m := rM) (rload_sub 0 1)) $$ Hrr_1; iintro Hrr_1
  iapply (wp_wait_d m ρ K c 1 4 _ rfl 21 (dst := slotM rM 0 4) rfl _ (mw_rr0 c 4)) $$ [Hc1_4 HO Hp1_4]
  · isplitr; · iexact HR
    isplitr; · iexact Hlev
    isplitl [Hc1_4]; · iexact Hc1_4
    isplitl [HO]; · iexact HO
    iexact Hp1_4
  iintro ⟨HO, Hp1_4, Hpay⟩
  ihave Hpay := (Entails.of_eq (payD_1 m ρ c 0 4 4 rfl rfl)) $$ Hpay
  icases Hpay with ⟨%fd_4, Hrr_4⟩
  iapply (wp_load 𝒱₀ (c : Thread nD τ) none Set.univ (m := rM) (rload_sub 0 4)) $$ Hrr_4; iintro Hrr_4
  iapply (wp_wait_d m ρ K c 1 6 _ rfl 21 (dst := slotM rM 0 6) rfl _ (mw_rr0 c 6)) $$ [Hc1_6 HO Hp1_6]
  · isplitr; · iexact HR
    isplitr; · iexact Hlev
    isplitl [Hc1_6]; · iexact Hc1_6
    isplitl [HO]; · iexact HO
    iexact Hp1_6
  iintro ⟨HO, Hp1_6, Hpay⟩
  ihave Hpay := (Entails.of_eq (payD_1 m ρ c 0 6 6 rfl rfl)) $$ Hpay
  icases Hpay with ⟨%fd_6, Hrr_6⟩
  iapply (wp_load 𝒱₀ (c : Thread nD τ) none Set.univ (m := rM) (rload_sub 0 6)) $$ Hrr_6; iintro Hrr_6
  iapply (wp_wait_d m ρ K c 1 0 _ rfl 21 (dst := slotM rM 0 0) rfl _ (mw_rr0 c 0)) $$ [Hc1_0 HO Hp1_0]
  · isplitr; · iexact HR
    isplitr; · iexact Hlev
    isplitl [Hc1_0]; · iexact Hc1_0
    isplitl [HO]; · iexact HO
    iexact Hp1_0
  iintro ⟨HO, Hp1_0, Hpay⟩
  ihave Hpay := (Entails.of_eq (payD_1 m ρ c 0 0 0 rfl rfl)) $$ Hpay
  icases Hpay with ⟨%fd_0, Hrr_0⟩
  iapply (wp_load 𝒱₀ (c : Thread nD τ) none Set.univ (m := rM) (rload_sub 0 0)) $$ Hrr_0; iintro Hrr_0
  iapply (wp_wait_d m ρ K c 1 2 _ rfl 21 (dst := slotM rM 0 2) rfl _ (mw_rr0 c 2)) $$ [Hc1_2 HO Hp1_2]
  · isplitr; · iexact HR
    isplitr; · iexact Hlev
    isplitl [Hc1_2]; · iexact Hc1_2
    isplitl [HO]; · iexact HO
    iexact Hp1_2
  iintro ⟨HO, Hp1_2, Hpay⟩
  ihave Hpay := (Entails.of_eq (payD_1 m ρ c 0 2 2 rfl rfl)) $$ Hpay
  icases Hpay with ⟨%fd_2, Hrr_2⟩
  iapply (wp_load 𝒱₀ (c : Thread nD τ) none Set.univ (m := rM) (rload_sub 0 2)) $$ Hrr_2; iintro Hrr_2
  iapply (wp_wait_d m ρ K c 1 3 _ rfl 21 (dst := slotM rM 0 3) rfl _ (mw_rr0 c 3)) $$ [Hc1_3 HO Hp1_3]
  · isplitr; · iexact HR
    isplitr; · iexact Hlev
    isplitl [Hc1_3]; · iexact Hc1_3
    isplitl [HO]; · iexact HO
    iexact Hp1_3
  iintro ⟨HO, Hp1_3, Hpay⟩
  ihave Hpay := (Entails.of_eq (payD_1 m ρ c 0 3 3 rfl rfl)) $$ Hpay
  icases Hpay with ⟨%fd_3, Hrr_3⟩
  iapply (wp_load 𝒱₀ (c : Thread nD τ) none Set.univ (m := rM) (rload_sub 0 3)) $$ Hrr_3; iintro Hrr_3
  -- the sum stored into the result, its 16-bit copy into half 0 of the segment buffer
  iapply (wp_load 𝒱₀ (c : Thread nD τ) none Set.univ (m := oM) (Finset.subset_univ _)) $$ Hout; iintro Hout
  iapply (wp_store 𝒱₀ (c : Thread nD τ) none Set.univ (m := oM) (r := oOwn c 0) (Mk := Finset.univ) (Finset.subset_univ _)) $$ Hout; iintro Hout
  iapply (wp_load 𝒱₀ (c : Thread nD τ) none Set.univ (m := gM) (gload_sub 0)) $$ Hg_0; iintro Hg_0
  iapply (wp_store 𝒱₀ (c : Thread nD τ) none Set.univ (m := gM) (r := gRect 0) (Mk := Finset.univ) (View.setOn_subset_set _ _)) $$ Hg_0; iintro Hg_0
  ihave Hg_0 := (conv_seg0 m ρ c _ _ _ _ _ _ _ _) $$ Hg_0
  -- second phase: half 0 of the reduced segment to the partner under mask 6, lending half of the share still held
  ihave Hg_0 := (to_shr0 c 0 _) $$ Hg_0
  ihave Hs := (share_split c 0 0 1 rfl _) $$ Hg_0; icases Hs with ⟨Hgs_5, Hg_0⟩
  iapply (wp_ag_send m ρ K c _ 0 5 5 0 rfl rfl rfl (dev22_eq c) _ _ rfl rfl 21 _ _ rfl) $$ [Hgs_5 Hqa_5 HO Ht2_5 Ht3_5]
  · isplitr; · iexact HR
    isplitl [Hgs_5]; · iexact Hgs_5
    isplitl [Hqa_5]; · iexact Hqa_5
    isplitl [HO]; · iexact HO
    isplitl [Ht2_5]; · iexact Ht2_5
    iexact Ht3_5
  iintro ⟨Hcs2_5, HO⟩
  -- second phase: half 0 of the reduced segment to the partner under mask 2, lending half of the share still held
  ihave Hs := (share_split c 0 1 2 rfl _) $$ Hg_0; icases Hs with ⟨Hgs_1, Hg_0⟩
  iapply (wp_ag_send m ρ K c _ 0 1 1 1 rfl rfl rfl (dev23_eq c) _ _ rfl rfl 22 _ _ rfl) $$ [Hgs_1 Hqa_1 HO Ht2_1 Ht3_1]
  · isplitr; · iexact HR
    isplitl [Hgs_1]; · iexact Hgs_1
    isplitl [Hqa_1]; · iexact Hqa_1
    isplitl [HO]; · iexact HO
    isplitl [Ht2_1]; · iexact Ht2_1
    iexact Ht3_1
  iintro ⟨Hcs2_1, HO⟩
  -- second phase: half 0 of the reduced segment to the partner under mask 5, lending half of the share still held
  ihave Hs := (share_split c 0 2 3 rfl _) $$ Hg_0; icases Hs with ⟨Hgs_4, Hg_0⟩
  iapply (wp_ag_send m ρ K c _ 0 4 4 2 rfl rfl rfl (dev24_eq c) _ _ rfl rfl 23 _ _ rfl) $$ [Hgs_4 Hqa_4 HO Ht2_4 Ht3_4]
  · isplitr; · iexact HR
    isplitl [Hgs_4]; · iexact Hgs_4
    isplitl [Hqa_4]; · iexact Hqa_4
    isplitl [HO]; · iexact HO
    isplitl [Ht2_4]; · iexact Ht2_4
    iexact Ht3_4
  iintro ⟨Hcs2_4, HO⟩
  -- second phase: half 0 of the reduced segment to the partner under mask 7, lending half of the share still held
  ihave Hs := (share_split c 0 3 4 rfl _) $$ Hg_0; icases Hs with ⟨Hgs_6, Hg_0⟩
  iapply (wp_ag_send m ρ K c _ 0 6 6 3 rfl rfl rfl (dev25_eq c) _ _ rfl rfl 24 _ _ rfl) $$ [Hgs_6 Hqa_6 HO Ht2_6 Ht3_6]
  · isplitr; · iexact HR
    isplitl [Hgs_6]; · iexact Hgs_6
    isplitl [Hqa_6]; · iexact Hqa_6
    isplitl [HO]; · iexact HO
    isplitl [Ht2_6]; · iexact Ht2_6
    iexact Ht3_6
  iintro ⟨Hcs2_6, HO⟩
  -- second phase: half 0 of the reduced segment to the partner under mask 1, lending half of the share still held
  ihave Hs := (share_split c 0 4 5 rfl _) $$ Hg_0; icases Hs with ⟨Hgs_0, Hg_0⟩
  iapply (wp_ag_send m ρ K c _ 0 0 0 4 rfl rfl rfl (dev26_eq c) _ _ rfl rfl 25 _ _ rfl) $$ [Hgs_0 Hqa_0 HO Ht2_0 Ht3_0]
  · isplitr; · iexact HR
    isplitl [Hgs_0]; · iexact Hgs_0
    isplitl [Hqa_0]; · iexact Hqa_0
    isplitl [HO]; · iexact HO
    isplitl [Ht2_0]; · iexact Ht2_0
    iexact Ht3_0
  iintro ⟨Hcs2_0, HO⟩
  -- second phase: half 0 of the reduced segment to the partner under mask 3, lending half of the share still held
  ihave Hs := (share_split c 0 5 6 rfl _) $$ Hg_0; icases Hs with ⟨Hgs_2, Hg_0⟩
  iapply (wp_ag_send m ρ K c _ 0 2 2 5 rfl rfl rfl (dev27_eq c) _ _ rfl rfl 26 _ _ rfl) $$ [Hgs_2 Hqa_2 HO Ht2_2 Ht3_2]
  · isplitr; · iexact HR
    isplitl [Hgs_2]; · iexact Hgs_2
    isplitl [Hqa_2]; · iexact Hqa_2
    isplitl [HO]; · iexact HO
    isplitl [Ht2_2]; · iexact Ht2_2
    iexact Ht3_2
  iintro ⟨Hcs2_2, HO⟩
  -- second phase: half 0 of the reduced segment to the partner under mask 4, lending half of the share still held
  ihave Hs := (share_split c 0 6 7 rfl _) $$ Hg_0; icases Hs with ⟨Hgs_3, Hg_0⟩
  iapply (wp_ag_send m ρ K c _ 0 3 3 6 rfl rfl rfl (dev28_eq c) _ _ rfl rfl 27 _ _ rfl) $$ [Hgs_3 Hqa_3 HO Ht2_3 Ht3_3]
  · isplitr; · iexact HR
    isplitl [Hgs_3]; · iexact Hgs_3
    isplitl [Hqa_3]; · iexact Hqa_3
    isplitl [HO]; · iexact HO
    isplitl [Ht2_3]; · iexact Ht2_3
    iexact Ht3_3
  iintro ⟨Hcs2_3, HO⟩
  -- half 1 of this device's own segment: its rows, then the seven partners' rows as they land
  iapply (wp_load 𝒱₀ (c : Thread nD τ) none Set.univ (m := xM) (r := (xRows c 1).toLoadRect) (Finset.subset_univ _)) $$ Hx; iintro Hx
  iapply (wp_wait_d m ρ K c 1 12 _ rfl 28 (dst := slotM rM 1 5) rfl _ (mw_rr1 c 12)) $$ [Hc1_12 HO Hp1_12]
  · isplitr; · iexact HR
    isplitr; · iexact Hlev
    isplitl [Hc1_12]; · iexact Hc1_12
    isplitl [HO]; · iexact HO
    iexact Hp1_12
  iintro ⟨HO, Hp1_12, Hpay⟩
  ihave Hpay := (Entails.of_eq (payD_1 m ρ c 1 5 12 rfl rfl)) $$ Hpay
  icases Hpay with ⟨%fd_12, Hrr_12⟩
  iapply (wp_load 𝒱₀ (c : Thread nD τ) none Set.univ (m := rM) (rload_sub 1 5)) $$ Hrr_12; iintro Hrr_12
  iapply (wp_wait_d m ρ K c 1 8 _ rfl 28 (dst := slotM rM 1 1) rfl _ (mw_rr1 c 8)) $$ [Hc1_8 HO Hp1_8]
  · isplitr; · iexact HR
    isplitr; · iexact Hlev
    isplitl [Hc1_8]; · iexact Hc1_8
    isplitl [HO]; · iexact HO
    iexact Hp1_8
  iintro ⟨HO, Hp1_8, Hpay⟩
  ihave Hpay := (Entails.of_eq (payD_1 m ρ c 1 1 8 rfl rfl)) $$ Hpay
  icases Hpay with ⟨%fd_8, Hrr_8⟩
  iapply (wp_load 𝒱₀ (c : Thread nD τ) none Set.univ (m := rM) (rload_sub 1 1)) $$ Hrr_8; iintro Hrr_8
  iapply (wp_wait_d m ρ K c 1 11 _ rfl 28 (dst := slotM rM 1 4) rfl _ (mw_rr1 c 11)) $$ [Hc1_11 HO Hp1_11]
  · isplitr; · iexact HR
    isplitr; · iexact Hlev
    isplitl [Hc1_11]; · iexact Hc1_11
    isplitl [HO]; · iexact HO
    iexact Hp1_11
  iintro ⟨HO, Hp1_11, Hpay⟩
  ihave Hpay := (Entails.of_eq (payD_1 m ρ c 1 4 11 rfl rfl)) $$ Hpay
  icases Hpay with ⟨%fd_11, Hrr_11⟩
  iapply (wp_load 𝒱₀ (c : Thread nD τ) none Set.univ (m := rM) (rload_sub 1 4)) $$ Hrr_11; iintro Hrr_11
  iapply (wp_wait_d m ρ K c 1 13 _ rfl 28 (dst := slotM rM 1 6) rfl _ (mw_rr1 c 13)) $$ [Hc1_13 HO Hp1_13]
  · isplitr; · iexact HR
    isplitr; · iexact Hlev
    isplitl [Hc1_13]; · iexact Hc1_13
    isplitl [HO]; · iexact HO
    iexact Hp1_13
  iintro ⟨HO, Hp1_13, Hpay⟩
  ihave Hpay := (Entails.of_eq (payD_1 m ρ c 1 6 13 rfl rfl)) $$ Hpay
  icases Hpay with ⟨%fd_13, Hrr_13⟩
  iapply (wp_load 𝒱₀ (c : Thread nD τ) none Set.univ (m := rM) (rload_sub 1 6)) $$ Hrr_13; iintro Hrr_13
  iapply (wp_wait_d m ρ K c 1 7 _ rfl 28 (dst := slotM rM 1 0) rfl _ (mw_rr1 c 7)) $$ [Hc1_7 HO Hp1_7]
  · isplitr; · iexact HR
    isplitr; · iexact Hlev
    isplitl [Hc1_7]; · iexact Hc1_7
    isplitl [HO]; · iexact HO
    iexact Hp1_7
  iintro ⟨HO, Hp1_7, Hpay⟩
  ihave Hpay := (Entails.of_eq (payD_1 m ρ c 1 0 7 rfl rfl)) $$ Hpay
  icases Hpay with ⟨%fd_7, Hrr_7⟩
  iapply (wp_load 𝒱₀ (c : Thread nD τ) none Set.univ (m := rM) (rload_sub 1 0)) $$ Hrr_7; iintro Hrr_7
  iapply (wp_wait_d m ρ K c 1 9 _ rfl 28 (dst := slotM rM 1 2) rfl _ (mw_rr1 c 9)) $$ [Hc1_9 HO Hp1_9]
  · isplitr; · iexact HR
    isplitr; · iexact Hlev
    isplitl [Hc1_9]; · iexact Hc1_9
    isplitl [HO]; · iexact HO
    iexact Hp1_9
  iintro ⟨HO, Hp1_9, Hpay⟩
  ihave Hpay := (Entails.of_eq (payD_1 m ρ c 1 2 9 rfl rfl)) $$ Hpay
  icases Hpay with ⟨%fd_9, Hrr_9⟩
  iapply (wp_load 𝒱₀ (c : Thread nD τ) none Set.univ (m := rM) (rload_sub 1 2)) $$ Hrr_9; iintro Hrr_9
  iapply (wp_wait_d m ρ K c 1 10 _ rfl 28 (dst := slotM rM 1 3) rfl _ (mw_rr1 c 10)) $$ [Hc1_10 HO Hp1_10]
  · isplitr; · iexact HR
    isplitr; · iexact Hlev
    isplitl [Hc1_10]; · iexact Hc1_10
    isplitl [HO]; · iexact HO
    iexact Hp1_10
  iintro ⟨HO, Hp1_10, Hpay⟩
  ihave Hpay := (Entails.of_eq (payD_1 m ρ c 1 3 10 rfl rfl)) $$ Hpay
  icases Hpay with ⟨%fd_10, Hrr_10⟩
  iapply (wp_load 𝒱₀ (c : Thread nD τ) none Set.univ (m := rM) (rload_sub 1 3)) $$ Hrr_10; iintro Hrr_10
  -- the sum stored into the result, its 16-bit copy into half 1 of the segment buffer
  iapply (wp_load 𝒱₀ (c : Thread nD τ) none Set.univ (m := oM) (Finset.subset_univ _)) $$ Hout; iintro Hout
  iapply (wp_store 𝒱₀ (c : Thread nD τ) none Set.univ (m := oM) (r := oOwn c 1) (Mk := Finset.univ) (Finset.subset_univ _)) $$ Hout; iintro Hout
  iapply (wp_load 𝒱₀ (c : Thread nD τ) none Set.univ (m := gM) (gload_sub 1)) $$ Hg_1; iintro Hg_1
  iapply (wp_store 𝒱₀ (c : Thread nD τ) none Set.univ (m := gM) (r := gRect 1) (Mk := Finset.univ) (View.setOn_subset_set _ _)) $$ Hg_1; iintro Hg_1
  ihave Hg_1 := (conv_seg1 m ρ c _ _ _ _ _ _ _ _) $$ Hg_1
  -- second phase: half 1 of the reduced segment to the partner under mask 6, lending half of the share still held
  ihave Hg_1 := (to_shr0 c 1 _) $$ Hg_1
  ihave Hs := (share_split c 1 0 1 rfl _) $$ Hg_1; icases Hs with ⟨Hgs_12, Hg_1⟩
  iapply (wp_ag_send m ρ K c _ 1 5 12 0 rfl rfl rfl (dev29_eq c) _ _ rfl rfl 28 _ _ rfl) $$ [Hgs_12 Hqa_12 HO Ht2_12 Ht3_12]
  · isplitr; · iexact HR
    isplitl [Hgs_12]; · iexact Hgs_12
    isplitl [Hqa_12]; · iexact Hqa_12
    isplitl [HO]; · iexact HO
    isplitl [Ht2_12]; · iexact Ht2_12
    iexact Ht3_12
  iintro ⟨Hcs2_12, HO⟩
  -- second phase: half 1 of the reduced segment to the partner under mask 2, lending half of the share still held
  ihave Hs := (share_split c 1 1 2 rfl _) $$ Hg_1; icases Hs with ⟨Hgs_8, Hg_1⟩
  iapply (wp_ag_send m ρ K c _ 1 1 8 1 rfl rfl rfl (dev30_eq c) _ _ rfl rfl 29 _ _ rfl) $$ [Hgs_8 Hqa_8 HO Ht2_8 Ht3_8]
  · isplitr; · iexact HR
    isplitl [Hgs_8]; · iexact Hgs_8
    isplitl [Hqa_8]; · iexact Hqa_8
    isplitl [HO]; · iexact HO
    isplitl [Ht2_8]; · iexact Ht2_8
    iexact Ht3_8
  iintro ⟨Hcs2_8, HO⟩
  -- second phase: half 1 of the reduced segment to the partner under mask 5, lending half of the share still held
  ihave Hs := (share_split c 1 2 3 rfl _) $$ Hg_1; icases Hs with ⟨Hgs_11, Hg_1⟩
  iapply (wp_ag_send m ρ K c _ 1 4 11 2 rfl rfl rfl (dev31_eq c) _ _ rfl rfl 30 _ _ rfl) $$ [Hgs_11 Hqa_11 HO Ht2_11 Ht3_11]
  · isplitr; · iexact HR
    isplitl [Hgs_11]; · iexact Hgs_11
    isplitl [Hqa_11]; · iexact Hqa_11
    isplitl [HO]; · iexact HO
    isplitl [Ht2_11]; · iexact Ht2_11
    iexact Ht3_11
  iintro ⟨Hcs2_11, HO⟩
  -- second phase: half 1 of the reduced segment to the partner under mask 7, lending half of the share still held
  ihave Hs := (share_split c 1 3 4 rfl _) $$ Hg_1; icases Hs with ⟨Hgs_13, Hg_1⟩
  iapply (wp_ag_send m ρ K c _ 1 6 13 3 rfl rfl rfl (dev32_eq c) _ _ rfl rfl 31 _ _ rfl) $$ [Hgs_13 Hqa_13 HO Ht2_13 Ht3_13]
  · isplitr; · iexact HR
    isplitl [Hgs_13]; · iexact Hgs_13
    isplitl [Hqa_13]; · iexact Hqa_13
    isplitl [HO]; · iexact HO
    isplitl [Ht2_13]; · iexact Ht2_13
    iexact Ht3_13
  iintro ⟨Hcs2_13, HO⟩
  -- second phase: half 1 of the reduced segment to the partner under mask 1, lending half of the share still held
  ihave Hs := (share_split c 1 4 5 rfl _) $$ Hg_1; icases Hs with ⟨Hgs_7, Hg_1⟩
  iapply (wp_ag_send m ρ K c _ 1 0 7 4 rfl rfl rfl (dev33_eq c) _ _ rfl rfl 32 _ _ rfl) $$ [Hgs_7 Hqa_7 HO Ht2_7 Ht3_7]
  · isplitr; · iexact HR
    isplitl [Hgs_7]; · iexact Hgs_7
    isplitl [Hqa_7]; · iexact Hqa_7
    isplitl [HO]; · iexact HO
    isplitl [Ht2_7]; · iexact Ht2_7
    iexact Ht3_7
  iintro ⟨Hcs2_7, HO⟩
  -- second phase: half 1 of the reduced segment to the partner under mask 3, lending half of the share still held
  ihave Hs := (share_split c 1 5 6 rfl _) $$ Hg_1; icases Hs with ⟨Hgs_9, Hg_1⟩
  iapply (wp_ag_send m ρ K c _ 1 2 9 5 rfl rfl rfl (dev34_eq c) _ _ rfl rfl 33 _ _ rfl) $$ [Hgs_9 Hqa_9 HO Ht2_9 Ht3_9]
  · isplitr; · iexact HR
    isplitl [Hgs_9]; · iexact Hgs_9
    isplitl [Hqa_9]; · iexact Hqa_9
    isplitl [HO]; · iexact HO
    isplitl [Ht2_9]; · iexact Ht2_9
    iexact Ht3_9
  iintro ⟨Hcs2_9, HO⟩
  -- second phase: half 1 of the reduced segment to the partner under mask 4, lending half of the share still held
  ihave Hs := (share_split c 1 6 7 rfl _) $$ Hg_1; icases Hs with ⟨Hgs_10, Hg_1⟩
  iapply (wp_ag_send m ρ K c _ 1 3 10 6 rfl rfl rfl (dev35_eq c) _ _ rfl rfl 34 _ _ rfl) $$ [Hgs_10 Hqa_10 HO Ht2_10 Ht3_10]
  · isplitr; · iexact HR
    isplitl [Hgs_10]; · iexact Hgs_10
    isplitl [Hqa_10]; · iexact Hqa_10
    isplitl [HO]; · iexact HO
    isplitl [Ht2_10]; · iexact Ht2_10
    iexact Ht3_10
  iintro ⟨Hcs2_10, HO⟩
  -- the partner under mask 6's reduced half 0: waited for, read, stored into the result
  iapply (wp_wait_d m ρ K c 3 5 _ rfl 35 (dst := slotM aM 0 5) rfl _ (mw_end c _)) $$ [Hc3_5 HO Hp3_5]
  · isplitr; · iexact HR
    isplitr; · iexact Hlev
    isplitl [Hc3_5]; · iexact Hc3_5
    isplitl [HO]; · iexact HO
    iexact Hp3_5
  iintro ⟨HO, Hp3_5, Hpay⟩
  ihave Hpay := (Entails.of_eq (payD_3 m ρ c 0 5 5 rfl rfl)) $$ Hpay
  icases Hpay with ⟨%fb_5, Har_5⟩
  iapply (wp_load 𝒱₀ (c : Thread nD τ) none Set.univ (m := aM) (aload_sub 0 5)) $$ Har_5; iintro Har_5
  iapply (wp_load 𝒱₀ (c : Thread nD τ) none Set.univ (m := oM) (Finset.subset_univ _)) $$ Hout; iintro Hout
  iapply (wp_store 𝒱₀ (c : Thread nD τ) none Set.univ (m := oM) (r := oPeer c 5 0) (Mk := Finset.univ) (Finset.subset_univ _)) $$ Hout; iintro Hout
  -- the partner under mask 2's reduced half 0: waited for, read, stored into the result
  iapply (wp_wait_d m ρ K c 3 1 _ rfl 35 (dst := slotM aM 0 1) rfl _ (mw_end c _)) $$ [Hc3_1 HO Hp3_1]
  · isplitr; · iexact HR
    isplitr; · iexact Hlev
    isplitl [Hc3_1]; · iexact Hc3_1
    isplitl [HO]; · iexact HO
    iexact Hp3_1
  iintro ⟨HO, Hp3_1, Hpay⟩
  ihave Hpay := (Entails.of_eq (payD_3 m ρ c 0 1 1 rfl rfl)) $$ Hpay
  icases Hpay with ⟨%fb_1, Har_1⟩
  iapply (wp_load 𝒱₀ (c : Thread nD τ) none Set.univ (m := aM) (aload_sub 0 1)) $$ Har_1; iintro Har_1
  iapply (wp_load 𝒱₀ (c : Thread nD τ) none Set.univ (m := oM) (Finset.subset_univ _)) $$ Hout; iintro Hout
  iapply (wp_store 𝒱₀ (c : Thread nD τ) none Set.univ (m := oM) (r := oPeer c 1 0) (Mk := Finset.univ) (Finset.subset_univ _)) $$ Hout; iintro Hout
  -- the partner under mask 5's reduced half 0: waited for, read, stored into the result
  iapply (wp_wait_d m ρ K c 3 4 _ rfl 35 (dst := slotM aM 0 4) rfl _ (mw_end c _)) $$ [Hc3_4 HO Hp3_4]
  · isplitr; · iexact HR
    isplitr; · iexact Hlev
    isplitl [Hc3_4]; · iexact Hc3_4
    isplitl [HO]; · iexact HO
    iexact Hp3_4
  iintro ⟨HO, Hp3_4, Hpay⟩
  ihave Hpay := (Entails.of_eq (payD_3 m ρ c 0 4 4 rfl rfl)) $$ Hpay
  icases Hpay with ⟨%fb_4, Har_4⟩
  iapply (wp_load 𝒱₀ (c : Thread nD τ) none Set.univ (m := aM) (aload_sub 0 4)) $$ Har_4; iintro Har_4
  iapply (wp_load 𝒱₀ (c : Thread nD τ) none Set.univ (m := oM) (Finset.subset_univ _)) $$ Hout; iintro Hout
  iapply (wp_store 𝒱₀ (c : Thread nD τ) none Set.univ (m := oM) (r := oPeer c 4 0) (Mk := Finset.univ) (Finset.subset_univ _)) $$ Hout; iintro Hout
  -- the partner under mask 7's reduced half 0: waited for, read, stored into the result
  iapply (wp_wait_d m ρ K c 3 6 _ rfl 35 (dst := slotM aM 0 6) rfl _ (mw_end c _)) $$ [Hc3_6 HO Hp3_6]
  · isplitr; · iexact HR
    isplitr; · iexact Hlev
    isplitl [Hc3_6]; · iexact Hc3_6
    isplitl [HO]; · iexact HO
    iexact Hp3_6
  iintro ⟨HO, Hp3_6, Hpay⟩
  ihave Hpay := (Entails.of_eq (payD_3 m ρ c 0 6 6 rfl rfl)) $$ Hpay
  icases Hpay with ⟨%fb_6, Har_6⟩
  iapply (wp_load 𝒱₀ (c : Thread nD τ) none Set.univ (m := aM) (aload_sub 0 6)) $$ Har_6; iintro Har_6
  iapply (wp_load 𝒱₀ (c : Thread nD τ) none Set.univ (m := oM) (Finset.subset_univ _)) $$ Hout; iintro Hout
  iapply (wp_store 𝒱₀ (c : Thread nD τ) none Set.univ (m := oM) (r := oPeer c 6 0) (Mk := Finset.univ) (Finset.subset_univ _)) $$ Hout; iintro Hout
  -- the partner under mask 1's reduced half 0: waited for, read, stored into the result
  iapply (wp_wait_d m ρ K c 3 0 _ rfl 35 (dst := slotM aM 0 0) rfl _ (mw_end c _)) $$ [Hc3_0 HO Hp3_0]
  · isplitr; · iexact HR
    isplitr; · iexact Hlev
    isplitl [Hc3_0]; · iexact Hc3_0
    isplitl [HO]; · iexact HO
    iexact Hp3_0
  iintro ⟨HO, Hp3_0, Hpay⟩
  ihave Hpay := (Entails.of_eq (payD_3 m ρ c 0 0 0 rfl rfl)) $$ Hpay
  icases Hpay with ⟨%fb_0, Har_0⟩
  iapply (wp_load 𝒱₀ (c : Thread nD τ) none Set.univ (m := aM) (aload_sub 0 0)) $$ Har_0; iintro Har_0
  iapply (wp_load 𝒱₀ (c : Thread nD τ) none Set.univ (m := oM) (Finset.subset_univ _)) $$ Hout; iintro Hout
  iapply (wp_store 𝒱₀ (c : Thread nD τ) none Set.univ (m := oM) (r := oPeer c 0 0) (Mk := Finset.univ) (Finset.subset_univ _)) $$ Hout; iintro Hout
  -- the partner under mask 3's reduced half 0: waited for, read, stored into the result
  iapply (wp_wait_d m ρ K c 3 2 _ rfl 35 (dst := slotM aM 0 2) rfl _ (mw_end c _)) $$ [Hc3_2 HO Hp3_2]
  · isplitr; · iexact HR
    isplitr; · iexact Hlev
    isplitl [Hc3_2]; · iexact Hc3_2
    isplitl [HO]; · iexact HO
    iexact Hp3_2
  iintro ⟨HO, Hp3_2, Hpay⟩
  ihave Hpay := (Entails.of_eq (payD_3 m ρ c 0 2 2 rfl rfl)) $$ Hpay
  icases Hpay with ⟨%fb_2, Har_2⟩
  iapply (wp_load 𝒱₀ (c : Thread nD τ) none Set.univ (m := aM) (aload_sub 0 2)) $$ Har_2; iintro Har_2
  iapply (wp_load 𝒱₀ (c : Thread nD τ) none Set.univ (m := oM) (Finset.subset_univ _)) $$ Hout; iintro Hout
  iapply (wp_store 𝒱₀ (c : Thread nD τ) none Set.univ (m := oM) (r := oPeer c 2 0) (Mk := Finset.univ) (Finset.subset_univ _)) $$ Hout; iintro Hout
  -- the partner under mask 4's reduced half 0: waited for, read, stored into the result
  iapply (wp_wait_d m ρ K c 3 3 _ rfl 35 (dst := slotM aM 0 3) rfl _ (mw_end c _)) $$ [Hc3_3 HO Hp3_3]
  · isplitr; · iexact HR
    isplitr; · iexact Hlev
    isplitl [Hc3_3]; · iexact Hc3_3
    isplitl [HO]; · iexact HO
    iexact Hp3_3
  iintro ⟨HO, Hp3_3, Hpay⟩
  ihave Hpay := (Entails.of_eq (payD_3 m ρ c 0 3 3 rfl rfl)) $$ Hpay
  icases Hpay with ⟨%fb_3, Har_3⟩
  iapply (wp_load 𝒱₀ (c : Thread nD τ) none Set.univ (m := aM) (aload_sub 0 3)) $$ Har_3; iintro Har_3
  iapply (wp_load 𝒱₀ (c : Thread nD τ) none Set.univ (m := oM) (Finset.subset_univ _)) $$ Hout; iintro Hout
  iapply (wp_store 𝒱₀ (c : Thread nD τ) none Set.univ (m := oM) (r := oPeer c 3 0) (Mk := Finset.univ) (Finset.subset_univ _)) $$ Hout; iintro Hout
  -- the partner under mask 6's reduced half 1: waited for, read, stored into the result
  iapply (wp_wait_d m ρ K c 3 12 _ rfl 35 (dst := slotM aM 1 5) rfl _ (mw_end c _)) $$ [Hc3_12 HO Hp3_12]
  · isplitr; · iexact HR
    isplitr; · iexact Hlev
    isplitl [Hc3_12]; · iexact Hc3_12
    isplitl [HO]; · iexact HO
    iexact Hp3_12
  iintro ⟨HO, Hp3_12, Hpay⟩
  ihave Hpay := (Entails.of_eq (payD_3 m ρ c 1 5 12 rfl rfl)) $$ Hpay
  icases Hpay with ⟨%fb_12, Har_12⟩
  iapply (wp_load 𝒱₀ (c : Thread nD τ) none Set.univ (m := aM) (aload_sub 1 5)) $$ Har_12; iintro Har_12
  iapply (wp_load 𝒱₀ (c : Thread nD τ) none Set.univ (m := oM) (Finset.subset_univ _)) $$ Hout; iintro Hout
  iapply (wp_store 𝒱₀ (c : Thread nD τ) none Set.univ (m := oM) (r := oPeer c 5 1) (Mk := Finset.univ) (Finset.subset_univ _)) $$ Hout; iintro Hout
  -- the partner under mask 2's reduced half 1: waited for, read, stored into the result
  iapply (wp_wait_d m ρ K c 3 8 _ rfl 35 (dst := slotM aM 1 1) rfl _ (mw_end c _)) $$ [Hc3_8 HO Hp3_8]
  · isplitr; · iexact HR
    isplitr; · iexact Hlev
    isplitl [Hc3_8]; · iexact Hc3_8
    isplitl [HO]; · iexact HO
    iexact Hp3_8
  iintro ⟨HO, Hp3_8, Hpay⟩
  ihave Hpay := (Entails.of_eq (payD_3 m ρ c 1 1 8 rfl rfl)) $$ Hpay
  icases Hpay with ⟨%fb_8, Har_8⟩
  iapply (wp_load 𝒱₀ (c : Thread nD τ) none Set.univ (m := aM) (aload_sub 1 1)) $$ Har_8; iintro Har_8
  iapply (wp_load 𝒱₀ (c : Thread nD τ) none Set.univ (m := oM) (Finset.subset_univ _)) $$ Hout; iintro Hout
  iapply (wp_store 𝒱₀ (c : Thread nD τ) none Set.univ (m := oM) (r := oPeer c 1 1) (Mk := Finset.univ) (Finset.subset_univ _)) $$ Hout; iintro Hout
  -- the partner under mask 5's reduced half 1: waited for, read, stored into the result
  iapply (wp_wait_d m ρ K c 3 11 _ rfl 35 (dst := slotM aM 1 4) rfl _ (mw_end c _)) $$ [Hc3_11 HO Hp3_11]
  · isplitr; · iexact HR
    isplitr; · iexact Hlev
    isplitl [Hc3_11]; · iexact Hc3_11
    isplitl [HO]; · iexact HO
    iexact Hp3_11
  iintro ⟨HO, Hp3_11, Hpay⟩
  ihave Hpay := (Entails.of_eq (payD_3 m ρ c 1 4 11 rfl rfl)) $$ Hpay
  icases Hpay with ⟨%fb_11, Har_11⟩
  iapply (wp_load 𝒱₀ (c : Thread nD τ) none Set.univ (m := aM) (aload_sub 1 4)) $$ Har_11; iintro Har_11
  iapply (wp_load 𝒱₀ (c : Thread nD τ) none Set.univ (m := oM) (Finset.subset_univ _)) $$ Hout; iintro Hout
  iapply (wp_store 𝒱₀ (c : Thread nD τ) none Set.univ (m := oM) (r := oPeer c 4 1) (Mk := Finset.univ) (Finset.subset_univ _)) $$ Hout; iintro Hout
  -- the partner under mask 7's reduced half 1: waited for, read, stored into the result
  iapply (wp_wait_d m ρ K c 3 13 _ rfl 35 (dst := slotM aM 1 6) rfl _ (mw_end c _)) $$ [Hc3_13 HO Hp3_13]
  · isplitr; · iexact HR
    isplitr; · iexact Hlev
    isplitl [Hc3_13]; · iexact Hc3_13
    isplitl [HO]; · iexact HO
    iexact Hp3_13
  iintro ⟨HO, Hp3_13, Hpay⟩
  ihave Hpay := (Entails.of_eq (payD_3 m ρ c 1 6 13 rfl rfl)) $$ Hpay
  icases Hpay with ⟨%fb_13, Har_13⟩
  iapply (wp_load 𝒱₀ (c : Thread nD τ) none Set.univ (m := aM) (aload_sub 1 6)) $$ Har_13; iintro Har_13
  iapply (wp_load 𝒱₀ (c : Thread nD τ) none Set.univ (m := oM) (Finset.subset_univ _)) $$ Hout; iintro Hout
  iapply (wp_store 𝒱₀ (c : Thread nD τ) none Set.univ (m := oM) (r := oPeer c 6 1) (Mk := Finset.univ) (Finset.subset_univ _)) $$ Hout; iintro Hout
  -- the partner under mask 1's reduced half 1: waited for, read, stored into the result
  iapply (wp_wait_d m ρ K c 3 7 _ rfl 35 (dst := slotM aM 1 0) rfl _ (mw_end c _)) $$ [Hc3_7 HO Hp3_7]
  · isplitr; · iexact HR
    isplitr; · iexact Hlev
    isplitl [Hc3_7]; · iexact Hc3_7
    isplitl [HO]; · iexact HO
    iexact Hp3_7
  iintro ⟨HO, Hp3_7, Hpay⟩
  ihave Hpay := (Entails.of_eq (payD_3 m ρ c 1 0 7 rfl rfl)) $$ Hpay
  icases Hpay with ⟨%fb_7, Har_7⟩
  iapply (wp_load 𝒱₀ (c : Thread nD τ) none Set.univ (m := aM) (aload_sub 1 0)) $$ Har_7; iintro Har_7
  iapply (wp_load 𝒱₀ (c : Thread nD τ) none Set.univ (m := oM) (Finset.subset_univ _)) $$ Hout; iintro Hout
  iapply (wp_store 𝒱₀ (c : Thread nD τ) none Set.univ (m := oM) (r := oPeer c 0 1) (Mk := Finset.univ) (Finset.subset_univ _)) $$ Hout; iintro Hout
  -- the partner under mask 3's reduced half 1: waited for, read, stored into the result
  iapply (wp_wait_d m ρ K c 3 9 _ rfl 35 (dst := slotM aM 1 2) rfl _ (mw_end c _)) $$ [Hc3_9 HO Hp3_9]
  · isplitr; · iexact HR
    isplitr; · iexact Hlev
    isplitl [Hc3_9]; · iexact Hc3_9
    isplitl [HO]; · iexact HO
    iexact Hp3_9
  iintro ⟨HO, Hp3_9, Hpay⟩
  ihave Hpay := (Entails.of_eq (payD_3 m ρ c 1 2 9 rfl rfl)) $$ Hpay
  icases Hpay with ⟨%fb_9, Har_9⟩
  iapply (wp_load 𝒱₀ (c : Thread nD τ) none Set.univ (m := aM) (aload_sub 1 2)) $$ Har_9; iintro Har_9
  iapply (wp_load 𝒱₀ (c : Thread nD τ) none Set.univ (m := oM) (Finset.subset_univ _)) $$ Hout; iintro Hout
  iapply (wp_store 𝒱₀ (c : Thread nD τ) none Set.univ (m := oM) (r := oPeer c 2 1) (Mk := Finset.univ) (Finset.subset_univ _)) $$ Hout; iintro Hout
  -- the partner under mask 4's reduced half 1: waited for, read, stored into the result
  iapply (wp_wait_d m ρ K c 3 10 _ rfl 35 (dst := slotM aM 1 3) rfl _ (mw_end c _)) $$ [Hc3_10 HO Hp3_10]
  · isplitr; · iexact HR
    isplitr; · iexact Hlev
    isplitl [Hc3_10]; · iexact Hc3_10
    isplitl [HO]; · iexact HO
    iexact Hp3_10
  iintro ⟨HO, Hp3_10, Hpay⟩
  ihave Hpay := (Entails.of_eq (payD_3 m ρ c 1 3 10 rfl rfl)) $$ Hpay
  icases Hpay with ⟨%fb_10, Har_10⟩
  iapply (wp_load 𝒱₀ (c : Thread nD τ) none Set.univ (m := aM) (aload_sub 1 3)) $$ Har_10; iintro Har_10
  iapply (wp_load 𝒱₀ (c : Thread nD τ) none Set.univ (m := oM) (Finset.subset_univ _)) $$ Hout; iintro Hout
  iapply (wp_store 𝒱₀ (c : Thread nD τ) none Set.univ (m := oM) (r := oPeer c 3 1) (Mk := Finset.univ) (Finset.subset_univ _)) $$ Hout; iintro Hout
  -- the first-phase transfer (0, 5) has read its rows: they come back
  iapply (wp_wait_d m ρ K c 0 5 _ rfl 35 (dst := hSl c 5 0) rfl _ (mw_end c _)) $$ [Hcs0_5 HO Hp0_5]
  · isplitr; · iexact HR
    isplitr; · iexact Hlev
    isplitl [Hcs0_5]; · iexact Hcs0_5
    isplitl [HO]; · iexact HO
    iexact Hp0_5
  iintro ⟨HO, Hp0_5, Hpay⟩
  ihave Hh_5 := (Entails.of_eq (payD_0 m ρ c 0 5 5 rfl rfl)) $$ Hpay
  -- the first-phase transfer (0, 1) has read its rows: they come back
  iapply (wp_wait_d m ρ K c 0 1 _ rfl 35 (dst := hSl c 1 0) rfl _ (mw_end c _)) $$ [Hcs0_1 HO Hp0_1]
  · isplitr; · iexact HR
    isplitr; · iexact Hlev
    isplitl [Hcs0_1]; · iexact Hcs0_1
    isplitl [HO]; · iexact HO
    iexact Hp0_1
  iintro ⟨HO, Hp0_1, Hpay⟩
  ihave Hh_1 := (Entails.of_eq (payD_0 m ρ c 0 1 1 rfl rfl)) $$ Hpay
  -- the first-phase transfer (0, 4) has read its rows: they come back
  iapply (wp_wait_d m ρ K c 0 4 _ rfl 35 (dst := hSl c 4 0) rfl _ (mw_end c _)) $$ [Hcs0_4 HO Hp0_4]
  · isplitr; · iexact HR
    isplitr; · iexact Hlev
    isplitl [Hcs0_4]; · iexact Hcs0_4
    isplitl [HO]; · iexact HO
    iexact Hp0_4
  iintro ⟨HO, Hp0_4, Hpay⟩
  ihave Hh_4 := (Entails.of_eq (payD_0 m ρ c 0 4 4 rfl rfl)) $$ Hpay
  -- the first-phase transfer (0, 6) has read its rows: they come back
  iapply (wp_wait_d m ρ K c 0 6 _ rfl 35 (dst := hSl c 6 0) rfl _ (mw_end c _)) $$ [Hcs0_6 HO Hp0_6]
  · isplitr; · iexact HR
    isplitr; · iexact Hlev
    isplitl [Hcs0_6]; · iexact Hcs0_6
    isplitl [HO]; · iexact HO
    iexact Hp0_6
  iintro ⟨HO, Hp0_6, Hpay⟩
  ihave Hh_6 := (Entails.of_eq (payD_0 m ρ c 0 6 6 rfl rfl)) $$ Hpay
  -- the first-phase transfer (0, 0) has read its rows: they come back
  iapply (wp_wait_d m ρ K c 0 0 _ rfl 35 (dst := hSl c 0 0) rfl _ (mw_end c _)) $$ [Hcs0_0 HO Hp0_0]
  · isplitr; · iexact HR
    isplitr; · iexact Hlev
    isplitl [Hcs0_0]; · iexact Hcs0_0
    isplitl [HO]; · iexact HO
    iexact Hp0_0
  iintro ⟨HO, Hp0_0, Hpay⟩
  ihave Hh_0 := (Entails.of_eq (payD_0 m ρ c 0 0 0 rfl rfl)) $$ Hpay
  -- the first-phase transfer (0, 2) has read its rows: they come back
  iapply (wp_wait_d m ρ K c 0 2 _ rfl 35 (dst := hSl c 2 0) rfl _ (mw_end c _)) $$ [Hcs0_2 HO Hp0_2]
  · isplitr; · iexact HR
    isplitr; · iexact Hlev
    isplitl [Hcs0_2]; · iexact Hcs0_2
    isplitl [HO]; · iexact HO
    iexact Hp0_2
  iintro ⟨HO, Hp0_2, Hpay⟩
  ihave Hh_2 := (Entails.of_eq (payD_0 m ρ c 0 2 2 rfl rfl)) $$ Hpay
  -- the first-phase transfer (0, 3) has read its rows: they come back
  iapply (wp_wait_d m ρ K c 0 3 _ rfl 35 (dst := hSl c 3 0) rfl _ (mw_end c _)) $$ [Hcs0_3 HO Hp0_3]
  · isplitr; · iexact HR
    isplitr; · iexact Hlev
    isplitl [Hcs0_3]; · iexact Hcs0_3
    isplitl [HO]; · iexact HO
    iexact Hp0_3
  iintro ⟨HO, Hp0_3, Hpay⟩
  ihave Hh_3 := (Entails.of_eq (payD_0 m ρ c 0 3 3 rfl rfl)) $$ Hpay
  -- the first-phase transfer (1, 5) has read its rows: they come back
  iapply (wp_wait_d m ρ K c 0 12 _ rfl 35 (dst := hSl c 5 1) rfl _ (mw_end c _)) $$ [Hcs0_12 HO Hp0_12]
  · isplitr; · iexact HR
    isplitr; · iexact Hlev
    isplitl [Hcs0_12]; · iexact Hcs0_12
    isplitl [HO]; · iexact HO
    iexact Hp0_12
  iintro ⟨HO, Hp0_12, Hpay⟩
  ihave Hh_12 := (Entails.of_eq (payD_0 m ρ c 1 5 12 rfl rfl)) $$ Hpay
  -- the first-phase transfer (1, 1) has read its rows: they come back
  iapply (wp_wait_d m ρ K c 0 8 _ rfl 35 (dst := hSl c 1 1) rfl _ (mw_end c _)) $$ [Hcs0_8 HO Hp0_8]
  · isplitr; · iexact HR
    isplitr; · iexact Hlev
    isplitl [Hcs0_8]; · iexact Hcs0_8
    isplitl [HO]; · iexact HO
    iexact Hp0_8
  iintro ⟨HO, Hp0_8, Hpay⟩
  ihave Hh_8 := (Entails.of_eq (payD_0 m ρ c 1 1 8 rfl rfl)) $$ Hpay
  -- the first-phase transfer (1, 4) has read its rows: they come back
  iapply (wp_wait_d m ρ K c 0 11 _ rfl 35 (dst := hSl c 4 1) rfl _ (mw_end c _)) $$ [Hcs0_11 HO Hp0_11]
  · isplitr; · iexact HR
    isplitr; · iexact Hlev
    isplitl [Hcs0_11]; · iexact Hcs0_11
    isplitl [HO]; · iexact HO
    iexact Hp0_11
  iintro ⟨HO, Hp0_11, Hpay⟩
  ihave Hh_11 := (Entails.of_eq (payD_0 m ρ c 1 4 11 rfl rfl)) $$ Hpay
  -- the first-phase transfer (1, 6) has read its rows: they come back
  iapply (wp_wait_d m ρ K c 0 13 _ rfl 35 (dst := hSl c 6 1) rfl _ (mw_end c _)) $$ [Hcs0_13 HO Hp0_13]
  · isplitr; · iexact HR
    isplitr; · iexact Hlev
    isplitl [Hcs0_13]; · iexact Hcs0_13
    isplitl [HO]; · iexact HO
    iexact Hp0_13
  iintro ⟨HO, Hp0_13, Hpay⟩
  ihave Hh_13 := (Entails.of_eq (payD_0 m ρ c 1 6 13 rfl rfl)) $$ Hpay
  -- the first-phase transfer (1, 0) has read its rows: they come back
  iapply (wp_wait_d m ρ K c 0 7 _ rfl 35 (dst := hSl c 0 1) rfl _ (mw_end c _)) $$ [Hcs0_7 HO Hp0_7]
  · isplitr; · iexact HR
    isplitr; · iexact Hlev
    isplitl [Hcs0_7]; · iexact Hcs0_7
    isplitl [HO]; · iexact HO
    iexact Hp0_7
  iintro ⟨HO, Hp0_7, Hpay⟩
  ihave Hh_7 := (Entails.of_eq (payD_0 m ρ c 1 0 7 rfl rfl)) $$ Hpay
  -- the first-phase transfer (1, 2) has read its rows: they come back
  iapply (wp_wait_d m ρ K c 0 9 _ rfl 35 (dst := hSl c 2 1) rfl _ (mw_end c _)) $$ [Hcs0_9 HO Hp0_9]
  · isplitr; · iexact HR
    isplitr; · iexact Hlev
    isplitl [Hcs0_9]; · iexact Hcs0_9
    isplitl [HO]; · iexact HO
    iexact Hp0_9
  iintro ⟨HO, Hp0_9, Hpay⟩
  ihave Hh_9 := (Entails.of_eq (payD_0 m ρ c 1 2 9 rfl rfl)) $$ Hpay
  -- the first-phase transfer (1, 3) has read its rows: they come back
  iapply (wp_wait_d m ρ K c 0 10 _ rfl 35 (dst := hSl c 3 1) rfl _ (mw_end c _)) $$ [Hcs0_10 HO Hp0_10]
  · isplitr; · iexact HR
    isplitr; · iexact Hlev
    isplitl [Hcs0_10]; · iexact Hcs0_10
    isplitl [HO]; · iexact HO
    iexact Hp0_10
  iintro ⟨HO, Hp0_10, Hpay⟩
  ihave Hh_10 := (Entails.of_eq (payD_0 m ρ c 1 3 10 rfl rfl)) $$ Hpay
  -- the second-phase transfer (0, 5) has read its half: the share lent comes back
  iapply (wp_wait_d m ρ K c 2 5 _ rfl 35 (dst := gSl 0) rfl _ (mw_end c _)) $$ [Hcs2_5 HO Hp2_5]
  · isplitr; · iexact HR
    isplitr; · iexact Hlev
    isplitl [Hcs2_5]; · iexact Hcs2_5
    isplitl [HO]; · iexact HO
    iexact Hp2_5
  iintro ⟨HO, Hp2_5, Hpay⟩
  ihave Hgs_5 := (Entails.of_eq (payD_2 m ρ c 0 5 5 0 rfl rfl rfl)) $$ Hpay
  -- the second-phase transfer (0, 1) has read its half: the share lent comes back
  iapply (wp_wait_d m ρ K c 2 1 _ rfl 35 (dst := gSl 0) rfl _ (mw_end c _)) $$ [Hcs2_1 HO Hp2_1]
  · isplitr; · iexact HR
    isplitr; · iexact Hlev
    isplitl [Hcs2_1]; · iexact Hcs2_1
    isplitl [HO]; · iexact HO
    iexact Hp2_1
  iintro ⟨HO, Hp2_1, Hpay⟩
  ihave Hgs_1 := (Entails.of_eq (payD_2 m ρ c 0 1 1 1 rfl rfl rfl)) $$ Hpay
  -- the second-phase transfer (0, 4) has read its half: the share lent comes back
  iapply (wp_wait_d m ρ K c 2 4 _ rfl 35 (dst := gSl 0) rfl _ (mw_end c _)) $$ [Hcs2_4 HO Hp2_4]
  · isplitr; · iexact HR
    isplitr; · iexact Hlev
    isplitl [Hcs2_4]; · iexact Hcs2_4
    isplitl [HO]; · iexact HO
    iexact Hp2_4
  iintro ⟨HO, Hp2_4, Hpay⟩
  ihave Hgs_4 := (Entails.of_eq (payD_2 m ρ c 0 4 4 2 rfl rfl rfl)) $$ Hpay
  -- the second-phase transfer (0, 6) has read its half: the share lent comes back
  iapply (wp_wait_d m ρ K c 2 6 _ rfl 35 (dst := gSl 0) rfl _ (mw_end c _)) $$ [Hcs2_6 HO Hp2_6]
  · isplitr; · iexact HR
    isplitr; · iexact Hlev
    isplitl [Hcs2_6]; · iexact Hcs2_6
    isplitl [HO]; · iexact HO
    iexact Hp2_6
  iintro ⟨HO, Hp2_6, Hpay⟩
  ihave Hgs_6 := (Entails.of_eq (payD_2 m ρ c 0 6 6 3 rfl rfl rfl)) $$ Hpay
  -- the second-phase transfer (0, 0) has read its half: the share lent comes back
  iapply (wp_wait_d m ρ K c 2 0 _ rfl 35 (dst := gSl 0) rfl _ (mw_end c _)) $$ [Hcs2_0 HO Hp2_0]
  · isplitr; · iexact HR
    isplitr; · iexact Hlev
    isplitl [Hcs2_0]; · iexact Hcs2_0
    isplitl [HO]; · iexact HO
    iexact Hp2_0
  iintro ⟨HO, Hp2_0, Hpay⟩
  ihave Hgs_0 := (Entails.of_eq (payD_2 m ρ c 0 0 0 4 rfl rfl rfl)) $$ Hpay
  -- the second-phase transfer (0, 2) has read its half: the share lent comes back
  iapply (wp_wait_d m ρ K c 2 2 _ rfl 35 (dst := gSl 0) rfl _ (mw_end c _)) $$ [Hcs2_2 HO Hp2_2]
  · isplitr; · iexact HR
    isplitr; · iexact Hlev
    isplitl [Hcs2_2]; · iexact Hcs2_2
    isplitl [HO]; · iexact HO
    iexact Hp2_2
  iintro ⟨HO, Hp2_2, Hpay⟩
  ihave Hgs_2 := (Entails.of_eq (payD_2 m ρ c 0 2 2 5 rfl rfl rfl)) $$ Hpay
  -- the second-phase transfer (0, 3) has read its half: the share lent comes back
  iapply (wp_wait_d m ρ K c 2 3 _ rfl 35 (dst := gSl 0) rfl _ (mw_end c _)) $$ [Hcs2_3 HO Hp2_3]
  · isplitr; · iexact HR
    isplitr; · iexact Hlev
    isplitl [Hcs2_3]; · iexact Hcs2_3
    isplitl [HO]; · iexact HO
    iexact Hp2_3
  iintro ⟨HO, Hp2_3, Hpay⟩
  ihave Hgs_3 := (Entails.of_eq (payD_2 m ρ c 0 3 3 6 rfl rfl rfl)) $$ Hpay
  -- the second-phase transfer (1, 5) has read its half: the share lent comes back
  iapply (wp_wait_d m ρ K c 2 12 _ rfl 35 (dst := gSl 1) rfl _ (mw_end c _)) $$ [Hcs2_12 HO Hp2_12]
  · isplitr; · iexact HR
    isplitr; · iexact Hlev
    isplitl [Hcs2_12]; · iexact Hcs2_12
    isplitl [HO]; · iexact HO
    iexact Hp2_12
  iintro ⟨HO, Hp2_12, Hpay⟩
  ihave Hgs_12 := (Entails.of_eq (payD_2 m ρ c 1 5 12 0 rfl rfl rfl)) $$ Hpay
  -- the second-phase transfer (1, 1) has read its half: the share lent comes back
  iapply (wp_wait_d m ρ K c 2 8 _ rfl 35 (dst := gSl 1) rfl _ (mw_end c _)) $$ [Hcs2_8 HO Hp2_8]
  · isplitr; · iexact HR
    isplitr; · iexact Hlev
    isplitl [Hcs2_8]; · iexact Hcs2_8
    isplitl [HO]; · iexact HO
    iexact Hp2_8
  iintro ⟨HO, Hp2_8, Hpay⟩
  ihave Hgs_8 := (Entails.of_eq (payD_2 m ρ c 1 1 8 1 rfl rfl rfl)) $$ Hpay
  -- the second-phase transfer (1, 4) has read its half: the share lent comes back
  iapply (wp_wait_d m ρ K c 2 11 _ rfl 35 (dst := gSl 1) rfl _ (mw_end c _)) $$ [Hcs2_11 HO Hp2_11]
  · isplitr; · iexact HR
    isplitr; · iexact Hlev
    isplitl [Hcs2_11]; · iexact Hcs2_11
    isplitl [HO]; · iexact HO
    iexact Hp2_11
  iintro ⟨HO, Hp2_11, Hpay⟩
  ihave Hgs_11 := (Entails.of_eq (payD_2 m ρ c 1 4 11 2 rfl rfl rfl)) $$ Hpay
  -- the second-phase transfer (1, 6) has read its half: the share lent comes back
  iapply (wp_wait_d m ρ K c 2 13 _ rfl 35 (dst := gSl 1) rfl _ (mw_end c _)) $$ [Hcs2_13 HO Hp2_13]
  · isplitr; · iexact HR
    isplitr; · iexact Hlev
    isplitl [Hcs2_13]; · iexact Hcs2_13
    isplitl [HO]; · iexact HO
    iexact Hp2_13
  iintro ⟨HO, Hp2_13, Hpay⟩
  ihave Hgs_13 := (Entails.of_eq (payD_2 m ρ c 1 6 13 3 rfl rfl rfl)) $$ Hpay
  -- the second-phase transfer (1, 0) has read its half: the share lent comes back
  iapply (wp_wait_d m ρ K c 2 7 _ rfl 35 (dst := gSl 1) rfl _ (mw_end c _)) $$ [Hcs2_7 HO Hp2_7]
  · isplitr; · iexact HR
    isplitr; · iexact Hlev
    isplitl [Hcs2_7]; · iexact Hcs2_7
    isplitl [HO]; · iexact HO
    iexact Hp2_7
  iintro ⟨HO, Hp2_7, Hpay⟩
  ihave Hgs_7 := (Entails.of_eq (payD_2 m ρ c 1 0 7 4 rfl rfl rfl)) $$ Hpay
  -- the second-phase transfer (1, 2) has read its half: the share lent comes back
  iapply (wp_wait_d m ρ K c 2 9 _ rfl 35 (dst := gSl 1) rfl _ (mw_end c _)) $$ [Hcs2_9 HO Hp2_9]
  · isplitr; · iexact HR
    isplitr; · iexact Hlev
    isplitl [Hcs2_9]; · iexact Hcs2_9
    isplitl [HO]; · iexact HO
    iexact Hp2_9
  iintro ⟨HO, Hp2_9, Hpay⟩
  ihave Hgs_9 := (Entails.of_eq (payD_2 m ρ c 1 2 9 5 rfl rfl rfl)) $$ Hpay
  -- the second-phase transfer (1, 3) has read its half: the share lent comes back
  iapply (wp_wait_d m ρ K c 2 10 _ rfl 35 (dst := gSl 1) rfl _ (mw_end c _)) $$ [Hcs2_10 HO Hp2_10]
  · isplitr; · iexact HR
    isplitr; · iexact Hlev
    isplitl [Hcs2_10]; · iexact Hcs2_10
    isplitl [HO]; · iexact HO
    iexact Hp2_10
  iintro ⟨HO, Hp2_10, Hpay⟩
  ihave Hgs_10 := (Entails.of_eq (payD_2 m ρ c 1 3 10 6 rfl rfl rfl)) $$ Hpay
  -- every own DMA cell's one round is over: the cells close, their counters at zero are the device's again
  imod (close_d m ρ K c 0 5) $$ [Hp0_5] with Hz0_5
  · isplitr; · iexact HR
    iexact Hp0_5
  imod (close_d m ρ K c 0 1) $$ [Hp0_1] with Hz0_1
  · isplitr; · iexact HR
    iexact Hp0_1
  imod (close_d m ρ K c 0 4) $$ [Hp0_4] with Hz0_4
  · isplitr; · iexact HR
    iexact Hp0_4
  imod (close_d m ρ K c 0 6) $$ [Hp0_6] with Hz0_6
  · isplitr; · iexact HR
    iexact Hp0_6
  imod (close_d m ρ K c 0 0) $$ [Hp0_0] with Hz0_0
  · isplitr; · iexact HR
    iexact Hp0_0
  imod (close_d m ρ K c 0 2) $$ [Hp0_2] with Hz0_2
  · isplitr; · iexact HR
    iexact Hp0_2
  imod (close_d m ρ K c 0 3) $$ [Hp0_3] with Hz0_3
  · isplitr; · iexact HR
    iexact Hp0_3
  imod (close_d m ρ K c 0 12) $$ [Hp0_12] with Hz0_12
  · isplitr; · iexact HR
    iexact Hp0_12
  imod (close_d m ρ K c 0 8) $$ [Hp0_8] with Hz0_8
  · isplitr; · iexact HR
    iexact Hp0_8
  imod (close_d m ρ K c 0 11) $$ [Hp0_11] with Hz0_11
  · isplitr; · iexact HR
    iexact Hp0_11
  imod (close_d m ρ K c 0 13) $$ [Hp0_13] with Hz0_13
  · isplitr; · iexact HR
    iexact Hp0_13
  imod (close_d m ρ K c 0 7) $$ [Hp0_7] with Hz0_7
  · isplitr; · iexact HR
    iexact Hp0_7
  imod (close_d m ρ K c 0 9) $$ [Hp0_9] with Hz0_9
  · isplitr; · iexact HR
    iexact Hp0_9
  imod (close_d m ρ K c 0 10) $$ [Hp0_10] with Hz0_10
  · isplitr; · iexact HR
    iexact Hp0_10
  imod (close_d m ρ K c 1 5) $$ [Hp1_5] with Hz1_5
  · isplitr; · iexact HR
    iexact Hp1_5
  imod (close_d m ρ K c 1 1) $$ [Hp1_1] with Hz1_1
  · isplitr; · iexact HR
    iexact Hp1_1
  imod (close_d m ρ K c 1 4) $$ [Hp1_4] with Hz1_4
  · isplitr; · iexact HR
    iexact Hp1_4
  imod (close_d m ρ K c 1 6) $$ [Hp1_6] with Hz1_6
  · isplitr; · iexact HR
    iexact Hp1_6
  imod (close_d m ρ K c 1 0) $$ [Hp1_0] with Hz1_0
  · isplitr; · iexact HR
    iexact Hp1_0
  imod (close_d m ρ K c 1 2) $$ [Hp1_2] with Hz1_2
  · isplitr; · iexact HR
    iexact Hp1_2
  imod (close_d m ρ K c 1 3) $$ [Hp1_3] with Hz1_3
  · isplitr; · iexact HR
    iexact Hp1_3
  imod (close_d m ρ K c 1 12) $$ [Hp1_12] with Hz1_12
  · isplitr; · iexact HR
    iexact Hp1_12
  imod (close_d m ρ K c 1 8) $$ [Hp1_8] with Hz1_8
  · isplitr; · iexact HR
    iexact Hp1_8
  imod (close_d m ρ K c 1 11) $$ [Hp1_11] with Hz1_11
  · isplitr; · iexact HR
    iexact Hp1_11
  imod (close_d m ρ K c 1 13) $$ [Hp1_13] with Hz1_13
  · isplitr; · iexact HR
    iexact Hp1_13
  imod (close_d m ρ K c 1 7) $$ [Hp1_7] with Hz1_7
  · isplitr; · iexact HR
    iexact Hp1_7
  imod (close_d m ρ K c 1 9) $$ [Hp1_9] with Hz1_9
  · isplitr; · iexact HR
    iexact Hp1_9
  imod (close_d m ρ K c 1 10) $$ [Hp1_10] with Hz1_10
  · isplitr; · iexact HR
    iexact Hp1_10
  imod (close_d m ρ K c 2 5) $$ [Hp2_5] with Hz2_5
  · isplitr; · iexact HR
    iexact Hp2_5
  imod (close_d m ρ K c 2 1) $$ [Hp2_1] with Hz2_1
  · isplitr; · iexact HR
    iexact Hp2_1
  imod (close_d m ρ K c 2 4) $$ [Hp2_4] with Hz2_4
  · isplitr; · iexact HR
    iexact Hp2_4
  imod (close_d m ρ K c 2 6) $$ [Hp2_6] with Hz2_6
  · isplitr; · iexact HR
    iexact Hp2_6
  imod (close_d m ρ K c 2 0) $$ [Hp2_0] with Hz2_0
  · isplitr; · iexact HR
    iexact Hp2_0
  imod (close_d m ρ K c 2 2) $$ [Hp2_2] with Hz2_2
  · isplitr; · iexact HR
    iexact Hp2_2
  imod (close_d m ρ K c 2 3) $$ [Hp2_3] with Hz2_3
  · isplitr; · iexact HR
    iexact Hp2_3
  imod (close_d m ρ K c 2 12) $$ [Hp2_12] with Hz2_12
  · isplitr; · iexact HR
    iexact Hp2_12
  imod (close_d m ρ K c 2 8) $$ [Hp2_8] with Hz2_8
  · isplitr; · iexact HR
    iexact Hp2_8
  imod (close_d m ρ K c 2 11) $$ [Hp2_11] with Hz2_11
  · isplitr; · iexact HR
    iexact Hp2_11
  imod (close_d m ρ K c 2 13) $$ [Hp2_13] with Hz2_13
  · isplitr; · iexact HR
    iexact Hp2_13
  imod (close_d m ρ K c 2 7) $$ [Hp2_7] with Hz2_7
  · isplitr; · iexact HR
    iexact Hp2_7
  imod (close_d m ρ K c 2 9) $$ [Hp2_9] with Hz2_9
  · isplitr; · iexact HR
    iexact Hp2_9
  imod (close_d m ρ K c 2 10) $$ [Hp2_10] with Hz2_10
  · isplitr; · iexact HR
    iexact Hp2_10
  imod (close_d m ρ K c 3 5) $$ [Hp3_5] with Hz3_5
  · isplitr; · iexact HR
    iexact Hp3_5
  imod (close_d m ρ K c 3 1) $$ [Hp3_1] with Hz3_1
  · isplitr; · iexact HR
    iexact Hp3_1
  imod (close_d m ρ K c 3 4) $$ [Hp3_4] with Hz3_4
  · isplitr; · iexact HR
    iexact Hp3_4
  imod (close_d m ρ K c 3 6) $$ [Hp3_6] with Hz3_6
  · isplitr; · iexact HR
    iexact Hp3_6
  imod (close_d m ρ K c 3 0) $$ [Hp3_0] with Hz3_0
  · isplitr; · iexact HR
    iexact Hp3_0
  imod (close_d m ρ K c 3 2) $$ [Hp3_2] with Hz3_2
  · isplitr; · iexact HR
    iexact Hp3_2
  imod (close_d m ρ K c 3 3) $$ [Hp3_3] with Hz3_3
  · isplitr; · iexact HR
    iexact Hp3_3
  imod (close_d m ρ K c 3 12) $$ [Hp3_12] with Hz3_12
  · isplitr; · iexact HR
    iexact Hp3_12
  imod (close_d m ρ K c 3 8) $$ [Hp3_8] with Hz3_8
  · isplitr; · iexact HR
    iexact Hp3_8
  imod (close_d m ρ K c 3 11) $$ [Hp3_11] with Hz3_11
  · isplitr; · iexact HR
    iexact Hp3_11
  imod (close_d m ρ K c 3 13) $$ [Hp3_13] with Hz3_13
  · isplitr; · iexact HR
    iexact Hp3_13
  imod (close_d m ρ K c 3 7) $$ [Hp3_7] with Hz3_7
  · isplitr; · iexact HR
    iexact Hp3_7
  imod (close_d m ρ K c 3 9) $$ [Hp3_9] with Hz3_9
  · isplitr; · iexact HR
    iexact Hp3_9
  imod (close_d m ρ K c 3 10) $$ [Hp3_10] with Hz3_10
  · isplitr; · iexact HR
    iexact Hp3_10
  -- the 16-bit copy put back together
  ihave Hh := (give_hsl' c 1 3 10 rfl rfl [9, 7, 13, 11, 8, 12, 3, 2, 0, 6, 4, 1, 5] (by decide) _ _) $$ [Hh_10 Hh]
  · isplitl [Hh_10]; · iexact Hh_10
    iexact Hh
  icases Hh with ⟨%fh13, Hh⟩
  ihave Hh := (give_hsl' c 1 2 9 rfl rfl [7, 13, 11, 8, 12, 3, 2, 0, 6, 4, 1, 5] (by decide) _ _) $$ [Hh_9 Hh]
  · isplitl [Hh_9]; · iexact Hh_9
    iexact Hh
  icases Hh with ⟨%fh12, Hh⟩
  ihave Hh := (give_hsl' c 1 0 7 rfl rfl [13, 11, 8, 12, 3, 2, 0, 6, 4, 1, 5] (by decide) _ _) $$ [Hh_7 Hh]
  · isplitl [Hh_7]; · iexact Hh_7
    iexact Hh
  icases Hh with ⟨%fh11, Hh⟩
  ihave Hh := (give_hsl' c 1 6 13 rfl rfl [11, 8, 12, 3, 2, 0, 6, 4, 1, 5] (by decide) _ _) $$ [Hh_13 Hh]
  · isplitl [Hh_13]; · iexact Hh_13
    iexact Hh
  icases Hh with ⟨%fh10, Hh⟩
  ihave Hh := (give_hsl' c 1 4 11 rfl rfl [8, 12, 3, 2, 0, 6, 4, 1, 5] (by decide) _ _) $$ [Hh_11 Hh]
  · isplitl [Hh_11]; · iexact Hh_11
    iexact Hh
  icases Hh with ⟨%fh9, Hh⟩
  ihave Hh := (give_hsl' c 1 1 8 rfl rfl [12, 3, 2, 0, 6, 4, 1, 5] (by decide) _ _) $$ [Hh_8 Hh]
  · isplitl [Hh_8]; · iexact Hh_8
    iexact Hh
  icases Hh with ⟨%fh8, Hh⟩
  ihave Hh := (give_hsl' c 1 5 12 rfl rfl [3, 2, 0, 6, 4, 1, 5] (by decide) _ _) $$ [Hh_12 Hh]
  · isplitl [Hh_12]; · iexact Hh_12
    iexact Hh
  icases Hh with ⟨%fh7, Hh⟩
  ihave Hh := (give_hsl' c 0 3 3 rfl rfl [2, 0, 6, 4, 1, 5] (by decide) _ _) $$ [Hh_3 Hh]
  · isplitl [Hh_3]; · iexact Hh_3
    iexact Hh
  icases Hh with ⟨%fh6, Hh⟩
  ihave Hh := (give_hsl' c 0 2 2 rfl rfl [0, 6, 4, 1, 5] (by decide) _ _) $$ [Hh_2 Hh]
  · isplitl [Hh_2]; · iexact Hh_2
    iexact Hh
  icases Hh with ⟨%fh5, Hh⟩
  ihave Hh := (give_hsl' c 0 0 0 rfl rfl [6, 4, 1, 5] (by decide) _ _) $$ [Hh_0 Hh]
  · isplitl [Hh_0]; · iexact Hh_0
    iexact Hh
  icases Hh with ⟨%fh4, Hh⟩
  ihave Hh := (give_hsl' c 0 6 6 rfl rfl [4, 1, 5] (by decide) _ _) $$ [Hh_6 Hh]
  · isplitl [Hh_6]; · iexact Hh_6
    iexact Hh
  icases Hh with ⟨%fh3, Hh⟩
  ihave Hh := (give_hsl' c 0 4 4 rfl rfl [1, 5] (by decide) _ _) $$ [Hh_4 Hh]
  · isplitl [Hh_4]; · iexact Hh_4
    iexact Hh
  icases Hh with ⟨%fh2, Hh⟩
  ihave Hh := (give_hsl' c 0 1 1 rfl rfl [5] (by decide) _ _) $$ [Hh_1 Hh]
  · isplitl [Hh_1]; · iexact Hh_1
    iexact Hh
  icases Hh with ⟨%fh1, Hh⟩
  ihave Hh := (give_hsl' c 0 5 5 rfl rfl [] (by decide) _ _) $$ [Hh_5 Hh]
  · isplitl [Hh_5]; · iexact Hh_5
    iexact Hh
  icases Hh with ⟨%fh0, Hh⟩
  ihave Hh := (from_restH c _) $$ Hh
  -- the segment buffer: the shares lent come back onto what was kept, then the halves join
  ihave Hg_0 := (share_join c 0 6 7 rfl _) $$ [Hgs_3 Hg_0]
  · isplitl [Hgs_3]; · iexact Hgs_3
    iexact Hg_0
  ihave Hg_0 := (share_join c 0 5 6 rfl _) $$ [Hgs_2 Hg_0]
  · isplitl [Hgs_2]; · iexact Hgs_2
    iexact Hg_0
  ihave Hg_0 := (share_join c 0 4 5 rfl _) $$ [Hgs_0 Hg_0]
  · isplitl [Hgs_0]; · iexact Hgs_0
    iexact Hg_0
  ihave Hg_0 := (share_join c 0 3 4 rfl _) $$ [Hgs_6 Hg_0]
  · isplitl [Hgs_6]; · iexact Hgs_6
    iexact Hg_0
  ihave Hg_0 := (share_join c 0 2 3 rfl _) $$ [Hgs_4 Hg_0]
  · isplitl [Hgs_4]; · iexact Hgs_4
    iexact Hg_0
  ihave Hg_0 := (share_join c 0 1 2 rfl _) $$ [Hgs_1 Hg_0]
  · isplitl [Hgs_1]; · iexact Hgs_1
    iexact Hg_0
  ihave Hg_0 := (share_join c 0 0 1 rfl _) $$ [Hgs_5 Hg_0]
  · isplitl [Hgs_5]; · iexact Hgs_5
    iexact Hg_0
  ihave Hg_0 := (from_shr0 c 0 _) $$ Hg_0
  ihave Hg_1 := (share_join c 1 6 7 rfl _) $$ [Hgs_10 Hg_1]
  · isplitl [Hgs_10]; · iexact Hgs_10
    iexact Hg_1
  ihave Hg_1 := (share_join c 1 5 6 rfl _) $$ [Hgs_9 Hg_1]
  · isplitl [Hgs_9]; · iexact Hgs_9
    iexact Hg_1
  ihave Hg_1 := (share_join c 1 4 5 rfl _) $$ [Hgs_7 Hg_1]
  · isplitl [Hgs_7]; · iexact Hgs_7
    iexact Hg_1
  ihave Hg_1 := (share_join c 1 3 4 rfl _) $$ [Hgs_13 Hg_1]
  · isplitl [Hgs_13]; · iexact Hgs_13
    iexact Hg_1
  ihave Hg_1 := (share_join c 1 2 3 rfl _) $$ [Hgs_11 Hg_1]
  · isplitl [Hgs_11]; · iexact Hgs_11
    iexact Hg_1
  ihave Hg_1 := (share_join c 1 1 2 rfl _) $$ [Hgs_8 Hg_1]
  · isplitl [Hgs_8]; · iexact Hgs_8
    iexact Hg_1
  ihave Hg_1 := (share_join c 1 0 1 rfl _) $$ [Hgs_12 Hg_1]
  · isplitl [Hgs_12]; · iexact Hgs_12
    iexact Hg_1
  ihave Hg_1 := (from_shr0 c 1 _) $$ Hg_1
  ihave Hg := (give_piece (ℓ := (c : Thread nD τ).loc cc0_scratch1) gsl_sub _ _) $$ [Hg_1 Hg]
  · isplitl [Hg_1]; · iexact Hg_1
    iexact Hg
  icases Hg with ⟨%fgB, Hg⟩
  ihave Hg := (give_piece (ℓ := (c : Thread nD τ).loc cc0_scratch1) (Finset.subset_univ (gSl 0).view.set) _ _) $$ [Hg_0 Hg]
  · isplitl [Hg_0]; · iexact Hg_0
    iexact Hg
  icases Hg with ⟨%fgA, Hg⟩
  -- the two receive buffers put back together
  ihave Hr := (give_rslot c (1, 3) [(1, 2), (1, 0), (1, 6), (1, 4), (1, 1), (1, 5), (0, 3), (0, 2), (0, 0), (0, 6), (0, 4), (0, 1), (0, 5)] (by decide) _ _) $$ [Hrr_10 Hr]
  · isplitl [Hrr_10]; · iexact Hrr_10
    iexact Hr
  icases Hr with ⟨%fr13, Hr⟩
  ihave Ha := (give_aslot c (1, 3) [(1, 2), (1, 0), (1, 6), (1, 4), (1, 1), (1, 5), (0, 3), (0, 2), (0, 0), (0, 6), (0, 4), (0, 1), (0, 5)] (by decide) _ _) $$ [Har_10 Ha]
  · isplitl [Har_10]; · iexact Har_10
    iexact Ha
  icases Ha with ⟨%fa13, Ha⟩
  ihave Hr := (give_rslot c (1, 2) [(1, 0), (1, 6), (1, 4), (1, 1), (1, 5), (0, 3), (0, 2), (0, 0), (0, 6), (0, 4), (0, 1), (0, 5)] (by decide) _ _) $$ [Hrr_9 Hr]
  · isplitl [Hrr_9]; · iexact Hrr_9
    iexact Hr
  icases Hr with ⟨%fr12, Hr⟩
  ihave Ha := (give_aslot c (1, 2) [(1, 0), (1, 6), (1, 4), (1, 1), (1, 5), (0, 3), (0, 2), (0, 0), (0, 6), (0, 4), (0, 1), (0, 5)] (by decide) _ _) $$ [Har_9 Ha]
  · isplitl [Har_9]; · iexact Har_9
    iexact Ha
  icases Ha with ⟨%fa12, Ha⟩
  ihave Hr := (give_rslot c (1, 0) [(1, 6), (1, 4), (1, 1), (1, 5), (0, 3), (0, 2), (0, 0), (0, 6), (0, 4), (0, 1), (0, 5)] (by decide) _ _) $$ [Hrr_7 Hr]
  · isplitl [Hrr_7]; · iexact Hrr_7
    iexact Hr
  icases Hr with ⟨%fr11, Hr⟩
  ihave Ha := (give_aslot c (1, 0) [(1, 6), (1, 4), (1, 1), (1, 5), (0, 3), (0, 2), (0, 0), (0, 6), (0, 4), (0, 1), (0, 5)] (by decide) _ _) $$ [Har_7 Ha]
  · isplitl [Har_7]; · iexact Har_7
    iexact Ha
  icases Ha with ⟨%fa11, Ha⟩
  ihave Hr := (give_rslot c (1, 6) [(1, 4), (1, 1), (1, 5), (0, 3), (0, 2), (0, 0), (0, 6), (0, 4), (0, 1), (0, 5)] (by decide) _ _) $$ [Hrr_13 Hr]
  · isplitl [Hrr_13]; · iexact Hrr_13
    iexact Hr
  icases Hr with ⟨%fr10, Hr⟩
  ihave Ha := (give_aslot c (1, 6) [(1, 4), (1, 1), (1, 5), (0, 3), (0, 2), (0, 0), (0, 6), (0, 4), (0, 1), (0, 5)] (by decide) _ _) $$ [Har_13 Ha]
  · isplitl [Har_13]; · iexact Har_13
    iexact Ha
  icases Ha with ⟨%fa10, Ha⟩
  ihave Hr := (give_rslot c (1, 4) [(1, 1), (1, 5), (0, 3), (0, 2), (0, 0), (0, 6), (0, 4), (0, 1), (0, 5)] (by decide) _ _) $$ [Hrr_11 Hr]
  · isplitl [Hrr_11]; · iexact Hrr_11
    iexact Hr
  icases Hr with ⟨%fr9, Hr⟩
  ihave Ha := (give_aslot c (1, 4) [(1, 1), (1, 5), (0, 3), (0, 2), (0, 0), (0, 6), (0, 4), (0, 1), (0, 5)] (by decide) _ _) $$ [Har_11 Ha]
  · isplitl [Har_11]; · iexact Har_11
    iexact Ha
  icases Ha with ⟨%fa9, Ha⟩
  ihave Hr := (give_rslot c (1, 1) [(1, 5), (0, 3), (0, 2), (0, 0), (0, 6), (0, 4), (0, 1), (0, 5)] (by decide) _ _) $$ [Hrr_8 Hr]
  · isplitl [Hrr_8]; · iexact Hrr_8
    iexact Hr
  icases Hr with ⟨%fr8, Hr⟩
  ihave Ha := (give_aslot c (1, 1) [(1, 5), (0, 3), (0, 2), (0, 0), (0, 6), (0, 4), (0, 1), (0, 5)] (by decide) _ _) $$ [Har_8 Ha]
  · isplitl [Har_8]; · iexact Har_8
    iexact Ha
  icases Ha with ⟨%fa8, Ha⟩
  ihave Hr := (give_rslot c (1, 5) [(0, 3), (0, 2), (0, 0), (0, 6), (0, 4), (0, 1), (0, 5)] (by decide) _ _) $$ [Hrr_12 Hr]
  · isplitl [Hrr_12]; · iexact Hrr_12
    iexact Hr
  icases Hr with ⟨%fr7, Hr⟩
  ihave Ha := (give_aslot c (1, 5) [(0, 3), (0, 2), (0, 0), (0, 6), (0, 4), (0, 1), (0, 5)] (by decide) _ _) $$ [Har_12 Ha]
  · isplitl [Har_12]; · iexact Har_12
    iexact Ha
  icases Ha with ⟨%fa7, Ha⟩
  ihave Hr := (give_rslot c (0, 3) [(0, 2), (0, 0), (0, 6), (0, 4), (0, 1), (0, 5)] (by decide) _ _) $$ [Hrr_3 Hr]
  · isplitl [Hrr_3]; · iexact Hrr_3
    iexact Hr
  icases Hr with ⟨%fr6, Hr⟩
  ihave Ha := (give_aslot c (0, 3) [(0, 2), (0, 0), (0, 6), (0, 4), (0, 1), (0, 5)] (by decide) _ _) $$ [Har_3 Ha]
  · isplitl [Har_3]; · iexact Har_3
    iexact Ha
  icases Ha with ⟨%fa6, Ha⟩
  ihave Hr := (give_rslot c (0, 2) [(0, 0), (0, 6), (0, 4), (0, 1), (0, 5)] (by decide) _ _) $$ [Hrr_2 Hr]
  · isplitl [Hrr_2]; · iexact Hrr_2
    iexact Hr
  icases Hr with ⟨%fr5, Hr⟩
  ihave Ha := (give_aslot c (0, 2) [(0, 0), (0, 6), (0, 4), (0, 1), (0, 5)] (by decide) _ _) $$ [Har_2 Ha]
  · isplitl [Har_2]; · iexact Har_2
    iexact Ha
  icases Ha with ⟨%fa5, Ha⟩
  ihave Hr := (give_rslot c (0, 0) [(0, 6), (0, 4), (0, 1), (0, 5)] (by decide) _ _) $$ [Hrr_0 Hr]
  · isplitl [Hrr_0]; · iexact Hrr_0
    iexact Hr
  icases Hr with ⟨%fr4, Hr⟩
  ihave Ha := (give_aslot c (0, 0) [(0, 6), (0, 4), (0, 1), (0, 5)] (by decide) _ _) $$ [Har_0 Ha]
  · isplitl [Har_0]; · iexact Har_0
    iexact Ha
  icases Ha with ⟨%fa4, Ha⟩
  ihave Hr := (give_rslot c (0, 6) [(0, 4), (0, 1), (0, 5)] (by decide) _ _) $$ [Hrr_6 Hr]
  · isplitl [Hrr_6]; · iexact Hrr_6
    iexact Hr
  icases Hr with ⟨%fr3, Hr⟩
  ihave Ha := (give_aslot c (0, 6) [(0, 4), (0, 1), (0, 5)] (by decide) _ _) $$ [Har_6 Ha]
  · isplitl [Har_6]; · iexact Har_6
    iexact Ha
  icases Ha with ⟨%fa3, Ha⟩
  ihave Hr := (give_rslot c (0, 4) [(0, 1), (0, 5)] (by decide) _ _) $$ [Hrr_4 Hr]
  · isplitl [Hrr_4]; · iexact Hrr_4
    iexact Hr
  icases Hr with ⟨%fr2, Hr⟩
  ihave Ha := (give_aslot c (0, 4) [(0, 1), (0, 5)] (by decide) _ _) $$ [Har_4 Ha]
  · isplitl [Har_4]; · iexact Har_4
    iexact Ha
  icases Ha with ⟨%fa2, Ha⟩
  ihave Hr := (give_rslot c (0, 1) [(0, 5)] (by decide) _ _) $$ [Hrr_1 Hr]
  · isplitl [Hrr_1]; · iexact Hrr_1
    iexact Hr
  icases Hr with ⟨%fr1, Hr⟩
  ihave Ha := (give_aslot c (0, 1) [(0, 5)] (by decide) _ _) $$ [Har_1 Ha]
  · isplitl [Har_1]; · iexact Har_1
    iexact Ha
  icases Ha with ⟨%fa1, Ha⟩
  ihave Hr := (give_rslot c (0, 5) [] (by decide) _ _) $$ [Hrr_5 Hr]
  · isplitl [Hrr_5]; · iexact Hrr_5
    iexact Hr
  icases Hr with ⟨%fr0, Hr⟩
  ihave Ha := (give_aslot c (0, 5) [] (by decide) _ _) $$ [Har_5 Ha]
  · isplitl [Har_5]; · iexact Har_5
    iexact Ha
  icases Ha with ⟨%fa0, Ha⟩
  ihave Hr := (from_restR c _) $$ Hr
  ihave Ha := (from_restA c _) $$ Ha
  -- the result: a function of the launch contents
  ihave Hout := (conv_out m ρ c g1 _ _ _ _ _ _ _ _ _ _ _ _ _ _ _ _ _ _ _ _ _ _ _ _ _ _ _ _) $$ Hout
  rw [wp_ret]; imodintro
  iapply Hk
  unfold bodyPost Φ₁ scr Dat.owesAt Pipeline.owesWithin
  rw [show (dats m ρ 0 c).owed t₀.succ = 0 from rfl]
  isplitr [HO Hx Hout]
  · isplitl [Hh]; · iexists _; iexact Hh
    isplitl [Hg]; · iexists _; iexact Hg
    isplitl [Hr]; · iexists _; iexact Hr
    isplitl [Ha]; · iexists _; iexact Ha
    iapply (Entails.of_eq (semX_eq (F := F) c).symm)
    unfold semX
    isplitl [Hz0_5]; · iexact Hz0_5
    isplitl [Hz0_1]; · iexact Hz0_1
    isplitl [Hz0_4]; · iexact Hz0_4
    isplitl [Hz0_6]; · iexact Hz0_6
    isplitl [Hz0_0]; · iexact Hz0_0
    isplitl [Hz0_2]; · iexact Hz0_2
    isplitl [Hz0_3]; · iexact Hz0_3
    isplitl [Hz0_12]; · iexact Hz0_12
    isplitl [Hz0_8]; · iexact Hz0_8
    isplitl [Hz0_11]; · iexact Hz0_11
    isplitl [Hz0_13]; · iexact Hz0_13
    isplitl [Hz0_7]; · iexact Hz0_7
    isplitl [Hz0_9]; · iexact Hz0_9
    isplitl [Hz0_10]; · iexact Hz0_10
    isplitl [Hz1_5]; · iexact Hz1_5
    isplitl [Hz1_1]; · iexact Hz1_1
    isplitl [Hz1_4]; · iexact Hz1_4
    isplitl [Hz1_6]; · iexact Hz1_6
    isplitl [Hz1_0]; · iexact Hz1_0
    isplitl [Hz1_2]; · iexact Hz1_2
    isplitl [Hz1_3]; · iexact Hz1_3
    isplitl [Hz1_12]; · iexact Hz1_12
    isplitl [Hz1_8]; · iexact Hz1_8
    isplitl [Hz1_11]; · iexact Hz1_11
    isplitl [Hz1_13]; · iexact Hz1_13
    isplitl [Hz1_7]; · iexact Hz1_7
    isplitl [Hz1_9]; · iexact Hz1_9
    isplitl [Hz1_10]; · iexact Hz1_10
    isplitl [Hz2_5]; · iexact Hz2_5
    isplitl [Hz2_1]; · iexact Hz2_1
    isplitl [Hz2_4]; · iexact Hz2_4
    isplitl [Hz2_6]; · iexact Hz2_6
    isplitl [Hz2_0]; · iexact Hz2_0
    isplitl [Hz2_2]; · iexact Hz2_2
    isplitl [Hz2_3]; · iexact Hz2_3
    isplitl [Hz2_12]; · iexact Hz2_12
    isplitl [Hz2_8]; · iexact Hz2_8
    isplitl [Hz2_11]; · iexact Hz2_11
    isplitl [Hz2_13]; · iexact Hz2_13
    isplitl [Hz2_7]; · iexact Hz2_7
    isplitl [Hz2_9]; · iexact Hz2_9
    isplitl [Hz2_10]; · iexact Hz2_10
    isplitl [Hz3_5]; · iexact Hz3_5
    isplitl [Hz3_1]; · iexact Hz3_1
    isplitl [Hz3_4]; · iexact Hz3_4
    isplitl [Hz3_6]; · iexact Hz3_6
    isplitl [Hz3_0]; · iexact Hz3_0
    isplitl [Hz3_2]; · iexact Hz3_2
    isplitl [Hz3_3]; · iexact Hz3_3
    isplitl [Hz3_12]; · iexact Hz3_12
    isplitl [Hz3_8]; · iexact Hz3_8
    isplitl [Hz3_11]; · iexact Hz3_11
    isplitl [Hz3_13]; · iexact Hz3_13
    isplitl [Hz3_7]; · iexact Hz3_7
    isplitl [Hz3_9]; · iexact Hz3_9
    iexact Hz3_10
  isplitl [HO]
  · iexists _
    isplitr
    on_goal 2 => iexact HO
    ipureintro; exact fun _ _ => Or.inl trivial
  isplitl [Hx]
  · iexists _; isplitr; · (ipureintro; rfl)
    iexact Hx
  iexists _; isplitr; · (ipureintro; rfl)
  iexact Hout

set_option maxHeartbeats 4000000 in
set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ c)
  unfold bodyPre Φ₀ start
  iintro ⟨⟨⟨⟨%K, Hg⟩, Hrest⟩, Hscr⟩, Ho, Hx, Hout⟩
  ihave Hg := (Entails.of_eq (ghostX_eq m ρ K c)) $$ Hg
  iapply (sound_body m ρ K c fun _ => bodyPost m ρ c)
  unfold bodyPreK
  isplitr []
  · isplitl [Hg Hrest Hscr]
    · isplitl [Hg Hrest]
      · isplitl [Hg]; · iexact Hg
        iexact Hrest
      iexact Hscr
    isplitl [Ho]; · iexact Ho
    isplitl [Hx] <;> iassumption
  · iintro H; iexact H

end Cert.KernelProof
end
-- ==== Proof.LaunchKernel.lean ====
import proofs.«900485_g7700000000000486_dist_treered_v7x_i8_m512_n512_f32_1_alg».proof.Proof.Gen.Kernel
import proofs.«900485_g7700000000000486_dist_treered_v7x_i8_m512_n512_f32_1_alg».proof.Proof.Gen.Kernel.Skeleton
import proofs.«900485_g7700000000000486_dist_treered_v7x_i8_m512_n512_f32_1_alg».proof.Proof.Gen.Kernel.Launch
import proofs.«900485_g7700000000000486_dist_treered_v7x_i8_m512_n512_f32_1_alg».proof.Proof.Gen.Kernel.Points
import proofs.«900485_g7700000000000486_dist_treered_v7x_i8_m512_n512_f32_1_alg».proof.Proof.BodyKernel
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CI → SemLoc sig) := by decide
theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have : k = k' := csem_injective (congrArg Prod.snd h)
  subst this; rfl
def ringCells : Finset (GSem nD τ sig) := Finset.univ.map ⟨kcell, kcell_injective⟩

/-- A device's own cells' duty tokens as minted: the seven duties of its barrier cell, the one duty of each DMA cell. -/
abbrev TI : Type := Fin 7 ⊕ (Fin 4 × Fin 14)
abbrev tsem : TI → SemLoc sig × Fin 7
  | .inl j => (.reg barS, j)
  | .inr ki => (.dma (dsem ki.1 ki.2), 0)
theorem tsem_injective : Function.Injective tsem := by decide
abbrev tokOf (ct : Dev nD × TI) : GSem nD τ sig × ℕ × Fin 7 := (((ct.1 : Thread nD τ), (tsem ct.2).1), 0, (tsem ct.2).2)
theorem tokOf_injective : Function.Injective (tokOf : Dev nD × TI → GSem nD τ sig × ℕ × Fin 7) := by
  rintro ⟨c, t⟩ ⟨c', t'⟩ h
  have h1 : c = c' := by have := congrArg (fun x : GSem nD τ sig × ℕ × Fin 7 => x.1.1.1) h; exact this
  subst h1
  have : t = t' := tsem_injective (Prod.ext (congrArg (fun x : GSem nD τ sig × ℕ × Fin 7 => x.1.2) h) (congrArg (fun x : GSem nD τ sig × ℕ × Fin 7 => x.2.2) h))
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun t : TI => dutyTok ER (tokOf (c, t)).1 0 (tokOf (c, t)).2.2

/-- What the launch element deals device `c`. -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A `bigSep` over a device's cells: the barrier cell first. -/
theorem bigSep_CI (Φ : CI → sProp 𝕄) : bigSep Finset.univ Φ = iprop(Φ none ∗ bigSep Finset.univ fun ki : Fin 4 × Fin 14 => Φ (some ki)) := by
  rw [bigSep_univ_at Φ none, show (Finset.univ : Finset CI).erase none = Finset.univ.map ⟨some, Option.some_injective _⟩ from by decide, bigSep_map]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_CI]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def recordsAll (K : Dev nD × CI → ℕ) : sProp 𝕄 := records m ρ K

/-- What stays with device `c`: the tokens of the duties IT pays. -/
def payToks (c : Dev nD) : sProp 𝕄 :=
  iprop(bigSepL jl (fun j => dutyTok ER (barCell (peer j c)) 0 j)
    ∗ bigSepL il (fun i => dutyTok ER (dCell c 0 i) 0 (0 : Fin 7)) ∗ bigSepL il (fun i => dutyTok ER (dCell (peer (jOf i) c) 1 i) 0 (0 : Fin 7))
    ∗ bigSepL il (fun i => dutyTok ER (dCell c 2 i) 0 (0 : Fin 7)) ∗ bigSepL il (fun i => dutyTok ER (dCell (peer (jOf i) c) 3 i) 0 (0 : Fin 7)))
/-- Its positions at round 0 of its own cells. -/
def posAll (c : Dev nD) : sProp 𝕄 :=
  iprop(atPos ER (barCell c) 0 ∅ 0
    ∗ bigSepL il (fun i => atPos ER (dCell c 0 i) 0 ∅ 0) ∗ bigSepL il (fun i => atPos ER (dCell c 1 i) 0 ∅ 0)
    ∗ bigSepL il (fun i => atPos ER (dCell c 2 i) 0 ∅ 0) ∗ bigSepL il (fun i => atPos ER (dCell c 3 i) 0 ∅ 0))

theorem ghost_intro (K : Dev nD × CI → ℕ) (c : Dev nD) : iprop(records m ρ K ∗ posAll c ∗ payToks c) ⊢ G' m ρ c := by
  unfold posAll payToks G' ghost
  iintro ⟨#HR, ⟨HB, H0, H1, H2, H3⟩, TB, T0, T1, T2, T3⟩
  iexists K
  isplitr; · iexact HR
  isplitl [HB]; · iexact HB
  isplitl [H0]; · iexact H0
  isplitl [H1]; · iexact H1
  isplitl [H2]; · iexact H2
  isplitl [H3]; · iexact H3
  isplitl [TB]; · iexact TB
  isplitl [T0]; · iexact T0
  isplitl [T1]; · iexact T1
  isplitl [T2]; · iexact T2
  iexact T3

/-- The re-indexing of (device, mask) pairs that sends a device to its partner. -/
def eB : Dev nD × Fin 7 ≃ Dev nD × Fin 7 where
  toFun p := (peer p.2 p.1, p.2)
  invFun p := (peer p.2 p.1, p.2)
  left_inv p := by obtain ⟨c, j⟩ := p; show (peer j (peer j c), j) = (c, j); rw [peer_peer]
  right_inv p := by obtain ⟨c, j⟩ := p; show (peer j (peer j c), j) = (c, j); rw [peer_peer]
def eD : Dev nD × Fin 14 ≃ Dev nD × Fin 14 where
  toFun p := (peer (jOf p.2) p.1, p.2)
  invFun p := (peer (jOf p.2) p.1, p.2)
  left_inv p := by obtain ⟨c, i⟩ := p; show (peer (jOf i) (peer (jOf i) c), i) = (c, i); rw [peer_peer]
  right_inv p := by obtain ⟨c, i⟩ := p; show (peer (jOf i) (peer (jOf i) c), i) = (c, i); rw [peer_peer]

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_jl (Φ : Fin 7 → sProp 𝕄) : bigSep Finset.univ Φ = bigSepL jl Φ := bigSep_univ_eq_bigSepL jl (by decide) (by decide) Φ
omit [FloatOps F] in
theorem bigSep_il (Φ : Fin 14 → sProp 𝕄) : bigSep Finset.univ Φ = bigSepL il Φ := bigSep_univ_eq_bigSepL il (by decide) (by decide) Φ

omit [FloatOps F] in
theorem toks_split (c : Dev nD) : (toks c : sProp 𝕄) = iprop((bigSep Finset.univ fun j : Fin 7 => dutyTok ER (barCell c) 0 j)
    ∗ (bigSep Finset.univ fun i : Fin 14 => dutyTok ER (dCell c 0 i) 0 (0 : Fin 7)) ∗ (bigSep Finset.univ fun i : Fin 14 => dutyTok ER (dCell c 1 i) 0 (0 : Fin 7))
    ∗ (bigSep Finset.univ fun i : Fin 14 => dutyTok ER (dCell c 2 i) 0 (0 : Fin 7)) ∗ (bigSep Finset.univ fun i : Fin 14 => dutyTok ER (dCell c 3 i) 0 (0 : Fin 7))) := by
  unfold toks; rw [bigSep_univ_sum, bigSep_univ_prod, bigSep_fin4]; rfl

omit [FloatOps F] in
theorem payToks_split (c : Dev nD) : (payToks c : sProp 𝕄) = iprop((bigSep Finset.univ fun j : Fin 7 => dutyTok ER (barCell (peer j c)) 0 j)
    ∗ (bigSep Finset.univ fun i : Fin 14 => dutyTok ER (dCell c 0 i) 0 (0 : Fin 7)) ∗ (bigSep Finset.univ fun i : Fin 14 => dutyTok ER (dCell (peer (jOf i) c) 1 i) 0 (0 : Fin 7))
    ∗ (bigSep Finset.univ fun i : Fin 14 => dutyTok ER (dCell c 2 i) 0 (0 : Fin 7)) ∗ (bigSep Finset.univ fun i : Fin 14 => dutyTok ER (dCell (peer (jOf i) c) 3 i) 0 (0 : Fin 7))) := by
  unfold payToks; rw [bigSep_jl, bigSep_il, bigSep_il, bigSep_il, bigSep_il]

omit [FloatOps F] in
/-- The tokens dealt to the devices that pay them: a barrier duty's to the partner under its mask, a receive duty's likewise. -/
theorem toks_around : (bigSep Finset.univ fun c : Dev nD => (toks c : sProp 𝕄)) ⊢ bigSep Finset.univ fun c : Dev nD => payToks c := by
  rw [bigSep_congr fun c _ => toks_split (F := F) c, bigSep_congr fun c _ => payToks_split (F := F) c]
  rw [bigSep_sep', bigSep_sep', bigSep_sep', bigSep_sep', bigSep_sep', bigSep_sep', bigSep_sep', bigSep_sep']
  rw [← bigSep_univ_prod (fun p : Dev nD × Fin 7 => (dutyTok ER (barCell p.1) 0 p.2 : sProp 𝕄)),
    bigSep_univ_equiv eB (fun p : Dev nD × Fin 7 => (dutyTok ER (barCell p.1) 0 p.2 : sProp 𝕄)), bigSep_univ_prod,
    ← bigSep_univ_prod (fun p : Dev nD × Fin 14 => (dutyTok ER (dCell p.1 1 p.2) 0 (0 : Fin 7) : sProp 𝕄)),
    bigSep_univ_equiv eD (fun p : Dev nD × Fin 14 => (dutyTok ER (dCell p.1 1 p.2) 0 (0 : Fin 7) : sProp 𝕄)), bigSep_univ_prod,
    ← bigSep_univ_prod (fun p : Dev nD × Fin 14 => (dutyTok ER (dCell p.1 3 p.2) 0 (0 : Fin 7) : sProp 𝕄)),
    bigSep_univ_equiv eD (fun p : Dev nD × Fin 14 => (dutyTok ER (dCell p.1 3 p.2) 0 (0 : Fin 7) : sProp 𝕄)), bigSep_univ_prod]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem pos_split (c : Dev nD) : (bigSep Finset.univ fun k : CI => (atPos ER (kcell (c, k)) 0 ∅ 0 : sProp 𝕄)) = posAll c := by
  unfold posAll; rw [bigSep_CI, bigSep_univ_prod, bigSep_fin4, bigSep_il, bigSep_il, bigSep_il, bigSep_il]

theorem regroup :
    (bigSep Finset.univ fun c : Dev nD => iprop((bigSep Finset.univ fun k => iprop(∃ κ : ℕ, cellInv ER (sched m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => posAll (F := F) c) payToks).symm)
    isplitl [Hat]
    · iapply (Entails.of_eq (bigSep_congr fun c _ => pos_split (F := F) c)); iexact Hat
    · iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- What the launch deals device `c` for what the others owe its cells: seven units on its barrier cell, a block's credit on
    each of its receive cells. -/
theorem creds (c : Dev nD) :
    (Pipeline.launchCred O₀ c : sProp 𝕄) ⊢ iprop(cred (tallyAt (barCell c) () 7)
      ∗ credX c) := by
  show (Pipeline.launchCred (fun d : Dev nD => ((((((((((((((((((((((((((((((((((((0 : CellTallies nD τ sig Unit) + tallyAt (dCell (peer 3 d) 3 10) () N32) + tallyAt (dCell (peer 2 d) 3 9) () N32) + tallyAt (dCell (peer 0 d) 3 7) () N32) + tallyAt (dCell (peer 6 d) 3 13) () N32) + tallyAt (dCell (peer 4 d) 3 11) () N32) + tallyAt (dCell (peer 1 d) 3 8) () N32) + tallyAt (dCell (peer 5 d) 3 12) () N32) + tallyAt (dCell (peer 3 d) 3 3) () N32) + tallyAt (dCell (peer 2 d) 3 2) () N32) + tallyAt (dCell (peer 0 d) 3 0) () N32) + tallyAt (dCell (peer 6 d) 3 6) () N32) + tallyAt (dCell (peer 4 d) 3 4) () N32) + tallyAt (dCell (peer 1 d) 3 1) () N32) + tallyAt (dCell (peer 5 d) 3 5) () N32) + tallyAt (dCell (peer 3 d) 1 10) () N32) + tallyAt (dCell (peer 2 d) 1 9) () N32) + tallyAt (dCell (peer 0 d) 1 7) () N32) + tallyAt (dCell (peer 6 d) 1 13) () N32) + tallyAt (dCell (peer 4 d) 1 11) () N32) + tallyAt (dCell (peer 1 d) 1 8) () N32) + tallyAt (dCell (peer 5 d) 1 12) () N32) + tallyAt (dCell (peer 3 d) 1 3) () N32) + tallyAt (dCell (peer 2 d) 1 2) () N32) + tallyAt (dCell (peer 0 d) 1 0) () N32) + tallyAt (dCell (peer 6 d) 1 6) () N32) + tallyAt (dCell (peer 4 d) 1 4) () N32) + tallyAt (dCell (peer 1 d) 1 1) () N32) + tallyAt (dCell (peer 5 d) 1 5) () N32) + tallyAt (barCell (peer 3 d)) () 1) + tallyAt (barCell (peer 2 d)) () 1) + tallyAt (barCell (peer 0 d)) () 1) + tallyAt (barCell (peer 6 d)) () 1) + tallyAt (barCell (peer 4 d)) () 1) + tallyAt (barCell (peer 1 d)) () 1) + tallyAt (barCell (peer 5 d)) () 1)) c : sProp 𝕄) ⊢ _
  simp only [Pipeline.launchCred_add, Pipeline.launchCred_zero]
  iintro ⟨⟨⟨⟨⟨⟨⟨⟨⟨⟨⟨⟨⟨⟨⟨⟨⟨⟨⟨⟨⟨⟨⟨⟨⟨⟨⟨⟨⟨⟨⟨⟨⟨⟨⟨-, L34⟩, L33⟩, L32⟩, L31⟩, L30⟩, L29⟩, L28⟩, L27⟩, L26⟩, L25⟩, L24⟩, L23⟩, L22⟩, L21⟩, L20⟩, L19⟩, L18⟩, L17⟩, L16⟩, L15⟩, L14⟩, L13⟩, L12⟩, L11⟩, L10⟩, L9⟩, L8⟩, L7⟩, L6⟩, L5⟩, L4⟩, L3⟩, L2⟩, L1⟩, L0⟩
  ihave C0 := (Pipeline.launchCred_tallyAt (.reg barS) (peer 5) (peer 5) (peer_peer 5) (peer_peer 5) () 1 c) $$ L0
  ihave C1 := (Pipeline.launchCred_tallyAt (.reg barS) (peer 1) (peer 1) (peer_peer 1) (peer_peer 1) () 1 c) $$ L1
  ihave C2 := (Pipeline.launchCred_tallyAt (.reg barS) (peer 4) (peer 4) (peer_peer 4) (peer_peer 4) () 1 c) $$ L2
  ihave C3 := (Pipeline.launchCred_tallyAt (.reg barS) (peer 6) (peer 6) (peer_peer 6) (peer_peer 6) () 1 c) $$ L3
  ihave C4 := (Pipeline.launchCred_tallyAt (.reg barS) (peer 0) (peer 0) (peer_peer 0) (peer_peer 0) () 1 c) $$ L4
  ihave C5 := (Pipeline.launchCred_tallyAt (.reg barS) (peer 2) (peer 2) (peer_peer 2) (peer_peer 2) () 1 c) $$ L5
  ihave C6 := (Pipeline.launchCred_tallyAt (.reg barS) (peer 3) (peer 3) (peer_peer 3) (peer_peer 3) () 1 c) $$ L6
  ihave C7 := (Pipeline.launchCred_tallyAt (.dma (dsem 1 5)) (peer 5) (peer 5) (peer_peer 5) (peer_peer 5) () N32 c) $$ L7
  ihave C8 := (Pipeline.launchCred_tallyAt (.dma (dsem 1 1)) (peer 1) (peer 1) (peer_peer 1) (peer_peer 1) () N32 c) $$ L8
  ihave C9 := (Pipeline.launchCred_tallyAt (.dma (dsem 1 4)) (peer 4) (peer 4) (peer_peer 4) (peer_peer 4) () N32 c) $$ L9
  ihave C10 := (Pipeline.launchCred_tallyAt (.dma (dsem 1 6)) (peer 6) (peer 6) (peer_peer 6) (peer_peer 6) () N32 c) $$ L10
  ihave C11 := (Pipeline.launchCred_tallyAt (.dma (dsem 1 0)) (peer 0) (peer 0) (peer_peer 0) (peer_peer 0) () N32 c) $$ L11
  ihave C12 := (Pipeline.launchCred_tallyAt (.dma (dsem 1 2)) (peer 2) (peer 2) (peer_peer 2) (peer_peer 2) () N32 c) $$ L12
  ihave C13 := (Pipeline.launchCred_tallyAt (.dma (dsem 1 3)) (peer 3) (peer 3) (peer_peer 3) (peer_peer 3) () N32 c) $$ L13
  ihave C14 := (Pipeline.launchCred_tallyAt (.dma (dsem 1 12)) (peer 5) (peer 5) (peer_peer 5) (peer_peer 5) () N32 c) $$ L14
  ihave C15 := (Pipeline.launchCred_tallyAt (.dma (dsem 1 8)) (peer 1) (peer 1) (peer_peer 1) (peer_peer 1) () N32 c) $$ L15
  ihave C16 := (Pipeline.launchCred_tallyAt (.dma (dsem 1 11)) (peer 4) (peer 4) (peer_peer 4) (peer_peer 4) () N32 c) $$ L16
  ihave C17 := (Pipeline.launchCred_tallyAt (.dma (dsem 1 13)) (peer 6) (peer 6) (peer_peer 6) (peer_peer 6) () N32 c) $$ L17
  ihave C18 := (Pipeline.launchCred_tallyAt (.dma (dsem 1 7)) (peer 0) (peer 0) (peer_peer 0) (peer_peer 0) () N32 c) $$ L18
  ihave C19 := (Pipeline.launchCred_tallyAt (.dma (dsem 1 9)) (peer 2) (peer 2) (peer_peer 2) (peer_peer 2) () N32 c) $$ L19
  ihave C20 := (Pipeline.launchCred_tallyAt (.dma (dsem 1 10)) (peer 3) (peer 3) (peer_peer 3) (peer_peer 3) () N32 c) $$ L20
  ihave C21 := (Pipeline.launchCred_tallyAt (.dma (dsem 3 5)) (peer 5) (peer 5) (peer_peer 5) (peer_peer 5) () N32 c) $$ L21
  ihave C22 := (Pipeline.launchCred_tallyAt (.dma (dsem 3 1)) (peer 1) (peer 1) (peer_peer 1) (peer_peer 1) () N32 c) $$ L22
  ihave C23 := (Pipeline.launchCred_tallyAt (.dma (dsem 3 4)) (peer 4) (peer 4) (peer_peer 4) (peer_peer 4) () N32 c) $$ L23
  ihave C24 := (Pipeline.launchCred_tallyAt (.dma (dsem 3 6)) (peer 6) (peer 6) (peer_peer 6) (peer_peer 6) () N32 c) $$ L24
  ihave C25 := (Pipeline.launchCred_tallyAt (.dma (dsem 3 0)) (peer 0) (peer 0) (peer_peer 0) (peer_peer 0) () N32 c) $$ L25
  ihave C26 := (Pipeline.launchCred_tallyAt (.dma (dsem 3 2)) (peer 2) (peer 2) (peer_peer 2) (peer_peer 2) () N32 c) $$ L26
  ihave C27 := (Pipeline.launchCred_tallyAt (.dma (dsem 3 3)) (peer 3) (peer 3) (peer_peer 3) (peer_peer 3) () N32 c) $$ L27
  ihave C28 := (Pipeline.launchCred_tallyAt (.dma (dsem 3 12)) (peer 5) (peer 5) (peer_peer 5) (peer_peer 5) () N32 c) $$ L28
  ihave C29 := (Pipeline.launchCred_tallyAt (.dma (dsem 3 8)) (peer 1) (peer 1) (peer_peer 1) (peer_peer 1) () N32 c) $$ L29
  ihave C30 := (Pipeline.launchCred_tallyAt (.dma (dsem 3 11)) (peer 4) (peer 4) (peer_peer 4) (peer_peer 4) () N32 c) $$ L30
  ihave C31 := (Pipeline.launchCred_tallyAt (.dma (dsem 3 13)) (peer 6) (peer 6) (peer_peer 6) (peer_peer 6) () N32 c) $$ L31
  ihave C32 := (Pipeline.launchCred_tallyAt (.dma (dsem 3 7)) (peer 0) (peer 0) (peer_peer 0) (peer_peer 0) () N32 c) $$ L32
  ihave C33 := (Pipeline.launchCred_tallyAt (.dma (dsem 3 9)) (peer 2) (peer 2) (peer_peer 2) (peer_peer 2) () N32 c) $$ L33
  ihave C34 := (Pipeline.launchCred_tallyAt (.dma (dsem 3 10)) (peer 3) (peer 3) (peer_peer 3) (peer_peer 3) () N32 c) $$ L34
  isplitl [C0 C1 C2 C3 C4 C5 C6]
  · iapply (Entails.of_eq (congrArg cred (show tallyAt (barCell c) () 1 + (tallyAt (barCell c) () 1 + (tallyAt (barCell c) () 1 + (tallyAt (barCell c) () 1 + (tallyAt (barCell c) () 1 + (tallyAt (barCell c) () 1 + tallyAt (barCell c) () 1))))) = (tallyAt (barCell c) () 7 : CellTallies nD τ sig Unit) from by
      rw [tallyAt_add, tallyAt_add, tallyAt_add, tallyAt_add, tallyAt_add, tallyAt_add])))
    iapply (cred_add _ _).2; isplitl [C0]; · iexact C0
    iapply (cred_add _ _).2; isplitl [C1]; · iexact C1
    iapply (cred_add _ _).2; isplitl [C2]; · iexact C2
    iapply (cred_add _ _).2; isplitl [C3]; · iexact C3
    iapply (cred_add _ _).2; isplitl [C4]; · iexact C4
    iapply (cred_add _ _).2; isplitl [C5]; · iexact C5
    iexact C6
  unfold credX
  isplitl [C7 C8 C9 C10 C11 C12 C13 C14 C15 C16 C17 C18 C19 C20]
  · isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  iexact C34

/-! ### The theorem's side conditions -/

theorem sigL_mem {c : Dev nD} {e : GSem nD τ sig × ℕ} (he : e ∈ sigL c) : e.1.1.2 = .tc ∧ lv e.1 () = 1 := by
  unfold sigL at he
  obtain ⟨j, _, rfl⟩ := List.mem_map.1 he
  exact ⟨rfl, rfl⟩

/-- The pipeline's own waits (the argument's fetch, the result's write-back) are on cells of level 0, below everything a device owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine mayWait_list c _ _ fun e he => ?_
    rcases List.mem_append.1 he with h | h
    · obtain ⟨h1, h2⟩ := sigL_mem h; exact ⟨h1, by rw [hq, h2]; decide⟩
    · rcases List.mem_append.1 h with h | h
      · obtain ⟨h1, h2⟩ := xferL_mem h; exact ⟨h1, by rw [hq, h2]; decide⟩
      · rcases List.mem_append.1 h with h | h <;> (obtain ⟨h1, h2⟩ := xferL_mem h; exact ⟨h1, by rw [hq, h2]; decide⟩)
  · rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HX⟩
  imodintro
  unfold start G'
  isplitl
  · isplitl [HG]; · iexact HG
    isplitl [H1]; · iexact H1
    isplitl [HX]; · iexact HX
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, H0, H1, H2, H3⟩
  isplitl [Hs]; · iexact Hs
  isplitl [H0]; · iexact H0
  isplitl [H1]; · iexact H1
  isplitl [H2]; · iexact H2
  iexact H3

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, Pipeline.ownSems0_eq_of_list c osem allKI (by decide) (by decide)]
  unfold Φ₁ scr
  iintro ⟨H0, H1, H2, H3, HS⟩
  isplitr; · iempintro
  isplitl [HS]; · iexact HS
  isplitl [H0]; · iexact H0
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxHeartbeats 4000000 in
set_option maxRecDepth 65536 in
/-- At the compiled mesh of eight devices, for any float values, from any memory with zero counters: every weakly fair execution
    of @main — the eight kernels meeting at the barrier, exchanging rows, adding, exchanging sums — terminates, and every final
    state has each device's result array at the computed contents and its argument unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

set_option maxHeartbeats 4000000 in
/-- The result array's one block — the whole array — read back is what the body left in the staging buffer. -/
theorem finalA_o (c : Dev nD) :
    (win0_1.blk (0 : Fin 1)).view.read (Elt F) (finalA m ρ c (1 : Fin 2)) = outFin m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  show _ = (dats m ρ 0 c).after (1 : Fin 2) (0 : Fin 1)
  exact View.read_write_univ _ _

end Cert.KernelProof
end
-- ==== Proof.ProtoKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The partner of a device under mask `j + 1`, and the printed device chains -/

/-- Device `c`'s partner under the exclusive-or mask `j + 1`. -/
def peer (j : Fin 7) (c : Dev nD) : Dev nD := ⟨c.val ^^^ (j.val + 1), by revert c j; decide⟩

theorem peer_peer (j : Fin 7) (c : Dev nD) : peer j (peer j c) = c := by revert c j; decide
theorem peer_ne (j : Fin 7) (c : Dev nD) : peer j c ≠ c := by revert c j; decide
theorem peer_inj (j j' : Fin 7) (c : Dev nD) (h : peer j c = peer j' c) : j = j' := by revert c j j'; decide
theorem peer_surj (c q : Dev nD) (h : q ≠ c) : ∃ j : Fin 7, peer j c = q := by revert c q; decide

theorem dev1_eq (c : Dev nD) : (⟨k0_dev1 c, k0_dev1_lt c⟩ : Dev nD) = peer 5 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 4 c := by revert c; decide +kernel
theorem dev4_eq (c : Dev nD) : (⟨k0_dev4 c, k0_dev4_lt c⟩ : Dev nD) = peer 6 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 3 c := by revert c; decide +kernel
theorem dev8_eq (c : Dev nD) : (⟨k0_dev8 c, k0_dev8_lt c⟩ : Dev nD) = peer 5 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 4 c := by revert c; decide +kernel
theorem dev11_eq (c : Dev nD) : (⟨k0_dev11 c, k0_dev11_lt c⟩ : Dev nD) = peer 6 c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 3 c := by revert c; decide +kernel
theorem dev15_eq (c : Dev nD) : (⟨k0_dev15 c, k0_dev15_lt c⟩ : Dev nD) = peer 5 c := by revert c; decide +kernel
theorem dev16_eq (c : Dev nD) : (⟨k0_dev16 c, k0_dev16_lt c⟩ : Dev nD) = peer 1 c := by revert c; decide +kernel
theorem dev17_eq (c : Dev nD) : (⟨k0_dev17 c, k0_dev17_lt c⟩ : Dev nD) = peer 4 c := by revert c; decide +kernel
theorem dev18_eq (c : Dev nD) : (⟨k0_dev18 c, k0_dev18_lt c⟩ : Dev nD) = peer 6 c := by revert c; decide +kernel
theorem dev19_eq (c : Dev nD) : (⟨k0_dev19 c, k0_dev19_lt c⟩ : Dev nD) = peer 0 c := by revert c; decide +kernel
theorem dev20_eq (c : Dev nD) : (⟨k0_dev20 c, k0_dev20_lt c⟩ : Dev nD) = peer 2 c := by revert c; decide +kernel
theorem dev21_eq (c : Dev nD) : (⟨k0_dev21 c, k0_dev21_lt c⟩ : Dev nD) = peer 3 c := by revert c; decide +kernel
theorem dev22_eq (c : Dev nD) : (⟨k0_dev22 c, k0_dev22_lt c⟩ : Dev nD) = peer 5 c := by revert c; decide +kernel
theorem dev23_eq (c : Dev nD) : (⟨k0_dev23 c, k0_dev23_lt c⟩ : Dev nD) = peer 1 c := by revert c; decide +kernel
theorem dev24_eq (c : Dev nD) : (⟨k0_dev24 c, k0_dev24_lt c⟩ : Dev nD) = peer 4 c := by revert c; decide +kernel
theorem dev25_eq (c : Dev nD) : (⟨k0_dev25 c, k0_dev25_lt c⟩ : Dev nD) = peer 6 c := by revert c; decide +kernel
theorem dev26_eq (c : Dev nD) : (⟨k0_dev26 c, k0_dev26_lt c⟩ : Dev nD) = peer 0 c := by revert c; decide +kernel
theorem dev27_eq (c : Dev nD) : (⟨k0_dev27 c, k0_dev27_lt c⟩ : Dev nD) = peer 2 c := by revert c; decide +kernel
theorem dev28_eq (c : Dev nD) : (⟨k0_dev28 c, k0_dev28_lt c⟩ : Dev nD) = peer 3 c := by revert c; decide +kernel
theorem dev29_eq (c : Dev nD) : (⟨k0_dev29 c, k0_dev29_lt c⟩ : Dev nD) = peer 5 c := by revert c; decide +kernel
theorem dev30_eq (c : Dev nD) : (⟨k0_dev30 c, k0_dev30_lt c⟩ : Dev nD) = peer 1 c := by revert c; decide +kernel
theorem dev31_eq (c : Dev nD) : (⟨k0_dev31 c, k0_dev31_lt c⟩ : Dev nD) = peer 4 c := by revert c; decide +kernel
theorem dev32_eq (c : Dev nD) : (⟨k0_dev32 c, k0_dev32_lt c⟩ : Dev nD) = peer 6 c := by revert c; decide +kernel
theorem dev33_eq (c : Dev nD) : (⟨k0_dev33 c, k0_dev33_lt c⟩ : Dev nD) = peer 0 c := by revert c; decide +kernel
theorem dev34_eq (c : Dev nD) : (⟨k0_dev34 c, k0_dev34_lt c⟩ : Dev nD) = peer 2 c := by revert c; decide +kernel
theorem dev35_eq (c : Dev nD) : (⟨k0_dev35 c, k0_dev35_lt c⟩ : Dev nD) = peer 3 c := by revert c; decide +kernel

theorem off1_eq : ∀ d0 : Dev nD, ∀ (r₁ : Fin 7) (r₂ : Fin 2), k0_off1 d0 (BitVec.ofNat 32 (1 + r₁.val)) (BitVec.ofNat 32 (32 * r₂.val)) = ![64 * (peer r₁ d0).val + 32 * r₂.val, 0] := by decide +kernel
theorem off4_eq : ∀ d0 : Dev nD, ∀ (r₁ : Fin 7) (r₂ : Fin 2), k0_off4 d0 (BitVec.ofNat 32 (1 + r₁.val)) (BitVec.ofNat 32 (32 * r₂.val)) = ![64 * (peer r₁ d0).val + 32 * r₂.val, 0] := by decide +kernel

/-! ## The resource algebra: the pipeline library's copy beside the rounds library's, duties named by masks -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, slots and cells -/

abbrev xM : Memref sig .tc .vmem S1x512x512 .f32 := Memref.whole cc0_stg0_0
abbrev oM : Memref sig .tc .vmem S512x512 .f32 := Memref.whole cc0_stg1_0
abbrev hM : Memref sig .tc .vmem S512x512 .bf16 := Memref.whole cc0_scratch0
abbrev gM : Memref sig .tc .vmem S64x512 .bf16 := Memref.whole cc0_scratch1
abbrev rM : Memref sig .tc .vmem S2x7x32x512 .bf16 := Memref.whole cc0_scratch2
abbrev aM : Memref sig .tc .vmem S2x7x32x512 .bf16 := Memref.whole cc0_scratch3

theorem slot_inb (sb : Fin 2) (j : Fin 7) : ∀ a, (![sb.val, j.val, 0, 0] : Fin 4 → Nat) a + S1x1x32x512.size a ≤ S2x7x32x512.size a := by
  revert sb j; decide
theorem half_inb (sb : Fin 2) : ∀ a, (![32 * sb.val, 0] : Fin 2 → Nat) a + S32x512.size a ≤ S64x512.size a := by
  revert sb; decide

/-- Slot `(sb, j)` of a receive buffer: 32 rows of 512, as the transfers and the loads name it. -/
abbrev slotR (sb : Fin 2) (j : Fin 7) : Rect S2x7x32x512 := Rect.unit (s := S2x7x32x512) ![sb.val, j.val, 0, 0] S1x1x32x512.size (slot_inb sb j)
abbrev slotM (M : Memref sig .tc .vmem S2x7x32x512 .bf16) (sb : Fin 2) (j : Fin 7) : Memref sig .tc .vmem S32x512 .bf16 :=
  (M.slice (slotR sb j) (fun _ => rfl)).squeeze S32x512 squeezes_S1x1x32x512_S32x512
/-- The 32 rows of the 16-bit copy of the block that go to the partner under mask `j + 1`, half `sb`. -/
abbrev hSl (c : Dev nD) (j : Fin 7) (sb : Fin 2) : Memref sig .tc .vmem S32x512 .bf16 :=
  hM.slice (Rect.unit (s := S512x512) (k0_off1 c (BitVec.ofNat 32 (1 + j.val)) (BitVec.ofNat 32 (32 * sb.val))) S32x512.size (k0_off1_inb c j sb)) (fun _ => rfl)
/-- Half `sb` of the reduced segment's 16-bit copy. -/
abbrev gRect (sb : Fin 2) : Rect S64x512 := Rect.unit (s := S64x512) ![32 * sb.val, 0] S32x512.size (half_inb sb)
abbrev gSl (sb : Fin 2) : Memref sig .tc .vmem S32x512 .bf16 := gM.slice (gRect sb) (fun _ => rfl)

abbrev barS : Sem sig := (SemArray.scalar (sig.barrier 0 rfl) : Sems sig S_).sem

/-- DMA semaphore `i` of the kernel's `k`-th semaphore array (0: first-phase send, 1: first-phase receive,
    2: second-phase send, 3: second-phase receive). -/
def dsem (k : Fin 4) (i : Fin 14) : DmaSem sig := ⟨2 + 14 * k.val + i.val, by have := k.isLt; have := i.isLt; show _ < 58; omega⟩

abbrev barCell (c : Dev nD) : GSem nD τ sig := ((c : Thread nD τ), .reg barS)
abbrev dCell (c : Dev nD) (k : Fin 4) (i : Fin 14) : GSem nD τ sig := ((c : Thread nD τ), .dma (dsem k i))

def decode (s : DmaSem sig) : Option (Fin 4 × Fin 14) :=
  if h : 2 ≤ s.val then some (⟨(s.val - 2) / 14, by have : s.val < 58 := s.isLt; omega⟩, ⟨(s.val - 2) % 14, Nat.mod_lt _ (by decide)⟩) else none
theorem decode_dsem (k : Fin 4) (i : Fin 14) : decode (dsem k i) = some (k, i) := by revert k i; decide
theorem dsem_inj : ∀ k k' i i', dsem k i = dsem k' i' → k = k' ∧ i = i' := by decide

def sbOf (i : Fin 14) : Fin 2 := ⟨i.val / 7, by have := i.isLt; omega⟩
def jOf (i : Fin 14) : Fin 7 := ⟨i.val % 7, Nat.mod_lt _ (by decide)⟩

abbrev N32 : ℕ := (slotM rM 0 0 : Memref sig .tc .vmem S32x512 .bf16).view.dmaCredit
theorem N32_pos : 0 < N32 := View.dmaCredit_pos _ (by decide)

/-! ## Contents

Everything a buffer holds during the run is a function of the argument blocks at launch: the block `x` of a device,
its 16-bit copy, the rows each partner sends (first phase), the sum of the eight devices' rows of one segment, its 16-bit
copy (second phase). -/

/-- Device `c`'s block of the argument, as its staging buffer holds it. -/
def Xb (c : Dev nD) : (cc0_stg0_0 : Ref sig .tc).ty.Contents (Elt F) :=
  (win0_0.blk (0 : Fin 1)).view.read (Elt F) ((s₀ m ρ).mem ((c : Thread nD τ).loc main_arg0))

abbrev xRect : Rect S1x512x512 := Rect.unit (s := S1x512x512) ![0, 0, 0] S1x512x512.size inb_S1x512x512_S1x512x512_0_0_0
abbrev hRect : Rect S512x512 := Rect.unit (s := S512x512) ![0, 0] S512x512.size inb_S512x512_S512x512_0_0
abbrev xRows (c : Dev nD) (sb : Fin 2) : Rect S1x512x512 :=
  Rect.unit (s := S1x512x512) (k0_off2 c (BitVec.ofNat 32 (32 * sb.val))) S1x32x512.size (k0_off2_inb c sb)

/-- The block's 16-bit copy. -/
def X16 (c : Dev nD) : (cc0_scratch0 : Ref sig .tc).ty.Contents (Elt F) :=
  k0_pay1 (xM.view.readAt (Elt F) xRect.toLoadRect (Xb m ρ c))

/-- What lands in device `c`'s first-phase slot `(sb, j)`: the rows of segment `c`, half `sb`, of the 16-bit copy of
    the partner's block. -/
def wRS (c : Dev nD) (sb : Fin 2) (j : Fin 7) : FVec F S32x512 .bf16 :=
  (hSl (peer j c) j sb).view.read (Elt F) (X16 m ρ (peer j c))

/-- One accumulation: the running sum plus a received 16-bit block widened. -/
def accStep (a : FVec F S32x512 .f32) (w : FVec F S32x512 .bf16) : FVec F S32x512 .f32 := addf a (extf .f32 w bitsLt_bf16_f32)

/-- The sum over the eight devices of rows `64 c + 32 sb …` of their blocks, in the kernel's order of addition. -/
def acc (c : Dev nD) (sb : Fin 2) : FVec F S32x512 .f32 :=
  accStep (accStep (accStep (accStep (accStep (accStep (accStep
    (shapeCast S32x512 (xM.view.readAt (Elt F) (xRows c sb).toLoadRect (Xb m ρ c)) shapeCasts_S1x32x512_S32x512)
    (wRS m ρ c sb 5)) (wRS m ρ c sb 1)) (wRS m ρ c sb 4)) (wRS m ρ c sb 6)) (wRS m ρ c sb 0)) (wRS m ρ c sb 2)) (wRS m ρ c sb 3)

/-- Its 16-bit copy. -/
def wG (c : Dev nD) (sb : Fin 2) : FVec F S32x512 .bf16 :=
  shapeCast S32x512 (truncf .bf16 (acc m ρ c sb) bitsLt_bf16_f32) shapeCasts_S32x512_S32x512

instance eltNonempty (e : EltTy) : Nonempty (Elt F e) := inferInstance

/-- The segment buffer with half `sb` holding the reduced segment's 16-bit copy (the other half irrelevant). -/
def G16 (c : Dev nD) (sb : Fin 2) : (cc0_scratch1 : Ref sig .tc).ty.Contents (Elt F) :=
  (gM.access (gRect sb)).write (Elt F) (fun _ => Classical.choice inferInstance) (wG m ρ c sb) Finset.univ

/-- What lands in device `c`'s second-phase slot `(sb, j)`: half `sb` of the partner's reduced segment. -/
def wAG (c : Dev nD) (sb : Fin 2) (j : Fin 7) : FVec F S32x512 .bf16 :=
  (gSl sb).view.read (Elt F) (G16 m ρ (peer j c) sb)

omit [FloatOps F] in
theorem slot_read (M : Memref sig .tc .vmem S2x7x32x512 .bf16) (sb : Fin 2) (j : Fin 7) (fd : BufTy.Contents (Elt F) M.view.ty) (w : FVec F S32x512 .bf16) :
    shapeCast S32x512 (M.view.readAt (Elt F) (slotR sb j).toLoadRect ((slotM M sb j).view.write (Elt F) fd w Finset.univ)) shapeCasts_S1x1x32x512_S32x512 = w := by
  rw [← Memref.read_squeeze_slice M (slotR sb j) (fun _ => rfl) squeezes_S1x1x32x512_S32x512 shapeCasts_S1x1x32x512_S32x512]
  exact View.read_write_univ _ _

theorem wAG_eq (c : Dev nD) (sb : Fin 2) (j : Fin 7) : wAG m ρ c sb j = wG m ρ (peer j c) sb := by
  unfold wAG G16; exact View.read_write_univ _ _

/-! ## The schedule

One round. A device's barrier cell has seven duties of one unit, duty `j` paid by its partner under mask `j + 1` and
handing over that partner's four receive slots `(·, j)` (what this device's transfers to it write). Each DMA cell has one
duty of a 32×512 block's credit: a send cell's returns the source rows lent to the transfer, a receive cell's hands the
owner its slot holding what the partner sent. -/

abbrev slotPts (M : Memref sig .tc .vmem S2x7x32x512 .bf16) (q : Dev nD) (sb : Fin 2) (j : Fin 7)
    (f : Buf (Elt F) ((slotM M sb j).view.loc (q : Thread nD τ))) : sProp 𝕄 :=
  (slotM M sb j).view.loc (q : Thread nD τ) ↦[(slotM M sb j).view.set]{fullShare} f

def barPay (c : Dev nD) (j : Fin 7) : sProp 𝕄 :=
  iprop((∃ f, slotPts rM (peer j c) 0 j f) ∗ (∃ f, slotPts rM (peer j c) 1 j f)
    ∗ (∃ f, slotPts aM (peer j c) 0 j f) ∗ (∃ f, slotPts aM (peer j c) 1 j f))

/-- The share of the segment buffer's half still held before the `n`-th of its seven transfers; each lends the left half of it. -/
def shr : ℕ → PosShare TreeShare
  | 0 => fullShare
  | n + 1 => (shr n).right
/-- The position of mask `j + 1` in the kernel's order of masks (6, 2, 5, 7, 1, 3, 4). -/
def posOf (j : Fin 7) : ℕ := if j = 5 then 0 else if j = 1 then 1 else if j = 4 then 2 else if j = 6 then 3 else if j = 0 then 4 else if j = 2 then 5 else 6

def payD (c : Dev nD) (k : Fin 4) (i : Fin 14) : sProp 𝕄 :=
  if k = 0 then ((hSl c (jOf i) (sbOf i)).view.loc (c : Thread nD τ) ↦[(hSl c (jOf i) (sbOf i)).view.set]{fullShare} X16 m ρ c)
  else if k = 1 then iprop(∃ fd, slotPts rM c (sbOf i) (jOf i) ((slotM rM (sbOf i) (jOf i)).view.write (Elt F) fd (wRS m ρ c (sbOf i) (jOf i)) Finset.univ))
  else if k = 2 then ((gSl (sbOf i)).view.loc (c : Thread nD τ) ↦[(gSl (sbOf i)).view.set]{(shr (posOf (jOf i))).left} G16 m ρ c (sbOf i))
  else iprop(∃ fd, slotPts aM c (sbOf i) (jOf i) ((slotM aM (sbOf i) (jOf i)).view.write (Elt F) fd (wAG m ρ c (sbOf i) (jOf i)) Finset.univ))

def sched : Rounds.Schedule (GSem nD τ sig) (Fin 7) 𝕄 where
  duties g r := if r = 0 ∧ g.1.2 = .tc then
      (match g.2 with | .reg _ => Finset.univ | .dma s => if (decode s).isSome then {0} else ∅) else ∅
  unitless _ := False
  amount g _ _ := match g.2 with | .reg _ => 1 | .dma _ => N32
  payload g _ d := match g.2 with
    | .reg _ => barPay g.1.1 d
    | .dma s => match decode s with | some (k, i) => payD m ρ g.1.1 k i | none => iprop(emp)
  amount_pos g _ _ _ := by
    cases g.2 with
    | reg _ => exact Nat.one_pos
    | dma _ => exact N32_pos

set_option synthInstance.maxHeartbeats 400000 in
set_option maxHeartbeats 800000 in
instance sched_payload_storable (g : GSem nD τ sig) (r : ℕ) (d : Fin 7) :
    BI.Storable (upEmb : UEmb _ 𝕄) ((sched (F := F) m ρ).payload g r d) := by
  unfold sched; dsimp only
  cases g.2 with
  | reg _ => dsimp only; unfold barPay; infer_instance
  | dma s =>
    dsimp only
    cases decode s with
    | none => dsimp only; infer_instance
    | some ki => obtain ⟨k, i⟩ := ki; dsimp only; unfold payD; (repeat' split) <;> infer_instance

section Tables
variable (c : Dev nD)

theorem duties_bar : (sched (F := F) m ρ).duties (barCell c) 0 = Finset.univ := by
  dsimp only [sched]; rw [if_pos ⟨rfl, rfl⟩]
theorem duties_d (k : Fin 4) (i : Fin 14) : (sched (F := F) m ρ).duties (dCell c k i) 0 = {0} := by
  dsimp only [sched]; rw [if_pos ⟨rfl, rfl⟩, decode_dsem]; rfl
theorem duties_later (g : GSem nD τ sig) : ∀ r, 1 ≤ r → (sched (F := F) m ρ).duties g r = ∅ :=
  fun r hr => by dsimp only [sched]; rw [if_neg fun h => by omega]
theorem amount_bar (d : Fin 7) : (sched (F := F) m ρ).amount (barCell c) 0 d = 1 := rfl
theorem amount_d (k : Fin 4) (i : Fin 14) (d : Fin 7) : (sched (F := F) m ρ).amount (dCell c k i) 0 d = N32 := rfl
theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_d (k : Fin 4) (i : Fin 14) : (sched (F := F) m ρ).expect (dCell c k i) 0 = N32 := by
  unfold Schedule.expect Schedule.amountOf; rw [duties_d, Finset.sum_singleton, amount_d]
theorem payload_bar (j : Fin 7) : (sched (F := F) m ρ).payload (barCell c) 0 j = barPay c j := rfl
theorem payload_d (k : Fin 4) (i : Fin 14) (d : Fin 7) : (sched (F := F) m ρ).payload (dCell c k i) 0 d = payD m ρ c k i := by
  dsimp only [sched]; rw [decode_dsem]
theorem rest_d (k : Fin 4) (i : Fin 14) :
    bigSep ((sched (F := F) m ρ).duties (dCell c k i) 0 \ ∅) (fun d => (sched (F := F) m ρ).payload (dCell c k i) 0 d) = payD m ρ c k i := by
  rw [Finset.sdiff_empty, duties_d, bigSep_singleton, payload_d]
theorem rest_bar :
    bigSep ((sched (F := F) m ρ).duties (barCell c) 0 \ ∅) (fun d => (sched (F := F) m ρ).payload (barCell c) 0 d)
      = bigSepL [(5 : Fin 7), 1, 4, 6, 0, 2, 3] (fun j => barPay (F := F) c j) := by
  rw [Finset.sdiff_empty, duties_bar, bigSep_univ_eq_bigSepL [(5 : Fin 7), 1, 4, 6, 0, 2, 3] (by decide) (by decide)]
  rfl

end Tables

/-! ## What each device owes at launch; the levels -/

/-- What a device owes, as the list of its signals and transfers still to come, the next one first. -/
def owedL : List (GSem nD τ sig × ℕ) → CellTallies nD τ sig Unit
  | [] => 0
  | e :: l => owedL l + tallyAt e.1 () e.2

theorem owedL_pos {l : List (GSem nD τ sig × ℕ)} {g : GSem nD τ sig} {u : Unit} (h : 0 < owedL l g u) : ∃ e ∈ l, e.1 = g := by
  induction l with
  | nil => exact absurd h (Nat.lt_irrefl 0)
  | cons e l ih =>
    unfold owedL at h
    rw [Pi.add_apply, Finsupp.add_apply, tallyAt_apply] at h
    by_cases he : g = e.1 ∧ u = ()
    · exact ⟨e, List.mem_cons_self, he.1.symm⟩
    · rw [if_neg he, Nat.add_zero] at h
      obtain ⟨e', he', hg⟩ := ih h
      exact ⟨e', List.mem_cons_of_mem _ he', hg⟩

def sigL (c : Dev nD) : List (GSem nD τ sig × ℕ) := [(5 : Fin 7), 1, 4, 6, 0, 2, 3].map fun j => (barCell (peer j c), 1)
def xferL (c : Dev nD) (k : Fin 4) (l : List (Fin 14)) : List (GSem nD τ sig × ℕ) := l.map fun i => (dCell (peer (jOf i) c) k i, N32)
abbrev il0 : List (Fin 14) := [5, 1, 4, 6, 0, 2, 3]
abbrev il1 : List (Fin 14) := [12, 8, 11, 13, 7, 9, 10]

def O₀ (c : Dev nD) : CellTallies nD τ sig Unit := owedL (sigL c ++ (xferL c 1 (il0 ++ il1) ++ (xferL c 3 il0 ++ xferL c 3 il1)))

def L (g : GSem nD τ sig) : Finset Unit := if g.1.2 = .tc then {()} else ∅
/-- Barrier cells at 1, first-phase receive cells at 2, second-phase receive cells at 3, everything else at 0. -/
def lv (g : GSem nD τ sig) (_ : Unit) : ℕ :=
  match g.2 with
  | .reg _ => 1
  | .dma s => match decode s with | some (k, _) => if k = 1 then 2 else if k = 3 then 3 else 0 | none => 0

theorem L_of_ne (g : GSem nD τ sig) (h : g.1.2 ≠ .tc) : L g = ∅ := if_neg h
theorem L_tc (c : Dev nD) (sm : SemLoc sig) : L ((c : Thread nD τ), sm) = {()} := if_pos rfl

/-- A wait on a cell of level `b` is allowed while everything still owed lies on TensorCore cells of higher levels. -/
theorem mayWait_list (c : Dev nD) (s : SemLoc sig) (l : List (GSem nD τ sig × ℕ))
    (hl : ∀ e ∈ l, e.1.1.2 = .tc ∧ lv ((c : Thread nD τ), s) () < lv e.1 ()) :
    (levAts L lv : sProp 𝕄) ⊢ MayWait (c : Thread nD τ) s () (owedL l) :=
  Pipeline.mayWait_of_levAts (by rw [L_tc]; exact Finset.mem_singleton_self _) fun g u hg => by
    obtain ⟨e, he, rfl⟩ := owedL_pos hg
    exact ⟨by unfold L; rw [if_pos (hl e he).1]; exact Finset.mem_singleton_self _, (hl e he).2⟩

end Cert.KernelIdealProof

end
-- ==== Proof.StateKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import proofs.«900485_g7700000000000486_dist_treered_v7x_i8_m512_n512_f32_1_alg».proof.Proof.ProtoKernelIdeal
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells by index; the invariants and reached-marks every device may use -/

/-- A device's cells: `none` its barrier cell, `some (k, i)` DMA cell `i` of semaphore array `k`. -/
abbrev CI : Type := Option (Fin 4 × Fin 14)
abbrev csem : CI → SemLoc sig
  | none => .reg barS
  | some ki => .dma (dsem ki.1 ki.2)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) : records m ρ K ⊢ cellInv ER (sched m ρ) (K ck) (kcell ck) := by
  unfold records; exact sep_elim_left.trans (bigSep_elim (Finset.mem_univ ck))
theorem reached_at (K : Dev nD × CI → ℕ) (ck : Dev nD × CI) : records m ρ K ⊢ reached ER (kcell ck) 0 := by
  unfold records; exact sep_elim_right.trans (bigSep_elim (Finset.mem_univ ck))

/-! ## What a device's body starts from and ends with -/

abbrev jl : List (Fin 7) := [5, 1, 4, 6, 0, 2, 3]
abbrev il : List (Fin 14) := [5, 1, 4, 6, 0, 2, 3, 12, 8, 11, 13, 7, 9, 10]

/-- The ghost state device `c` starts from: every cell's invariant and reached-mark; its positions at round 0 of its own
    57 cells; the tokens of the duties it pays: its partners' barrier duties, its own send duties, its partners' receive duties. -/
def ghost (K : Dev nD × CI → ℕ) (c : Dev nD) : sProp 𝕄 :=
  iprop(records m ρ K
    ∗ atPos ER (barCell c) 0 ∅ 0
    ∗ bigSepL il (fun i => atPos ER (dCell c 0 i) 0 ∅ 0) ∗ bigSepL il (fun i => atPos ER (dCell c 1 i) 0 ∅ 0)
    ∗ bigSepL il (fun i => atPos ER (dCell c 2 i) 0 ∅ 0) ∗ bigSepL il (fun i => atPos ER (dCell c 3 i) 0 ∅ 0)
    ∗ bigSepL jl (fun j => dutyTok ER (barCell (peer j c)) 0 j)
    ∗ bigSepL il (fun i => dutyTok ER (dCell c 0 i) 0 (0 : Fin 7)) ∗ bigSepL il (fun i => dutyTok ER (dCell (peer (jOf i) c) 1 i) 0 (0 : Fin 7))
    ∗ bigSepL il (fun i => dutyTok ER (dCell c 2 i) 0 (0 : Fin 7)) ∗ bigSepL il (fun i => dutyTok ER (dCell (peer (jOf i) c) 3 i) 0 (0 : Fin 7)))

/-- `ghost` with its lists written out, in the order the body uses them. -/
def ghostX (K : Dev nD × CI → ℕ) (c : Dev nD) : sProp 𝕄 :=
  iprop(records m ρ K
    ∗ atPos ER (barCell c) 0 ∅ 0
    ∗ (atPos ER (dCell c 0 5) 0 ∅ 0 ∗ atPos ER (dCell c 0 1) 0 ∅ 0 ∗ atPos ER (dCell c 0 4) 0 ∅ 0 ∗ atPos ER (dCell c 0 6) 0 ∅ 0 ∗ atPos ER (dCell c 0 0) 0 ∅ 0 ∗ atPos ER (dCell c 0 2) 0 ∅ 0 ∗ atPos ER (dCell c 0 3) 0 ∅ 0 ∗ atPos ER (dCell c 0 12) 0 ∅ 0 ∗ atPos ER (dCell c 0 8) 0 ∅ 0 ∗ atPos ER (dCell c 0 11) 0 ∅ 0 ∗ atPos ER (dCell c 0 13) 0 ∅ 0 ∗ atPos ER (dCell c 0 7) 0 ∅ 0 ∗ atPos ER (dCell c 0 9) 0 ∅ 0 ∗ atPos ER (dCell c 0 10) 0 ∅ 0)
    ∗ (atPos ER (dCell c 1 5) 0 ∅ 0 ∗ atPos ER (dCell c 1 1) 0 ∅ 0 ∗ atPos ER (dCell c 1 4) 0 ∅ 0 ∗ atPos ER (dCell c 1 6) 0 ∅ 0 ∗ atPos ER (dCell c 1 0) 0 ∅ 0 ∗ atPos ER (dCell c 1 2) 0 ∅ 0 ∗ atPos ER (dCell c 1 3) 0 ∅ 0 ∗ atPos ER (dCell c 1 12) 0 ∅ 0 ∗ atPos ER (dCell c 1 8) 0 ∅ 0 ∗ atPos ER (dCell c 1 11) 0 ∅ 0 ∗ atPos ER (dCell c 1 13) 0 ∅ 0 ∗ atPos ER (dCell c 1 7) 0 ∅ 0 ∗ atPos ER (dCell c 1 9) 0 ∅ 0 ∗ atPos ER (dCell c 1 10) 0 ∅ 0)
    ∗ (atPos ER (dCell c 2 5) 0 ∅ 0 ∗ atPos ER (dCell c 2 1) 0 ∅ 0 ∗ atPos ER (dCell c 2 4) 0 ∅ 0 ∗ atPos ER (dCell c 2 6) 0 ∅ 0 ∗ atPos ER (dCell c 2 0) 0 ∅ 0 ∗ atPos ER (dCell c 2 2) 0 ∅ 0 ∗ atPos ER (dCell c 2 3) 0 ∅ 0 ∗ atPos ER (dCell c 2 12) 0 ∅ 0 ∗ atPos ER (dCell c 2 8) 0 ∅ 0 ∗ atPos ER (dCell c 2 11) 0 ∅ 0 ∗ atPos ER (dCell c 2 13) 0 ∅ 0 ∗ atPos ER (dCell c 2 7) 0 ∅ 0 ∗ atPos ER (dCell c 2 9) 0 ∅ 0 ∗ atPos ER (dCell c 2 10) 0 ∅ 0)
    ∗ (atPos ER (dCell c 3 5) 0 ∅ 0 ∗ atPos ER (dCell c 3 1) 0 ∅ 0 ∗ atPos ER (dCell c 3 4) 0 ∅ 0 ∗ atPos ER (dCell c 3 6) 0 ∅ 0 ∗ atPos ER (dCell c 3 0) 0 ∅ 0 ∗ atPos ER (dCell c 3 2) 0 ∅ 0 ∗ atPos ER (dCell c 3 3) 0 ∅ 0 ∗ atPos ER (dCell c 3 12) 0 ∅ 0 ∗ atPos ER (dCell c 3 8) 0 ∅ 0 ∗ atPos ER (dCell c 3 11) 0 ∅ 0 ∗ atPos ER (dCell c 3 13) 0 ∅ 0 ∗ atPos ER (dCell c 3 7) 0 ∅ 0 ∗ atPos ER (dCell c 3 9) 0 ∅ 0 ∗ atPos ER (dCell c 3 10) 0 ∅ 0)
    ∗ (dutyTok ER (barCell (peer 5 c)) 0 (5 : Fin 7) ∗ dutyTok ER (barCell (peer 1 c)) 0 (1 : Fin 7) ∗ dutyTok ER (barCell (peer 4 c)) 0 (4 : Fin 7) ∗ dutyTok ER (barCell (peer 6 c)) 0 (6 : Fin 7) ∗ dutyTok ER (barCell (peer 0 c)) 0 (0 : Fin 7) ∗ dutyTok ER (barCell (peer 2 c)) 0 (2 : Fin 7) ∗ dutyTok ER (barCell (peer 3 c)) 0 (3 : Fin 7))
    ∗ (dutyTok ER (dCell c 0 5) 0 (0 : Fin 7) ∗ dutyTok ER (dCell c 0 1) 0 (0 : Fin 7) ∗ dutyTok ER (dCell c 0 4) 0 (0 : Fin 7) ∗ dutyTok ER (dCell c 0 6) 0 (0 : Fin 7) ∗ dutyTok ER (dCell c 0 0) 0 (0 : Fin 7) ∗ dutyTok ER (dCell c 0 2) 0 (0 : Fin 7) ∗ dutyTok ER (dCell c 0 3) 0 (0 : Fin 7) ∗ dutyTok ER (dCell c 0 12) 0 (0 : Fin 7) ∗ dutyTok ER (dCell c 0 8) 0 (0 : Fin 7) ∗ dutyTok ER (dCell c 0 11) 0 (0 : Fin 7) ∗ dutyTok ER (dCell c 0 13) 0 (0 : Fin 7) ∗ dutyTok ER (dCell c 0 7) 0 (0 : Fin 7) ∗ dutyTok ER (dCell c 0 9) 0 (0 : Fin 7) ∗ dutyTok ER (dCell c 0 10) 0 (0 : Fin 7))
    ∗ (dutyTok ER (dCell (peer 5 c) 1 5) 0 (0 : Fin 7) ∗ dutyTok ER (dCell (peer 1 c) 1 1) 0 (0 : Fin 7) ∗ dutyTok ER (dCell (peer 4 c) 1 4) 0 (0 : Fin 7) ∗ dutyTok ER (dCell (peer 6 c) 1 6) 0 (0 : Fin 7) ∗ dutyTok ER (dCell (peer 0 c) 1 0) 0 (0 : Fin 7) ∗ dutyTok ER (dCell (peer 2 c) 1 2) 0 (0 : Fin 7) ∗ dutyTok ER (dCell (peer 3 c) 1 3) 0 (0 : Fin 7) ∗ dutyTok ER (dCell (peer 5 c) 1 12) 0 (0 : Fin 7) ∗ dutyTok ER (dCell (peer 1 c) 1 8) 0 (0 : Fin 7) ∗ dutyTok ER (dCell (peer 4 c) 1 11) 0 (0 : Fin 7) ∗ dutyTok ER (dCell (peer 6 c) 1 13) 0 (0 : Fin 7) ∗ dutyTok ER (dCell (peer 0 c) 1 7) 0 (0 : Fin 7) ∗ dutyTok ER (dCell (peer 2 c) 1 9) 0 (0 : Fin 7) ∗ dutyTok ER (dCell (peer 3 c) 1 10) 0 (0 : Fin 7))
    ∗ (dutyTok ER (dCell c 2 5) 0 (0 : Fin 7) ∗ dutyTok ER (dCell c 2 1) 0 (0 : Fin 7) ∗ dutyTok ER (dCell c 2 4) 0 (0 : Fin 7) ∗ dutyTok ER (dCell c 2 6) 0 (0 : Fin 7) ∗ dutyTok ER (dCell c 2 0) 0 (0 : Fin 7) ∗ dutyTok ER (dCell c 2 2) 0 (0 : Fin 7) ∗ dutyTok ER (dCell c 2 3) 0 (0 : Fin 7) ∗ dutyTok ER (dCell c 2 12) 0 (0 : Fin 7) ∗ dutyTok ER (dCell c 2 8) 0 (0 : Fin 7) ∗ dutyTok ER (dCell c 2 11) 0 (0 : Fin 7) ∗ dutyTok ER (dCell c 2 13) 0 (0 : Fin 7) ∗ dutyTok ER (dCell c 2 7) 0 (0 : Fin 7) ∗ dutyTok ER (dCell c 2 9) 0 (0 : Fin 7) ∗ dutyTok ER (dCell c 2 10) 0 (0 : Fin 7))
    ∗ (dutyTok ER (dCell (peer 5 c) 3 5) 0 (0 : Fin 7) ∗ dutyTok ER (dCell (peer 1 c) 3 1) 0 (0 : Fin 7) ∗ dutyTok ER (dCell (peer 4 c) 3 4) 0 (0 : Fin 7) ∗ dutyTok ER (dCell (peer 6 c) 3 6) 0 (0 : Fin 7) ∗ dutyTok ER (dCell (peer 0 c) 3 0) 0 (0 : Fin 7) ∗ dutyTok ER (dCell (peer 2 c) 3 2) 0 (0 : Fin 7) ∗ dutyTok ER (dCell (peer 3 c) 3 3) 0 (0 : Fin 7) ∗ dutyTok ER (dCell (peer 5 c) 3 12) 0 (0 : Fin 7) ∗ dutyTok ER (dCell (peer 1 c) 3 8) 0 (0 : Fin 7) ∗ dutyTok ER (dCell (peer 4 c) 3 11) 0 (0 : Fin 7) ∗ dutyTok ER (dCell (peer 6 c) 3 13) 0 (0 : Fin 7) ∗ dutyTok ER (dCell (peer 0 c) 3 7) 0 (0 : Fin 7) ∗ dutyTok ER (dCell (peer 2 c) 3 9) 0 (0 : Fin 7) ∗ dutyTok ER (dCell (peer 3 c) 3 10) 0 (0 : Fin 7)))

theorem ghostX_eq (K : Dev nD × CI → ℕ) (c : Dev nD) : ghost m ρ K c = ghostX m ρ K c := by
  unfold ghost ghostX; simp only [bigSepL_cons_cons, bigSepL_singleton]; rfl

/-- The credit the launch deals a device on its receive cells, cell by cell in the order the body waits on them. -/
def credX (c : Dev nD) : sProp 𝕄 :=
  iprop((cred (tallyAt (dCell c 1 5) () N32) ∗ cred (tallyAt (dCell c 1 1) () N32) ∗ cred (tallyAt (dCell c 1 4) () N32) ∗ cred (tallyAt (dCell c 1 6) () N32) ∗ cred (tallyAt (dCell c 1 0) () N32) ∗ cred (tallyAt (dCell c 1 2) () N32) ∗ cred (tallyAt (dCell c 1 3) () N32) ∗ cred (tallyAt (dCell c 1 12) () N32) ∗ cred (tallyAt (dCell c 1 8) () N32) ∗ cred (tallyAt (dCell c 1 11) () N32) ∗ cred (tallyAt (dCell c 1 13) () N32) ∗ cred (tallyAt (dCell c 1 7) () N32) ∗ cred (tallyAt (dCell c 1 9) () N32) ∗ cred (tallyAt (dCell c 1 10) () N32))
    ∗ (cred (tallyAt (dCell c 3 5) () N32) ∗ cred (tallyAt (dCell c 3 1) () N32) ∗ cred (tallyAt (dCell c 3 4) () N32) ∗ cred (tallyAt (dCell c 3 6) () N32) ∗ cred (tallyAt (dCell c 3 0) () N32) ∗ cred (tallyAt (dCell c 3 2) () N32) ∗ cred (tallyAt (dCell c 3 3) () N32) ∗ cred (tallyAt (dCell c 3 12) () N32) ∗ cred (tallyAt (dCell c 3 8) () N32) ∗ cred (tallyAt (dCell c 3 11) () N32) ∗ cred (tallyAt (dCell c 3 13) () N32) ∗ cred (tallyAt (dCell c 3 7) () N32) ∗ cred (tallyAt (dCell c 3 9) () N32) ∗ cred (tallyAt (dCell c 3 10) () N32)))

def start (c : Dev nD) : sProp 𝕄 :=
  iprop((∃ K, ghost m ρ K c) ∗ cred (tallyAt (barCell c) () 7) ∗ credX c ∗ levAts L lv)

/-- A scratch buffer held whole at some contents. -/
def scr (c : Dev nD) (b : Ref sig .tc) : sProp 𝕄 :=
  iprop(∃ f : Buf (Elt F) ((c : Thread nD τ).loc b), ((c : Thread nD τ).loc b) ↦{fullShare} f)

def Φ₀ (c : Dev nD) : sProp 𝕄 :=
  iprop(start m ρ c ∗ scr c cc0_scratch0 ∗ scr c cc0_scratch1 ∗ scr c cc0_scratch2 ∗ scr c cc0_scratch3)

abbrev osem : Fin 4 × Fin 14 → SemLoc sig := fun ki => .dma (dsem ki.1 ki.2)

abbrev allKI : List (Fin 4 × Fin 14) := [(0, 5), (0, 1), (0, 4), (0, 6), (0, 0), (0, 2), (0, 3), (0, 12), (0, 8), (0, 11), (0, 13), (0, 7), (0, 9), (0, 10), (1, 5), (1, 1), (1, 4), (1, 6), (1, 0), (1, 2), (1, 3), (1, 12), (1, 8), (1, 11), (1, 13), (1, 7), (1, 9), (1, 10), (2, 5), (2, 1), (2, 4), (2, 6), (2, 0), (2, 2), (2, 3), (2, 12), (2, 8), (2, 11), (2, 13), (2, 7), (2, 9), (2, 10), (3, 5), (3, 1), (3, 4), (3, 6), (3, 0), (3, 2), (3, 3), (3, 12), (3, 8), (3, 11), (3, 13), (3, 7), (3, 9), (3, 10)]

def Φ₁ (c : Dev nD) : sProp 𝕄 :=
  iprop(scr (F := F) c cc0_scratch0 ∗ scr c cc0_scratch1 ∗ scr c cc0_scratch2 ∗ scr c cc0_scratch3
    ∗ bigSepL allKI fun ki : Fin 4 × Fin 14 => semVal ((c : Thread nD τ), osem ki) 0)

/-! ## The result -/

abbrev oOwn (c : Dev nD) (sb : Fin 2) : Rect S512x512 :=
  Rect.unit (s := S512x512) (k0_off3 c (BitVec.ofNat 32 (32 * sb.val))) S32x512.size (k0_off3_inb c sb)
abbrev oPeer (c : Dev nD) (j : Fin 7) (sb : Fin 2) : Rect S512x512 :=
  Rect.unit (s := S512x512) (k0_off4 c (BitVec.ofNat 32 (1 + j.val)) (BitVec.ofNat 32 (32 * sb.val))) S32x512.size (k0_off4_inb c j sb)

/-- A received reduced half, widened. -/
def wOut (c : Dev nD) (sb : Fin 2) (j : Fin 7) : FVec F S32x512 .f32 := extf .f32 (wAG m ρ c sb j) bitsLt_bf16_f32

/-- The result's staging buffer after the body's sixteen stores, over what it held before. -/
def outW (c : Dev nD) (g : (cc0_stg1_0 : Ref sig .tc).ty.Contents (Elt F)) : (cc0_stg1_0 : Ref sig .tc).ty.Contents (Elt F) :=
  ((oM.access (oPeer c 3 1)).write (Elt F) ((oM.access (oPeer c 2 1)).write (Elt F) ((oM.access (oPeer c 0 1)).write (Elt F) ((oM.access (oPeer c 6 1)).write (Elt F) ((oM.access (oPeer c 4 1)).write (Elt F) ((oM.access (oPeer c 1 1)).write (Elt F) ((oM.access (oPeer c 5 1)).write (Elt F) ((oM.access (oPeer c 3 0)).write (Elt F) ((oM.access (oPeer c 2 0)).write (Elt F) ((oM.access (oPeer c 0 0)).write (Elt F) ((oM.access (oPeer c 6 0)).write (Elt F) ((oM.access (oPeer c 4 0)).write (Elt F) ((oM.access (oPeer c 1 0)).write (Elt F) ((oM.access (oPeer c 5 0)).write (Elt F) ((oM.access (oOwn c 1)).write (Elt F) ((oM.access (oOwn c 0)).write (Elt F) g (acc m ρ c 0) Finset.univ) (acc m ρ c 1) Finset.univ) (wOut m ρ c 0 5) Finset.univ) (wOut m ρ c 0 1) Finset.univ) (wOut m ρ c 0 4) Finset.univ) (wOut m ρ c 0 6) Finset.univ) (wOut m ρ c 0 0) Finset.univ) (wOut m ρ c 0 2) Finset.univ) (wOut m ρ c 0 3) Finset.univ) (wOut m ρ c 1 5) Finset.univ) (wOut m ρ c 1 1) Finset.univ) (wOut m ρ c 1 4) Finset.univ) (wOut m ρ c 1 6) Finset.univ) (wOut m ρ c 1 0) Finset.univ) (wOut m ρ c 1 2) Finset.univ) (wOut m ρ c 1 3) Finset.univ)

/-- The kernel's result on device `c`: its own two halves of the sum, and each partner's two halves as received. -/
def outFin (c : Dev nD) : (cc0_stg1_0 : Ref sig .tc).ty.Contents (Elt F) := outW m ρ c (fun _ => Classical.choice inferInstance)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xb m ρ c
    | ⟨1, _⟩ => outFin m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (Xb m ρ c) ∗ stg c cc0_stg1_0 (outFin m ρ c))

end Cert.KernelIdealProof

end
-- ==== Proof.GeomKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import proofs.«900485_g7700000000000486_dist_treered_v7x_i8_m512_n512_f32_1_alg».proof.Proof.ProtoKernelIdeal
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Which elements a slot, a row block, a half holds; pieces of a buffer taken apart and put back -/

theorem mem_rslot (sb : Fin 2) (j : Fin 7) (x : (cc0_scratch2 : Ref sig .tc).ty.shape.Idx) :
    x ∈ (slotM rM sb j).view.set ↔ (x 0).val = sb.val ∧ (x 1).val = j.val := by
  rw [Memref.set_view_squeeze]
  show x ∈ ((View.whole cc0_scratch2).slice (slotR sb j)).set ↔ _
  rw [View.set_slice_whole, Rect.mem_set_unit]
  constructor
  · intro h
    have h0 := h 0; have h1 := h 1
    simp only [Matrix.cons_val_zero, Matrix.cons_val_one, Matrix.head_cons] at h0 h1
    exact ⟨by omega, by omega⟩
  · intro h a
    have hx : (x a).val < (![2, 7, 32, 512] : Fin 4 → ℕ) a := (x a).isLt
    fin_cases a <;> simp at hx ⊢ <;> omega

theorem mem_aslot (sb : Fin 2) (j : Fin 7) (x : (cc0_scratch3 : Ref sig .tc).ty.shape.Idx) :
    x ∈ (slotM aM sb j).view.set ↔ (x 0).val = sb.val ∧ (x 1).val = j.val := by
  rw [Memref.set_view_squeeze]
  show x ∈ ((View.whole cc0_scratch3).slice (slotR sb j)).set ↔ _
  rw [View.set_slice_whole, Rect.mem_set_unit]
  constructor
  · intro h
    have h0 := h 0; have h1 := h 1
    simp only [Matrix.cons_val_zero, Matrix.cons_val_one, Matrix.head_cons] at h0 h1
    exact ⟨by omega, by omega⟩
  · intro h a
    have hx : (x a).val < (![2, 7, 32, 512] : Fin 4 → ℕ) a := (x a).isLt
    fin_cases a <;> simp at hx ⊢ <;> omega

theorem mem_hsl (c : Dev nD) (j : Fin 7) (sb : Fin 2) (x : (cc0_scratch0 : Ref sig .tc).ty.shape.Idx) :
    x ∈ (hSl c j sb).view.set ↔ 64 * (peer j c).val + 32 * sb.val ≤ (x 0).val ∧ (x 0).val < 64 * (peer j c).val + 32 * sb.val + 32 := by
  show x ∈ ((View.whole cc0_scratch0).slice (Rect.unit (s := S512x512) (k0_off1 c (BitVec.ofNat 32 (1 + j.val)) (BitVec.ofNat 32 (32 * sb.val))) S32x512.size (k0_off1_inb c j sb))).set ↔ _
  rw [View.set_slice_whole, Rect.mem_set_unit, off1_eq]
  constructor
  · intro h
    have h0 := h 0
    simp only [Matrix.cons_val_zero] at h0
    exact h0
  · intro h a
    have hx : (x a).val < (![512, 512] : Fin 2 → ℕ) a := (x a).isLt
    fin_cases a <;> simp at hx ⊢ <;> omega

theorem mem_gsl (sb : Fin 2) (x : (cc0_scratch1 : Ref sig .tc).ty.shape.Idx) :
    x ∈ (gSl sb).view.set ↔ 32 * sb.val ≤ (x 0).val ∧ (x 0).val < 32 * sb.val + 32 := by
  show x ∈ ((View.whole cc0_scratch1).slice (gRect sb)).set ↔ _
  rw [View.set_slice_whole, Rect.mem_set_unit]
  constructor
  · intro h
    have h0 := h 0
    simp only [Matrix.cons_val_zero] at h0
    exact h0
  · intro h a
    have hx : (x a).val < (![64, 512] : Fin 2 → ℕ) a := (x a).isLt
    fin_cases a <;> simp at hx ⊢ <;> omega

omit [FloatOps F] in
theorem give_piece {ℓ : Loc nD τ sig} {S I : Finset (Idx ℓ)} (h : I ⊆ S) (f g : Buf (Elt F) ℓ) :
    iprop((ℓ ↦[I]{fullShare} g) ∗ (ℓ ↦[S \ I]{fullShare} f)) ⊢ (∃ f' : Buf (Elt F) ℓ, ℓ ↦[S]{fullShare} f' : sProp 𝕄) := by
  refine (BI.Region.is_join (Finset.disjoint_sdiff)).trans ?_
  rw [Finset.union_sdiff_of_subset h]
  iintro H; iexists _; iexact H

omit [FloatOps F] in
theorem take_piece {ℓ : Loc nD τ sig} {S I : Finset (Idx ℓ)} (h : I ⊆ S) (q : PosShare TreeShare) (f : Buf (Elt F) ℓ) :
    (ℓ ↦[S]{q} f : sProp 𝕄) ⊢ iprop((ℓ ↦[I]{q} f) ∗ (ℓ ↦[S \ I]{q} f)) :=
  (BI.Region.is_split_subset h).1

/-! ### What is left of a buffer after pieces were taken out, the last taken first in the list -/

def restR : List (Fin 2 × Fin 7) → Finset (cc0_scratch2 : Ref sig .tc).ty.shape.Idx
  | [] => Finset.univ
  | p :: l => restR l \ (slotM rM p.1 p.2).view.set
def restA : List (Fin 2 × Fin 7) → Finset (cc0_scratch3 : Ref sig .tc).ty.shape.Idx
  | [] => Finset.univ
  | p :: l => restA l \ (slotM aM p.1 p.2).view.set
def restH (c : Dev nD) : List (Fin 14) → Finset (cc0_scratch0 : Ref sig .tc).ty.shape.Idx
  | [] => Finset.univ
  | i :: l => restH c l \ (hSl c (jOf i) (sbOf i)).view.set

theorem rslot_sub (p : Fin 2 × Fin 7) (l : List (Fin 2 × Fin 7)) (h : ∀ p' ∈ l, p ≠ p') : (slotM rM p.1 p.2).view.set ⊆ restR l := by
  induction l with
  | nil => exact Finset.subset_univ _
  | cons p' l ih =>
    refine Finset.subset_sdiff.2 ⟨ih fun q hq => h q (List.mem_cons_of_mem _ hq), Finset.disjoint_left.2 fun x hx hx' => ?_⟩
    rw [mem_rslot] at hx hx'
    exact h p' List.mem_cons_self (Prod.ext (Fin.ext (hx.1.symm.trans hx'.1)) (Fin.ext (hx.2.symm.trans hx'.2)))
theorem aslot_sub (p : Fin 2 × Fin 7) (l : List (Fin 2 × Fin 7)) (h : ∀ p' ∈ l, p ≠ p') : (slotM aM p.1 p.2).view.set ⊆ restA l := by
  induction l with
  | nil => exact Finset.subset_univ _
  | cons p' l ih =>
    refine Finset.subset_sdiff.2 ⟨ih fun q hq => h q (List.mem_cons_of_mem _ hq), Finset.disjoint_left.2 fun x hx hx' => ?_⟩
    rw [mem_aslot] at hx hx'
    exact h p' List.mem_cons_self (Prod.ext (Fin.ext (hx.1.symm.trans hx'.1)) (Fin.ext (hx.2.symm.trans hx'.2)))

theorem ix_ext : ∀ i i' : Fin 14, sbOf i = sbOf i' → jOf i = jOf i' → i = i' := by decide

theorem hsl_sub (c : Dev nD) (i : Fin 14) (l : List (Fin 14)) (h : ∀ i' ∈ l, i ≠ i') : (hSl c (jOf i) (sbOf i)).view.set ⊆ restH c l := by
  induction l with
  | nil => exact Finset.subset_univ _
  | cons i' l ih =>
    refine Finset.subset_sdiff.2 ⟨ih fun q hq => h q (List.mem_cons_of_mem _ hq), Finset.disjoint_left.2 fun x hx hx' => ?_⟩
    rw [mem_hsl] at hx hx'
    have hne := h i' List.mem_cons_self
    have hq : (peer (jOf i) c).val = (peer (jOf i') c).val → (sbOf i).val ≠ (sbOf i').val := fun e hs =>
      hne (ix_ext i i' (Fin.ext hs) (peer_inj _ _ c (Fin.ext e)))
    have h1 := (sbOf i).isLt; have h2 := (sbOf i').isLt
    by_cases e : (peer (jOf i) c).val = (peer (jOf i') c).val
    · have := hq e; omega
    · omega

theorem gsl_sub : (gSl 1).view.set ⊆ (Finset.univ : Finset (cc0_scratch1 : Ref sig .tc).ty.shape.Idx) \ (gSl 0).view.set :=
  Finset.subset_sdiff.2 ⟨Finset.subset_univ _, Finset.disjoint_left.2 fun x hx hx' => by
    rw [mem_gsl] at hx hx'; simp at hx hx'; omega⟩

theorem rload_sub (sb : Fin 2) (j : Fin 7) : (rM : Memref sig .tc .vmem S2x7x32x512 .bf16).view.setOn (slotR sb j).toLoadRect.set ⊆ (slotM rM sb j).view.set := by
  rw [Memref.set_view_squeeze]
  exact Memref.setOn_subset_slice_of_within rM (slotR sb j) (fun _ => rfl) _ (by revert sb j; decide)
theorem aload_sub (sb : Fin 2) (j : Fin 7) : (aM : Memref sig .tc .vmem S2x7x32x512 .bf16).view.setOn (slotR sb j).toLoadRect.set ⊆ (slotM aM sb j).view.set := by
  rw [Memref.set_view_squeeze]
  exact Memref.setOn_subset_slice_of_within aM (slotR sb j) (fun _ => rfl) _ (by revert sb j; decide)
theorem gload_sub (sb : Fin 2) : (gM : Memref sig .tc .vmem S64x512 .bf16).view.setOn (gRect sb).toLoadRect.set ⊆ (gSl sb).view.set :=
  Memref.setOn_subset_slice_of_within gM (gRect sb) (fun _ => rfl) _ (by revert sb; decide)

omit [FloatOps F] in
/-- A whole write through a view leaves, on the view's own elements, what was written, whatever was there before. -/
theorem write_congr_set {κ : Kind} {sp : Space} {s : Shape} {e : EltTy} (v : View sig κ sp s e) (f f' : BufTy.Contents (Elt F) v.ty) (w : s.Idx → Elt F e) :
    ∀ i ∈ v.set, v.write (Elt F) f w Finset.univ i = v.write (Elt F) f' w Finset.univ i := fun i hi => by
  obtain ⟨y, rfl⟩ := View.exists_emb_of_mem_set v hi
  rw [View.write_emb_of_mem f w (Finset.mem_univ y), View.write_emb_of_mem f' w (Finset.mem_univ y)]

/-! ### Taking a slot, a row block out of what is left, and putting it back -/

omit [FloatOps F] in
theorem to_restR (c : Dev nD) (f : Buf (Elt F) ((c : Thread nD τ).loc cc0_scratch2)) :
    (((c : Thread nD τ).loc cc0_scratch2) ↦{fullShare} f : sProp 𝕄) ⊢ (((c : Thread nD τ).loc cc0_scratch2) ↦[restR []]{fullShare} f) := Entails.of_eq rfl
omit [FloatOps F] in
theorem from_restR (c : Dev nD) (f : Buf (Elt F) ((c : Thread nD τ).loc cc0_scratch2)) :
    (((c : Thread nD τ).loc cc0_scratch2) ↦[restR []]{fullShare} f : sProp 𝕄) ⊢ (((c : Thread nD τ).loc cc0_scratch2) ↦{fullShare} f) := Entails.of_eq rfl
omit [FloatOps F] in
theorem to_restA (c : Dev nD) (f : Buf (Elt F) ((c : Thread nD τ).loc cc0_scratch3)) :
    (((c : Thread nD τ).loc cc0_scratch3) ↦{fullShare} f : sProp 𝕄) ⊢ (((c : Thread nD τ).loc cc0_scratch3) ↦[restA []]{fullShare} f) := Entails.of_eq rfl
omit [FloatOps F] in
theorem from_restA (c : Dev nD) (f : Buf (Elt F) ((c : Thread nD τ).loc cc0_scratch3)) :
    (((c : Thread nD τ).loc cc0_scratch3) ↦[restA []]{fullShare} f : sProp 𝕄) ⊢ (((c : Thread nD τ).loc cc0_scratch3) ↦{fullShare} f) := Entails.of_eq rfl
omit [FloatOps F] in
theorem to_restH (c : Dev nD) (f : Buf (Elt F) ((c : Thread nD τ).loc cc0_scratch0)) :
    (((c : Thread nD τ).loc cc0_scratch0) ↦{fullShare} f : sProp 𝕄) ⊢ (((c : Thread nD τ).loc cc0_scratch0) ↦[restH c []]{fullShare} f) := Entails.of_eq rfl
omit [FloatOps F] in
theorem from_restH (c : Dev nD) (f : Buf (Elt F) ((c : Thread nD τ).loc cc0_scratch0)) :
    (((c : Thread nD τ).loc cc0_scratch0) ↦[restH c []]{fullShare} f : sProp 𝕄) ⊢ (((c : Thread nD τ).loc cc0_scratch0) ↦{fullShare} f) := Entails.of_eq rfl

omit [FloatOps F] in
theorem take_rslot (c : Dev nD) (p : Fin 2 × Fin 7) (l : List (Fin 2 × Fin 7)) (h : ∀ p' ∈ l, p ≠ p') (f : Buf (Elt F) ((c : Thread nD τ).loc cc0_scratch2)) :
    (((c : Thread nD τ).loc cc0_scratch2) ↦[restR l]{fullShare} f : sProp 𝕄)
      ⊢ iprop(slotPts rM c p.1 p.2 f ∗ (((c : Thread nD τ).loc cc0_scratch2) ↦[restR (p :: l)]{fullShare} f)) :=
  take_piece (rslot_sub p l h) fullShare f
omit [FloatOps F] in
theorem give_rslot (c : Dev nD) (p : Fin 2 × Fin 7) (l : List (Fin 2 × Fin 7)) (h : ∀ p' ∈ l, p ≠ p') (f g : Buf (Elt F) ((c : Thread nD τ).loc cc0_scratch2)) :
    iprop(slotPts rM c p.1 p.2 g ∗ (((c : Thread nD τ).loc cc0_scratch2) ↦[restR (p :: l)]{fullShare} f))
      ⊢ (∃ f' : Buf (Elt F) ((c : Thread nD τ).loc cc0_scratch2), ((c : Thread nD τ).loc cc0_scratch2) ↦[restR l]{fullShare} f' : sProp 𝕄) :=
  give_piece (rslot_sub p l h) f g
omit [FloatOps F] in
theorem take_aslot (c : Dev nD) (p : Fin 2 × Fin 7) (l : List (Fin 2 × Fin 7)) (h : ∀ p' ∈ l, p ≠ p') (f : Buf (Elt F) ((c : Thread nD τ).loc cc0_scratch3)) :
    (((c : Thread nD τ).loc cc0_scratch3) ↦[restA l]{fullShare} f : sProp 𝕄)
      ⊢ iprop(slotPts aM c p.1 p.2 f ∗ (((c : Thread nD τ).loc cc0_scratch3) ↦[restA (p :: l)]{fullShare} f)) :=
  take_piece (aslot_sub p l h) fullShare f
omit [FloatOps F] in
theorem give_aslot (c : Dev nD) (p : Fin 2 × Fin 7) (l : List (Fin 2 × Fin 7)) (h : ∀ p' ∈ l, p ≠ p') (f g : Buf (Elt F) ((c : Thread nD τ).loc cc0_scratch3)) :
    iprop(slotPts aM c p.1 p.2 g ∗ (((c : Thread nD τ).loc cc0_scratch3) ↦[restA (p :: l)]{fullShare} f))
      ⊢ (∃ f' : Buf (Elt F) ((c : Thread nD τ).loc cc0_scratch3), ((c : Thread nD τ).loc cc0_scratch3) ↦[restA l]{fullShare} f' : sProp 𝕄) :=
  give_piece (aslot_sub p l h) f g
omit [FloatOps F] in
theorem take_hsl (c : Dev nD) (i : Fin 14) (l : List (Fin 14)) (h : ∀ i' ∈ l, i ≠ i') (f : Buf (Elt F) ((c : Thread nD τ).loc cc0_scratch0)) :
    (((c : Thread nD τ).loc cc0_scratch0) ↦[restH c l]{fullShare} f : sProp 𝕄)
      ⊢ iprop(((hSl c (jOf i) (sbOf i)).view.loc (c : Thread nD τ) ↦[(hSl c (jOf i) (sbOf i)).view.set]{fullShare} f) ∗ (((c : Thread nD τ).loc cc0_scratch0) ↦[restH c (i :: l)]{fullShare} f)) :=
  take_piece (hsl_sub c i l h) fullShare f
omit [FloatOps F] in
theorem give_hsl (c : Dev nD) (i : Fin 14) (l : List (Fin 14)) (h : ∀ i' ∈ l, i ≠ i') (f g : Buf (Elt F) ((c : Thread nD τ).loc cc0_scratch0)) :
    iprop(((hSl c (jOf i) (sbOf i)).view.loc (c : Thread nD τ) ↦[(hSl c (jOf i) (sbOf i)).view.set]{fullShare} g) ∗ (((c : Thread nD τ).loc cc0_scratch0) ↦[restH c (i :: l)]{fullShare} f))
      ⊢ (∃ f' : Buf (Elt F) ((c : Thread nD τ).loc cc0_scratch0), ((c : Thread nD τ).loc cc0_scratch0) ↦[restH c l]{fullShare} f' : sProp 𝕄) :=
  give_piece (hsl_sub c i l h) f g

end Cert.KernelIdealProof
end
-- ==== Proof.StepsKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import proofs.«900485_g7700000000000486_dist_treered_v7x_i8_m512_n512_f32_1_alg».proof.Proof.StateKernelIdeal
import proofs.«900485_g7700000000000486_dist_treered_v7x_i8_m512_n512_f32_1_alg».proof.Proof.GeomKernelIdeal
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## What a device still owes after its first `n` signals and transfers -/

def allSteps (c : Dev nD) : List (GSem nD τ sig × ℕ) := sigL c ++ (xferL c 1 (il0 ++ il1) ++ (xferL c 3 il0 ++ xferL c 3 il1))
def owedFrom (c : Dev nD) (n : ℕ) : CellTallies nD τ sig Unit := owedL ((allSteps c).drop n)

theorem O₀_eq (c : Dev nD) : O₀ c = owedFrom c 0 := rfl
theorem owedFrom_end (c : Dev nD) : owedFrom c 35 = 0 := rfl

theorem lv_bar (q : Dev nD) : lv (barCell q) () = 1 := rfl
theorem lv_d (q : Dev nD) (k : Fin 4) (i : Fin 14) : lv (dCell q k i) () = if k = 1 then 2 else if k = 3 then 3 else 0 := by
  unfold lv; dsimp only; rw [decode_dsem]

theorem xferL_mem {c : Dev nD} {k : Fin 4} {l : List (Fin 14)} {e : GSem nD τ sig × ℕ} (he : e ∈ xferL c k l) :
    e.1.1.2 = .tc ∧ lv e.1 () = if k = 1 then 2 else if k = 3 then 3 else 0 := by
  unfold xferL at he
  obtain ⟨i, _, rfl⟩ := List.mem_map.1 he
  exact ⟨rfl, lv_d _ _ _⟩

/-- At its barrier wait a device owes its transfers only: receive cells, above its barrier cell. -/
theorem mw_bar (c : Dev nD) : (levAts L lv : sProp 𝕄) ⊢ MayWait (c : Thread nD τ) (.reg barS) () (owedFrom c 7) :=
  mayWait_list c _ _ fun e he => by
    have he' : e ∈ xferL c 1 (il0 ++ il1) ++ (xferL c 3 il0 ++ xferL c 3 il1) := he
    rcases List.mem_append.1 he' with h | h
    · obtain ⟨h1, h2⟩ := xferL_mem h; exact ⟨h1, by rw [lv_bar, h2]; decide⟩
    · rcases List.mem_append.1 h with h | h <;> (obtain ⟨h1, h2⟩ := xferL_mem h; exact ⟨h1, by rw [lv_bar, h2]; decide⟩)

/-- At a first-phase receive wait a device owes second-phase transfers only. -/
theorem mw_rr0 (c : Dev nD) (i : Fin 14) : (levAts L lv : sProp 𝕄) ⊢ MayWait (c : Thread nD τ) (.dma (dsem 1 i)) () (owedFrom c 21) :=
  mayWait_list c _ _ fun e he => by
    have he' : e ∈ xferL c 3 il0 ++ xferL c 3 il1 := he
    rcases List.mem_append.1 he' with h | h <;> (obtain ⟨h1, h2⟩ := xferL_mem h; exact ⟨h1, by rw [lv_d, h2]; decide⟩)
theorem mw_rr1 (c : Dev nD) (i : Fin 14) : (levAts L lv : sProp 𝕄) ⊢ MayWait (c : Thread nD τ) (.dma (dsem 1 i)) () (owedFrom c 28) :=
  mayWait_list c _ _ fun e he => by
    have he' : e ∈ xferL c 3 il1 := he
    obtain ⟨h1, h2⟩ := xferL_mem he'; exact ⟨h1, by rw [lv_d, h2]; decide⟩
/-- Once everything is sent a device may wait on any of its cells. -/
theorem mw_end (c : Dev nD) (s : SemLoc sig) : (levAts L lv : sProp 𝕄) ⊢ MayWait (c : Thread nD τ) s () (owedFrom c 35) :=
  mayWait_list c _ _ fun e he => absurd he List.not_mem_nil

/-! ## The DMA cells' payloads, one lemma per semaphore array -/

theorem payD_0 (c : Dev nD) (sb : Fin 2) (j : Fin 7) (i : Fin 14) (hsb : sbOf i = sb) (hj : jOf i = j) :
    payD m ρ c 0 i = ((hSl c j sb).view.loc (c : Thread nD τ) ↦[(hSl c j sb).view.set]{fullShare} X16 m ρ c) := by
  subst hsb hj; unfold payD; rw [if_pos rfl]
theorem payD_1 (c : Dev nD) (sb : Fin 2) (j : Fin 7) (i : Fin 14) (hsb : sbOf i = sb) (hj : jOf i = j) :
    payD m ρ c 1 i = iprop(∃ fd, slotPts rM c sb j ((slotM rM sb j).view.write (Elt F) fd (wRS m ρ c sb j) Finset.univ)) := by
  subst hsb hj; unfold payD; rw [if_neg (by decide), if_pos rfl]
theorem payD_2 (c : Dev nD) (sb : Fin 2) (j : Fin 7) (i : Fin 14) (p : ℕ) (hsb : sbOf i = sb) (hj : jOf i = j) (hp : posOf j = p) :
    payD m ρ c 2 i = ((gSl sb).view.loc (c : Thread nD τ) ↦[(gSl sb).view.set]{(shr p).left} G16 m ρ c sb) := by
  subst hsb hj hp; unfold payD; rw [if_neg (by decide), if_neg (by decide), if_pos rfl]
theorem payD_3 (c : Dev nD) (sb : Fin 2) (j : Fin 7) (i : Fin 14) (hsb : sbOf i = sb) (hj : jOf i = j) :
    payD m ρ c 3 i = iprop(∃ fd, slotPts aM c sb j ((slotM aM sb j).view.write (Elt F) fd (wAG m ρ c sb j) Finset.univ)) := by
  subst hsb hj; unfold payD; rw [if_neg (by decide), if_neg (by decide), if_neg (by decide)]

/-! ## The two transfers, at the cells of this protocol -/

/-- A first-phase transfer: 32 rows of the 16-bit copy into the partner's slot `(sb, j)`. -/
theorem wp_rs_send (K : Dev nD × CI → ℕ) (c n : Dev nD) (sb : Fin 2) (j : Fin 7) (i : Fin 14) (hsb : sbOf i = sb) (hj : jOf i = j) (hn : n = peer j c)
    (sS sR : DmaSem sig) (hsS : sS = dsem 0 i) (hsR : sR = dsem 1 i) (N : ℕ)
    {hsc : (slotM rM sb j : Memref sig (Dev.tc n : Thread nD τ).2.kind .vmem S32x512 .bf16).view.ref.isScScratch = false}
    {hsrc : (hSl c j sb : Memref sig .tc .vmem S32x512 .bf16).view.WordExact} {hdst : (slotM rM sb j : Memref sig .tc .vmem S32x512 .bf16).view.WordExact}
    {hsem : DmaTarget.Typed .vmem (.dma sR) (.remote (Dev.tc n : Thread nD τ) (slotM rM sb j : Memref sig .tc .vmem S32x512 .bf16) (.dma sS) hsc)}
    {α : Type} {Q : α → sProp 𝕄} {k : PUnit → Prog (TpuEff nD τ sig (Elt F) Λ₀ .tc) α}
    (fn : Buf (Elt F) ((slotM rM sb j : Memref sig .tc .vmem S32x512 .bf16).view.loc (peer j c : Thread nD τ))) (W : Waits sig Unit)
    (hO : owedFrom c N = owedFrom c (N + 1) + tallyAt (dCell (peer j c) 1 i) () N32) :
    iprop(records m ρ K
        ∗ ((hSl c j sb).view.loc (c : Thread nD τ) ↦[(hSl c j sb).view.set]{fullShare} X16 m ρ c) ∗ slotPts rM (peer j c) sb j fn
        ∗ owes (c : Thread nD τ) (owedFrom c N) W
        ∗ dutyTok ER (dCell c 0 i) 0 (0 : Fin 7) ∗ dutyTok ER (dCell (peer j c) 1 i) 0 (0 : Fin 7))
      ⊢ iprop(((cred (tallyAt (dCell c 0 i) () N32) ∗ owes (c : Thread nD τ) (owedFrom c (N + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hSl c j sb) (.remote (Dev.tc n : Thread nD τ) (slotM rM sb j) (.dma sS) hsc) (.dma sR) hsrc hdst hsem) k) Q) := by
  subst hn hsS hsR
  iintro ⟨#HR, Hsrc, Hdst, HO, Ht0, Ht1⟩
  iapply (Rounds.wp_send_pointsTo 𝒱₀ ER (sched m ρ) (c : Thread nD τ) none (κ₁ := K (c, some (0, i))) (κ₂ := K (peer j c, some (1, i)))
    (r₁ := 0) (r₂ := 0) (d₁ := (0 : Fin 7)) (d₂ := (0 : Fin 7)) (fd := fn) (src := hSl c j sb) (dst := slotM rM sb j) (q := fullShare) (fs := X16 m ρ c) (c' := (peer j c : Thread nD τ))
    (by rw [duties_d]; exact Finset.mem_singleton_self _) (by rw [duties_d]; exact Finset.mem_singleton_self _)
    () () N32 rfl (amount_d m ρ c 0 i 0) (amount_d m ρ (peer j c) 1 i 0) (owedFrom c (N + 1)) hO (W := W)
    (by rw [payload_d, payD_0 m ρ c sb j i hsb hj])
    (by
      rw [payload_d, payD_1 m ρ (peer j c) sb j i hsb hj]; unfold wRS; rw [peer_peer]
      iintro H; iexists fn; iexact H))
  isplitr; · iapply (inv_at m ρ K (c, some (0, i))); iexact HR
  isplitr; · iapply (inv_at m ρ K (peer j c, some (1, i))); iexact HR
  isplitl [Hsrc]; · iexact Hsrc
  isplitl [Hdst]; · iexact Hdst
  isplitl [HO]; · iexact HO
  isplitl [Ht0]; · iexact Ht0
  isplitr; · iapply (reached_at m ρ K (c, some (0, i))); iexact HR
  isplitl [Ht1]; · iexact Ht1
  iapply (reached_at m ρ K (peer j c, some (1, i))); iexact HR

/-- A second-phase transfer: half `sb` of the reduced segment's 16-bit copy into the partner's slot `(sb, j)`, lending the
    left half of the share still held. -/
theorem wp_ag_send (K : Dev nD × CI → ℕ) (c n : Dev nD) (sb : Fin 2) (j : Fin 7) (i : Fin 14) (p : ℕ) (hsb : sbOf i = sb) (hj : jOf i = j) (hp : posOf j = p) (hn : n = peer j c)
    (sS sR : DmaSem sig) (hsS : sS = dsem 2 i) (hsR : sR = dsem 3 i) (N : ℕ)
    {hsc : (slotM aM sb j : Memref sig (Dev.tc n : Thread nD τ).2.kind .vmem S32x512 .bf16).view.ref.isScScratch = false}
    {hsrc : (gSl sb : Memref sig .tc .vmem S32x512 .bf16).view.WordExact} {hdst : (slotM aM sb j : Memref sig .tc .vmem S32x512 .bf16).view.WordExact}
    {hsem : DmaTarget.Typed .vmem (.dma sR) (.remote (Dev.tc n : Thread nD τ) (slotM aM sb j : Memref sig .tc .vmem S32x512 .bf16) (.dma sS) hsc)}
    {α : Type} {Q : α → sProp 𝕄} {k : PUnit → Prog (TpuEff nD τ sig (Elt F) Λ₀ .tc) α}
    (fn : Buf (Elt F) ((slotM aM sb j : Memref sig .tc .vmem S32x512 .bf16).view.loc (peer j c : Thread nD τ))) (W : Waits sig Unit)
    (hO : owedFrom c N = owedFrom c (N + 1) + tallyAt (dCell (peer j c) 3 i) () N32) :
    iprop(records m ρ K
        ∗ ((gSl sb).view.loc (c : Thread nD τ) ↦[(gSl sb).view.set]{(shr p).left} G16 m ρ c sb) ∗ slotPts aM (peer j c) sb j fn
        ∗ owes (c : Thread nD τ) (owedFrom c N) W
        ∗ dutyTok ER (dCell c 2 i) 0 (0 : Fin 7) ∗ dutyTok ER (dCell (peer j c) 3 i) 0 (0 : Fin 7))
      ⊢ iprop(((cred (tallyAt (dCell c 2 i) () N32) ∗ owes (c : Thread nD τ) (owedFrom c (N + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gSl sb) (.remote (Dev.tc n : Thread nD τ) (slotM aM sb j) (.dma sS) hsc) (.dma sR) hsrc hdst hsem) k) Q) := by
  subst hn hsS hsR
  iintro ⟨#HR, Hsrc, Hdst, HO, Ht0, Ht1⟩
  iapply (Rounds.wp_send_pointsTo 𝒱₀ ER (sched m ρ) (c : Thread nD τ) none (κ₁ := K (c, some (2, i))) (κ₂ := K (peer j c, some (3, i)))
    (r₁ := 0) (r₂ := 0) (d₁ := (0 : Fin 7)) (d₂ := (0 : Fin 7)) (fd := fn) (src := gSl sb) (dst := slotM aM sb j) (q := (shr p).left) (fs := G16 m ρ c sb) (c' := (peer j c : Thread nD τ))
    (by rw [duties_d]; exact Finset.mem_singleton_self _) (by rw [duties_d]; exact Finset.mem_singleton_self _)
    () () N32 rfl (amount_d m ρ c 2 i 0) (amount_d m ρ (peer j c) 3 i 0) (owedFrom c (N + 1)) hO (W := W)
    (by rw [payload_d, payD_2 m ρ c sb j i p hsb hj hp])
    (by
      rw [payload_d, payD_3 m ρ (peer j c) sb j i hsb hj]; unfold wAG; rw [peer_peer]
      iintro H; iexists fn; iexact H))
  isplitr; · iapply (inv_at m ρ K (c, some (2, i))); iexact HR
  isplitr; · iapply (inv_at m ρ K (peer j c, some (3, i))); iexact HR
  isplitl [Hsrc]; · iexact Hsrc
  isplitl [Hdst]; · iexact Hdst
  isplitl [HO]; · iexact HO
  isplitl [Ht0]; · iexact Ht0
  isplitr; · iapply (reached_at m ρ K (c, some (2, i))); iexact HR
  isplitl [Ht1]; · iexact Ht1
  iapply (reached_at m ρ K (peer j c, some (3, i))); iexact HR

/-- A signal to the partner under mask `j + 1`: its barrier duty `j`, handing over this device's four receive slots `(·, j)`. -/
theorem wp_sig (K : Dev nD × CI → ℕ) (c n : Dev nD) (j : Fin 7) (hn : n = peer j c) (N : ℕ) (sem : Sem sig) (hsem : sem = barS) (k' : ℕ) (hk : k' = 1)
    {α : Type} {Q : α → sProp 𝕄} {k : PUnit → Prog (TpuEff nD τ sig (Elt F) Λ₀ .tc) α}
    (f1 f2 : Buf (Elt F) ((slotM rM 0 j : Memref sig .tc .vmem S32x512 .bf16).view.loc (c : Thread nD τ)))
    (f3 f4 : Buf (Elt F) ((slotM aM 0 j : Memref sig .tc .vmem S32x512 .bf16).view.loc (c : Thread nD τ))) (W : Waits sig Unit)
    (hO : owedFrom c N = owedFrom c (N + 1) + tallyAt (barCell (peer j c)) () 1) :
    iprop(records m ρ K ∗ owes (c : Thread nD τ) (owedFrom c N) W ∗ dutyTok ER (barCell (peer j c)) 0 j
        ∗ slotPts rM c 0 j f1 ∗ slotPts rM c 1 j f2 ∗ slotPts aM c 0 j f3 ∗ slotPts aM c 1 j f4)
      ⊢ iprop((owes (c : Thread nD τ) (owedFrom c (N + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, Proc.tc) : Thread nD τ) sem k') k) Q) := by
  subst hn hsem hk
  iintro ⟨#HR, HO, Ht, H1, H2, H3, H4⟩
  iapply (Rounds.wp_signal 𝒱₀ ER (sched m ρ) (c : Thread nD τ) none (dst := (peer j c : Thread nD τ)) (κ := K (peer j c, none))
      (d := j) (by rw [duties_bar]; exact Finset.mem_univ _) (amount_bar m ρ (peer j c) j) () (owedFrom c (N + 1)) hO)
  isplitr; · iapply (inv_at m ρ K (peer j c, none)); iexact HR
  isplitl [HO]; · iexact HO
  isplitl [Ht]; · iexact Ht
  isplitl [H1 H2 H3 H4]
  · rw [payload_bar]; unfold barPay; rw [peer_peer]
    isplitl [H1]; · iexists _; iexact H1
    isplitl [H2]; · iexists _; iexact H2
    isplitl [H3]; · iexists _; iexact H3
    iexists _; iexact H4
  · iapply (reached_at m ρ K (peer j c, none)); iexact HR

/-- The wait for the seven partners' signals: the partners' slots this device writes come with it. -/
theorem wp_wait_bar (K : Dev nD × CI → ℕ) (c : Dev nD) (sem : Sem sig) (hsem : sem = barS) (k' : ℕ) (hk : k' = 7)
    {α : Type} {Q : α → sProp 𝕄} {k : PUnit → Prog (TpuEff nD τ sig (Elt F) Λ₀ .tc) α} (W : Waits sig Unit) :
    iprop(records m ρ K ∗ levAts L lv ∗ cred (tallyAt (barCell c) () 7) ∗ owes (c : Thread nD τ) (owedFrom c 7) W ∗ atPos ER (barCell c) 0 ∅ 0)
      ⊢ iprop(((owes (c : Thread nD τ) (owedFrom c 7) (insert (SemLoc.reg barS, ()) W) ∗ atPos ER (barCell c) 1 ∅ 0
              ∗ (barPay (F := F) c 5 ∗ barPay c 1 ∗ barPay c 4 ∗ barPay c 6 ∗ barPay c 0 ∗ barPay c 2 ∗ barPay c 3))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk
  iintro ⟨#HR, #Hlev, Hc, HO, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := owedFrom c 7) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mw_bar c); iexact Hlev
    iexact Hat
  iintro ⟨HO, Hat, -, Hpay⟩
  iapply Hk
  isplitl [HO]; · iexact HO
  isplitl [Hat]; · iexact Hat
  iapply (Entails.of_eq ((rest_bar m ρ c).trans (by simp only [bigSepL_cons_cons, bigSepL_singleton]; rfl))); iexact Hpay

/-- A wait on one of the device's own DMA cells: its one duty's payload comes with it. -/
theorem wp_wait_d (K : Dev nD × CI → ℕ) (c : Dev nD) (k : Fin 4) (i : Fin 14) (s : DmaSem sig) (hs : s = dsem k i) (N : ℕ)
    {sp sp' : Space} {s1 s2 : Shape} {e1 e2 : EltTy} {src : Memref sig .tc sp' s2 e2} {dst : Memref sig .tc sp s1 e1}
    {hsrc : src.view.WordExact} {hdst : dst.view.WordExact} (hN : dst.view.dmaCredit = N32)
    {α : Type} {Q : α → sProp 𝕄} {kk : PUnit → Prog (TpuEff nD τ sig (Elt F) Λ₀ .tc) α} (W : Waits sig Unit)
    (hmw : (levAts L lv : sProp 𝕄) ⊢ MayWait (c : Thread nD τ) (.dma (dsem k i)) () (owedFrom c N)) :
    iprop(records m ρ K ∗ levAts L lv ∗ cred (tallyAt (dCell c k i) () N32) ∗ owes (c : Thread nD τ) (owedFrom c N) W ∗ atPos ER (dCell c k i) 0 ∅ 0)
      ⊢ iprop(((owes (c : Thread nD τ) (owedFrom c N) (insert (SemLoc.dma (dsem k i), ()) W) ∗ atPos ER (dCell c k i) 1 ∅ 0 ∗ payD m ρ c k i)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  have hc : (cred (tallyAt (dCell c k i) () N32) : sProp 𝕄) = cred (tallyAt (dCell c k i) () dst.view.dmaCredit) := by rw [hN]
  iintro ⟨#HR, #Hlev, Hc, HO, Hat⟩ Hk
  ihave Hc := (Entails.of_eq hc) $$ Hc
  iapply (Rounds.wp_wait_rest_token 𝒱₀ ER (sched m ρ) (c : Thread nD τ) none (κ := K (c, some (k, i)))
      (wpE_waitDma2_eq 𝒱₀ (c : Thread nD τ) none Set.univ) (Set.mem_univ _) () (O := owedFrom c N) (W := W) (R := 0) (m := 0) (T := ∅)
      (by rw [Nat.zero_add, expect_d, hN])) $$ [Hc HO Hat]
  · isplitr; · iapply (inv_at m ρ K (c, some (k, i))); iexact HR
    isplitl [Hc]; · iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iapply (Entails.of_eq (rest_d m ρ c k i)); iexact Hpay

/-- A cell whose one round is over closes: its counter at zero is the device's again. -/
theorem close_d (K : Dev nD × CI → ℕ) (c : Dev nD) (k : Fin 4) (i : Fin 14) :
    iprop(records m ρ K ∗ atPos ER (dCell c k i) 1 ∅ 0) ⊢ (|={Set.univ}=> semVal (dCell c k i) 0 : sProp 𝕄) := by
  iintro ⟨#HR, Hat⟩
  iapply (Rounds.cell_close ER (sched m ρ) (Set.mem_univ (K (c, some (k, i)))) (fun h => h) (R := 0 + 1) (duties_later m ρ (dCell c k i)))
  isplitr; · iapply (inv_at m ρ K (c, some (k, i))); iexact HR
  iexact Hat

end Cert.KernelIdealProof
end
-- ==== Proof.ConvKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import proofs.«900485_g7700000000000486_dist_treered_v7x_i8_m512_n512_f32_1_alg».proof.Proof.StateKernelIdeal
import proofs.«900485_g7700000000000486_dist_treered_v7x_i8_m512_n512_f32_1_alg».proof.Proof.GeomKernelIdeal
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## What the body loads, and what its stores leave, as the functions of the launch contents they are -/

/-- A first-phase slot as the body loads it, the slot holding what the partner sent over anything. -/
abbrev rsRaw (c : Dev nD) (sb : Fin 2) (j : Fin 7) (fd : (cc0_scratch2 : Ref sig .tc).ty.Contents (Elt F)) : Vec F S1x1x32x512 .bf16 :=
  rM.view.readAt (Elt F) (slotR sb j).toLoadRect ((slotM rM sb j).view.write (Elt F) fd (wRS m ρ c sb j) Finset.univ)
abbrev agRaw (c : Dev nD) (sb : Fin 2) (j : Fin 7) (fd : (cc0_scratch3 : Ref sig .tc).ty.Contents (Elt F)) : Vec F S1x1x32x512 .bf16 :=
  aM.view.readAt (Elt F) (slotR sb j).toLoadRect ((slotM aM sb j).view.write (Elt F) fd (wAG m ρ c sb j) Finset.univ)
abbrev xRaw (c : Dev nD) (sb : Fin 2) : Vec F S1x32x512 .f32 := xM.view.readAt (Elt F) (xRows c sb).toLoadRect (Xb m ρ c)

theorem rsRaw_cast (c : Dev nD) (sb : Fin 2) (j : Fin 7) (fd : (cc0_scratch2 : Ref sig .tc).ty.Contents (Elt F)) :
    shapeCast S32x512 (rsRaw m ρ c sb j fd) shapeCasts_S1x1x32x512_S32x512 = wRS m ρ c sb j := slot_read rM sb j fd _
theorem agRaw_cast (c : Dev nD) (sb : Fin 2) (j : Fin 7) (fd : (cc0_scratch3 : Ref sig .tc).ty.Contents (Elt F)) :
    shapeCast S32x512 (agRaw m ρ c sb j fd) shapeCasts_S1x1x32x512_S32x512 = wAG m ρ c sb j := slot_read aM sb j fd _

theorem acc0_raw (c : Dev nD) (f5 f1 f4 f6 f0 f2 f3 : (cc0_scratch2 : Ref sig .tc).ty.Contents (Elt F)) :
    k0_pay5 (k0_pay4 (k0_pay3 (k0_pay2 (xRaw m ρ c 0) (rsRaw m ρ c 0 5 f5)) (rsRaw m ρ c 0 1 f1) (rsRaw m ρ c 0 4 f4) (rsRaw m ρ c 0 6 f6)) (rsRaw m ρ c 0 0 f0) (rsRaw m ρ c 0 2 f2)) (rsRaw m ρ c 0 3 f3) = acc m ρ c 0 := by
  unfold k0_pay5 k0_pay4 k0_pay3 k0_pay2 acc accStep
  rw [rsRaw_cast, rsRaw_cast, rsRaw_cast, rsRaw_cast, rsRaw_cast, rsRaw_cast, rsRaw_cast]
theorem acc1_raw (c : Dev nD) (h5 h1 h4 h6 h0 h2 h3 : (cc0_scratch2 : Ref sig .tc).ty.Contents (Elt F)) :
    k0_pay10 (k0_pay9 (k0_pay8 (k0_pay7 (xRaw m ρ c 1) (rsRaw m ρ c 1 5 h5) (rsRaw m ρ c 1 1 h1)) (rsRaw m ρ c 1 4 h4) (rsRaw m ρ c 1 6 h6)) (rsRaw m ρ c 1 0 h0) (rsRaw m ρ c 1 2 h2)) (rsRaw m ρ c 1 3 h3) = acc m ρ c 1 := by
  unfold k0_pay10 k0_pay9 k0_pay8 k0_pay7 acc accStep
  rw [rsRaw_cast, rsRaw_cast, rsRaw_cast, rsRaw_cast, rsRaw_cast, rsRaw_cast, rsRaw_cast]
theorem seg0_raw (c : Dev nD) (f5 f1 f4 f6 f0 f2 f3 : (cc0_scratch2 : Ref sig .tc).ty.Contents (Elt F)) :
    k0_pay6 (k0_pay4 (k0_pay3 (k0_pay2 (xRaw m ρ c 0) (rsRaw m ρ c 0 5 f5)) (rsRaw m ρ c 0 1 f1) (rsRaw m ρ c 0 4 f4) (rsRaw m ρ c 0 6 f6)) (rsRaw m ρ c 0 0 f0) (rsRaw m ρ c 0 2 f2)) (rsRaw m ρ c 0 3 f3) = wG m ρ c 0 := by
  unfold k0_pay6 wG; rw [acc0_raw]
theorem seg1_raw (c : Dev nD) (h5 h1 h4 h6 h0 h2 h3 : (cc0_scratch2 : Ref sig .tc).ty.Contents (Elt F)) :
    k0_pay11 (k0_pay9 (k0_pay8 (k0_pay7 (xRaw m ρ c 1) (rsRaw m ρ c 1 5 h5) (rsRaw m ρ c 1 1 h1)) (rsRaw m ρ c 1 4 h4) (rsRaw m ρ c 1 6 h6)) (rsRaw m ρ c 1 0 h0) (rsRaw m ρ c 1 2 h2)) (rsRaw m ρ c 1 3 h3) = wG m ρ c 1 := by
  unfold k0_pay11 wG; rw [acc1_raw]

theorem pay_0_5 (c : Dev nD) (a : (cc0_scratch3 : Ref sig .tc).ty.Contents (Elt F)) : k0_pay12 (agRaw m ρ c 0 5 a) = wOut m ρ c 0 5 := by
  unfold k0_pay12 wOut; rw [agRaw_cast]
theorem pay_0_1 (c : Dev nD) (a : (cc0_scratch3 : Ref sig .tc).ty.Contents (Elt F)) : k0_pay13 (agRaw m ρ c 0 1 a) = wOut m ρ c 0 1 := by
  unfold k0_pay13 wOut; rw [agRaw_cast]
theorem pay_0_4 (c : Dev nD) (a : (cc0_scratch3 : Ref sig .tc).ty.Contents (Elt F)) : k0_pay14 (agRaw m ρ c 0 4 a) = wOut m ρ c 0 4 := by
  unfold k0_pay14 wOut; rw [agRaw_cast]
theorem pay_0_6 (c : Dev nD) (a : (cc0_scratch3 : Ref sig .tc).ty.Contents (Elt F)) : k0_pay15 (agRaw m ρ c 0 6 a) = wOut m ρ c 0 6 := by
  unfold k0_pay15 wOut; rw [agRaw_cast]
theorem pay_0_0 (c : Dev nD) (a : (cc0_scratch3 : Ref sig .tc).ty.Contents (Elt F)) : k0_pay16 (agRaw m ρ c 0 0 a) = wOut m ρ c 0 0 := by
  unfold k0_pay16 wOut; rw [agRaw_cast]
theorem pay_0_2 (c : Dev nD) (a : (cc0_scratch3 : Ref sig .tc).ty.Contents (Elt F)) : k0_pay17 (agRaw m ρ c 0 2 a) = wOut m ρ c 0 2 := by
  unfold k0_pay17 wOut; rw [agRaw_cast]
theorem pay_0_3 (c : Dev nD) (a : (cc0_scratch3 : Ref sig .tc).ty.Contents (Elt F)) : k0_pay18 (agRaw m ρ c 0 3 a) = wOut m ρ c 0 3 := by
  unfold k0_pay18 wOut; rw [agRaw_cast]
theorem pay_1_5 (c : Dev nD) (a : (cc0_scratch3 : Ref sig .tc).ty.Contents (Elt F)) : k0_pay19 (agRaw m ρ c 1 5 a) = wOut m ρ c 1 5 := by
  unfold k0_pay19 wOut; rw [agRaw_cast]
theorem pay_1_1 (c : Dev nD) (a : (cc0_scratch3 : Ref sig .tc).ty.Contents (Elt F)) : k0_pay21 (k0_pay20 (agRaw m ρ c 1 1 a)) = wOut m ρ c 1 1 := by
  unfold k0_pay21 k0_pay20 wOut; rw [agRaw_cast]
theorem pay_1_4 (c : Dev nD) (a : (cc0_scratch3 : Ref sig .tc).ty.Contents (Elt F)) : k0_pay22 (agRaw m ρ c 1 4 a) = wOut m ρ c 1 4 := by
  unfold k0_pay22 wOut; rw [agRaw_cast]
theorem pay_1_6 (c : Dev nD) (a : (cc0_scratch3 : Ref sig .tc).ty.Contents (Elt F)) : k0_pay23 (agRaw m ρ c 1 6 a) = wOut m ρ c 1 6 := by
  unfold k0_pay23 wOut; rw [agRaw_cast]
theorem pay_1_0 (c : Dev nD) (a : (cc0_scratch3 : Ref sig .tc).ty.Contents (Elt F)) : k0_pay24 (agRaw m ρ c 1 0 a) = wOut m ρ c 1 0 := by
  unfold k0_pay24 wOut; rw [agRaw_cast]
theorem pay_1_2 (c : Dev nD) (a : (cc0_scratch3 : Ref sig .tc).ty.Contents (Elt F)) : k0_pay25 (agRaw m ρ c 1 2 a) = wOut m ρ c 1 2 := by
  unfold k0_pay25 wOut; rw [agRaw_cast]
theorem pay_1_3 (c : Dev nD) (a : (cc0_scratch3 : Ref sig .tc).ty.Contents (Elt F)) : k0_pay26 (agRaw m ρ c 1 3 a) = wOut m ρ c 1 3 := by
  unfold k0_pay26 wOut; rw [agRaw_cast]

omit [FloatOps F] in
theorem hz2 : (![0, 0] : Fin 2 → Nat) = fun _ => 0 := funext fun a => by fin_cases a <;> rfl

/-- The 16-bit copy stored whole. -/
theorem conv_x16 (c : Dev nD) (fh : (cc0_scratch0 : Ref sig .tc).ty.Contents (Elt F)) :
    (((c : Thread nD τ).loc cc0_scratch0) ↦{fullShare} ((hM.access hRect).write (Elt F) fh (k0_pay1 (xM.view.readAt (Elt F) xRect.toLoadRect (Xb m ρ c))) Finset.univ) : sProp 𝕄)
      ⊢ (((c : Thread nD τ).loc cc0_scratch0) ↦{fullShare} X16 m ρ c) := by
  rw [show (hM.access hRect).write (Elt F) fh (k0_pay1 (xM.view.readAt (Elt F) xRect.toLoadRect (Xb m ρ c))) Finset.univ = X16 m ρ c from
    Memref.write_access_unit_zero_univ (Elt F) cc0_scratch0 hz2 _ fh _]

/-- A half of the segment buffer after its store, on its own elements, whatever the buffer held. -/
theorem conv_seg0 (c : Dev nD) (fg : (cc0_scratch1 : Ref sig .tc).ty.Contents (Elt F)) (f5 f1 f4 f6 f0 f2 f3 : (cc0_scratch2 : Ref sig .tc).ty.Contents (Elt F)) :
    ((gSl 0).view.loc (c : Thread nD τ) ↦[(gSl 0).view.set]{fullShare} ((gM.access (gRect 0)).write (Elt F) fg (k0_pay6 (k0_pay4 (k0_pay3 (k0_pay2 (xRaw m ρ c 0) (rsRaw m ρ c 0 5 f5)) (rsRaw m ρ c 0 1 f1) (rsRaw m ρ c 0 4 f4) (rsRaw m ρ c 0 6 f6)) (rsRaw m ρ c 0 0 f0) (rsRaw m ρ c 0 2 f2)) (rsRaw m ρ c 0 3 f3)) Finset.univ) : sProp 𝕄)
      ⊢ ((gSl 0).view.loc (c : Thread nD τ) ↦[(gSl 0).view.set]{fullShare} G16 m ρ c 0) := by
  rw [seg0_raw]; exact Entails.of_eq (BI.Region.is_congr fun i hi => by unfold G16; exact write_congr_set (gM.access (gRect 0)) _ _ _ i hi)
theorem conv_seg1 (c : Dev nD) (fg : (cc0_scratch1 : Ref sig .tc).ty.Contents (Elt F)) (h5 h1 h4 h6 h0 h2 h3 : (cc0_scratch2 : Ref sig .tc).ty.Contents (Elt F)) :
    ((gSl 1).view.loc (c : Thread nD τ) ↦[(gSl 1).view.set]{fullShare} ((gM.access (gRect 1)).write (Elt F) fg (k0_pay11 (k0_pay9 (k0_pay8 (k0_pay7 (xRaw m ρ c 1) (rsRaw m ρ c 1 5 h5) (rsRaw m ρ c 1 1 h1)) (rsRaw m ρ c 1 4 h4) (rsRaw m ρ c 1 6 h6)) (rsRaw m ρ c 1 0 h0) (rsRaw m ρ c 1 2 h2)) (rsRaw m ρ c 1 3 h3)) Finset.univ) : sProp 𝕄)
      ⊢ ((gSl 1).view.loc (c : Thread nD τ) ↦[(gSl 1).view.set]{fullShare} G16 m ρ c 1) := by
  rw [seg1_raw]; exact Entails.of_eq (BI.Region.is_congr fun i hi => by unfold G16; exact write_congr_set (gM.access (gRect 1)) _ _ _ i hi)

/-! ### The sixteen stores into the result cover it -/

theorem mem_oOwn (c : Dev nD) (sb : Fin 2) (x : (cc0_stg1_0 : Ref sig .tc).ty.shape.Idx) :
    x ∈ (oM.access (oOwn c sb)).setOn Finset.univ ↔ 64 * c.val + 32 * sb.val ≤ (x 0).val ∧ (x 0).val < 64 * c.val + 32 * sb.val + 32 := by
  show x ∈ ((View.whole cc0_stg1_0).slice (oOwn c sb)).set ↔ _
  rw [View.set_slice_whole, Rect.mem_set_unit, k0_off3_eq]
  constructor
  · intro h
    have h0 := h 0
    simp only [Matrix.cons_val_zero] at h0
    exact h0
  · intro h a
    have hx : (x a).val < (![512, 512] : Fin 2 → ℕ) a := (x a).isLt
    fin_cases a <;> simp at hx ⊢ <;> omega

theorem mem_oPeer (c : Dev nD) (j : Fin 7) (sb : Fin 2) (x : (cc0_stg1_0 : Ref sig .tc).ty.shape.Idx) :
    x ∈ (oM.access (oPeer c j sb)).setOn Finset.univ ↔ 64 * (peer j c).val + 32 * sb.val ≤ (x 0).val ∧ (x 0).val < 64 * (peer j c).val + 32 * sb.val + 32 := by
  show x ∈ ((View.whole cc0_stg1_0).slice (oPeer c j sb)).set ↔ _
  rw [View.set_slice_whole, Rect.mem_set_unit, off4_eq]
  constructor
  · intro h
    have h0 := h 0
    simp only [Matrix.cons_val_zero] at h0
    exact h0
  · intro h a
    have hx : (x a).val < (![512, 512] : Fin 2 → ℕ) a := (x a).isLt
    fin_cases a <;> simp at hx ⊢ <;> omega

end Cert.KernelIdealProof
end
-- ==== Proof.OutKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import proofs.«900485_g7700000000000486_dist_treered_v7x_i8_m512_n512_f32_1_alg».proof.Proof.ConvKernelIdeal
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The sixteen stores into the result cover it: what it held before does not matter -/

theorem peer_cases : ∀ c q : Dev nD, q ≠ c → (peer 0 c = q ∨ peer 1 c = q ∨ peer 2 c = q ∨ peer 3 c = q ∨ peer 4 c = q ∨ peer 5 c = q ∨ peer 6 c = q) := by decide

set_option maxHeartbeats 1600000 in
theorem out_cover (c : Dev nD) (g g' : (cc0_stg1_0 : Ref sig .tc).ty.Contents (Elt F)) : outW m ρ c g = outW m ρ c g' := by
  funext x
  unfold outW
  refine View.write_congr (fun _ _ _ => rfl) fun h_p_1_3 => ?_
  refine View.write_congr (fun _ _ _ => rfl) fun h_p_1_2 => ?_
  refine View.write_congr (fun _ _ _ => rfl) fun h_p_1_0 => ?_
  refine View.write_congr (fun _ _ _ => rfl) fun h_p_1_6 => ?_
  refine View.write_congr (fun _ _ _ => rfl) fun h_p_1_4 => ?_
  refine View.write_congr (fun _ _ _ => rfl) fun h_p_1_1 => ?_
  refine View.write_congr (fun _ _ _ => rfl) fun h_p_1_5 => ?_
  refine View.write_congr (fun _ _ _ => rfl) fun h_p_0_3 => ?_
  refine View.write_congr (fun _ _ _ => rfl) fun h_p_0_2 => ?_
  refine View.write_congr (fun _ _ _ => rfl) fun h_p_0_0 => ?_
  refine View.write_congr (fun _ _ _ => rfl) fun h_p_0_6 => ?_
  refine View.write_congr (fun _ _ _ => rfl) fun h_p_0_4 => ?_
  refine View.write_congr (fun _ _ _ => rfl) fun h_p_0_1 => ?_
  refine View.write_congr (fun _ _ _ => rfl) fun h_p_0_5 => ?_
  refine View.write_congr (fun _ _ _ => rfl) fun h_own1 => ?_
  refine View.write_congr (fun _ _ _ => rfl) fun h_own0 => ?_
  exfalso
  rw [mem_oOwn] at h_own0 h_own1
  rw [mem_oPeer] at h_p_0_5 h_p_0_1 h_p_0_4 h_p_0_6 h_p_0_0 h_p_0_2 h_p_0_3 h_p_1_5 h_p_1_1 h_p_1_4 h_p_1_6 h_p_1_0 h_p_1_2 h_p_1_3
  have hr : (x 0).val < 512 := (x 0).isLt
  have hc := c.isLt
  by_cases hq : (x 0).val / 64 = c.val
  · simp only [Fin.val_zero, Fin.val_one] at h_own0 h_own1; omega
  · have hne : (⟨(x 0).val / 64, by show (x 0).val / 64 < 8; omega⟩ : Dev nD) ≠ c := fun h => hq (congrArg Fin.val h)
    rcases peer_cases c _ hne with h | h | h | h | h | h | h
    · have hv : (peer 0 c).val = (x 0).val / 64 := by rw [h]
      simp only [Fin.val_zero, Fin.val_one] at *; omega
    · have hv : (peer 1 c).val = (x 0).val / 64 := by rw [h]
      simp only [Fin.val_zero, Fin.val_one] at *; omega
    · have hv : (peer 2 c).val = (x 0).val / 64 := by rw [h]
      simp only [Fin.val_zero, Fin.val_one] at *; omega
    · have hv : (peer 3 c).val = (x 0).val / 64 := by rw [h]
      simp only [Fin.val_zero, Fin.val_one] at *; omega
    · have hv : (peer 4 c).val = (x 0).val / 64 := by rw [h]
      simp only [Fin.val_zero, Fin.val_one] at *; omega
    · have hv : (peer 5 c).val = (x 0).val / 64 := by rw [h]
      simp only [Fin.val_zero, Fin.val_one] at *; omega
    · have hv : (peer 6 c).val = (x 0).val / 64 := by rw [h]
      simp only [Fin.val_zero, Fin.val_one] at *; omega

/-- The result after the body, whatever the loaded slots and the result buffer held before. -/
theorem conv_out (c : Dev nD) (g : (cc0_stg1_0 : Ref sig .tc).ty.Contents (Elt F)) (f5 f1 f4 f6 f0 f2 f3 h5 h1 h4 h6 h0 h2 h3 : (cc0_scratch2 : Ref sig .tc).ty.Contents (Elt F)) (a5 a1 a4 a6 a0 a2 a3 b5 b1 b4 b6 b0 b2 b3 : (cc0_scratch3 : Ref sig .tc).ty.Contents (Elt F)) :
    (((c : Thread nD τ).loc cc0_stg1_0) ↦{fullShare} ((oM.access (oPeer c 3 1)).write (Elt F) ((oM.access (oPeer c 2 1)).write (Elt F) ((oM.access (oPeer c 0 1)).write (Elt F) ((oM.access (oPeer c 6 1)).write (Elt F) ((oM.access (oPeer c 4 1)).write (Elt F) ((oM.access (oPeer c 1 1)).write (Elt F) ((oM.access (oPeer c 5 1)).write (Elt F) ((oM.access (oPeer c 3 0)).write (Elt F) ((oM.access (oPeer c 2 0)).write (Elt F) ((oM.access (oPeer c 0 0)).write (Elt F) ((oM.access (oPeer c 6 0)).write (Elt F) ((oM.access (oPeer c 4 0)).write (Elt F) ((oM.access (oPeer c 1 0)).write (Elt F) ((oM.access (oPeer c 5 0)).write (Elt F) ((oM.access (oOwn c 1)).write (Elt F) ((oM.access (oOwn c 0)).write (Elt F) g (k0_pay5 (k0_pay4 (k0_pay3 (k0_pay2 (xRaw m ρ c 0) (rsRaw m ρ c 0 5 f5)) (rsRaw m ρ c 0 1 f1) (rsRaw m ρ c 0 4 f4) (rsRaw m ρ c 0 6 f6)) (rsRaw m ρ c 0 0 f0) (rsRaw m ρ c 0 2 f2)) (rsRaw m ρ c 0 3 f3)) Finset.univ) (k0_pay10 (k0_pay9 (k0_pay8 (k0_pay7 (xRaw m ρ c 1) (rsRaw m ρ c 1 5 h5) (rsRaw m ρ c 1 1 h1)) (rsRaw m ρ c 1 4 h4) (rsRaw m ρ c 1 6 h6)) (rsRaw m ρ c 1 0 h0) (rsRaw m ρ c 1 2 h2)) (rsRaw m ρ c 1 3 h3)) Finset.univ) (k0_pay12 (agRaw m ρ c 0 5 a5)) Finset.univ) (k0_pay13 (agRaw m ρ c 0 1 a1)) Finset.univ) (k0_pay14 (agRaw m ρ c 0 4 a4)) Finset.univ) (k0_pay15 (agRaw m ρ c 0 6 a6)) Finset.univ) (k0_pay16 (agRaw m ρ c 0 0 a0)) Finset.univ) (k0_pay17 (agRaw m ρ c 0 2 a2)) Finset.univ) (k0_pay18 (agRaw m ρ c 0 3 a3)) Finset.univ) (k0_pay19 (agRaw m ρ c 1 5 b5)) Finset.univ) (k0_pay21 (k0_pay20 (agRaw m ρ c 1 1 b1))) Finset.univ) (k0_pay22 (agRaw m ρ c 1 4 b4)) Finset.univ) (k0_pay23 (agRaw m ρ c 1 6 b6)) Finset.univ) (k0_pay24 (agRaw m ρ c 1 0 b0)) Finset.univ) (k0_pay25 (agRaw m ρ c 1 2 b2)) Finset.univ) (k0_pay26 (agRaw m ρ c 1 3 b3)) Finset.univ) : sProp 𝕄)
      ⊢ (((c : Thread nD τ).loc cc0_stg1_0) ↦{fullShare} outFin m ρ c) := by
  rw [acc0_raw, acc1_raw, pay_0_5, pay_0_1, pay_0_4, pay_0_6, pay_0_0, pay_0_2, pay_0_3, pay_1_5, pay_1_1, pay_1_4, pay_1_6, pay_1_0, pay_1_2, pay_1_3]
  exact Entails.of_eq (congrArg (fun f => (((c : Thread nD τ).loc cc0_stg1_0) ↦{fullShare} f : sProp 𝕄)) (out_cover m ρ c g _))

end Cert.KernelIdealProof
end
-- ==== Proof.BodyKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import proofs.«900485_g7700000000000486_dist_treered_v7x_i8_m512_n512_f32_1_alg».proof.Proof.StepsKernelIdeal
import proofs.«900485_g7700000000000486_dist_treered_v7x_i8_m512_n512_f32_1_alg».proof.Proof.OutKernelIdeal
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The body -/

/-- The own DMA cells' counters at zero, cell by cell in the order the body closes them. -/
def semX (c : Dev nD) : sProp 𝕄 :=
  iprop(semVal (dCell c 0 5) 0 ∗ semVal (dCell c 0 1) 0 ∗ semVal (dCell c 0 4) 0 ∗ semVal (dCell c 0 6) 0 ∗ semVal (dCell c 0 0) 0 ∗ semVal (dCell c 0 2) 0 ∗ semVal (dCell c 0 3) 0 ∗ semVal (dCell c 0 12) 0 ∗ semVal (dCell c 0 8) 0 ∗ semVal (dCell c 0 11) 0 ∗ semVal (dCell c 0 13) 0 ∗ semVal (dCell c 0 7) 0 ∗ semVal (dCell c 0 9) 0 ∗ semVal (dCell c 0 10) 0 ∗ semVal (dCell c 1 5) 0 ∗ semVal (dCell c 1 1) 0 ∗ semVal (dCell c 1 4) 0 ∗ semVal (dCell c 1 6) 0 ∗ semVal (dCell c 1 0) 0 ∗ semVal (dCell c 1 2) 0 ∗ semVal (dCell c 1 3) 0 ∗ semVal (dCell c 1 12) 0 ∗ semVal (dCell c 1 8) 0 ∗ semVal (dCell c 1 11) 0 ∗ semVal (dCell c 1 13) 0 ∗ semVal (dCell c 1 7) 0 ∗ semVal (dCell c 1 9) 0 ∗ semVal (dCell c 1 10) 0 ∗ semVal (dCell c 2 5) 0 ∗ semVal (dCell c 2 1) 0 ∗ semVal (dCell c 2 4) 0 ∗ semVal (dCell c 2 6) 0 ∗ semVal (dCell c 2 0) 0 ∗ semVal (dCell c 2 2) 0 ∗ semVal (dCell c 2 3) 0 ∗ semVal (dCell c 2 12) 0 ∗ semVal (dCell c 2 8) 0 ∗ semVal (dCell c 2 11) 0 ∗ semVal (dCell c 2 13) 0 ∗ semVal (dCell c 2 7) 0 ∗ semVal (dCell c 2 9) 0 ∗ semVal (dCell c 2 10) 0 ∗ semVal (dCell c 3 5) 0 ∗ semVal (dCell c 3 1) 0 ∗ semVal (dCell c 3 4) 0 ∗ semVal (dCell c 3 6) 0 ∗ semVal (dCell c 3 0) 0 ∗ semVal (dCell c 3 2) 0 ∗ semVal (dCell c 3 3) 0 ∗ semVal (dCell c 3 12) 0 ∗ semVal (dCell c 3 8) 0 ∗ semVal (dCell c 3 11) 0 ∗ semVal (dCell c 3 13) 0 ∗ semVal (dCell c 3 7) 0 ∗ semVal (dCell c 3 9) 0 ∗ semVal (dCell c 3 10) 0)
omit [FloatOps F] in
theorem semX_eq (c : Dev nD) : (bigSepL allKI fun ki : Fin 4 × Fin 14 => (semVal ((c : Thread nD τ), osem ki) 0 : sProp 𝕄)) = semX c := by
  unfold semX; simp only [bigSepL_cons_cons, bigSepL_singleton]; rfl

/-! ### Pieces and shares, at the names the body's statements use -/

omit [FloatOps F] in
theorem take_hsl' (c : Dev nD) (sb : Fin 2) (j : Fin 7) (i : Fin 14) (hsb : sbOf i = sb) (hj : jOf i = j) (l : List (Fin 14)) (h : ∀ i' ∈ l, i ≠ i')
    (f : Buf (Elt F) ((c : Thread nD τ).loc cc0_scratch0)) :
    (((c : Thread nD τ).loc cc0_scratch0) ↦[restH c l]{fullShare} f : sProp 𝕄)
      ⊢ iprop(((hSl c j sb).view.loc (c : Thread nD τ) ↦[(hSl c j sb).view.set]{fullShare} f) ∗ (((c : Thread nD τ).loc cc0_scratch0) ↦[restH c (i :: l)]{fullShare} f)) := by
  subst hsb hj; exact take_hsl c i l h f
omit [FloatOps F] in
theorem give_hsl' (c : Dev nD) (sb : Fin 2) (j : Fin 7) (i : Fin 14) (hsb : sbOf i = sb) (hj : jOf i = j) (l : List (Fin 14)) (h : ∀ i' ∈ l, i ≠ i')
    (f g : Buf (Elt F) ((c : Thread nD τ).loc cc0_scratch0)) :
    iprop(((hSl c j sb).view.loc (c : Thread nD τ) ↦[(hSl c j sb).view.set]{fullShare} g) ∗ (((c : Thread nD τ).loc cc0_scratch0) ↦[restH c (i :: l)]{fullShare} f))
      ⊢ (∃ f' : Buf (Elt F) ((c : Thread nD τ).loc cc0_scratch0), ((c : Thread nD τ).loc cc0_scratch0) ↦[restH c l]{fullShare} f' : sProp 𝕄) := by
  subst hsb hj; exact give_hsl c i l h f g
omit [FloatOps F] in
theorem to_shr0 (c : Dev nD) (sb : Fin 2) (f : Buf (Elt F) ((gSl sb).view.loc (c : Thread nD τ))) :
    ((gSl sb).view.loc (c : Thread nD τ) ↦[(gSl sb).view.set]{fullShare} f : sProp 𝕄) ⊢ ((gSl sb).view.loc (c : Thread nD τ) ↦[(gSl sb).view.set]{shr 0} f) := Entails.of_eq rfl
omit [FloatOps F] in
theorem from_shr0 (c : Dev nD) (sb : Fin 2) (f : Buf (Elt F) ((gSl sb).view.loc (c : Thread nD τ))) :
    ((gSl sb).view.loc (c : Thread nD τ) ↦[(gSl sb).view.set]{shr 0} f : sProp 𝕄) ⊢ ((gSl sb).view.loc (c : Thread nD τ) ↦[(gSl sb).view.set]{fullShare} f) := Entails.of_eq rfl
omit [FloatOps F] in
theorem share_split (c : Dev nD) (sb : Fin 2) (p q : ℕ) (hq : q = p + 1) (f : Buf (Elt F) ((gSl sb).view.loc (c : Thread nD τ))) :
    ((gSl sb).view.loc (c : Thread nD τ) ↦[(gSl sb).view.set]{shr p} f : sProp 𝕄)
      ⊢ iprop(((gSl sb).view.loc (c : Thread nD τ) ↦[(gSl sb).view.set]{(shr p).left} f) ∗ ((gSl sb).view.loc (c : Thread nD τ) ↦[(gSl sb).view.set]{shr q} f)) := by
  subst hq; exact (BI.Region.is_share (PosShare.mem_left_op_right (shr p))).1
omit [FloatOps F] in
theorem share_join (c : Dev nD) (sb : Fin 2) (p q : ℕ) (hq : q = p + 1) (f : Buf (Elt F) ((gSl sb).view.loc (c : Thread nD τ))) :
    iprop(((gSl sb).view.loc (c : Thread nD τ) ↦[(gSl sb).view.set]{(shr p).left} f) ∗ ((gSl sb).view.loc (c : Thread nD τ) ↦[(gSl sb).view.set]{shr q} f))
      ⊢ ((gSl sb).view.loc (c : Thread nD τ) ↦[(gSl sb).view.set]{shr p} f : sProp 𝕄) := by
  subst hq; exact (BI.Region.is_share (PosShare.mem_left_op_right (shr p))).2

def bodyPreK (K : Dev nD × CI → ℕ) (c : Dev nD) : sProp 𝕄 :=
  iprop(((ghostX m ρ K c ∗ cred (tallyAt (barCell c) () 7) ∗ credX c ∗ levAts L lv)
      ∗ scr c cc0_scratch0 ∗ scr c cc0_scratch1 ∗ scr c cc0_scratch2 ∗ scr c cc0_scratch3)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 4000000 in
set_option maxRecDepth 65536 in
theorem sound_body (K : Dev nD × CI → ℕ) (c : Dev nD) (Kt : PUnit → sProp 𝕄) :
    iprop(bodyPreK m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part34_eq_skeleton]; unfold k0_part34_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, wp_deviceId]
  unfold bodyPreK ghostX credX scr
  iintro ⟨⟨⟨⟨⟨#HR, HpB, ⟨Hp0_5, Hp0_1, Hp0_4, Hp0_6, Hp0_0, Hp0_2, Hp0_3, Hp0_12, Hp0_8, Hp0_11, Hp0_13, Hp0_7, Hp0_9, Hp0_10⟩, ⟨Hp1_5, Hp1_1, Hp1_4, Hp1_6, Hp1_0, Hp1_2, Hp1_3, Hp1_12, Hp1_8, Hp1_11, Hp1_13, Hp1_7, Hp1_9, Hp1_10⟩, ⟨Hp2_5, Hp2_1, Hp2_4, Hp2_6, Hp2_0, Hp2_2, Hp2_3, Hp2_12, Hp2_8, Hp2_11, Hp2_13, Hp2_7, Hp2_9, Hp2_10⟩, ⟨Hp3_5, Hp3_1, Hp3_4, Hp3_6, Hp3_0, Hp3_2, Hp3_3, Hp3_12, Hp3_8, Hp3_11, Hp3_13, Hp3_7, Hp3_9, Hp3_10⟩, ⟨HtB_5, HtB_1, HtB_4, HtB_6, HtB_0, HtB_2, HtB_3⟩, ⟨Ht0_5, Ht0_1, Ht0_4, Ht0_6, Ht0_0, Ht0_2, Ht0_3, Ht0_12, Ht0_8, Ht0_11, Ht0_13, Ht0_7, Ht0_9, Ht0_10⟩, ⟨Ht1_5, Ht1_1, Ht1_4, Ht1_6, Ht1_0, Ht1_2, Ht1_3, Ht1_12, Ht1_8, Ht1_11, Ht1_13, Ht1_7, Ht1_9, Ht1_10⟩, ⟨Ht2_5, Ht2_1, Ht2_4, Ht2_6, Ht2_0, Ht2_2, Ht2_3, Ht2_12, Ht2_8, Ht2_11, Ht2_13, Ht2_7, Ht2_9, Ht2_10⟩, ⟨Ht3_5, Ht3_1, Ht3_4, Ht3_6, Ht3_0, Ht3_2, Ht3_3, Ht3_12, Ht3_8, Ht3_11, Ht3_13, Ht3_7, Ht3_9, Ht3_10⟩⟩, HcB, ⟨⟨Hc1_5, Hc1_1, Hc1_4, Hc1_6, Hc1_0, Hc1_2, Hc1_3, Hc1_12, Hc1_8, Hc1_11, Hc1_13, Hc1_7, Hc1_9, Hc1_10⟩, ⟨Hc3_5, Hc3_1, Hc3_4, Hc3_6, Hc3_0, Hc3_2, Hc3_3, Hc3_12, Hc3_8, Hc3_11, Hc3_13, Hc3_7, Hc3_9, Hc3_10⟩⟩, #Hlev⟩, ⟨%fh, Hh⟩, ⟨%fg, Hg⟩, ⟨%fr, Hr⟩, ⟨%fa, Ha⟩⟩, Ho, ⟨%d0, %g0, %hg0, Hx⟩, ⟨%d1, %g1, %hg1, Hout⟩⟩, Hk⟩
  have hx : g0 = Xb m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedFrom c 0 from rfl]
  -- the block read whole; its 16-bit copy stored whole
  iapply (wp_load 𝒱₀ (c : Thread nD τ) none Set.univ (m := xM) (Finset.subset_univ _)) $$ Hx; iintro Hx
  iapply (wp_load 𝒱₀ (c : Thread nD τ) none Set.univ (m := hM) (Finset.subset_univ _)) $$ Hh; iintro Hh
  iapply (wp_store 𝒱₀ (c : Thread nD τ) none Set.univ (m := hM) (r := hRect) (Mk := Finset.univ) (Finset.subset_univ _)) $$ Hh; iintro Hh
  ihave Hh := (conv_x16 m ρ c fh) $$ Hh
  ihave Hh := (to_restH c _) $$ Hh
  ihave Hr := (to_restR c fr) $$ Hr
  ihave Ha := (to_restA c fa) $$ Ha
  -- the two receive buffers taken apart into their fourteen slots, the segment buffer into its halves
  ihave Hs := (take_rslot c (0, 5) [] (by decide) fr) $$ Hr; icases Hs with ⟨Hrs_5, Hr⟩
  ihave Hs := (take_aslot c (0, 5) [] (by decide) fa) $$ Ha; icases Hs with ⟨Hag_5, Ha⟩
  ihave Hs := (take_rslot c (0, 1) [(0, 5)] (by decide) fr) $$ Hr; icases Hs with ⟨Hrs_1, Hr⟩
  ihave Hs := (take_aslot c (0, 1) [(0, 5)] (by decide) fa) $$ Ha; icases Hs with ⟨Hag_1, Ha⟩
  ihave Hs := (take_rslot c (0, 4) [(0, 1), (0, 5)] (by decide) fr) $$ Hr; icases Hs with ⟨Hrs_4, Hr⟩
  ihave Hs := (take_aslot c (0, 4) [(0, 1), (0, 5)] (by decide) fa) $$ Ha; icases Hs with ⟨Hag_4, Ha⟩
  ihave Hs := (take_rslot c (0, 6) [(0, 4), (0, 1), (0, 5)] (by decide) fr) $$ Hr; icases Hs with ⟨Hrs_6, Hr⟩
  ihave Hs := (take_aslot c (0, 6) [(0, 4), (0, 1), (0, 5)] (by decide) fa) $$ Ha; icases Hs with ⟨Hag_6, Ha⟩
  ihave Hs := (take_rslot c (0, 0) [(0, 6), (0, 4), (0, 1), (0, 5)] (by decide) fr) $$ Hr; icases Hs with ⟨Hrs_0, Hr⟩
  ihave Hs := (take_aslot c (0, 0) [(0, 6), (0, 4), (0, 1), (0, 5)] (by decide) fa) $$ Ha; icases Hs with ⟨Hag_0, Ha⟩
  ihave Hs := (take_rslot c (0, 2) [(0, 0), (0, 6), (0, 4), (0, 1), (0, 5)] (by decide) fr) $$ Hr; icases Hs with ⟨Hrs_2, Hr⟩
  ihave Hs := (take_aslot c (0, 2) [(0, 0), (0, 6), (0, 4), (0, 1), (0, 5)] (by decide) fa) $$ Ha; icases Hs with ⟨Hag_2, Ha⟩
  ihave Hs := (take_rslot c (0, 3) [(0, 2), (0, 0), (0, 6), (0, 4), (0, 1), (0, 5)] (by decide) fr) $$ Hr; icases Hs with ⟨Hrs_3, Hr⟩
  ihave Hs := (take_aslot c (0, 3) [(0, 2), (0, 0), (0, 6), (0, 4), (0, 1), (0, 5)] (by decide) fa) $$ Ha; icases Hs with ⟨Hag_3, Ha⟩
  ihave Hs := (take_rslot c (1, 5) [(0, 3), (0, 2), (0, 0), (0, 6), (0, 4), (0, 1), (0, 5)] (by decide) fr) $$ Hr; icases Hs with ⟨Hrs_12, Hr⟩
  ihave Hs := (take_aslot c (1, 5) [(0, 3), (0, 2), (0, 0), (0, 6), (0, 4), (0, 1), (0, 5)] (by decide) fa) $$ Ha; icases Hs with ⟨Hag_12, Ha⟩
  ihave Hs := (take_rslot c (1, 1) [(1, 5), (0, 3), (0, 2), (0, 0), (0, 6), (0, 4), (0, 1), (0, 5)] (by decide) fr) $$ Hr; icases Hs with ⟨Hrs_8, Hr⟩
  ihave Hs := (take_aslot c (1, 1) [(1, 5), (0, 3), (0, 2), (0, 0), (0, 6), (0, 4), (0, 1), (0, 5)] (by decide) fa) $$ Ha; icases Hs with ⟨Hag_8, Ha⟩
  ihave Hs := (take_rslot c (1, 4) [(1, 1), (1, 5), (0, 3), (0, 2), (0, 0), (0, 6), (0, 4), (0, 1), (0, 5)] (by decide) fr) $$ Hr; icases Hs with ⟨Hrs_11, Hr⟩
  ihave Hs := (take_aslot c (1, 4) [(1, 1), (1, 5), (0, 3), (0, 2), (0, 0), (0, 6), (0, 4), (0, 1), (0, 5)] (by decide) fa) $$ Ha; icases Hs with ⟨Hag_11, Ha⟩
  ihave Hs := (take_rslot c (1, 6) [(1, 4), (1, 1), (1, 5), (0, 3), (0, 2), (0, 0), (0, 6), (0, 4), (0, 1), (0, 5)] (by decide) fr) $$ Hr; icases Hs with ⟨Hrs_13, Hr⟩
  ihave Hs := (take_aslot c (1, 6) [(1, 4), (1, 1), (1, 5), (0, 3), (0, 2), (0, 0), (0, 6), (0, 4), (0, 1), (0, 5)] (by decide) fa) $$ Ha; icases Hs with ⟨Hag_13, Ha⟩
  ihave Hs := (take_rslot c (1, 0) [(1, 6), (1, 4), (1, 1), (1, 5), (0, 3), (0, 2), (0, 0), (0, 6), (0, 4), (0, 1), (0, 5)] (by decide) fr) $$ Hr; icases Hs with ⟨Hrs_7, Hr⟩
  ihave Hs := (take_aslot c (1, 0) [(1, 6), (1, 4), (1, 1), (1, 5), (0, 3), (0, 2), (0, 0), (0, 6), (0, 4), (0, 1), (0, 5)] (by decide) fa) $$ Ha; icases Hs with ⟨Hag_7, Ha⟩
  ihave Hs := (take_rslot c (1, 2) [(1, 0), (1, 6), (1, 4), (1, 1), (1, 5), (0, 3), (0, 2), (0, 0), (0, 6), (0, 4), (0, 1), (0, 5)] (by decide) fr) $$ Hr; icases Hs with ⟨Hrs_9, Hr⟩
  ihave Hs := (take_aslot c (1, 2) [(1, 0), (1, 6), (1, 4), (1, 1), (1, 5), (0, 3), (0, 2), (0, 0), (0, 6), (0, 4), (0, 1), (0, 5)] (by decide) fa) $$ Ha; icases Hs with ⟨Hag_9, Ha⟩
  ihave Hs := (take_rslot c (1, 3) [(1, 2), (1, 0), (1, 6), (1, 4), (1, 1), (1, 5), (0, 3), (0, 2), (0, 0), (0, 6), (0, 4), (0, 1), (0, 5)] (by decide) fr) $$ Hr; icases Hs with ⟨Hrs_10, Hr⟩
  ihave Hs := (take_aslot c (1, 3) [(1, 2), (1, 0), (1, 6), (1, 4), (1, 1), (1, 5), (0, 3), (0, 2), (0, 0), (0, 6), (0, 4), (0, 1), (0, 5)] (by decide) fa) $$ Ha; icases Hs with ⟨Hag_10, Ha⟩
  ihave Hs := (take_piece (Finset.subset_univ (gSl 0).view.set) fullShare fg) $$ Hg; icases Hs with ⟨Hg_0, Hg⟩
  ihave Hs := (take_piece gsl_sub fullShare fg) $$ Hg; icases Hs with ⟨Hg_1, Hg⟩
  -- the signal to the partner under mask 6
  iapply (wp_sig m ρ K c _ (5 : Fin 7) (dev1_eq c) 0 _ rfl _ rfl _ _ _ _ _ rfl) $$ [HO HtB_5 Hrs_5 Hrs_12 Hag_5 Hag_12]
  · isplitr; · iexact HR
    isplitl [HO]; · iexact HO
    isplitl [HtB_5]; · iexact HtB_5
    isplitl [Hrs_5]; · iexact Hrs_5
    isplitl [Hrs_12]; · iexact Hrs_12
    isplitl [Hag_5]; · iexact Hag_5
    iexact Hag_12
  iintro HO
  -- the signal to the partner under mask 2
  iapply (wp_sig m ρ K c _ (1 : Fin 7) (dev2_eq c) 1 _ rfl _ rfl _ _ _ _ _ rfl) $$ [HO HtB_1 Hrs_1 Hrs_8 Hag_1 Hag_8]
  · isplitr; · iexact HR
    isplitl [HO]; · iexact HO
    isplitl [HtB_1]; · iexact HtB_1
    isplitl [Hrs_1]; · iexact Hrs_1
    isplitl [Hrs_8]; · iexact Hrs_8
    isplitl [Hag_1]; · iexact Hag_1
    iexact Hag_8
  iintro HO
  -- the signal to the partner under mask 5
  iapply (wp_sig m ρ K c _ (4 : Fin 7) (dev3_eq c) 2 _ rfl _ rfl _ _ _ _ _ rfl) $$ [HO HtB_4 Hrs_4 Hrs_11 Hag_4 Hag_11]
  · isplitr; · iexact HR
    isplitl [HO]; · iexact HO
    isplitl [HtB_4]; · iexact HtB_4
    isplitl [Hrs_4]; · iexact Hrs_4
    isplitl [Hrs_11]; · iexact Hrs_11
    isplitl [Hag_4]; · iexact Hag_4
    iexact Hag_11
  iintro HO
  -- the signal to the partner under mask 7
  iapply (wp_sig m ρ K c _ (6 : Fin 7) (dev4_eq c) 3 _ rfl _ rfl _ _ _ _ _ rfl) $$ [HO HtB_6 Hrs_6 Hrs_13 Hag_6 Hag_13]
  · isplitr; · iexact HR
    isplitl [HO]; · iexact HO
    isplitl [HtB_6]; · iexact HtB_6
    isplitl [Hrs_6]; · iexact Hrs_6
    isplitl [Hrs_13]; · iexact Hrs_13
    isplitl [Hag_6]; · iexact Hag_6
    iexact Hag_13
  iintro HO
  -- the signal to the partner under mask 1
  iapply (wp_sig m ρ K c _ (0 : Fin 7) (dev5_eq c) 4 _ rfl _ rfl _ _ _ _ _ rfl) $$ [HO HtB_0 Hrs_0 Hrs_7 Hag_0 Hag_7]
  · isplitr; · iexact HR
    isplitl [HO]; · iexact HO
    isplitl [HtB_0]; · iexact HtB_0
    isplitl [Hrs_0]; · iexact Hrs_0
    isplitl [Hrs_7]; · iexact Hrs_7
    isplitl [Hag_0]; · iexact Hag_0
    iexact Hag_7
  iintro HO
  -- the signal to the partner under mask 3
  iapply (wp_sig m ρ K c _ (2 : Fin 7) (dev6_eq c) 5 _ rfl _ rfl _ _ _ _ _ rfl) $$ [HO HtB_2 Hrs_2 Hrs_9 Hag_2 Hag_9]
  · isplitr; · iexact HR
    isplitl [HO]; · iexact HO
    isplitl [HtB_2]; · iexact HtB_2
    isplitl [Hrs_2]; · iexact Hrs_2
    isplitl [Hrs_9]; · iexact Hrs_9
    isplitl [Hag_2]; · iexact Hag_2
    iexact Hag_9
  iintro HO
  -- the signal to the partner under mask 4
  iapply (wp_sig m ρ K c _ (3 : Fin 7) (dev7_eq c) 6 _ rfl _ rfl _ _ _ _ _ rfl) $$ [HO HtB_3 Hrs_3 Hrs_10 Hag_3 Hag_10]
  · isplitr; · iexact HR
    isplitl [HO]; · iexact HO
    isplitl [HtB_3]; · iexact HtB_3
    isplitl [Hrs_3]; · iexact Hrs_3
    isplitl [Hrs_10]; · iexact Hrs_10
    isplitl [Hag_3]; · iexact Hag_3
    iexact Hag_10
  iintro HO
  -- the wait for the seven partners: their slots come with it
  iapply (wp_wait_bar m ρ K c _ rfl _ rfl _) $$ [HcB HO HpB]
  · isplitr; · iexact HR
    isplitr; · iexact Hlev
    isplitl [HcB]; · iexact HcB
    isplitl [HO]; · iexact HO
    iexact HpB
  iintro ⟨HO, HpB, Hpay⟩
  unfold barPay
  icases Hpay with ⟨⟨⟨%qr_5, Hqr_5⟩, ⟨%qr_12, Hqr_12⟩, ⟨%qa_5, Hqa_5⟩, ⟨%qa_12, Hqa_12⟩⟩, ⟨⟨%qr_1, Hqr_1⟩, ⟨%qr_8, Hqr_8⟩, ⟨%qa_1, Hqa_1⟩, ⟨%qa_8, Hqa_8⟩⟩, ⟨⟨%qr_4, Hqr_4⟩, ⟨%qr_11, Hqr_11⟩, ⟨%qa_4, Hqa_4⟩, ⟨%qa_11, Hqa_11⟩⟩, ⟨⟨%qr_6, Hqr_6⟩, ⟨%qr_13, Hqr_13⟩, ⟨%qa_6, Hqa_6⟩, ⟨%qa_13, Hqa_13⟩⟩, ⟨⟨%qr_0, Hqr_0⟩, ⟨%qr_7, Hqr_7⟩, ⟨%qa_0, Hqa_0⟩, ⟨%qa_7, Hqa_7⟩⟩, ⟨⟨%qr_2, Hqr_2⟩, ⟨%qr_9, Hqr_9⟩, ⟨%qa_2, Hqa_2⟩, ⟨%qa_9, Hqa_9⟩⟩, ⟨⟨%qr_3, Hqr_3⟩, ⟨%qr_10, Hqr_10⟩, ⟨%qa_3, Hqa_3⟩, ⟨%qa_10, Hqa_10⟩⟩⟩
  -- first phase: the rows of the partner under mask 6's segment, half 0, to its slot (0, 5)
  ihave Hs := (take_hsl' c 0 5 5 rfl rfl [] (by decide) (X16 m ρ c)) $$ Hh; icases Hs with ⟨Hh_5, Hh⟩
  iapply (wp_rs_send m ρ K c _ 0 5 5 rfl rfl (dev8_eq c) _ _ rfl rfl 7 _ _ rfl) $$ [Hh_5 Hqr_5 HO Ht0_5 Ht1_5]
  · isplitr; · iexact HR
    isplitl [Hh_5]; · iexact Hh_5
    isplitl [Hqr_5]; · iexact Hqr_5
    isplitl [HO]; · iexact HO
    isplitl [Ht0_5]; · iexact Ht0_5
    iexact Ht1_5
  iintro ⟨Hcs0_5, HO⟩
  -- first phase: the rows of the partner under mask 2's segment, half 0, to its slot (0, 1)
  ihave Hs := (take_hsl' c 0 1 1 rfl rfl [5] (by decide) (X16 m ρ c)) $$ Hh; icases Hs with ⟨Hh_1, Hh⟩
  iapply (wp_rs_send m ρ K c _ 0 1 1 rfl rfl (dev9_eq c) _ _ rfl rfl 8 _ _ rfl) $$ [Hh_1 Hqr_1 HO Ht0_1 Ht1_1]
  · isplitr; · iexact HR
    isplitl [Hh_1]; · iexact Hh_1
    isplitl [Hqr_1]; · iexact Hqr_1
    isplitl [HO]; · iexact HO
    isplitl [Ht0_1]; · iexact Ht0_1
    iexact Ht1_1
  iintro ⟨Hcs0_1, HO⟩
  -- first phase: the rows of the partner under mask 5's segment, half 0, to its slot (0, 4)
  ihave Hs := (take_hsl' c 0 4 4 rfl rfl [1, 5] (by decide) (X16 m ρ c)) $$ Hh; icases Hs with ⟨Hh_4, Hh⟩
  iapply (wp_rs_send m ρ K c _ 0 4 4 rfl rfl (dev10_eq c) _ _ rfl rfl 9 _ _ rfl) $$ [Hh_4 Hqr_4 HO Ht0_4 Ht1_4]
  · isplitr; · iexact HR
    isplitl [Hh_4]; · iexact Hh_4
    isplitl [Hqr_4]; · iexact Hqr_4
    isplitl [HO]; · iexact HO
    isplitl [Ht0_4]; · iexact Ht0_4
    iexact Ht1_4
  iintro ⟨Hcs0_4, HO⟩
  -- first phase: the rows of the partner under mask 7's segment, half 0, to its slot (0, 6)
  ihave Hs := (take_hsl' c 0 6 6 rfl rfl [4, 1, 5] (by decide) (X16 m ρ c)) $$ Hh; icases Hs with ⟨Hh_6, Hh⟩
  iapply (wp_rs_send m ρ K c _ 0 6 6 rfl rfl (dev11_eq c) _ _ rfl rfl 10 _ _ rfl) $$ [Hh_6 Hqr_6 HO Ht0_6 Ht1_6]
  · isplitr; · iexact HR
    isplitl [Hh_6]; · iexact Hh_6
    isplitl [Hqr_6]; · iexact Hqr_6
    isplitl [HO]; · iexact HO
    isplitl [Ht0_6]; · iexact Ht0_6
    iexact Ht1_6
  iintro ⟨Hcs0_6, HO⟩
  -- first phase: the rows of the partner under mask 1's segment, half 0, to its slot (0, 0)
  ihave Hs := (take_hsl' c 0 0 0 rfl rfl [6, 4, 1, 5] (by decide) (X16 m ρ c)) $$ Hh; icases Hs with ⟨Hh_0, Hh⟩
  iapply (wp_rs_send m ρ K c _ 0 0 0 rfl rfl (dev12_eq c) _ _ rfl rfl 11 _ _ rfl) $$ [Hh_0 Hqr_0 HO Ht0_0 Ht1_0]
  · isplitr; · iexact HR
    isplitl [Hh_0]; · iexact Hh_0
    isplitl [Hqr_0]; · iexact Hqr_0
    isplitl [HO]; · iexact HO
    isplitl [Ht0_0]; · iexact Ht0_0
    iexact Ht1_0
  iintro ⟨Hcs0_0, HO⟩
  -- first phase: the rows of the partner under mask 3's segment, half 0, to its slot (0, 2)
  ihave Hs := (take_hsl' c 0 2 2 rfl rfl [0, 6, 4, 1, 5] (by decide) (X16 m ρ c)) $$ Hh; icases Hs with ⟨Hh_2, Hh⟩
  iapply (wp_rs_send m ρ K c _ 0 2 2 rfl rfl (dev13_eq c) _ _ rfl rfl 12 _ _ rfl) $$ [Hh_2 Hqr_2 HO Ht0_2 Ht1_2]
  · isplitr; · iexact HR
    isplitl [Hh_2]; · iexact Hh_2
    isplitl [Hqr_2]; · iexact Hqr_2
    isplitl [HO]; · iexact HO
    isplitl [Ht0_2]; · iexact Ht0_2
    iexact Ht1_2
  iintro ⟨Hcs0_2, HO⟩
  -- first phase: the rows of the partner under mask 4's segment, half 0, to its slot (0, 3)
  ihave Hs := (take_hsl' c 0 3 3 rfl rfl [2, 0, 6, 4, 1, 5] (by decide) (X16 m ρ c)) $$ Hh; icases Hs with ⟨Hh_3, Hh⟩
  iapply (wp_rs_send m ρ K c _ 0 3 3 rfl rfl (dev14_eq c) _ _ rfl rfl 13 _ _ rfl) $$ [Hh_3 Hqr_3 HO Ht0_3 Ht1_3]
  · isplitr; · iexact HR
    isplitl [Hh_3]; · iexact Hh_3
    isplitl [Hqr_3]; · iexact Hqr_3
    isplitl [HO]; · iexact HO
    isplitl [Ht0_3]; · iexact Ht0_3
    iexact Ht1_3
  iintro ⟨Hcs0_3, HO⟩
  -- first phase: the rows of the partner under mask 6's segment, half 1, to its slot (1, 5)
  ihave Hs := (take_hsl' c 1 5 12 rfl rfl [3, 2, 0, 6, 4, 1, 5] (by decide) (X16 m ρ c)) $$ Hh; icases Hs with ⟨Hh_12, Hh⟩
  iapply (wp_rs_send m ρ K c _ 1 5 12 rfl rfl (dev15_eq c) _ _ rfl rfl 14 _ _ rfl) $$ [Hh_12 Hqr_12 HO Ht0_12 Ht1_12]
  · isplitr; · iexact HR
    isplitl [Hh_12]; · iexact Hh_12
    isplitl [Hqr_12]; · iexact Hqr_12
    isplitl [HO]; · iexact HO
    isplitl [Ht0_12]; · iexact Ht0_12
    iexact Ht1_12
  iintro ⟨Hcs0_12, HO⟩
  -- first phase: the rows of the partner under mask 2's segment, half 1, to its slot (1, 1)
  ihave Hs := (take_hsl' c 1 1 8 rfl rfl [12, 3, 2, 0, 6, 4, 1, 5] (by decide) (X16 m ρ c)) $$ Hh; icases Hs with ⟨Hh_8, Hh⟩
  iapply (wp_rs_send m ρ K c _ 1 1 8 rfl rfl (dev16_eq c) _ _ rfl rfl 15 _ _ rfl) $$ [Hh_8 Hqr_8 HO Ht0_8 Ht1_8]
  · isplitr; · iexact HR
    isplitl [Hh_8]; · iexact Hh_8
    isplitl [Hqr_8]; · iexact Hqr_8
    isplitl [HO]; · iexact HO
    isplitl [Ht0_8]; · iexact Ht0_8
    iexact Ht1_8
  iintro ⟨Hcs0_8, HO⟩
  -- first phase: the rows of the partner under mask 5's segment, half 1, to its slot (1, 4)
  ihave Hs := (take_hsl' c 1 4 11 rfl rfl [8, 12, 3, 2, 0, 6, 4, 1, 5] (by decide) (X16 m ρ c)) $$ Hh; icases Hs with ⟨Hh_11, Hh⟩
  iapply (wp_rs_send m ρ K c _ 1 4 11 rfl rfl (dev17_eq c) _ _ rfl rfl 16 _ _ rfl) $$ [Hh_11 Hqr_11 HO Ht0_11 Ht1_11]
  · isplitr; · iexact HR
    isplitl [Hh_11]; · iexact Hh_11
    isplitl [Hqr_11]; · iexact Hqr_11
    isplitl [HO]; · iexact HO
    isplitl [Ht0_11]; · iexact Ht0_11
    iexact Ht1_11
  iintro ⟨Hcs0_11, HO⟩
  -- first phase: the rows of the partner under mask 7's segment, half 1, to its slot (1, 6)
  ihave Hs := (take_hsl' c 1 6 13 rfl rfl [11, 8, 12, 3, 2, 0, 6, 4, 1, 5] (by decide) (X16 m ρ c)) $$ Hh; icases Hs with ⟨Hh_13, Hh⟩
  iapply (wp_rs_send m ρ K c _ 1 6 13 rfl rfl (dev18_eq c) _ _ rfl rfl 17 _ _ rfl) $$ [Hh_13 Hqr_13 HO Ht0_13 Ht1_13]
  · isplitr; · iexact HR
    isplitl [Hh_13]; · iexact Hh_13
    isplitl [Hqr_13]; · iexact Hqr_13
    isplitl [HO]; · iexact HO
    isplitl [Ht0_13]; · iexact Ht0_13
    iexact Ht1_13
  iintro ⟨Hcs0_13, HO⟩
  -- first phase: the rows of the partner under mask 1's segment, half 1, to its slot (1, 0)
  ihave Hs := (take_hsl' c 1 0 7 rfl rfl [13, 11, 8, 12, 3, 2, 0, 6, 4, 1, 5] (by decide) (X16 m ρ c)) $$ Hh; icases Hs with ⟨Hh_7, Hh⟩
  iapply (wp_rs_send m ρ K c _ 1 0 7 rfl rfl (dev19_eq c) _ _ rfl rfl 18 _ _ rfl) $$ [Hh_7 Hqr_7 HO Ht0_7 Ht1_7]
  · isplitr; · iexact HR
    isplitl [Hh_7]; · iexact Hh_7
    isplitl [Hqr_7]; · iexact Hqr_7
    isplitl [HO]; · iexact HO
    isplitl [Ht0_7]; · iexact Ht0_7
    iexact Ht1_7
  iintro ⟨Hcs0_7, HO⟩
  -- first phase: the rows of the partner under mask 3's segment, half 1, to its slot (1, 2)
  ihave Hs := (take_hsl' c 1 2 9 rfl rfl [7, 13, 11, 8, 12, 3, 2, 0, 6, 4, 1, 5] (by decide) (X16 m ρ c)) $$ Hh; icases Hs with ⟨Hh_9, Hh⟩
  iapply (wp_rs_send m ρ K c _ 1 2 9 rfl rfl (dev20_eq c) _ _ rfl rfl 19 _ _ rfl) $$ [Hh_9 Hqr_9 HO Ht0_9 Ht1_9]
  · isplitr; · iexact HR
    isplitl [Hh_9]; · iexact Hh_9
    isplitl [Hqr_9]; · iexact Hqr_9
    isplitl [HO]; · iexact HO
    isplitl [Ht0_9]; · iexact Ht0_9
    iexact Ht1_9
  iintro ⟨Hcs0_9, HO⟩
  -- first phase: the rows of the partner under mask 4's segment, half 1, to its slot (1, 3)
  ihave Hs := (take_hsl' c 1 3 10 rfl rfl [9, 7, 13, 11, 8, 12, 3, 2, 0, 6, 4, 1, 5] (by decide) (X16 m ρ c)) $$ Hh; icases Hs with ⟨Hh_10, Hh⟩
  iapply (wp_rs_send m ρ K c _ 1 3 10 rfl rfl (dev21_eq c) _ _ rfl rfl 20 _ _ rfl) $$ [Hh_10 Hqr_10 HO Ht0_10 Ht1_10]
  · isplitr; · iexact HR
    isplitl [Hh_10]; · iexact Hh_10
    isplitl [Hqr_10]; · iexact Hqr_10
    isplitl [HO]; · iexact HO
    isplitl [Ht0_10]; · iexact Ht0_10
    iexact Ht1_10
  iintro ⟨Hcs0_10, HO⟩
  -- half 0 of this device's own segment: its rows, then the seven partners' rows as they land
  iapply (wp_load 𝒱₀ (c : Thread nD τ) none Set.univ (m := xM) (r := (xRows c 0).toLoadRect) (Finset.subset_univ _)) $$ Hx; iintro Hx
  iapply (wp_wait_d m ρ K c 1 5 _ rfl 21 (dst := slotM rM 0 5) rfl _ (mw_rr0 c 5)) $$ [Hc1_5 HO Hp1_5]
  · isplitr; · iexact HR
    isplitr; · iexact Hlev
    isplitl [Hc1_5]; · iexact Hc1_5
    isplitl [HO]; · iexact HO
    iexact Hp1_5
  iintro ⟨HO, Hp1_5, Hpay⟩
  ihave Hpay := (Entails.of_eq (payD_1 m ρ c 0 5 5 rfl rfl)) $$ Hpay
  icases Hpay with ⟨%fd_5, Hrr_5⟩
  iapply (wp_load 𝒱₀ (c : Thread nD τ) none Set.univ (m := rM) (rload_sub 0 5)) $$ Hrr_5; iintro Hrr_5
  iapply (wp_wait_d m ρ K c 1 1 _ rfl 21 (dst := slotM rM 0 1) rfl _ (mw_rr0 c 1)) $$ [Hc1_1 HO Hp1_1]
  · isplitr; · iexact HR
    isplitr; · iexact Hlev
    isplitl [Hc1_1]; · iexact Hc1_1
    isplitl [HO]; · iexact HO
    iexact Hp1_1
  iintro ⟨HO, Hp1_1, Hpay⟩
  ihave Hpay := (Entails.of_eq (payD_1 m ρ c 0 1 1 rfl rfl)) $$ Hpay
  icases Hpay with ⟨%fd_1, Hrr_1⟩
  iapply (wp_load 𝒱₀ (c : Thread nD τ) none Set.univ (m := rM) (rload_sub 0 1)) $$ Hrr_1; iintro Hrr_1
  iapply (wp_wait_d m ρ K c 1 4 _ rfl 21 (dst := slotM rM 0 4) rfl _ (mw_rr0 c 4)) $$ [Hc1_4 HO Hp1_4]
  · isplitr; · iexact HR
    isplitr; · iexact Hlev
    isplitl [Hc1_4]; · iexact Hc1_4
    isplitl [HO]; · iexact HO
    iexact Hp1_4
  iintro ⟨HO, Hp1_4, Hpay⟩
  ihave Hpay := (Entails.of_eq (payD_1 m ρ c 0 4 4 rfl rfl)) $$ Hpay
  icases Hpay with ⟨%fd_4, Hrr_4⟩
  iapply (wp_load 𝒱₀ (c : Thread nD τ) none Set.univ (m := rM) (rload_sub 0 4)) $$ Hrr_4; iintro Hrr_4
  iapply (wp_wait_d m ρ K c 1 6 _ rfl 21 (dst := slotM rM 0 6) rfl _ (mw_rr0 c 6)) $$ [Hc1_6 HO Hp1_6]
  · isplitr; · iexact HR
    isplitr; · iexact Hlev
    isplitl [Hc1_6]; · iexact Hc1_6
    isplitl [HO]; · iexact HO
    iexact Hp1_6
  iintro ⟨HO, Hp1_6, Hpay⟩
  ihave Hpay := (Entails.of_eq (payD_1 m ρ c 0 6 6 rfl rfl)) $$ Hpay
  icases Hpay with ⟨%fd_6, Hrr_6⟩
  iapply (wp_load 𝒱₀ (c : Thread nD τ) none Set.univ (m := rM) (rload_sub 0 6)) $$ Hrr_6; iintro Hrr_6
  iapply (wp_wait_d m ρ K c 1 0 _ rfl 21 (dst := slotM rM 0 0) rfl _ (mw_rr0 c 0)) $$ [Hc1_0 HO Hp1_0]
  · isplitr; · iexact HR
    isplitr; · iexact Hlev
    isplitl [Hc1_0]; · iexact Hc1_0
    isplitl [HO]; · iexact HO
    iexact Hp1_0
  iintro ⟨HO, Hp1_0, Hpay⟩
  ihave Hpay := (Entails.of_eq (payD_1 m ρ c 0 0 0 rfl rfl)) $$ Hpay
  icases Hpay with ⟨%fd_0, Hrr_0⟩
  iapply (wp_load 𝒱₀ (c : Thread nD τ) none Set.univ (m := rM) (rload_sub 0 0)) $$ Hrr_0; iintro Hrr_0
  iapply (wp_wait_d m ρ K c 1 2 _ rfl 21 (dst := slotM rM 0 2) rfl _ (mw_rr0 c 2)) $$ [Hc1_2 HO Hp1_2]
  · isplitr; · iexact HR
    isplitr; · iexact Hlev
    isplitl [Hc1_2]; · iexact Hc1_2
    isplitl [HO]; · iexact HO
    iexact Hp1_2
  iintro ⟨HO, Hp1_2, Hpay⟩
  ihave Hpay := (Entails.of_eq (payD_1 m ρ c 0 2 2 rfl rfl)) $$ Hpay
  icases Hpay with ⟨%fd_2, Hrr_2⟩
  iapply (wp_load 𝒱₀ (c : Thread nD τ) none Set.univ (m := rM) (rload_sub 0 2)) $$ Hrr_2; iintro Hrr_2
  iapply (wp_wait_d m ρ K c 1 3 _ rfl 21 (dst := slotM rM 0 3) rfl _ (mw_rr0 c 3)) $$ [Hc1_3 HO Hp1_3]
  · isplitr; · iexact HR
    isplitr; · iexact Hlev
    isplitl [Hc1_3]; · iexact Hc1_3
    isplitl [HO]; · iexact HO
    iexact Hp1_3
  iintro ⟨HO, Hp1_3, Hpay⟩
  ihave Hpay := (Entails.of_eq (payD_1 m ρ c 0 3 3 rfl rfl)) $$ Hpay
  icases Hpay with ⟨%fd_3, Hrr_3⟩
  iapply (wp_load 𝒱₀ (c : Thread nD τ) none Set.univ (m := rM) (rload_sub 0 3)) $$ Hrr_3; iintro Hrr_3
  -- the sum stored into the result, its 16-bit copy into half 0 of the segment buffer
  iapply (wp_load 𝒱₀ (c : Thread nD τ) none Set.univ (m := oM) (Finset.subset_univ _)) $$ Hout; iintro Hout
  iapply (wp_store 𝒱₀ (c : Thread nD τ) none Set.univ (m := oM) (r := oOwn c 0) (Mk := Finset.univ) (Finset.subset_univ _)) $$ Hout; iintro Hout
  iapply (wp_load 𝒱₀ (c : Thread nD τ) none Set.univ (m := gM) (gload_sub 0)) $$ Hg_0; iintro Hg_0
  iapply (wp_store 𝒱₀ (c : Thread nD τ) none Set.univ (m := gM) (r := gRect 0) (Mk := Finset.univ) (View.setOn_subset_set _ _)) $$ Hg_0; iintro Hg_0
  ihave Hg_0 := (conv_seg0 m ρ c _ _ _ _ _ _ _ _) $$ Hg_0
  -- second phase: half 0 of the reduced segment to the partner under mask 6, lending half of the share still held
  ihave Hg_0 := (to_shr0 c 0 _) $$ Hg_0
  ihave Hs := (share_split c 0 0 1 rfl _) $$ Hg_0; icases Hs with ⟨Hgs_5, Hg_0⟩
  iapply (wp_ag_send m ρ K c _ 0 5 5 0 rfl rfl rfl (dev22_eq c) _ _ rfl rfl 21 _ _ rfl) $$ [Hgs_5 Hqa_5 HO Ht2_5 Ht3_5]
  · isplitr; · iexact HR
    isplitl [Hgs_5]; · iexact Hgs_5
    isplitl [Hqa_5]; · iexact Hqa_5
    isplitl [HO]; · iexact HO
    isplitl [Ht2_5]; · iexact Ht2_5
    iexact Ht3_5
  iintro ⟨Hcs2_5, HO⟩
  -- second phase: half 0 of the reduced segment to the partner under mask 2, lending half of the share still held
  ihave Hs := (share_split c 0 1 2 rfl _) $$ Hg_0; icases Hs with ⟨Hgs_1, Hg_0⟩
  iapply (wp_ag_send m ρ K c _ 0 1 1 1 rfl rfl rfl (dev23_eq c) _ _ rfl rfl 22 _ _ rfl) $$ [Hgs_1 Hqa_1 HO Ht2_1 Ht3_1]
  · isplitr; · iexact HR
    isplitl [Hgs_1]; · iexact Hgs_1
    isplitl [Hqa_1]; · iexact Hqa_1
    isplitl [HO]; · iexact HO
    isplitl [Ht2_1]; · iexact Ht2_1
    iexact Ht3_1
  iintro ⟨Hcs2_1, HO⟩
  -- second phase: half 0 of the reduced segment to the partner under mask 5, lending half of the share still held
  ihave Hs := (share_split c 0 2 3 rfl _) $$ Hg_0; icases Hs with ⟨Hgs_4, Hg_0⟩
  iapply (wp_ag_send m ρ K c _ 0 4 4 2 rfl rfl rfl (dev24_eq c) _ _ rfl rfl 23 _ _ rfl) $$ [Hgs_4 Hqa_4 HO Ht2_4 Ht3_4]
  · isplitr; · iexact HR
    isplitl [Hgs_4]; · iexact Hgs_4
    isplitl [Hqa_4]; · iexact Hqa_4
    isplitl [HO]; · iexact HO
    isplitl [Ht2_4]; · iexact Ht2_4
    iexact Ht3_4
  iintro ⟨Hcs2_4, HO⟩
  -- second phase: half 0 of the reduced segment to the partner under mask 7, lending half of the share still held
  ihave Hs := (share_split c 0 3 4 rfl _) $$ Hg_0; icases Hs with ⟨Hgs_6, Hg_0⟩
  iapply (wp_ag_send m ρ K c _ 0 6 6 3 rfl rfl rfl (dev25_eq c) _ _ rfl rfl 24 _ _ rfl) $$ [Hgs_6 Hqa_6 HO Ht2_6 Ht3_6]
  · isplitr; · iexact HR
    isplitl [Hgs_6]; · iexact Hgs_6
    isplitl [Hqa_6]; · iexact Hqa_6
    isplitl [HO]; · iexact HO
    isplitl [Ht2_6]; · iexact Ht2_6
    iexact Ht3_6
  iintro ⟨Hcs2_6, HO⟩
  -- second phase: half 0 of the reduced segment to the partner under mask 1, lending half of the share still held
  ihave Hs := (share_split c 0 4 5 rfl _) $$ Hg_0; icases Hs with ⟨Hgs_0, Hg_0⟩
  iapply (wp_ag_send m ρ K c _ 0 0 0 4 rfl rfl rfl (dev26_eq c) _ _ rfl rfl 25 _ _ rfl) $$ [Hgs_0 Hqa_0 HO Ht2_0 Ht3_0]
  · isplitr; · iexact HR
    isplitl [Hgs_0]; · iexact Hgs_0
    isplitl [Hqa_0]; · iexact Hqa_0
    isplitl [HO]; · iexact HO
    isplitl [Ht2_0]; · iexact Ht2_0
    iexact Ht3_0
  iintro ⟨Hcs2_0, HO⟩
  -- second phase: half 0 of the reduced segment to the partner under mask 3, lending half of the share still held
  ihave Hs := (share_split c 0 5 6 rfl _) $$ Hg_0; icases Hs with ⟨Hgs_2, Hg_0⟩
  iapply (wp_ag_send m ρ K c _ 0 2 2 5 rfl rfl rfl (dev27_eq c) _ _ rfl rfl 26 _ _ rfl) $$ [Hgs_2 Hqa_2 HO Ht2_2 Ht3_2]
  · isplitr; · iexact HR
    isplitl [Hgs_2]; · iexact Hgs_2
    isplitl [Hqa_2]; · iexact Hqa_2
    isplitl [HO]; · iexact HO
    isplitl [Ht2_2]; · iexact Ht2_2
    iexact Ht3_2
  iintro ⟨Hcs2_2, HO⟩
  -- second phase: half 0 of the reduced segment to the partner under mask 4, lending half of the share still held
  ihave Hs := (share_split c 0 6 7 rfl _) $$ Hg_0; icases Hs with ⟨Hgs_3, Hg_0⟩
  iapply (wp_ag_send m ρ K c _ 0 3 3 6 rfl rfl rfl (dev28_eq c) _ _ rfl rfl 27 _ _ rfl) $$ [Hgs_3 Hqa_3 HO Ht2_3 Ht3_3]
  · isplitr; · iexact HR
    isplitl [Hgs_3]; · iexact Hgs_3
    isplitl [Hqa_3]; · iexact Hqa_3
    isplitl [HO]; · iexact HO
    isplitl [Ht2_3]; · iexact Ht2_3
    iexact Ht3_3
  iintro ⟨Hcs2_3, HO⟩
  -- half 1 of this device's own segment: its rows, then the seven partners' rows as they land
  iapply (wp_load 𝒱₀ (c : Thread nD τ) none Set.univ (m := xM) (r := (xRows c 1).toLoadRect) (Finset.subset_univ _)) $$ Hx; iintro Hx
  iapply (wp_wait_d m ρ K c 1 12 _ rfl 28 (dst := slotM rM 1 5) rfl _ (mw_rr1 c 12)) $$ [Hc1_12 HO Hp1_12]
  · isplitr; · iexact HR
    isplitr; · iexact Hlev
    isplitl [Hc1_12]; · iexact Hc1_12
    isplitl [HO]; · iexact HO
    iexact Hp1_12
  iintro ⟨HO, Hp1_12, Hpay⟩
  ihave Hpay := (Entails.of_eq (payD_1 m ρ c 1 5 12 rfl rfl)) $$ Hpay
  icases Hpay with ⟨%fd_12, Hrr_12⟩
  iapply (wp_load 𝒱₀ (c : Thread nD τ) none Set.univ (m := rM) (rload_sub 1 5)) $$ Hrr_12; iintro Hrr_12
  iapply (wp_wait_d m ρ K c 1 8 _ rfl 28 (dst := slotM rM 1 1) rfl _ (mw_rr1 c 8)) $$ [Hc1_8 HO Hp1_8]
  · isplitr; · iexact HR
    isplitr; · iexact Hlev
    isplitl [Hc1_8]; · iexact Hc1_8
    isplitl [HO]; · iexact HO
    iexact Hp1_8
  iintro ⟨HO, Hp1_8, Hpay⟩
  ihave Hpay := (Entails.of_eq (payD_1 m ρ c 1 1 8 rfl rfl)) $$ Hpay
  icases Hpay with ⟨%fd_8, Hrr_8⟩
  iapply (wp_load 𝒱₀ (c : Thread nD τ) none Set.univ (m := rM) (rload_sub 1 1)) $$ Hrr_8; iintro Hrr_8
  iapply (wp_wait_d m ρ K c 1 11 _ rfl 28 (dst := slotM rM 1 4) rfl _ (mw_rr1 c 11)) $$ [Hc1_11 HO Hp1_11]
  · isplitr; · iexact HR
    isplitr; · iexact Hlev
    isplitl [Hc1_11]; · iexact Hc1_11
    isplitl [HO]; · iexact HO
    iexact Hp1_11
  iintro ⟨HO, Hp1_11, Hpay⟩
  ihave Hpay := (Entails.of_eq (payD_1 m ρ c 1 4 11 rfl rfl)) $$ Hpay
  icases Hpay with ⟨%fd_11, Hrr_11⟩
  iapply (wp_load 𝒱₀ (c : Thread nD τ) none Set.univ (m := rM) (rload_sub 1 4)) $$ Hrr_11; iintro Hrr_11
  iapply (wp_wait_d m ρ K c 1 13 _ rfl 28 (dst := slotM rM 1 6) rfl _ (mw_rr1 c 13)) $$ [Hc1_13 HO Hp1_13]
  · isplitr; · iexact HR
    isplitr; · iexact Hlev
    isplitl [Hc1_13]; · iexact Hc1_13
    isplitl [HO]; · iexact HO
    iexact Hp1_13
  iintro ⟨HO, Hp1_13, Hpay⟩
  ihave Hpay := (Entails.of_eq (payD_1 m ρ c 1 6 13 rfl rfl)) $$ Hpay
  icases Hpay with ⟨%fd_13, Hrr_13⟩
  iapply (wp_load 𝒱₀ (c : Thread nD τ) none Set.univ (m := rM) (rload_sub 1 6)) $$ Hrr_13; iintro Hrr_13
  iapply (wp_wait_d m ρ K c 1 7 _ rfl 28 (dst := slotM rM 1 0) rfl _ (mw_rr1 c 7)) $$ [Hc1_7 HO Hp1_7]
  · isplitr; · iexact HR
    isplitr; · iexact Hlev
    isplitl [Hc1_7]; · iexact Hc1_7
    isplitl [HO]; · iexact HO
    iexact Hp1_7
  iintro ⟨HO, Hp1_7, Hpay⟩
  ihave Hpay := (Entails.of_eq (payD_1 m ρ c 1 0 7 rfl rfl)) $$ Hpay
  icases Hpay with ⟨%fd_7, Hrr_7⟩
  iapply (wp_load 𝒱₀ (c : Thread nD τ) none Set.univ (m := rM) (rload_sub 1 0)) $$ Hrr_7; iintro Hrr_7
  iapply (wp_wait_d m ρ K c 1 9 _ rfl 28 (dst := slotM rM 1 2) rfl _ (mw_rr1 c 9)) $$ [Hc1_9 HO Hp1_9]
  · isplitr; · iexact HR
    isplitr; · iexact Hlev
    isplitl [Hc1_9]; · iexact Hc1_9
    isplitl [HO]; · iexact HO
    iexact Hp1_9
  iintro ⟨HO, Hp1_9, Hpay⟩
  ihave Hpay := (Entails.of_eq (payD_1 m ρ c 1 2 9 rfl rfl)) $$ Hpay
  icases Hpay with ⟨%fd_9, Hrr_9⟩
  iapply (wp_load 𝒱₀ (c : Thread nD τ) none Set.univ (m := rM) (rload_sub 1 2)) $$ Hrr_9; iintro Hrr_9
  iapply (wp_wait_d m ρ K c 1 10 _ rfl 28 (dst := slotM rM 1 3) rfl _ (mw_rr1 c 10)) $$ [Hc1_10 HO Hp1_10]
  · isplitr; · iexact HR
    isplitr; · iexact Hlev
    isplitl [Hc1_10]; · iexact Hc1_10
    isplitl [HO]; · iexact HO
    iexact Hp1_10
  iintro ⟨HO, Hp1_10, Hpay⟩
  ihave Hpay := (Entails.of_eq (payD_1 m ρ c 1 3 10 rfl rfl)) $$ Hpay
  icases Hpay with ⟨%fd_10, Hrr_10⟩
  iapply (wp_load 𝒱₀ (c : Thread nD τ) none Set.univ (m := rM) (rload_sub 1 3)) $$ Hrr_10; iintro Hrr_10
  -- the sum stored into the result, its 16-bit copy into half 1 of the segment buffer
  iapply (wp_load 𝒱₀ (c : Thread nD τ) none Set.univ (m := oM) (Finset.subset_univ _)) $$ Hout; iintro Hout
  iapply (wp_store 𝒱₀ (c : Thread nD τ) none Set.univ (m := oM) (r := oOwn c 1) (Mk := Finset.univ) (Finset.subset_univ _)) $$ Hout; iintro Hout
  iapply (wp_load 𝒱₀ (c : Thread nD τ) none Set.univ (m := gM) (gload_sub 1)) $$ Hg_1; iintro Hg_1
  iapply (wp_store 𝒱₀ (c : Thread nD τ) none Set.univ (m := gM) (r := gRect 1) (Mk := Finset.univ) (View.setOn_subset_set _ _)) $$ Hg_1; iintro Hg_1
  ihave Hg_1 := (conv_seg1 m ρ c _ _ _ _ _ _ _ _) $$ Hg_1
  -- second phase: half 1 of the reduced segment to the partner under mask 6, lending half of the share still held
  ihave Hg_1 := (to_shr0 c 1 _) $$ Hg_1
  ihave Hs := (share_split c 1 0 1 rfl _) $$ Hg_1; icases Hs with ⟨Hgs_12, Hg_1⟩
  iapply (wp_ag_send m ρ K c _ 1 5 12 0 rfl rfl rfl (dev29_eq c) _ _ rfl rfl 28 _ _ rfl) $$ [Hgs_12 Hqa_12 HO Ht2_12 Ht3_12]
  · isplitr; · iexact HR
    isplitl [Hgs_12]; · iexact Hgs_12
    isplitl [Hqa_12]; · iexact Hqa_12
    isplitl [HO]; · iexact HO
    isplitl [Ht2_12]; · iexact Ht2_12
    iexact Ht3_12
  iintro ⟨Hcs2_12, HO⟩
  -- second phase: half 1 of the reduced segment to the partner under mask 2, lending half of the share still held
  ihave Hs := (share_split c 1 1 2 rfl _) $$ Hg_1; icases Hs with ⟨Hgs_8, Hg_1⟩
  iapply (wp_ag_send m ρ K c _ 1 1 8 1 rfl rfl rfl (dev30_eq c) _ _ rfl rfl 29 _ _ rfl) $$ [Hgs_8 Hqa_8 HO Ht2_8 Ht3_8]
  · isplitr; · iexact HR
    isplitl [Hgs_8]; · iexact Hgs_8
    isplitl [Hqa_8]; · iexact Hqa_8
    isplitl [HO]; · iexact HO
    isplitl [Ht2_8]; · iexact Ht2_8
    iexact Ht3_8
  iintro ⟨Hcs2_8, HO⟩
  -- second phase: half 1 of the reduced segment to the partner under mask 5, lending half of the share still held
  ihave Hs := (share_split c 1 2 3 rfl _) $$ Hg_1; icases Hs with ⟨Hgs_11, Hg_1⟩
  iapply (wp_ag_send m ρ K c _ 1 4 11 2 rfl rfl rfl (dev31_eq c) _ _ rfl rfl 30 _ _ rfl) $$ [Hgs_11 Hqa_11 HO Ht2_11 Ht3_11]
  · isplitr; · iexact HR
    isplitl [Hgs_11]; · iexact Hgs_11
    isplitl [Hqa_11]; · iexact Hqa_11
    isplitl [HO]; · iexact HO
    isplitl [Ht2_11]; · iexact Ht2_11
    iexact Ht3_11
  iintro ⟨Hcs2_11, HO⟩
  -- second phase: half 1 of the reduced segment to the partner under mask 7, lending half of the share still held
  ihave Hs := (share_split c 1 3 4 rfl _) $$ Hg_1; icases Hs with ⟨Hgs_13, Hg_1⟩
  iapply (wp_ag_send m ρ K c _ 1 6 13 3 rfl rfl rfl (dev32_eq c) _ _ rfl rfl 31 _ _ rfl) $$ [Hgs_13 Hqa_13 HO Ht2_13 Ht3_13]
  · isplitr; · iexact HR
    isplitl [Hgs_13]; · iexact Hgs_13
    isplitl [Hqa_13]; · iexact Hqa_13
    isplitl [HO]; · iexact HO
    isplitl [Ht2_13]; · iexact Ht2_13
    iexact Ht3_13
  iintro ⟨Hcs2_13, HO⟩
  -- second phase: half 1 of the reduced segment to the partner under mask 1, lending half of the share still held
  ihave Hs := (share_split c 1 4 5 rfl _) $$ Hg_1; icases Hs with ⟨Hgs_7, Hg_1⟩
  iapply (wp_ag_send m ρ K c _ 1 0 7 4 rfl rfl rfl (dev33_eq c) _ _ rfl rfl 32 _ _ rfl) $$ [Hgs_7 Hqa_7 HO Ht2_7 Ht3_7]
  · isplitr; · iexact HR
    isplitl [Hgs_7]; · iexact Hgs_7
    isplitl [Hqa_7]; · iexact Hqa_7
    isplitl [HO]; · iexact HO
    isplitl [Ht2_7]; · iexact Ht2_7
    iexact Ht3_7
  iintro ⟨Hcs2_7, HO⟩
  -- second phase: half 1 of the reduced segment to the partner under mask 3, lending half of the share still held
  ihave Hs := (share_split c 1 5 6 rfl _) $$ Hg_1; icases Hs with ⟨Hgs_9, Hg_1⟩
  iapply (wp_ag_send m ρ K c _ 1 2 9 5 rfl rfl rfl (dev34_eq c) _ _ rfl rfl 33 _ _ rfl) $$ [Hgs_9 Hqa_9 HO Ht2_9 Ht3_9]
  · isplitr; · iexact HR
    isplitl [Hgs_9]; · iexact Hgs_9
    isplitl [Hqa_9]; · iexact Hqa_9
    isplitl [HO]; · iexact HO
    isplitl [Ht2_9]; · iexact Ht2_9
    iexact Ht3_9
  iintro ⟨Hcs2_9, HO⟩
  -- second phase: half 1 of the reduced segment to the partner under mask 4, lending half of the share still held
  ihave Hs := (share_split c 1 6 7 rfl _) $$ Hg_1; icases Hs with ⟨Hgs_10, Hg_1⟩
  iapply (wp_ag_send m ρ K c _ 1 3 10 6 rfl rfl rfl (dev35_eq c) _ _ rfl rfl 34 _ _ rfl) $$ [Hgs_10 Hqa_10 HO Ht2_10 Ht3_10]
  · isplitr; · iexact HR
    isplitl [Hgs_10]; · iexact Hgs_10
    isplitl [Hqa_10]; · iexact Hqa_10
    isplitl [HO]; · iexact HO
    isplitl [Ht2_10]; · iexact Ht2_10
    iexact Ht3_10
  iintro ⟨Hcs2_10, HO⟩
  -- the partner under mask 6's reduced half 0: waited for, read, stored into the result
  iapply (wp_wait_d m ρ K c 3 5 _ rfl 35 (dst := slotM aM 0 5) rfl _ (mw_end c _)) $$ [Hc3_5 HO Hp3_5]
  · isplitr; · iexact HR
    isplitr; · iexact Hlev
    isplitl [Hc3_5]; · iexact Hc3_5
    isplitl [HO]; · iexact HO
    iexact Hp3_5
  iintro ⟨HO, Hp3_5, Hpay⟩
  ihave Hpay := (Entails.of_eq (payD_3 m ρ c 0 5 5 rfl rfl)) $$ Hpay
  icases Hpay with ⟨%fb_5, Har_5⟩
  iapply (wp_load 𝒱₀ (c : Thread nD τ) none Set.univ (m := aM) (aload_sub 0 5)) $$ Har_5; iintro Har_5
  iapply (wp_load 𝒱₀ (c : Thread nD τ) none Set.univ (m := oM) (Finset.subset_univ _)) $$ Hout; iintro Hout
  iapply (wp_store 𝒱₀ (c : Thread nD τ) none Set.univ (m := oM) (r := oPeer c 5 0) (Mk := Finset.univ) (Finset.subset_univ _)) $$ Hout; iintro Hout
  -- the partner under mask 2's reduced half 0: waited for, read, stored into the result
  iapply (wp_wait_d m ρ K c 3 1 _ rfl 35 (dst := slotM aM 0 1) rfl _ (mw_end c _)) $$ [Hc3_1 HO Hp3_1]
  · isplitr; · iexact HR
    isplitr; · iexact Hlev
    isplitl [Hc3_1]; · iexact Hc3_1
    isplitl [HO]; · iexact HO
    iexact Hp3_1
  iintro ⟨HO, Hp3_1, Hpay⟩
  ihave Hpay := (Entails.of_eq (payD_3 m ρ c 0 1 1 rfl rfl)) $$ Hpay
  icases Hpay with ⟨%fb_1, Har_1⟩
  iapply (wp_load 𝒱₀ (c : Thread nD τ) none Set.univ (m := aM) (aload_sub 0 1)) $$ Har_1; iintro Har_1
  iapply (wp_load 𝒱₀ (c : Thread nD τ) none Set.univ (m := oM) (Finset.subset_univ _)) $$ Hout; iintro Hout
  iapply (wp_store 𝒱₀ (c : Thread nD τ) none Set.univ (m := oM) (r := oPeer c 1 0) (Mk := Finset.univ) (Finset.subset_univ _)) $$ Hout; iintro Hout
  -- the partner under mask 5's reduced half 0: waited for, read, stored into the result
  iapply (wp_wait_d m ρ K c 3 4 _ rfl 35 (dst := slotM aM 0 4) rfl _ (mw_end c _)) $$ [Hc3_4 HO Hp3_4]
  · isplitr; · iexact HR
    isplitr; · iexact Hlev
    isplitl [Hc3_4]; · iexact Hc3_4
    isplitl [HO]; · iexact HO
    iexact Hp3_4
  iintro ⟨HO, Hp3_4, Hpay⟩
  ihave Hpay := (Entails.of_eq (payD_3 m ρ c 0 4 4 rfl rfl)) $$ Hpay
  icases Hpay with ⟨%fb_4, Har_4⟩
  iapply (wp_load 𝒱₀ (c : Thread nD τ) none Set.univ (m := aM) (aload_sub 0 4)) $$ Har_4; iintro Har_4
  iapply (wp_load 𝒱₀ (c : Thread nD τ) none Set.univ (m := oM) (Finset.subset_univ _)) $$ Hout; iintro Hout
  iapply (wp_store 𝒱₀ (c : Thread nD τ) none Set.univ (m := oM) (r := oPeer c 4 0) (Mk := Finset.univ) (Finset.subset_univ _)) $$ Hout; iintro Hout
  -- the partner under mask 7's reduced half 0: waited for, read, stored into the result
  iapply (wp_wait_d m ρ K c 3 6 _ rfl 35 (dst := slotM aM 0 6) rfl _ (mw_end c _)) $$ [Hc3_6 HO Hp3_6]
  · isplitr; · iexact HR
    isplitr; · iexact Hlev
    isplitl [Hc3_6]; · iexact Hc3_6
    isplitl [HO]; · iexact HO
    iexact Hp3_6
  iintro ⟨HO, Hp3_6, Hpay⟩
  ihave Hpay := (Entails.of_eq (payD_3 m ρ c 0 6 6 rfl rfl)) $$ Hpay
  icases Hpay with ⟨%fb_6, Har_6⟩
  iapply (wp_load 𝒱₀ (c : Thread nD τ) none Set.univ (m := aM) (aload_sub 0 6)) $$ Har_6; iintro Har_6
  iapply (wp_load 𝒱₀ (c : Thread nD τ) none Set.univ (m := oM) (Finset.subset_univ _)) $$ Hout; iintro Hout
  iapply (wp_store 𝒱₀ (c : Thread nD τ) none Set.univ (m := oM) (r := oPeer c 6 0) (Mk := Finset.univ) (Finset.subset_univ _)) $$ Hout; iintro Hout
  -- the partner under mask 1's reduced half 0: waited for, read, stored into the result
  iapply (wp_wait_d m ρ K c 3 0 _ rfl 35 (dst := slotM aM 0 0) rfl _ (mw_end c _)) $$ [Hc3_0 HO Hp3_0]
  · isplitr; · iexact HR
    isplitr; · iexact Hlev
    isplitl [Hc3_0]; · iexact Hc3_0
    isplitl [HO]; · iexact HO
    iexact Hp3_0
  iintro ⟨HO, Hp3_0, Hpay⟩
  ihave Hpay := (Entails.of_eq (payD_3 m ρ c 0 0 0 rfl rfl)) $$ Hpay
  icases Hpay with ⟨%fb_0, Har_0⟩
  iapply (wp_load 𝒱₀ (c : Thread nD τ) none Set.univ (m := aM) (aload_sub 0 0)) $$ Har_0; iintro Har_0
  iapply (wp_load 𝒱₀ (c : Thread nD τ) none Set.univ (m := oM) (Finset.subset_univ _)) $$ Hout; iintro Hout
  iapply (wp_store 𝒱₀ (c : Thread nD τ) none Set.univ (m := oM) (r := oPeer c 0 0) (Mk := Finset.univ) (Finset.subset_univ _)) $$ Hout; iintro Hout
  -- the partner under mask 3's reduced half 0: waited for, read, stored into the result
  iapply (wp_wait_d m ρ K c 3 2 _ rfl 35 (dst := slotM aM 0 2) rfl _ (mw_end c _)) $$ [Hc3_2 HO Hp3_2]
  · isplitr; · iexact HR
    isplitr; · iexact Hlev
    isplitl [Hc3_2]; · iexact Hc3_2
    isplitl [HO]; · iexact HO
    iexact Hp3_2
  iintro ⟨HO, Hp3_2, Hpay⟩
  ihave Hpay := (Entails.of_eq (payD_3 m ρ c 0 2 2 rfl rfl)) $$ Hpay
  icases Hpay with ⟨%fb_2, Har_2⟩
  iapply (wp_load 𝒱₀ (c : Thread nD τ) none Set.univ (m := aM) (aload_sub 0 2)) $$ Har_2; iintro Har_2
  iapply (wp_load 𝒱₀ (c : Thread nD τ) none Set.univ (m := oM) (Finset.subset_univ _)) $$ Hout; iintro Hout
  iapply (wp_store 𝒱₀ (c : Thread nD τ) none Set.univ (m := oM) (r := oPeer c 2 0) (Mk := Finset.univ) (Finset.subset_univ _)) $$ Hout; iintro Hout
  -- the partner under mask 4's reduced half 0: waited for, read, stored into the result
  iapply (wp_wait_d m ρ K c 3 3 _ rfl 35 (dst := slotM aM 0 3) rfl _ (mw_end c _)) $$ [Hc3_3 HO Hp3_3]
  · isplitr; · iexact HR
    isplitr; · iexact Hlev
    isplitl [Hc3_3]; · iexact Hc3_3
    isplitl [HO]; · iexact HO
    iexact Hp3_3
  iintro ⟨HO, Hp3_3, Hpay⟩
  ihave Hpay := (Entails.of_eq (payD_3 m ρ c 0 3 3 rfl rfl)) $$ Hpay
  icases Hpay with ⟨%fb_3, Har_3⟩
  iapply (wp_load 𝒱₀ (c : Thread nD τ) none Set.univ (m := aM) (aload_sub 0 3)) $$ Har_3; iintro Har_3
  iapply (wp_load 𝒱₀ (c : Thread nD τ) none Set.univ (m := oM) (Finset.subset_univ _)) $$ Hout; iintro Hout
  iapply (wp_store 𝒱₀ (c : Thread nD τ) none Set.univ (m := oM) (r := oPeer c 3 0) (Mk := Finset.univ) (Finset.subset_univ _)) $$ Hout; iintro Hout
  -- the partner under mask 6's reduced half 1: waited for, read, stored into the result
  iapply (wp_wait_d m ρ K c 3 12 _ rfl 35 (dst := slotM aM 1 5) rfl _ (mw_end c _)) $$ [Hc3_12 HO Hp3_12]
  · isplitr; · iexact HR
    isplitr; · iexact Hlev
    isplitl [Hc3_12]; · iexact Hc3_12
    isplitl [HO]; · iexact HO
    iexact Hp3_12
  iintro ⟨HO, Hp3_12, Hpay⟩
  ihave Hpay := (Entails.of_eq (payD_3 m ρ c 1 5 12 rfl rfl)) $$ Hpay
  icases Hpay with ⟨%fb_12, Har_12⟩
  iapply (wp_load 𝒱₀ (c : Thread nD τ) none Set.univ (m := aM) (aload_sub 1 5)) $$ Har_12; iintro Har_12
  iapply (wp_load 𝒱₀ (c : Thread nD τ) none Set.univ (m := oM) (Finset.subset_univ _)) $$ Hout; iintro Hout
  iapply (wp_store 𝒱₀ (c : Thread nD τ) none Set.univ (m := oM) (r := oPeer c 5 1) (Mk := Finset.univ) (Finset.subset_univ _)) $$ Hout; iintro Hout
  -- the partner under mask 2's reduced half 1: waited for, read, stored into the result
  iapply (wp_wait_d m ρ K c 3 8 _ rfl 35 (dst := slotM aM 1 1) rfl _ (mw_end c _)) $$ [Hc3_8 HO Hp3_8]
  · isplitr; · iexact HR
    isplitr; · iexact Hlev
    isplitl [Hc3_8]; · iexact Hc3_8
    isplitl [HO]; · iexact HO
    iexact Hp3_8
  iintro ⟨HO, Hp3_8, Hpay⟩
  ihave Hpay := (Entails.of_eq (payD_3 m ρ c 1 1 8 rfl rfl)) $$ Hpay
  icases Hpay with ⟨%fb_8, Har_8⟩
  iapply (wp_load 𝒱₀ (c : Thread nD τ) none Set.univ (m := aM) (aload_sub 1 1)) $$ Har_8; iintro Har_8
  iapply (wp_load 𝒱₀ (c : Thread nD τ) none Set.univ (m := oM) (Finset.subset_univ _)) $$ Hout; iintro Hout
  iapply (wp_store 𝒱₀ (c : Thread nD τ) none Set.univ (m := oM) (r := oPeer c 1 1) (Mk := Finset.univ) (Finset.subset_univ _)) $$ Hout; iintro Hout
  -- the partner under mask 5's reduced half 1: waited for, read, stored into the result
  iapply (wp_wait_d m ρ K c 3 11 _ rfl 35 (dst := slotM aM 1 4) rfl _ (mw_end c _)) $$ [Hc3_11 HO Hp3_11]
  · isplitr; · iexact HR
    isplitr; · iexact Hlev
    isplitl [Hc3_11]; · iexact Hc3_11
    isplitl [HO]; · iexact HO
    iexact Hp3_11
  iintro ⟨HO, Hp3_11, Hpay⟩
  ihave Hpay := (Entails.of_eq (payD_3 m ρ c 1 4 11 rfl rfl)) $$ Hpay
  icases Hpay with ⟨%fb_11, Har_11⟩
  iapply (wp_load 𝒱₀ (c : Thread nD τ) none Set.univ (m := aM) (aload_sub 1 4)) $$ Har_11; iintro Har_11
  iapply (wp_load 𝒱₀ (c : Thread nD τ) none Set.univ (m := oM) (Finset.subset_univ _)) $$ Hout; iintro Hout
  iapply (wp_store 𝒱₀ (c : Thread nD τ) none Set.univ (m := oM) (r := oPeer c 4 1) (Mk := Finset.univ) (Finset.subset_univ _)) $$ Hout; iintro Hout
  -- the partner under mask 7's reduced half 1: waited for, read, stored into the result
  iapply (wp_wait_d m ρ K c 3 13 _ rfl 35 (dst := slotM aM 1 6) rfl _ (mw_end c _)) $$ [Hc3_13 HO Hp3_13]
  · isplitr; · iexact HR
    isplitr; · iexact Hlev
    isplitl [Hc3_13]; · iexact Hc3_13
    isplitl [HO]; · iexact HO
    iexact Hp3_13
  iintro ⟨HO, Hp3_13, Hpay⟩
  ihave Hpay := (Entails.of_eq (payD_3 m ρ c 1 6 13 rfl rfl)) $$ Hpay
  icases Hpay with ⟨%fb_13, Har_13⟩
  iapply (wp_load 𝒱₀ (c : Thread nD τ) none Set.univ (m := aM) (aload_sub 1 6)) $$ Har_13; iintro Har_13
  iapply (wp_load 𝒱₀ (c : Thread nD τ) none Set.univ (m := oM) (Finset.subset_univ _)) $$ Hout; iintro Hout
  iapply (wp_store 𝒱₀ (c : Thread nD τ) none Set.univ (m := oM) (r := oPeer c 6 1) (Mk := Finset.univ) (Finset.subset_univ _)) $$ Hout; iintro Hout
  -- the partner under mask 1's reduced half 1: waited for, read, stored into the result
  iapply (wp_wait_d m ρ K c 3 7 _ rfl 35 (dst := slotM aM 1 0) rfl _ (mw_end c _)) $$ [Hc3_7 HO Hp3_7]
  · isplitr; · iexact HR
    isplitr; · iexact Hlev
    isplitl [Hc3_7]; · iexact Hc3_7
    isplitl [HO]; · iexact HO
    iexact Hp3_7
  iintro ⟨HO, Hp3_7, Hpay⟩
  ihave Hpay := (Entails.of_eq (payD_3 m ρ c 1 0 7 rfl rfl)) $$ Hpay
  icases Hpay with ⟨%fb_7, Har_7⟩
  iapply (wp_load 𝒱₀ (c : Thread nD τ) none Set.univ (m := aM) (aload_sub 1 0)) $$ Har_7; iintro Har_7
  iapply (wp_load 𝒱₀ (c : Thread nD τ) none Set.univ (m := oM) (Finset.subset_univ _)) $$ Hout; iintro Hout
  iapply (wp_store 𝒱₀ (c : Thread nD τ) none Set.univ (m := oM) (r := oPeer c 0 1) (Mk := Finset.univ) (Finset.subset_univ _)) $$ Hout; iintro Hout
  -- the partner under mask 3's reduced half 1: waited for, read, stored into the result
  iapply (wp_wait_d m ρ K c 3 9 _ rfl 35 (dst := slotM aM 1 2) rfl _ (mw_end c _)) $$ [Hc3_9 HO Hp3_9]
  · isplitr; · iexact HR
    isplitr; · iexact Hlev
    isplitl [Hc3_9]; · iexact Hc3_9
    isplitl [HO]; · iexact HO
    iexact Hp3_9
  iintro ⟨HO, Hp3_9, Hpay⟩
  ihave Hpay := (Entails.of_eq (payD_3 m ρ c 1 2 9 rfl rfl)) $$ Hpay
  icases Hpay with ⟨%fb_9, Har_9⟩
  iapply (wp_load 𝒱₀ (c : Thread nD τ) none Set.univ (m := aM) (aload_sub 1 2)) $$ Har_9; iintro Har_9
  iapply (wp_load 𝒱₀ (c : Thread nD τ) none Set.univ (m := oM) (Finset.subset_univ _)) $$ Hout; iintro Hout
  iapply (wp_store 𝒱₀ (c : Thread nD τ) none Set.univ (m := oM) (r := oPeer c 2 1) (Mk := Finset.univ) (Finset.subset_univ _)) $$ Hout; iintro Hout
  -- the partner under mask 4's reduced half 1: waited for, read, stored into the result
  iapply (wp_wait_d m ρ K c 3 10 _ rfl 35 (dst := slotM aM 1 3) rfl _ (mw_end c _)) $$ [Hc3_10 HO Hp3_10]
  · isplitr; · iexact HR
    isplitr; · iexact Hlev
    isplitl [Hc3_10]; · iexact Hc3_10
    isplitl [HO]; · iexact HO
    iexact Hp3_10
  iintro ⟨HO, Hp3_10, Hpay⟩
  ihave Hpay := (Entails.of_eq (payD_3 m ρ c 1 3 10 rfl rfl)) $$ Hpay
  icases Hpay with ⟨%fb_10, Har_10⟩
  iapply (wp_load 𝒱₀ (c : Thread nD τ) none Set.univ (m := aM) (aload_sub 1 3)) $$ Har_10; iintro Har_10
  iapply (wp_load 𝒱₀ (c : Thread nD τ) none Set.univ (m := oM) (Finset.subset_univ _)) $$ Hout; iintro Hout
  iapply (wp_store 𝒱₀ (c : Thread nD τ) none Set.univ (m := oM) (r := oPeer c 3 1) (Mk := Finset.univ) (Finset.subset_univ _)) $$ Hout; iintro Hout
  -- the first-phase transfer (0, 5) has read its rows: they come back
  iapply (wp_wait_d m ρ K c 0 5 _ rfl 35 (dst := hSl c 5 0) rfl _ (mw_end c _)) $$ [Hcs0_5 HO Hp0_5]
  · isplitr; · iexact HR
    isplitr; · iexact Hlev
    isplitl [Hcs0_5]; · iexact Hcs0_5
    isplitl [HO]; · iexact HO
    iexact Hp0_5
  iintro ⟨HO, Hp0_5, Hpay⟩
  ihave Hh_5 := (Entails.of_eq (payD_0 m ρ c 0 5 5 rfl rfl)) $$ Hpay
  -- the first-phase transfer (0, 1) has read its rows: they come back
  iapply (wp_wait_d m ρ K c 0 1 _ rfl 35 (dst := hSl c 1 0) rfl _ (mw_end c _)) $$ [Hcs0_1 HO Hp0_1]
  · isplitr; · iexact HR
    isplitr; · iexact Hlev
    isplitl [Hcs0_1]; · iexact Hcs0_1
    isplitl [HO]; · iexact HO
    iexact Hp0_1
  iintro ⟨HO, Hp0_1, Hpay⟩
  ihave Hh_1 := (Entails.of_eq (payD_0 m ρ c 0 1 1 rfl rfl)) $$ Hpay
  -- the first-phase transfer (0, 4) has read its rows: they come back
  iapply (wp_wait_d m ρ K c 0 4 _ rfl 35 (dst := hSl c 4 0) rfl _ (mw_end c _)) $$ [Hcs0_4 HO Hp0_4]
  · isplitr; · iexact HR
    isplitr; · iexact Hlev
    isplitl [Hcs0_4]; · iexact Hcs0_4
    isplitl [HO]; · iexact HO
    iexact Hp0_4
  iintro ⟨HO, Hp0_4, Hpay⟩
  ihave Hh_4 := (Entails.of_eq (payD_0 m ρ c 0 4 4 rfl rfl)) $$ Hpay
  -- the first-phase transfer (0, 6) has read its rows: they come back
  iapply (wp_wait_d m ρ K c 0 6 _ rfl 35 (dst := hSl c 6 0) rfl _ (mw_end c _)) $$ [Hcs0_6 HO Hp0_6]
  · isplitr; · iexact HR
    isplitr; · iexact Hlev
    isplitl [Hcs0_6]; · iexact Hcs0_6
    isplitl [HO]; · iexact HO
    iexact Hp0_6
  iintro ⟨HO, Hp0_6, Hpay⟩
  ihave Hh_6 := (Entails.of_eq (payD_0 m ρ c 0 6 6 rfl rfl)) $$ Hpay
  -- the first-phase transfer (0, 0) has read its rows: they come back
  iapply (wp_wait_d m ρ K c 0 0 _ rfl 35 (dst := hSl c 0 0) rfl _ (mw_end c _)) $$ [Hcs0_0 HO Hp0_0]
  · isplitr; · iexact HR
    isplitr; · iexact Hlev
    isplitl [Hcs0_0]; · iexact Hcs0_0
    isplitl [HO]; · iexact HO
    iexact Hp0_0
  iintro ⟨HO, Hp0_0, Hpay⟩
  ihave Hh_0 := (Entails.of_eq (payD_0 m ρ c 0 0 0 rfl rfl)) $$ Hpay
  -- the first-phase transfer (0, 2) has read its rows: they come back
  iapply (wp_wait_d m ρ K c 0 2 _ rfl 35 (dst := hSl c 2 0) rfl _ (mw_end c _)) $$ [Hcs0_2 HO Hp0_2]
  · isplitr; · iexact HR
    isplitr; · iexact Hlev
    isplitl [Hcs0_2]; · iexact Hcs0_2
    isplitl [HO]; · iexact HO
    iexact Hp0_2
  iintro ⟨HO, Hp0_2, Hpay⟩
  ihave Hh_2 := (Entails.of_eq (payD_0 m ρ c 0 2 2 rfl rfl)) $$ Hpay
  -- the first-phase transfer (0, 3) has read its rows: they come back
  iapply (wp_wait_d m ρ K c 0 3 _ rfl 35 (dst := hSl c 3 0) rfl _ (mw_end c _)) $$ [Hcs0_3 HO Hp0_3]
  · isplitr; · iexact HR
    isplitr; · iexact Hlev
    isplitl [Hcs0_3]; · iexact Hcs0_3
    isplitl [HO]; · iexact HO
    iexact Hp0_3
  iintro ⟨HO, Hp0_3, Hpay⟩
  ihave Hh_3 := (Entails.of_eq (payD_0 m ρ c 0 3 3 rfl rfl)) $$ Hpay
  -- the first-phase transfer (1, 5) has read its rows: they come back
  iapply (wp_wait_d m ρ K c 0 12 _ rfl 35 (dst := hSl c 5 1) rfl _ (mw_end c _)) $$ [Hcs0_12 HO Hp0_12]
  · isplitr; · iexact HR
    isplitr; · iexact Hlev
    isplitl [Hcs0_12]; · iexact Hcs0_12
    isplitl [HO]; · iexact HO
    iexact Hp0_12
  iintro ⟨HO, Hp0_12, Hpay⟩
  ihave Hh_12 := (Entails.of_eq (payD_0 m ρ c 1 5 12 rfl rfl)) $$ Hpay
  -- the first-phase transfer (1, 1) has read its rows: they come back
  iapply (wp_wait_d m ρ K c 0 8 _ rfl 35 (dst := hSl c 1 1) rfl _ (mw_end c _)) $$ [Hcs0_8 HO Hp0_8]
  · isplitr; · iexact HR
    isplitr; · iexact Hlev
    isplitl [Hcs0_8]; · iexact Hcs0_8
    isplitl [HO]; · iexact HO
    iexact Hp0_8
  iintro ⟨HO, Hp0_8, Hpay⟩
  ihave Hh_8 := (Entails.of_eq (payD_0 m ρ c 1 1 8 rfl rfl)) $$ Hpay
  -- the first-phase transfer (1, 4) has read its rows: they come back
  iapply (wp_wait_d m ρ K c 0 11 _ rfl 35 (dst := hSl c 4 1) rfl _ (mw_end c _)) $$ [Hcs0_11 HO Hp0_11]
  · isplitr; · iexact HR
    isplitr; · iexact Hlev
    isplitl [Hcs0_11]; · iexact Hcs0_11
    isplitl [HO]; · iexact HO
    iexact Hp0_11
  iintro ⟨HO, Hp0_11, Hpay⟩
  ihave Hh_11 := (Entails.of_eq (payD_0 m ρ c 1 4 11 rfl rfl)) $$ Hpay
  -- the first-phase transfer (1, 6) has read its rows: they come back
  iapply (wp_wait_d m ρ K c 0 13 _ rfl 35 (dst := hSl c 6 1) rfl _ (mw_end c _)) $$ [Hcs0_13 HO Hp0_13]
  · isplitr; · iexact HR
    isplitr; · iexact Hlev
    isplitl [Hcs0_13]; · iexact Hcs0_13
    isplitl [HO]; · iexact HO
    iexact Hp0_13
  iintro ⟨HO, Hp0_13, Hpay⟩
  ihave Hh_13 := (Entails.of_eq (payD_0 m ρ c 1 6 13 rfl rfl)) $$ Hpay
  -- the first-phase transfer (1, 0) has read its rows: they come back
  iapply (wp_wait_d m ρ K c 0 7 _ rfl 35 (dst := hSl c 0 1) rfl _ (mw_end c _)) $$ [Hcs0_7 HO Hp0_7]
  · isplitr; · iexact HR
    isplitr; · iexact Hlev
    isplitl [Hcs0_7]; · iexact Hcs0_7
    isplitl [HO]; · iexact HO
    iexact Hp0_7
  iintro ⟨HO, Hp0_7, Hpay⟩
  ihave Hh_7 := (Entails.of_eq (payD_0 m ρ c 1 0 7 rfl rfl)) $$ Hpay
  -- the first-phase transfer (1, 2) has read its rows: they come back
  iapply (wp_wait_d m ρ K c 0 9 _ rfl 35 (dst := hSl c 2 1) rfl _ (mw_end c _)) $$ [Hcs0_9 HO Hp0_9]
  · isplitr; · iexact HR
    isplitr; · iexact Hlev
    isplitl [Hcs0_9]; · iexact Hcs0_9
    isplitl [HO]; · iexact HO
    iexact Hp0_9
  iintro ⟨HO, Hp0_9, Hpay⟩
  ihave Hh_9 := (Entails.of_eq (payD_0 m ρ c 1 2 9 rfl rfl)) $$ Hpay
  -- the first-phase transfer (1, 3) has read its rows: they come back
  iapply (wp_wait_d m ρ K c 0 10 _ rfl 35 (dst := hSl c 3 1) rfl _ (mw_end c _)) $$ [Hcs0_10 HO Hp0_10]
  · isplitr; · iexact HR
    isplitr; · iexact Hlev
    isplitl [Hcs0_10]; · iexact Hcs0_10
    isplitl [HO]; · iexact HO
    iexact Hp0_10
  iintro ⟨HO, Hp0_10, Hpay⟩
  ihave Hh_10 := (Entails.of_eq (payD_0 m ρ c 1 3 10 rfl rfl)) $$ Hpay
  -- the second-phase transfer (0, 5) has read its half: the share lent comes back
  iapply (wp_wait_d m ρ K c 2 5 _ rfl 35 (dst := gSl 0) rfl _ (mw_end c _)) $$ [Hcs2_5 HO Hp2_5]
  · isplitr; · iexact HR
    isplitr; · iexact Hlev
    isplitl [Hcs2_5]; · iexact Hcs2_5
    isplitl [HO]; · iexact HO
    iexact Hp2_5
  iintro ⟨HO, Hp2_5, Hpay⟩
  ihave Hgs_5 := (Entails.of_eq (payD_2 m ρ c 0 5 5 0 rfl rfl rfl)) $$ Hpay
  -- the second-phase transfer (0, 1) has read its half: the share lent comes back
  iapply (wp_wait_d m ρ K c 2 1 _ rfl 35 (dst := gSl 0) rfl _ (mw_end c _)) $$ [Hcs2_1 HO Hp2_1]
  · isplitr; · iexact HR
    isplitr; · iexact Hlev
    isplitl [Hcs2_1]; · iexact Hcs2_1
    isplitl [HO]; · iexact HO
    iexact Hp2_1
  iintro ⟨HO, Hp2_1, Hpay⟩
  ihave Hgs_1 := (Entails.of_eq (payD_2 m ρ c 0 1 1 1 rfl rfl rfl)) $$ Hpay
  -- the second-phase transfer (0, 4) has read its half: the share lent comes back
  iapply (wp_wait_d m ρ K c 2 4 _ rfl 35 (dst := gSl 0) rfl _ (mw_end c _)) $$ [Hcs2_4 HO Hp2_4]
  · isplitr; · iexact HR
    isplitr; · iexact Hlev
    isplitl [Hcs2_4]; · iexact Hcs2_4
    isplitl [HO]; · iexact HO
    iexact Hp2_4
  iintro ⟨HO, Hp2_4, Hpay⟩
  ihave Hgs_4 := (Entails.of_eq (payD_2 m ρ c 0 4 4 2 rfl rfl rfl)) $$ Hpay
  -- the second-phase transfer (0, 6) has read its half: the share lent comes back
  iapply (wp_wait_d m ρ K c 2 6 _ rfl 35 (dst := gSl 0) rfl _ (mw_end c _)) $$ [Hcs2_6 HO Hp2_6]
  · isplitr; · iexact HR
    isplitr; · iexact Hlev
    isplitl [Hcs2_6]; · iexact Hcs2_6
    isplitl [HO]; · iexact HO
    iexact Hp2_6
  iintro ⟨HO, Hp2_6, Hpay⟩
  ihave Hgs_6 := (Entails.of_eq (payD_2 m ρ c 0 6 6 3 rfl rfl rfl)) $$ Hpay
  -- the second-phase transfer (0, 0) has read its half: the share lent comes back
  iapply (wp_wait_d m ρ K c 2 0 _ rfl 35 (dst := gSl 0) rfl _ (mw_end c _)) $$ [Hcs2_0 HO Hp2_0]
  · isplitr; · iexact HR
    isplitr; · iexact Hlev
    isplitl [Hcs2_0]; · iexact Hcs2_0
    isplitl [HO]; · iexact HO
    iexact Hp2_0
  iintro ⟨HO, Hp2_0, Hpay⟩
  ihave Hgs_0 := (Entails.of_eq (payD_2 m ρ c 0 0 0 4 rfl rfl rfl)) $$ Hpay
  -- the second-phase transfer (0, 2) has read its half: the share lent comes back
  iapply (wp_wait_d m ρ K c 2 2 _ rfl 35 (dst := gSl 0) rfl _ (mw_end c _)) $$ [Hcs2_2 HO Hp2_2]
  · isplitr; · iexact HR
    isplitr; · iexact Hlev
    isplitl [Hcs2_2]; · iexact Hcs2_2
    isplitl [HO]; · iexact HO
    iexact Hp2_2
  iintro ⟨HO, Hp2_2, Hpay⟩
  ihave Hgs_2 := (Entails.of_eq (payD_2 m ρ c 0 2 2 5 rfl rfl rfl)) $$ Hpay
  -- the second-phase transfer (0, 3) has read its half: the share lent comes back
  iapply (wp_wait_d m ρ K c 2 3 _ rfl 35 (dst := gSl 0) rfl _ (mw_end c _)) $$ [Hcs2_3 HO Hp2_3]
  · isplitr; · iexact HR
    isplitr; · iexact Hlev
    isplitl [Hcs2_3]; · iexact Hcs2_3
    isplitl [HO]; · iexact HO
    iexact Hp2_3
  iintro ⟨HO, Hp2_3, Hpay⟩
  ihave Hgs_3 := (Entails.of_eq (payD_2 m ρ c 0 3 3 6 rfl rfl rfl)) $$ Hpay
  -- the second-phase transfer (1, 5) has read its half: the share lent comes back
  iapply (wp_wait_d m ρ K c 2 12 _ rfl 35 (dst := gSl 1) rfl _ (mw_end c _)) $$ [Hcs2_12 HO Hp2_12]
  · isplitr; · iexact HR
    isplitr; · iexact Hlev
    isplitl [Hcs2_12]; · iexact Hcs2_12
    isplitl [HO]; · iexact HO
    iexact Hp2_12
  iintro ⟨HO, Hp2_12, Hpay⟩
  ihave Hgs_12 := (Entails.of_eq (payD_2 m ρ c 1 5 12 0 rfl rfl rfl)) $$ Hpay
  -- the second-phase transfer (1, 1) has read its half: the share lent comes back
  iapply (wp_wait_d m ρ K c 2 8 _ rfl 35 (dst := gSl 1) rfl _ (mw_end c _)) $$ [Hcs2_8 HO Hp2_8]
  · isplitr; · iexact HR
    isplitr; · iexact Hlev
    isplitl [Hcs2_8]; · iexact Hcs2_8
    isplitl [HO]; · iexact HO
    iexact Hp2_8
  iintro ⟨HO, Hp2_8, Hpay⟩
  ihave Hgs_8 := (Entails.of_eq (payD_2 m ρ c 1 1 8 1 rfl rfl rfl)) $$ Hpay
  -- the second-phase transfer (1, 4) has read its half: the share lent comes back
  iapply (wp_wait_d m ρ K c 2 11 _ rfl 35 (dst := gSl 1) rfl _ (mw_end c _)) $$ [Hcs2_11 HO Hp2_11]
  · isplitr; · iexact HR
    isplitr; · iexact Hlev
    isplitl [Hcs2_11]; · iexact Hcs2_11
    isplitl [HO]; · iexact HO
    iexact Hp2_11
  iintro ⟨HO, Hp2_11, Hpay⟩
  ihave Hgs_11 := (Entails.of_eq (payD_2 m ρ c 1 4 11 2 rfl rfl rfl)) $$ Hpay
  -- the second-phase transfer (1, 6) has read its half: the share lent comes back
  iapply (wp_wait_d m ρ K c 2 13 _ rfl 35 (dst := gSl 1) rfl _ (mw_end c _)) $$ [Hcs2_13 HO Hp2_13]
  · isplitr; · iexact HR
    isplitr; · iexact Hlev
    isplitl [Hcs2_13]; · iexact Hcs2_13
    isplitl [HO]; · iexact HO
    iexact Hp2_13
  iintro ⟨HO, Hp2_13, Hpay⟩
  ihave Hgs_13 := (Entails.of_eq (payD_2 m ρ c 1 6 13 3 rfl rfl rfl)) $$ Hpay
  -- the second-phase transfer (1, 0) has read its half: the share lent comes back
  iapply (wp_wait_d m ρ K c 2 7 _ rfl 35 (dst := gSl 1) rfl _ (mw_end c _)) $$ [Hcs2_7 HO Hp2_7]
  · isplitr; · iexact HR
    isplitr; · iexact Hlev
    isplitl [Hcs2_7]; · iexact Hcs2_7
    isplitl [HO]; · iexact HO
    iexact Hp2_7
  iintro ⟨HO, Hp2_7, Hpay⟩
  ihave Hgs_7 := (Entails.of_eq (payD_2 m ρ c 1 0 7 4 rfl rfl rfl)) $$ Hpay
  -- the second-phase transfer (1, 2) has read its half: the share lent comes back
  iapply (wp_wait_d m ρ K c 2 9 _ rfl 35 (dst := gSl 1) rfl _ (mw_end c _)) $$ [Hcs2_9 HO Hp2_9]
  · isplitr; · iexact HR
    isplitr; · iexact Hlev
    isplitl [Hcs2_9]; · iexact Hcs2_9
    isplitl [HO]; · iexact HO
    iexact Hp2_9
  iintro ⟨HO, Hp2_9, Hpay⟩
  ihave Hgs_9 := (Entails.of_eq (payD_2 m ρ c 1 2 9 5 rfl rfl rfl)) $$ Hpay
  -- the second-phase transfer (1, 3) has read its half: the share lent comes back
  iapply (wp_wait_d m ρ K c 2 10 _ rfl 35 (dst := gSl 1) rfl _ (mw_end c _)) $$ [Hcs2_10 HO Hp2_10]
  · isplitr; · iexact HR
    isplitr; · iexact Hlev
    isplitl [Hcs2_10]; · iexact Hcs2_10
    isplitl [HO]; · iexact HO
    iexact Hp2_10
  iintro ⟨HO, Hp2_10, Hpay⟩
  ihave Hgs_10 := (Entails.of_eq (payD_2 m ρ c 1 3 10 6 rfl rfl rfl)) $$ Hpay
  -- every own DMA cell's one round is over: the cells close, their counters at zero are the device's again
  imod (close_d m ρ K c 0 5) $$ [Hp0_5] with Hz0_5
  · isplitr; · iexact HR
    iexact Hp0_5
  imod (close_d m ρ K c 0 1) $$ [Hp0_1] with Hz0_1
  · isplitr; · iexact HR
    iexact Hp0_1
  imod (close_d m ρ K c 0 4) $$ [Hp0_4] with Hz0_4
  · isplitr; · iexact HR
    iexact Hp0_4
  imod (close_d m ρ K c 0 6) $$ [Hp0_6] with Hz0_6
  · isplitr; · iexact HR
    iexact Hp0_6
  imod (close_d m ρ K c 0 0) $$ [Hp0_0] with Hz0_0
  · isplitr; · iexact HR
    iexact Hp0_0
  imod (close_d m ρ K c 0 2) $$ [Hp0_2] with Hz0_2
  · isplitr; · iexact HR
    iexact Hp0_2
  imod (close_d m ρ K c 0 3) $$ [Hp0_3] with Hz0_3
  · isplitr; · iexact HR
    iexact Hp0_3
  imod (close_d m ρ K c 0 12) $$ [Hp0_12] with Hz0_12
  · isplitr; · iexact HR
    iexact Hp0_12
  imod (close_d m ρ K c 0 8) $$ [Hp0_8] with Hz0_8
  · isplitr; · iexact HR
    iexact Hp0_8
  imod (close_d m ρ K c 0 11) $$ [Hp0_11] with Hz0_11
  · isplitr; · iexact HR
    iexact Hp0_11
  imod (close_d m ρ K c 0 13) $$ [Hp0_13] with Hz0_13
  · isplitr; · iexact HR
    iexact Hp0_13
  imod (close_d m ρ K c 0 7) $$ [Hp0_7] with Hz0_7
  · isplitr; · iexact HR
    iexact Hp0_7
  imod (close_d m ρ K c 0 9) $$ [Hp0_9] with Hz0_9
  · isplitr; · iexact HR
    iexact Hp0_9
  imod (close_d m ρ K c 0 10) $$ [Hp0_10] with Hz0_10
  · isplitr; · iexact HR
    iexact Hp0_10
  imod (close_d m ρ K c 1 5) $$ [Hp1_5] with Hz1_5
  · isplitr; · iexact HR
    iexact Hp1_5
  imod (close_d m ρ K c 1 1) $$ [Hp1_1] with Hz1_1
  · isplitr; · iexact HR
    iexact Hp1_1
  imod (close_d m ρ K c 1 4) $$ [Hp1_4] with Hz1_4
  · isplitr; · iexact HR
    iexact Hp1_4
  imod (close_d m ρ K c 1 6) $$ [Hp1_6] with Hz1_6
  · isplitr; · iexact HR
    iexact Hp1_6
  imod (close_d m ρ K c 1 0) $$ [Hp1_0] with Hz1_0
  · isplitr; · iexact HR
    iexact Hp1_0
  imod (close_d m ρ K c 1 2) $$ [Hp1_2] with Hz1_2
  · isplitr; · iexact HR
    iexact Hp1_2
  imod (close_d m ρ K c 1 3) $$ [Hp1_3] with Hz1_3
  · isplitr; · iexact HR
    iexact Hp1_3
  imod (close_d m ρ K c 1 12) $$ [Hp1_12] with Hz1_12
  · isplitr; · iexact HR
    iexact Hp1_12
  imod (close_d m ρ K c 1 8) $$ [Hp1_8] with Hz1_8
  · isplitr; · iexact HR
    iexact Hp1_8
  imod (close_d m ρ K c 1 11) $$ [Hp1_11] with Hz1_11
  · isplitr; · iexact HR
    iexact Hp1_11
  imod (close_d m ρ K c 1 13) $$ [Hp1_13] with Hz1_13
  · isplitr; · iexact HR
    iexact Hp1_13
  imod (close_d m ρ K c 1 7) $$ [Hp1_7] with Hz1_7
  · isplitr; · iexact HR
    iexact Hp1_7
  imod (close_d m ρ K c 1 9) $$ [Hp1_9] with Hz1_9
  · isplitr; · iexact HR
    iexact Hp1_9
  imod (close_d m ρ K c 1 10) $$ [Hp1_10] with Hz1_10
  · isplitr; · iexact HR
    iexact Hp1_10
  imod (close_d m ρ K c 2 5) $$ [Hp2_5] with Hz2_5
  · isplitr; · iexact HR
    iexact Hp2_5
  imod (close_d m ρ K c 2 1) $$ [Hp2_1] with Hz2_1
  · isplitr; · iexact HR
    iexact Hp2_1
  imod (close_d m ρ K c 2 4) $$ [Hp2_4] with Hz2_4
  · isplitr; · iexact HR
    iexact Hp2_4
  imod (close_d m ρ K c 2 6) $$ [Hp2_6] with Hz2_6
  · isplitr; · iexact HR
    iexact Hp2_6
  imod (close_d m ρ K c 2 0) $$ [Hp2_0] with Hz2_0
  · isplitr; · iexact HR
    iexact Hp2_0
  imod (close_d m ρ K c 2 2) $$ [Hp2_2] with Hz2_2
  · isplitr; · iexact HR
    iexact Hp2_2
  imod (close_d m ρ K c 2 3) $$ [Hp2_3] with Hz2_3
  · isplitr; · iexact HR
    iexact Hp2_3
  imod (close_d m ρ K c 2 12) $$ [Hp2_12] with Hz2_12
  · isplitr; · iexact HR
    iexact Hp2_12
  imod (close_d m ρ K c 2 8) $$ [Hp2_8] with Hz2_8
  · isplitr; · iexact HR
    iexact Hp2_8
  imod (close_d m ρ K c 2 11) $$ [Hp2_11] with Hz2_11
  · isplitr; · iexact HR
    iexact Hp2_11
  imod (close_d m ρ K c 2 13) $$ [Hp2_13] with Hz2_13
  · isplitr; · iexact HR
    iexact Hp2_13
  imod (close_d m ρ K c 2 7) $$ [Hp2_7] with Hz2_7
  · isplitr; · iexact HR
    iexact Hp2_7
  imod (close_d m ρ K c 2 9) $$ [Hp2_9] with Hz2_9
  · isplitr; · iexact HR
    iexact Hp2_9
  imod (close_d m ρ K c 2 10) $$ [Hp2_10] with Hz2_10
  · isplitr; · iexact HR
    iexact Hp2_10
  imod (close_d m ρ K c 3 5) $$ [Hp3_5] with Hz3_5
  · isplitr; · iexact HR
    iexact Hp3_5
  imod (close_d m ρ K c 3 1) $$ [Hp3_1] with Hz3_1
  · isplitr; · iexact HR
    iexact Hp3_1
  imod (close_d m ρ K c 3 4) $$ [Hp3_4] with Hz3_4
  · isplitr; · iexact HR
    iexact Hp3_4
  imod (close_d m ρ K c 3 6) $$ [Hp3_6] with Hz3_6
  · isplitr; · iexact HR
    iexact Hp3_6
  imod (close_d m ρ K c 3 0) $$ [Hp3_0] with Hz3_0
  · isplitr; · iexact HR
    iexact Hp3_0
  imod (close_d m ρ K c 3 2) $$ [Hp3_2] with Hz3_2
  · isplitr; · iexact HR
    iexact Hp3_2
  imod (close_d m ρ K c 3 3) $$ [Hp3_3] with Hz3_3
  · isplitr; · iexact HR
    iexact Hp3_3
  imod (close_d m ρ K c 3 12) $$ [Hp3_12] with Hz3_12
  · isplitr; · iexact HR
    iexact Hp3_12
  imod (close_d m ρ K c 3 8) $$ [Hp3_8] with Hz3_8
  · isplitr; · iexact HR
    iexact Hp3_8
  imod (close_d m ρ K c 3 11) $$ [Hp3_11] with Hz3_11
  · isplitr; · iexact HR
    iexact Hp3_11
  imod (close_d m ρ K c 3 13) $$ [Hp3_13] with Hz3_13
  · isplitr; · iexact HR
    iexact Hp3_13
  imod (close_d m ρ K c 3 7) $$ [Hp3_7] with Hz3_7
  · isplitr; · iexact HR
    iexact Hp3_7
  imod (close_d m ρ K c 3 9) $$ [Hp3_9] with Hz3_9
  · isplitr; · iexact HR
    iexact Hp3_9
  imod (close_d m ρ K c 3 10) $$ [Hp3_10] with Hz3_10
  · isplitr; · iexact HR
    iexact Hp3_10
  -- the 16-bit copy put back together
  ihave Hh := (give_hsl' c 1 3 10 rfl rfl [9, 7, 13, 11, 8, 12, 3, 2, 0, 6, 4, 1, 5] (by decide) _ _) $$ [Hh_10 Hh]
  · isplitl [Hh_10]; · iexact Hh_10
    iexact Hh
  icases Hh with ⟨%fh13, Hh⟩
  ihave Hh := (give_hsl' c 1 2 9 rfl rfl [7, 13, 11, 8, 12, 3, 2, 0, 6, 4, 1, 5] (by decide) _ _) $$ [Hh_9 Hh]
  · isplitl [Hh_9]; · iexact Hh_9
    iexact Hh
  icases Hh with ⟨%fh12, Hh⟩
  ihave Hh := (give_hsl' c 1 0 7 rfl rfl [13, 11, 8, 12, 3, 2, 0, 6, 4, 1, 5] (by decide) _ _) $$ [Hh_7 Hh]
  · isplitl [Hh_7]; · iexact Hh_7
    iexact Hh
  icases Hh with ⟨%fh11, Hh⟩
  ihave Hh := (give_hsl' c 1 6 13 rfl rfl [11, 8, 12, 3, 2, 0, 6, 4, 1, 5] (by decide) _ _) $$ [Hh_13 Hh]
  · isplitl [Hh_13]; · iexact Hh_13
    iexact Hh
  icases Hh with ⟨%fh10, Hh⟩
  ihave Hh := (give_hsl' c 1 4 11 rfl rfl [8, 12, 3, 2, 0, 6, 4, 1, 5] (by decide) _ _) $$ [Hh_11 Hh]
  · isplitl [Hh_11]; · iexact Hh_11
    iexact Hh
  icases Hh with ⟨%fh9, Hh⟩
  ihave Hh := (give_hsl' c 1 1 8 rfl rfl [12, 3, 2, 0, 6, 4, 1, 5] (by decide) _ _) $$ [Hh_8 Hh]
  · isplitl [Hh_8]; · iexact Hh_8
    iexact Hh
  icases Hh with ⟨%fh8, Hh⟩
  ihave Hh := (give_hsl' c 1 5 12 rfl rfl [3, 2, 0, 6, 4, 1, 5] (by decide) _ _) $$ [Hh_12 Hh]
  · isplitl [Hh_12]; · iexact Hh_12
    iexact Hh
  icases Hh with ⟨%fh7, Hh⟩
  ihave Hh := (give_hsl' c 0 3 3 rfl rfl [2, 0, 6, 4, 1, 5] (by decide) _ _) $$ [Hh_3 Hh]
  · isplitl [Hh_3]; · iexact Hh_3
    iexact Hh
  icases Hh with ⟨%fh6, Hh⟩
  ihave Hh := (give_hsl' c 0 2 2 rfl rfl [0, 6, 4, 1, 5] (by decide) _ _) $$ [Hh_2 Hh]
  · isplitl [Hh_2]; · iexact Hh_2
    iexact Hh
  icases Hh with ⟨%fh5, Hh⟩
  ihave Hh := (give_hsl' c 0 0 0 rfl rfl [6, 4, 1, 5] (by decide) _ _) $$ [Hh_0 Hh]
  · isplitl [Hh_0]; · iexact Hh_0
    iexact Hh
  icases Hh with ⟨%fh4, Hh⟩
  ihave Hh := (give_hsl' c 0 6 6 rfl rfl [4, 1, 5] (by decide) _ _) $$ [Hh_6 Hh]
  · isplitl [Hh_6]; · iexact Hh_6
    iexact Hh
  icases Hh with ⟨%fh3, Hh⟩
  ihave Hh := (give_hsl' c 0 4 4 rfl rfl [1, 5] (by decide) _ _) $$ [Hh_4 Hh]
  · isplitl [Hh_4]; · iexact Hh_4
    iexact Hh
  icases Hh with ⟨%fh2, Hh⟩
  ihave Hh := (give_hsl' c 0 1 1 rfl rfl [5] (by decide) _ _) $$ [Hh_1 Hh]
  · isplitl [Hh_1]; · iexact Hh_1
    iexact Hh
  icases Hh with ⟨%fh1, Hh⟩
  ihave Hh := (give_hsl' c 0 5 5 rfl rfl [] (by decide) _ _) $$ [Hh_5 Hh]
  · isplitl [Hh_5]; · iexact Hh_5
    iexact Hh
  icases Hh with ⟨%fh0, Hh⟩
  ihave Hh := (from_restH c _) $$ Hh
  -- the segment buffer: the shares lent come back onto what was kept, then the halves join
  ihave Hg_0 := (share_join c 0 6 7 rfl _) $$ [Hgs_3 Hg_0]
  · isplitl [Hgs_3]; · iexact Hgs_3
    iexact Hg_0
  ihave Hg_0 := (share_join c 0 5 6 rfl _) $$ [Hgs_2 Hg_0]
  · isplitl [Hgs_2]; · iexact Hgs_2
    iexact Hg_0
  ihave Hg_0 := (share_join c 0 4 5 rfl _) $$ [Hgs_0 Hg_0]
  · isplitl [Hgs_0]; · iexact Hgs_0
    iexact Hg_0
  ihave Hg_0 := (share_join c 0 3 4 rfl _) $$ [Hgs_6 Hg_0]
  · isplitl [Hgs_6]; · iexact Hgs_6
    iexact Hg_0
  ihave Hg_0 := (share_join c 0 2 3 rfl _) $$ [Hgs_4 Hg_0]
  · isplitl [Hgs_4]; · iexact Hgs_4
    iexact Hg_0
  ihave Hg_0 := (share_join c 0 1 2 rfl _) $$ [Hgs_1 Hg_0]
  · isplitl [Hgs_1]; · iexact Hgs_1
    iexact Hg_0
  ihave Hg_0 := (share_join c 0 0 1 rfl _) $$ [Hgs_5 Hg_0]
  · isplitl [Hgs_5]; · iexact Hgs_5
    iexact Hg_0
  ihave Hg_0 := (from_shr0 c 0 _) $$ Hg_0
  ihave Hg_1 := (share_join c 1 6 7 rfl _) $$ [Hgs_10 Hg_1]
  · isplitl [Hgs_10]; · iexact Hgs_10
    iexact Hg_1
  ihave Hg_1 := (share_join c 1 5 6 rfl _) $$ [Hgs_9 Hg_1]
  · isplitl [Hgs_9]; · iexact Hgs_9
    iexact Hg_1
  ihave Hg_1 := (share_join c 1 4 5 rfl _) $$ [Hgs_7 Hg_1]
  · isplitl [Hgs_7]; · iexact Hgs_7
    iexact Hg_1
  ihave Hg_1 := (share_join c 1 3 4 rfl _) $$ [Hgs_13 Hg_1]
  · isplitl [Hgs_13]; · iexact Hgs_13
    iexact Hg_1
  ihave Hg_1 := (share_join c 1 2 3 rfl _) $$ [Hgs_11 Hg_1]
  · isplitl [Hgs_11]; · iexact Hgs_11
    iexact Hg_1
  ihave Hg_1 := (share_join c 1 1 2 rfl _) $$ [Hgs_8 Hg_1]
  · isplitl [Hgs_8]; · iexact Hgs_8
    iexact Hg_1
  ihave Hg_1 := (share_join c 1 0 1 rfl _) $$ [Hgs_12 Hg_1]
  · isplitl [Hgs_12]; · iexact Hgs_12
    iexact Hg_1
  ihave Hg_1 := (from_shr0 c 1 _) $$ Hg_1
  ihave Hg := (give_piece (ℓ := (c : Thread nD τ).loc cc0_scratch1) gsl_sub _ _) $$ [Hg_1 Hg]
  · isplitl [Hg_1]; · iexact Hg_1
    iexact Hg
  icases Hg with ⟨%fgB, Hg⟩
  ihave Hg := (give_piece (ℓ := (c : Thread nD τ).loc cc0_scratch1) (Finset.subset_univ (gSl 0).view.set) _ _) $$ [Hg_0 Hg]
  · isplitl [Hg_0]; · iexact Hg_0
    iexact Hg
  icases Hg with ⟨%fgA, Hg⟩
  -- the two receive buffers put back together
  ihave Hr := (give_rslot c (1, 3) [(1, 2), (1, 0), (1, 6), (1, 4), (1, 1), (1, 5), (0, 3), (0, 2), (0, 0), (0, 6), (0, 4), (0, 1), (0, 5)] (by decide) _ _) $$ [Hrr_10 Hr]
  · isplitl [Hrr_10]; · iexact Hrr_10
    iexact Hr
  icases Hr with ⟨%fr13, Hr⟩
  ihave Ha := (give_aslot c (1, 3) [(1, 2), (1, 0), (1, 6), (1, 4), (1, 1), (1, 5), (0, 3), (0, 2), (0, 0), (0, 6), (0, 4), (0, 1), (0, 5)] (by decide) _ _) $$ [Har_10 Ha]
  · isplitl [Har_10]; · iexact Har_10
    iexact Ha
  icases Ha with ⟨%fa13, Ha⟩
  ihave Hr := (give_rslot c (1, 2) [(1, 0), (1, 6), (1, 4), (1, 1), (1, 5), (0, 3), (0, 2), (0, 0), (0, 6), (0, 4), (0, 1), (0, 5)] (by decide) _ _) $$ [Hrr_9 Hr]
  · isplitl [Hrr_9]; · iexact Hrr_9
    iexact Hr
  icases Hr with ⟨%fr12, Hr⟩
  ihave Ha := (give_aslot c (1, 2) [(1, 0), (1, 6), (1, 4), (1, 1), (1, 5), (0, 3), (0, 2), (0, 0), (0, 6), (0, 4), (0, 1), (0, 5)] (by decide) _ _) $$ [Har_9 Ha]
  · isplitl [Har_9]; · iexact Har_9
    iexact Ha
  icases Ha with ⟨%fa12, Ha⟩
  ihave Hr := (give_rslot c (1, 0) [(1, 6), (1, 4), (1, 1), (1, 5), (0, 3), (0, 2), (0, 0), (0, 6), (0, 4), (0, 1), (0, 5)] (by decide) _ _) $$ [Hrr_7 Hr]
  · isplitl [Hrr_7]; · iexact Hrr_7
    iexact Hr
  icases Hr with ⟨%fr11, Hr⟩
  ihave Ha := (give_aslot c (1, 0) [(1, 6), (1, 4), (1, 1), (1, 5), (0, 3), (0, 2), (0, 0), (0, 6), (0, 4), (0, 1), (0, 5)] (by decide) _ _) $$ [Har_7 Ha]
  · isplitl [Har_7]; · iexact Har_7
    iexact Ha
  icases Ha with ⟨%fa11, Ha⟩
  ihave Hr := (give_rslot c (1, 6) [(1, 4), (1, 1), (1, 5), (0, 3), (0, 2), (0, 0), (0, 6), (0, 4), (0, 1), (0, 5)] (by decide) _ _) $$ [Hrr_13 Hr]
  · isplitl [Hrr_13]; · iexact Hrr_13
    iexact Hr
  icases Hr with ⟨%fr10, Hr⟩
  ihave Ha := (give_aslot c (1, 6) [(1, 4), (1, 1), (1, 5), (0, 3), (0, 2), (0, 0), (0, 6), (0, 4), (0, 1), (0, 5)] (by decide) _ _) $$ [Har_13 Ha]
  · isplitl [Har_13]; · iexact Har_13
    iexact Ha
  icases Ha with ⟨%fa10, Ha⟩
  ihave Hr := (give_rslot c (1, 4) [(1, 1), (1, 5), (0, 3), (0, 2), (0, 0), (0, 6), (0, 4), (0, 1), (0, 5)] (by decide) _ _) $$ [Hrr_11 Hr]
  · isplitl [Hrr_11]; · iexact Hrr_11
    iexact Hr
  icases Hr with ⟨%fr9, Hr⟩
  ihave Ha := (give_aslot c (1, 4) [(1, 1), (1, 5), (0, 3), (0, 2), (0, 0), (0, 6), (0, 4), (0, 1), (0, 5)] (by decide) _ _) $$ [Har_11 Ha]
  · isplitl [Har_11]; · iexact Har_11
    iexact Ha
  icases Ha with ⟨%fa9, Ha⟩
  ihave Hr := (give_rslot c (1, 1) [(1, 5), (0, 3), (0, 2), (0, 0), (0, 6), (0, 4), (0, 1), (0, 5)] (by decide) _ _) $$ [Hrr_8 Hr]
  · isplitl [Hrr_8]; · iexact Hrr_8
    iexact Hr
  icases Hr with ⟨%fr8, Hr⟩
  ihave Ha := (give_aslot c (1, 1) [(1, 5), (0, 3), (0, 2), (0, 0), (0, 6), (0, 4), (0, 1), (0, 5)] (by decide) _ _) $$ [Har_8 Ha]
  · isplitl [Har_8]; · iexact Har_8
    iexact Ha
  icases Ha with ⟨%fa8, Ha⟩
  ihave Hr := (give_rslot c (1, 5) [(0, 3), (0, 2), (0, 0), (0, 6), (0, 4), (0, 1), (0, 5)] (by decide) _ _) $$ [Hrr_12 Hr]
  · isplitl [Hrr_12]; · iexact Hrr_12
    iexact Hr
  icases Hr with ⟨%fr7, Hr⟩
  ihave Ha := (give_aslot c (1, 5) [(0, 3), (0, 2), (0, 0), (0, 6), (0, 4), (0, 1), (0, 5)] (by decide) _ _) $$ [Har_12 Ha]
  · isplitl [Har_12]; · iexact Har_12
    iexact Ha
  icases Ha with ⟨%fa7, Ha⟩
  ihave Hr := (give_rslot c (0, 3) [(0, 2), (0, 0), (0, 6), (0, 4), (0, 1), (0, 5)] (by decide) _ _) $$ [Hrr_3 Hr]
  · isplitl [Hrr_3]; · iexact Hrr_3
    iexact Hr
  icases Hr with ⟨%fr6, Hr⟩
  ihave Ha := (give_aslot c (0, 3) [(0, 2), (0, 0), (0, 6), (0, 4), (0, 1), (0, 5)] (by decide) _ _) $$ [Har_3 Ha]
  · isplitl [Har_3]; · iexact Har_3
    iexact Ha
  icases Ha with ⟨%fa6, Ha⟩
  ihave Hr := (give_rslot c (0, 2) [(0, 0), (0, 6), (0, 4), (0, 1), (0, 5)] (by decide) _ _) $$ [Hrr_2 Hr]
  · isplitl [Hrr_2]; · iexact Hrr_2
    iexact Hr
  icases Hr with ⟨%fr5, Hr⟩
  ihave Ha := (give_aslot c (0, 2) [(0, 0), (0, 6), (0, 4), (0, 1), (0, 5)] (by decide) _ _) $$ [Har_2 Ha]
  · isplitl [Har_2]; · iexact Har_2
    iexact Ha
  icases Ha with ⟨%fa5, Ha⟩
  ihave Hr := (give_rslot c (0, 0) [(0, 6), (0, 4), (0, 1), (0, 5)] (by decide) _ _) $$ [Hrr_0 Hr]
  · isplitl [Hrr_0]; · iexact Hrr_0
    iexact Hr
  icases Hr with ⟨%fr4, Hr⟩
  ihave Ha := (give_aslot c (0, 0) [(0, 6), (0, 4), (0, 1), (0, 5)] (by decide) _ _) $$ [Har_0 Ha]
  · isplitl [Har_0]; · iexact Har_0
    iexact Ha
  icases Ha with ⟨%fa4, Ha⟩
  ihave Hr := (give_rslot c (0, 6) [(0, 4), (0, 1), (0, 5)] (by decide) _ _) $$ [Hrr_6 Hr]
  · isplitl [Hrr_6]; · iexact Hrr_6
    iexact Hr
  icases Hr with ⟨%fr3, Hr⟩
  ihave Ha := (give_aslot c (0, 6) [(0, 4), (0, 1), (0, 5)] (by decide) _ _) $$ [Har_6 Ha]
  · isplitl [Har_6]; · iexact Har_6
    iexact Ha
  icases Ha with ⟨%fa3, Ha⟩
  ihave Hr := (give_rslot c (0, 4) [(0, 1), (0, 5)] (by decide) _ _) $$ [Hrr_4 Hr]
  · isplitl [Hrr_4]; · iexact Hrr_4
    iexact Hr
  icases Hr with ⟨%fr2, Hr⟩
  ihave Ha := (give_aslot c (0, 4) [(0, 1), (0, 5)] (by decide) _ _) $$ [Har_4 Ha]
  · isplitl [Har_4]; · iexact Har_4
    iexact Ha
  icases Ha with ⟨%fa2, Ha⟩
  ihave Hr := (give_rslot c (0, 1) [(0, 5)] (by decide) _ _) $$ [Hrr_1 Hr]
  · isplitl [Hrr_1]; · iexact Hrr_1
    iexact Hr
  icases Hr with ⟨%fr1, Hr⟩
  ihave Ha := (give_aslot c (0, 1) [(0, 5)] (by decide) _ _) $$ [Har_1 Ha]
  · isplitl [Har_1]; · iexact Har_1
    iexact Ha
  icases Ha with ⟨%fa1, Ha⟩
  ihave Hr := (give_rslot c (0, 5) [] (by decide) _ _) $$ [Hrr_5 Hr]
  · isplitl [Hrr_5]; · iexact Hrr_5
    iexact Hr
  icases Hr with ⟨%fr0, Hr⟩
  ihave Ha := (give_aslot c (0, 5) [] (by decide) _ _) $$ [Har_5 Ha]
  · isplitl [Har_5]; · iexact Har_5
    iexact Ha
  icases Ha with ⟨%fa0, Ha⟩
  ihave Hr := (from_restR c _) $$ Hr
  ihave Ha := (from_restA c _) $$ Ha
  -- the result: a function of the launch contents
  ihave Hout := (conv_out m ρ c g1 _ _ _ _ _ _ _ _ _ _ _ _ _ _ _ _ _ _ _ _ _ _ _ _ _ _ _ _) $$ Hout
  rw [wp_ret]; imodintro
  iapply Hk
  unfold bodyPost Φ₁ scr Dat.owesAt Pipeline.owesWithin
  rw [show (dats m ρ 0 c).owed t₀.succ = 0 from rfl]
  isplitr [HO Hx Hout]
  · isplitl [Hh]; · iexists _; iexact Hh
    isplitl [Hg]; · iexists _; iexact Hg
    isplitl [Hr]; · iexists _; iexact Hr
    isplitl [Ha]; · iexists _; iexact Ha
    iapply (Entails.of_eq (semX_eq (F := F) c).symm)
    unfold semX
    isplitl [Hz0_5]; · iexact Hz0_5
    isplitl [Hz0_1]; · iexact Hz0_1
    isplitl [Hz0_4]; · iexact Hz0_4
    isplitl [Hz0_6]; · iexact Hz0_6
    isplitl [Hz0_0]; · iexact Hz0_0
    isplitl [Hz0_2]; · iexact Hz0_2
    isplitl [Hz0_3]; · iexact Hz0_3
    isplitl [Hz0_12]; · iexact Hz0_12
    isplitl [Hz0_8]; · iexact Hz0_8
    isplitl [Hz0_11]; · iexact Hz0_11
    isplitl [Hz0_13]; · iexact Hz0_13
    isplitl [Hz0_7]; · iexact Hz0_7
    isplitl [Hz0_9]; · iexact Hz0_9
    isplitl [Hz0_10]; · iexact Hz0_10
    isplitl [Hz1_5]; · iexact Hz1_5
    isplitl [Hz1_1]; · iexact Hz1_1
    isplitl [Hz1_4]; · iexact Hz1_4
    isplitl [Hz1_6]; · iexact Hz1_6
    isplitl [Hz1_0]; · iexact Hz1_0
    isplitl [Hz1_2]; · iexact Hz1_2
    isplitl [Hz1_3]; · iexact Hz1_3
    isplitl [Hz1_12]; · iexact Hz1_12
    isplitl [Hz1_8]; · iexact Hz1_8
    isplitl [Hz1_11]; · iexact Hz1_11
    isplitl [Hz1_13]; · iexact Hz1_13
    isplitl [Hz1_7]; · iexact Hz1_7
    isplitl [Hz1_9]; · iexact Hz1_9
    isplitl [Hz1_10]; · iexact Hz1_10
    isplitl [Hz2_5]; · iexact Hz2_5
    isplitl [Hz2_1]; · iexact Hz2_1
    isplitl [Hz2_4]; · iexact Hz2_4
    isplitl [Hz2_6]; · iexact Hz2_6
    isplitl [Hz2_0]; · iexact Hz2_0
    isplitl [Hz2_2]; · iexact Hz2_2
    isplitl [Hz2_3]; · iexact Hz2_3
    isplitl [Hz2_12]; · iexact Hz2_12
    isplitl [Hz2_8]; · iexact Hz2_8
    isplitl [Hz2_11]; · iexact Hz2_11
    isplitl [Hz2_13]; · iexact Hz2_13
    isplitl [Hz2_7]; · iexact Hz2_7
    isplitl [Hz2_9]; · iexact Hz2_9
    isplitl [Hz2_10]; · iexact Hz2_10
    isplitl [Hz3_5]; · iexact Hz3_5
    isplitl [Hz3_1]; · iexact Hz3_1
    isplitl [Hz3_4]; · iexact Hz3_4
    isplitl [Hz3_6]; · iexact Hz3_6
    isplitl [Hz3_0]; · iexact Hz3_0
    isplitl [Hz3_2]; · iexact Hz3_2
    isplitl [Hz3_3]; · iexact Hz3_3
    isplitl [Hz3_12]; · iexact Hz3_12
    isplitl [Hz3_8]; · iexact Hz3_8
    isplitl [Hz3_11]; · iexact Hz3_11
    isplitl [Hz3_13]; · iexact Hz3_13
    isplitl [Hz3_7]; · iexact Hz3_7
    isplitl [Hz3_9]; · iexact Hz3_9
    iexact Hz3_10
  isplitl [HO]
  · iexists _
    isplitr
    on_goal 2 => iexact HO
    ipureintro; exact fun _ _ => Or.inl trivial
  isplitl [Hx]
  · iexists _; isplitr; · (ipureintro; rfl)
    iexact Hx
  iexists _; isplitr; · (ipureintro; rfl)
  iexact Hout

set_option maxHeartbeats 4000000 in
set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ c)
  unfold bodyPre Φ₀ start
  iintro ⟨⟨⟨⟨%K, Hg⟩, Hrest⟩, Hscr⟩, Ho, Hx, Hout⟩
  ihave Hg := (Entails.of_eq (ghostX_eq m ρ K c)) $$ Hg
  iapply (sound_body m ρ K c fun _ => bodyPost m ρ c)
  unfold bodyPreK
  isplitr []
  · isplitl [Hg Hrest Hscr]
    · isplitl [Hg Hrest]
      · isplitl [Hg]; · iexact Hg
        iexact Hrest
      iexact Hscr
    isplitl [Ho]; · iexact Ho
    isplitl [Hx] <;> iassumption
  · iintro H; iexact H

end Cert.KernelIdealProof
end
-- ==== Proof.LaunchKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import proofs.«900485_g7700000000000486_dist_treered_v7x_i8_m512_n512_f32_1_alg».proof.Proof.BodyKernelIdeal
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CI → SemLoc sig) := by decide
theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have : k = k' := csem_injective (congrArg Prod.snd h)
  subst this; rfl
def ringCells : Finset (GSem nD τ sig) := Finset.univ.map ⟨kcell, kcell_injective⟩

/-- A device's own cells' duty tokens as minted: the seven duties of its barrier cell, the one duty of each DMA cell. -/
abbrev TI : Type := Fin 7 ⊕ (Fin 4 × Fin 14)
abbrev tsem : TI → SemLoc sig × Fin 7
  | .inl j => (.reg barS, j)
  | .inr ki => (.dma (dsem ki.1 ki.2), 0)
theorem tsem_injective : Function.Injective tsem := by decide
abbrev tokOf (ct : Dev nD × TI) : GSem nD τ sig × ℕ × Fin 7 := (((ct.1 : Thread nD τ), (tsem ct.2).1), 0, (tsem ct.2).2)
theorem tokOf_injective : Function.Injective (tokOf : Dev nD × TI → GSem nD τ sig × ℕ × Fin 7) := by
  rintro ⟨c, t⟩ ⟨c', t'⟩ h
  have h1 : c = c' := by have := congrArg (fun x : GSem nD τ sig × ℕ × Fin 7 => x.1.1.1) h; exact this
  subst h1
  have : t = t' := tsem_injective (Prod.ext (congrArg (fun x : GSem nD τ sig × ℕ × Fin 7 => x.1.2) h) (congrArg (fun x : GSem nD τ sig × ℕ × Fin 7 => x.2.2) h))
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun t : TI => dutyTok ER (tokOf (c, t)).1 0 (tokOf (c, t)).2.2

/-- What the launch element deals device `c`. -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A `bigSep` over a device's cells: the barrier cell first. -/
theorem bigSep_CI (Φ : CI → sProp 𝕄) : bigSep Finset.univ Φ = iprop(Φ none ∗ bigSep Finset.univ fun ki : Fin 4 × Fin 14 => Φ (some ki)) := by
  rw [bigSep_univ_at Φ none, show (Finset.univ : Finset CI).erase none = Finset.univ.map ⟨some, Option.some_injective _⟩ from by decide, bigSep_map]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_CI]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def recordsAll (K : Dev nD × CI → ℕ) : sProp 𝕄 := records m ρ K

/-- What stays with device `c`: the tokens of the duties IT pays. -/
def payToks (c : Dev nD) : sProp 𝕄 :=
  iprop(bigSepL jl (fun j => dutyTok ER (barCell (peer j c)) 0 j)
    ∗ bigSepL il (fun i => dutyTok ER (dCell c 0 i) 0 (0 : Fin 7)) ∗ bigSepL il (fun i => dutyTok ER (dCell (peer (jOf i) c) 1 i) 0 (0 : Fin 7))
    ∗ bigSepL il (fun i => dutyTok ER (dCell c 2 i) 0 (0 : Fin 7)) ∗ bigSepL il (fun i => dutyTok ER (dCell (peer (jOf i) c) 3 i) 0 (0 : Fin 7)))
/-- Its positions at round 0 of its own cells. -/
def posAll (c : Dev nD) : sProp 𝕄 :=
  iprop(atPos ER (barCell c) 0 ∅ 0
    ∗ bigSepL il (fun i => atPos ER (dCell c 0 i) 0 ∅ 0) ∗ bigSepL il (fun i => atPos ER (dCell c 1 i) 0 ∅ 0)
    ∗ bigSepL il (fun i => atPos ER (dCell c 2 i) 0 ∅ 0) ∗ bigSepL il (fun i => atPos ER (dCell c 3 i) 0 ∅ 0))

theorem ghost_intro (K : Dev nD × CI → ℕ) (c : Dev nD) : iprop(records m ρ K ∗ posAll c ∗ payToks c) ⊢ G' m ρ c := by
  unfold posAll payToks G' ghost
  iintro ⟨#HR, ⟨HB, H0, H1, H2, H3⟩, TB, T0, T1, T2, T3⟩
  iexists K
  isplitr; · iexact HR
  isplitl [HB]; · iexact HB
  isplitl [H0]; · iexact H0
  isplitl [H1]; · iexact H1
  isplitl [H2]; · iexact H2
  isplitl [H3]; · iexact H3
  isplitl [TB]; · iexact TB
  isplitl [T0]; · iexact T0
  isplitl [T1]; · iexact T1
  isplitl [T2]; · iexact T2
  iexact T3

/-- The re-indexing of (device, mask) pairs that sends a device to its partner. -/
def eB : Dev nD × Fin 7 ≃ Dev nD × Fin 7 where
  toFun p := (peer p.2 p.1, p.2)
  invFun p := (peer p.2 p.1, p.2)
  left_inv p := by obtain ⟨c, j⟩ := p; show (peer j (peer j c), j) = (c, j); rw [peer_peer]
  right_inv p := by obtain ⟨c, j⟩ := p; show (peer j (peer j c), j) = (c, j); rw [peer_peer]
def eD : Dev nD × Fin 14 ≃ Dev nD × Fin 14 where
  toFun p := (peer (jOf p.2) p.1, p.2)
  invFun p := (peer (jOf p.2) p.1, p.2)
  left_inv p := by obtain ⟨c, i⟩ := p; show (peer (jOf i) (peer (jOf i) c), i) = (c, i); rw [peer_peer]
  right_inv p := by obtain ⟨c, i⟩ := p; show (peer (jOf i) (peer (jOf i) c), i) = (c, i); rw [peer_peer]

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_jl (Φ : Fin 7 → sProp 𝕄) : bigSep Finset.univ Φ = bigSepL jl Φ := bigSep_univ_eq_bigSepL jl (by decide) (by decide) Φ
omit [FloatOps F] in
theorem bigSep_il (Φ : Fin 14 → sProp 𝕄) : bigSep Finset.univ Φ = bigSepL il Φ := bigSep_univ_eq_bigSepL il (by decide) (by decide) Φ

omit [FloatOps F] in
theorem toks_split (c : Dev nD) : (toks c : sProp 𝕄) = iprop((bigSep Finset.univ fun j : Fin 7 => dutyTok ER (barCell c) 0 j)
    ∗ (bigSep Finset.univ fun i : Fin 14 => dutyTok ER (dCell c 0 i) 0 (0 : Fin 7)) ∗ (bigSep Finset.univ fun i : Fin 14 => dutyTok ER (dCell c 1 i) 0 (0 : Fin 7))
    ∗ (bigSep Finset.univ fun i : Fin 14 => dutyTok ER (dCell c 2 i) 0 (0 : Fin 7)) ∗ (bigSep Finset.univ fun i : Fin 14 => dutyTok ER (dCell c 3 i) 0 (0 : Fin 7))) := by
  unfold toks; rw [bigSep_univ_sum, bigSep_univ_prod, bigSep_fin4]; rfl

omit [FloatOps F] in
theorem payToks_split (c : Dev nD) : (payToks c : sProp 𝕄) = iprop((bigSep Finset.univ fun j : Fin 7 => dutyTok ER (barCell (peer j c)) 0 j)
    ∗ (bigSep Finset.univ fun i : Fin 14 => dutyTok ER (dCell c 0 i) 0 (0 : Fin 7)) ∗ (bigSep Finset.univ fun i : Fin 14 => dutyTok ER (dCell (peer (jOf i) c) 1 i) 0 (0 : Fin 7))
    ∗ (bigSep Finset.univ fun i : Fin 14 => dutyTok ER (dCell c 2 i) 0 (0 : Fin 7)) ∗ (bigSep Finset.univ fun i : Fin 14 => dutyTok ER (dCell (peer (jOf i) c) 3 i) 0 (0 : Fin 7))) := by
  unfold payToks; rw [bigSep_jl, bigSep_il, bigSep_il, bigSep_il, bigSep_il]

omit [FloatOps F] in
/-- The tokens dealt to the devices that pay them: a barrier duty's to the partner under its mask, a receive duty's likewise. -/
theorem toks_around : (bigSep Finset.univ fun c : Dev nD => (toks c : sProp 𝕄)) ⊢ bigSep Finset.univ fun c : Dev nD => payToks c := by
  rw [bigSep_congr fun c _ => toks_split (F := F) c, bigSep_congr fun c _ => payToks_split (F := F) c]
  rw [bigSep_sep', bigSep_sep', bigSep_sep', bigSep_sep', bigSep_sep', bigSep_sep', bigSep_sep', bigSep_sep']
  rw [← bigSep_univ_prod (fun p : Dev nD × Fin 7 => (dutyTok ER (barCell p.1) 0 p.2 : sProp 𝕄)),
    bigSep_univ_equiv eB (fun p : Dev nD × Fin 7 => (dutyTok ER (barCell p.1) 0 p.2 : sProp 𝕄)), bigSep_univ_prod,
    ← bigSep_univ_prod (fun p : Dev nD × Fin 14 => (dutyTok ER (dCell p.1 1 p.2) 0 (0 : Fin 7) : sProp 𝕄)),
    bigSep_univ_equiv eD (fun p : Dev nD × Fin 14 => (dutyTok ER (dCell p.1 1 p.2) 0 (0 : Fin 7) : sProp 𝕄)), bigSep_univ_prod,
    ← bigSep_univ_prod (fun p : Dev nD × Fin 14 => (dutyTok ER (dCell p.1 3 p.2) 0 (0 : Fin 7) : sProp 𝕄)),
    bigSep_univ_equiv eD (fun p : Dev nD × Fin 14 => (dutyTok ER (dCell p.1 3 p.2) 0 (0 : Fin 7) : sProp 𝕄)), bigSep_univ_prod]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem pos_split (c : Dev nD) : (bigSep Finset.univ fun k : CI => (atPos ER (kcell (c, k)) 0 ∅ 0 : sProp 𝕄)) = posAll c := by
  unfold posAll; rw [bigSep_CI, bigSep_univ_prod, bigSep_fin4, bigSep_il, bigSep_il, bigSep_il, bigSep_il]

theorem regroup :
    (bigSep Finset.univ fun c : Dev nD => iprop((bigSep Finset.univ fun k => iprop(∃ κ : ℕ, cellInv ER (sched m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => posAll (F := F) c) payToks).symm)
    isplitl [Hat]
    · iapply (Entails.of_eq (bigSep_congr fun c _ => pos_split (F := F) c)); iexact Hat
    · iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- What the launch deals device `c` for what the others owe its cells: seven units on its barrier cell, a block's credit on
    each of its receive cells. -/
theorem creds (c : Dev nD) :
    (Pipeline.launchCred O₀ c : sProp 𝕄) ⊢ iprop(cred (tallyAt (barCell c) () 7)
      ∗ credX c) := by
  show (Pipeline.launchCred (fun d : Dev nD => ((((((((((((((((((((((((((((((((((((0 : CellTallies nD τ sig Unit) + tallyAt (dCell (peer 3 d) 3 10) () N32) + tallyAt (dCell (peer 2 d) 3 9) () N32) + tallyAt (dCell (peer 0 d) 3 7) () N32) + tallyAt (dCell (peer 6 d) 3 13) () N32) + tallyAt (dCell (peer 4 d) 3 11) () N32) + tallyAt (dCell (peer 1 d) 3 8) () N32) + tallyAt (dCell (peer 5 d) 3 12) () N32) + tallyAt (dCell (peer 3 d) 3 3) () N32) + tallyAt (dCell (peer 2 d) 3 2) () N32) + tallyAt (dCell (peer 0 d) 3 0) () N32) + tallyAt (dCell (peer 6 d) 3 6) () N32) + tallyAt (dCell (peer 4 d) 3 4) () N32) + tallyAt (dCell (peer 1 d) 3 1) () N32) + tallyAt (dCell (peer 5 d) 3 5) () N32) + tallyAt (dCell (peer 3 d) 1 10) () N32) + tallyAt (dCell (peer 2 d) 1 9) () N32) + tallyAt (dCell (peer 0 d) 1 7) () N32) + tallyAt (dCell (peer 6 d) 1 13) () N32) + tallyAt (dCell (peer 4 d) 1 11) () N32) + tallyAt (dCell (peer 1 d) 1 8) () N32) + tallyAt (dCell (peer 5 d) 1 12) () N32) + tallyAt (dCell (peer 3 d) 1 3) () N32) + tallyAt (dCell (peer 2 d) 1 2) () N32) + tallyAt (dCell (peer 0 d) 1 0) () N32) + tallyAt (dCell (peer 6 d) 1 6) () N32) + tallyAt (dCell (peer 4 d) 1 4) () N32) + tallyAt (dCell (peer 1 d) 1 1) () N32) + tallyAt (dCell (peer 5 d) 1 5) () N32) + tallyAt (barCell (peer 3 d)) () 1) + tallyAt (barCell (peer 2 d)) () 1) + tallyAt (barCell (peer 0 d)) () 1) + tallyAt (barCell (peer 6 d)) () 1) + tallyAt (barCell (peer 4 d)) () 1) + tallyAt (barCell (peer 1 d)) () 1) + tallyAt (barCell (peer 5 d)) () 1)) c : sProp 𝕄) ⊢ _
  simp only [Pipeline.launchCred_add, Pipeline.launchCred_zero]
  iintro ⟨⟨⟨⟨⟨⟨⟨⟨⟨⟨⟨⟨⟨⟨⟨⟨⟨⟨⟨⟨⟨⟨⟨⟨⟨⟨⟨⟨⟨⟨⟨⟨⟨⟨⟨-, L34⟩, L33⟩, L32⟩, L31⟩, L30⟩, L29⟩, L28⟩, L27⟩, L26⟩, L25⟩, L24⟩, L23⟩, L22⟩, L21⟩, L20⟩, L19⟩, L18⟩, L17⟩, L16⟩, L15⟩, L14⟩, L13⟩, L12⟩, L11⟩, L10⟩, L9⟩, L8⟩, L7⟩, L6⟩, L5⟩, L4⟩, L3⟩, L2⟩, L1⟩, L0⟩
  ihave C0 := (Pipeline.launchCred_tallyAt (.reg barS) (peer 5) (peer 5) (peer_peer 5) (peer_peer 5) () 1 c) $$ L0
  ihave C1 := (Pipeline.launchCred_tallyAt (.reg barS) (peer 1) (peer 1) (peer_peer 1) (peer_peer 1) () 1 c) $$ L1
  ihave C2 := (Pipeline.launchCred_tallyAt (.reg barS) (peer 4) (peer 4) (peer_peer 4) (peer_peer 4) () 1 c) $$ L2
  ihave C3 := (Pipeline.launchCred_tallyAt (.reg barS) (peer 6) (peer 6) (peer_peer 6) (peer_peer 6) () 1 c) $$ L3
  ihave C4 := (Pipeline.launchCred_tallyAt (.reg barS) (peer 0) (peer 0) (peer_peer 0) (peer_peer 0) () 1 c) $$ L4
  ihave C5 := (Pipeline.launchCred_tallyAt (.reg barS) (peer 2) (peer 2) (peer_peer 2) (peer_peer 2) () 1 c) $$ L5
  ihave C6 := (Pipeline.launchCred_tallyAt (.reg barS) (peer 3) (peer 3) (peer_peer 3) (peer_peer 3) () 1 c) $$ L6
  ihave C7 := (Pipeline.launchCred_tallyAt (.dma (dsem 1 5)) (peer 5) (peer 5) (peer_peer 5) (peer_peer 5) () N32 c) $$ L7
  ihave C8 := (Pipeline.launchCred_tallyAt (.dma (dsem 1 1)) (peer 1) (peer 1) (peer_peer 1) (peer_peer 1) () N32 c) $$ L8
  ihave C9 := (Pipeline.launchCred_tallyAt (.dma (dsem 1 4)) (peer 4) (peer 4) (peer_peer 4) (peer_peer 4) () N32 c) $$ L9
  ihave C10 := (Pipeline.launchCred_tallyAt (.dma (dsem 1 6)) (peer 6) (peer 6) (peer_peer 6) (peer_peer 6) () N32 c) $$ L10
  ihave C11 := (Pipeline.launchCred_tallyAt (.dma (dsem 1 0)) (peer 0) (peer 0) (peer_peer 0) (peer_peer 0) () N32 c) $$ L11
  ihave C12 := (Pipeline.launchCred_tallyAt (.dma (dsem 1 2)) (peer 2) (peer 2) (peer_peer 2) (peer_peer 2) () N32 c) $$ L12
  ihave C13 := (Pipeline.launchCred_tallyAt (.dma (dsem 1 3)) (peer 3) (peer 3) (peer_peer 3) (peer_peer 3) () N32 c) $$ L13
  ihave C14 := (Pipeline.launchCred_tallyAt (.dma (dsem 1 12)) (peer 5) (peer 5) (peer_peer 5) (peer_peer 5) () N32 c) $$ L14
  ihave C15 := (Pipeline.launchCred_tallyAt (.dma (dsem 1 8)) (peer 1) (peer 1) (peer_peer 1) (peer_peer 1) () N32 c) $$ L15
  ihave C16 := (Pipeline.launchCred_tallyAt (.dma (dsem 1 11)) (peer 4) (peer 4) (peer_peer 4) (peer_peer 4) () N32 c) $$ L16
  ihave C17 := (Pipeline.launchCred_tallyAt (.dma (dsem 1 13)) (peer 6) (peer 6) (peer_peer 6) (peer_peer 6) () N32 c) $$ L17
  ihave C18 := (Pipeline.launchCred_tallyAt (.dma (dsem 1 7)) (peer 0) (peer 0) (peer_peer 0) (peer_peer 0) () N32 c) $$ L18
  ihave C19 := (Pipeline.launchCred_tallyAt (.dma (dsem 1 9)) (peer 2) (peer 2) (peer_peer 2) (peer_peer 2) () N32 c) $$ L19
  ihave C20 := (Pipeline.launchCred_tallyAt (.dma (dsem 1 10)) (peer 3) (peer 3) (peer_peer 3) (peer_peer 3) () N32 c) $$ L20
  ihave C21 := (Pipeline.launchCred_tallyAt (.dma (dsem 3 5)) (peer 5) (peer 5) (peer_peer 5) (peer_peer 5) () N32 c) $$ L21
  ihave C22 := (Pipeline.launchCred_tallyAt (.dma (dsem 3 1)) (peer 1) (peer 1) (peer_peer 1) (peer_peer 1) () N32 c) $$ L22
  ihave C23 := (Pipeline.launchCred_tallyAt (.dma (dsem 3 4)) (peer 4) (peer 4) (peer_peer 4) (peer_peer 4) () N32 c) $$ L23
  ihave C24 := (Pipeline.launchCred_tallyAt (.dma (dsem 3 6)) (peer 6) (peer 6) (peer_peer 6) (peer_peer 6) () N32 c) $$ L24
  ihave C25 := (Pipeline.launchCred_tallyAt (.dma (dsem 3 0)) (peer 0) (peer 0) (peer_peer 0) (peer_peer 0) () N32 c) $$ L25
  ihave C26 := (Pipeline.launchCred_tallyAt (.dma (dsem 3 2)) (peer 2) (peer 2) (peer_peer 2) (peer_peer 2) () N32 c) $$ L26
  ihave C27 := (Pipeline.launchCred_tallyAt (.dma (dsem 3 3)) (peer 3) (peer 3) (peer_peer 3) (peer_peer 3) () N32 c) $$ L27
  ihave C28 := (Pipeline.launchCred_tallyAt (.dma (dsem 3 12)) (peer 5) (peer 5) (peer_peer 5) (peer_peer 5) () N32 c) $$ L28
  ihave C29 := (Pipeline.launchCred_tallyAt (.dma (dsem 3 8)) (peer 1) (peer 1) (peer_peer 1) (peer_peer 1) () N32 c) $$ L29
  ihave C30 := (Pipeline.launchCred_tallyAt (.dma (dsem 3 11)) (peer 4) (peer 4) (peer_peer 4) (peer_peer 4) () N32 c) $$ L30
  ihave C31 := (Pipeline.launchCred_tallyAt (.dma (dsem 3 13)) (peer 6) (peer 6) (peer_peer 6) (peer_peer 6) () N32 c) $$ L31
  ihave C32 := (Pipeline.launchCred_tallyAt (.dma (dsem 3 7)) (peer 0) (peer 0) (peer_peer 0) (peer_peer 0) () N32 c) $$ L32
  ihave C33 := (Pipeline.launchCred_tallyAt (.dma (dsem 3 9)) (peer 2) (peer 2) (peer_peer 2) (peer_peer 2) () N32 c) $$ L33
  ihave C34 := (Pipeline.launchCred_tallyAt (.dma (dsem 3 10)) (peer 3) (peer 3) (peer_peer 3) (peer_peer 3) () N32 c) $$ L34
  isplitl [C0 C1 C2 C3 C4 C5 C6]
  · iapply (Entails.of_eq (congrArg cred (show tallyAt (barCell c) () 1 + (tallyAt (barCell c) () 1 + (tallyAt (barCell c) () 1 + (tallyAt (barCell c) () 1 + (tallyAt (barCell c) () 1 + (tallyAt (barCell c) () 1 + tallyAt (barCell c) () 1))))) = (tallyAt (barCell c) () 7 : CellTallies nD τ sig Unit) from by
      rw [tallyAt_add, tallyAt_add, tallyAt_add, tallyAt_add, tallyAt_add, tallyAt_add])))
    iapply (cred_add _ _).2; isplitl [C0]; · iexact C0
    iapply (cred_add _ _).2; isplitl [C1]; · iexact C1
    iapply (cred_add _ _).2; isplitl [C2]; · iexact C2
    iapply (cred_add _ _).2; isplitl [C3]; · iexact C3
    iapply (cred_add _ _).2; isplitl [C4]; · iexact C4
    iapply (cred_add _ _).2; isplitl [C5]; · iexact C5
    iexact C6
  unfold credX
  isplitl [C7 C8 C9 C10 C11 C12 C13 C14 C15 C16 C17 C18 C19 C20]
  · isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  iexact C34

/-! ### The theorem's side conditions -/

theorem sigL_mem {c : Dev nD} {e : GSem nD τ sig × ℕ} (he : e ∈ sigL c) : e.1.1.2 = .tc ∧ lv e.1 () = 1 := by
  unfold sigL at he
  obtain ⟨j, _, rfl⟩ := List.mem_map.1 he
  exact ⟨rfl, rfl⟩

/-- The pipeline's own waits (the argument's fetch, the result's write-back) are on cells of level 0, below everything a device owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine mayWait_list c _ _ fun e he => ?_
    rcases List.mem_append.1 he with h | h
    · obtain ⟨h1, h2⟩ := sigL_mem h; exact ⟨h1, by rw [hq, h2]; decide⟩
    · rcases List.mem_append.1 h with h | h
      · obtain ⟨h1, h2⟩ := xferL_mem h; exact ⟨h1, by rw [hq, h2]; decide⟩
      · rcases List.mem_append.1 h with h | h <;> (obtain ⟨h1, h2⟩ := xferL_mem h; exact ⟨h1, by rw [hq, h2]; decide⟩)
  · rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HX⟩
  imodintro
  unfold start G'
  isplitl
  · isplitl [HG]; · iexact HG
    isplitl [H1]; · iexact H1
    isplitl [HX]; · iexact HX
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, H0, H1, H2, H3⟩
  isplitl [Hs]; · iexact Hs
  isplitl [H0]; · iexact H0
  isplitl [H1]; · iexact H1
  isplitl [H2]; · iexact H2
  iexact H3

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, Pipeline.ownSems0_eq_of_list c osem allKI (by decide) (by decide)]
  unfold Φ₁ scr
  iintro ⟨H0, H1, H2, H3, HS⟩
  isplitr; · iempintro
  isplitl [HS]; · iexact HS
  isplitl [H0]; · iexact H0
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxHeartbeats 4000000 in
set_option maxRecDepth 65536 in
/-- At the compiled mesh of eight devices, for any float values, from any memory with zero counters: every weakly fair execution
    of @main — the eight kernels meeting at the barrier, exchanging rows, adding, exchanging sums — terminates, and every final
    state has each device's result array at the computed contents and its argument unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

set_option maxHeartbeats 4000000 in
/-- The result array's one block — the whole array — read back is what the body left in the staging buffer. -/
theorem finalA_o (c : Dev nD) :
    (win0_1.blk (0 : Fin 1)).view.read (Elt F) (finalA m ρ c (1 : Fin 2)) = outFin m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  show _ = (dats m ρ 0 c).after (1 : Fin 2) (0 : Fin 1)
  exact View.read_write_univ _ _

end Cert.KernelIdealProof
end
-- ==== Proof.ValueKernelIdeal.lean ====
import proofs.«900485_g7700000000000486_dist_treered_v7x_i8_m512_n512_f32_1_alg».proof.Proof.Gen.KernelIdeal
import proofs.«900485_g7700000000000486_dist_treered_v7x_i8_m512_n512_f32_1_alg».proof.Proof.Gen.KernelIdeal.Skeleton
import proofs.«900485_g7700000000000486_dist_treered_v7x_i8_m512_n512_f32_1_alg».proof.Proof.Gen.KernelIdeal.Launch
import proofs.«900485_g7700000000000486_dist_treered_v7x_i8_m512_n512_f32_1_alg».proof.Proof.Gen.KernelIdeal.Points
import proofs.«900485_g7700000000000486_dist_treered_v7x_i8_m512_n512_f32_1_alg».proof.Proof.OutKernelIdeal
import Idealize.ShloMosaic.Lib.ValueIdx
import Idealize.ShloMosaic.Lib.Layout
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealValue

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdealProof
variable (m : (ℓ : Loc nD τ sig) → Buf (Elt Ideal) ℓ) (ρ : Dev nD → PrngReg)

/-! ## The kernel's result at the ideal instance, index by index -/

/-- The index of row `r`, column `k` in a device's block of the argument. -/
abbrev idx3 (r k : ℕ) (hr : r < 512) (hk : k < 512) : S1x512x512.Idx := fun a => match a with
  | ⟨0, _⟩ => ⟨0, Nat.one_pos⟩
  | ⟨1, _⟩ => ⟨r, hr⟩
  | ⟨2, _⟩ => ⟨k, hk⟩
abbrev idx2 (r k : ℕ) (hr : r < 512) (hk : k < 512) : S512x512.Idx := fun a => match a with
  | ⟨0, _⟩ => ⟨r, hr⟩
  | ⟨1, _⟩ => ⟨k, hk⟩

/-- Device `q`'s block of the argument at row `r`, column `k`. -/
def XX (q : Dev nD) (r k : ℕ) (hr : r < 512) (hk : k < 512) : EReal := m ((q : Thread nD τ).loc main_arg0) (idx3 r k hr hk)

theorem hz3 : (![0, 0, 0] : Fin 3 → Nat) = fun _ => 0 := funext fun a => by fin_cases a <;> rfl

theorem Xb_eq (q : Dev nD) : Xb m ρ q = m ((q : Thread nD τ).loc main_arg0) := by
  unfold Xb Cert.KernelIdealProof.s₀
  have hz0 : (fun a => (win0_0.index (0 : Fin 1)) a * main_arg0.ty.shape.size a) = fun _ => 0 :=
    funext fun a => by fin_cases a <;> decide
  exact Memref.read_access_unit_zero (Elt Ideal) main_arg0 hz0 (fun a => by fin_cases a <;> decide) _

theorem xread_whole (f : (cc0_stg0_0 : Ref sig .tc).ty.Contents (Elt Ideal)) : xM.view.readAt (Elt Ideal) xRect.toLoadRect f = f :=
  Memref.readAt_unit_zero (Elt Ideal) cc0_stg0_0 hz3 _ f

theorem x0_lt (x : S512x512.Idx) : (x 0).val < 512 := (x 0).isLt
theorem x1_lt (x : S512x512.Idx) : (x 1).val < 512 := (x 1).isLt

theorem X16_apply (q : Dev nD) (i : S512x512.Idx) : X16 m ρ q i = XX m q (i 0).val (i 1).val (x0_lt i) (x1_lt i) := by
  unfold X16 k0_pay1 XX
  rw [xread_whole, Xb_eq]
  show shapeCast S512x512 (truncf .bf16 (shapeCast S512x512 _ shapeCasts_S1x512x512_S512x512) bitsLt_bf16_f32) shapeCasts_S512x512_S512x512 i = _
  rw [shapeCast_self]
  show shapeCast S512x512 _ shapeCasts_S1x512x512_S512x512 i = _
  exact shapeCast_apply _ _ i (idx3 (i 0).val (i 1).val (x0_lt i) (x1_lt i)) (by
    rw [Shape.rowMajor_val_three, Shape.rowMajor_val_two]; simp)

theorem XX_congr' (q : Dev nD) {r r' k k' : ℕ} {hr : r < 512} {hk : k < 512} {hr' : r' < 512} {hk' : k' < 512} (er : r = r') (ek : k = k') :
    XX m q r k hr hk = XX m q r' k' hr' hk' := by subst er ek; rfl

theorem hsl_emb (q : Dev nD) (j : Fin 7) (sb : Fin 2) (y : S32x512.Idx) (a : Fin 2) :
    ((hSl q j sb).view.emb y a).val = k0_off1 q (BitVec.ofNat 32 (1 + j.val)) (BitVec.ofNat 32 (32 * sb.val)) a + 1 * (y a).val := rfl

theorem y0_lt (y : S32x512.Idx) : (y 0).val < 32 := (y 0).isLt
theorem y1_lt (y : S32x512.Idx) : (y 1).val < 512 := (y 1).isLt

/-- What lands in device `c`'s first-phase slot `(sb, j)`: the partner's rows `64 c + 32 sb …`. -/
theorem wRS_apply (c : Dev nD) (sb : Fin 2) (j : Fin 7) (y : S32x512.Idx) :
    wRS m ρ c sb j y = XX m (peer j c) (64 * c.val + 32 * sb.val + (y 0).val) (y 1).val
      (by have := y0_lt y; have : c.val < 8 := c.isLt; have := sb.isLt; omega) (y1_lt y) := by
  unfold wRS
  rw [View.read_apply, cast_eq, X16_apply]
  refine XX_congr' m (peer j c) ?_ ?_
  · rw [hsl_emb, off1_eq, peer_peer]; simp
  · rw [hsl_emb, off1_eq]; simp

abbrev idx3s (r k : ℕ) (hr : r < 32) (hk : k < 512) : S1x32x512.Idx := fun a => match a with
  | ⟨0, _⟩ => ⟨0, Nat.one_pos⟩
  | ⟨1, _⟩ => ⟨r, hr⟩
  | ⟨2, _⟩ => ⟨k, hk⟩

theorem xrows_idx (c : Dev nD) (sb : Fin 2) (z : S1x32x512.Idx) (a : Fin 3) :
    ((xRows c sb).toLoadRect.idx z a).val = k0_off2 c (BitVec.ofNat 32 (32 * sb.val)) a + 1 * (z a).val := rfl

/-- The device's own rows of the segment it reduces. -/
theorem x0_apply (c : Dev nD) (sb : Fin 2) (y : S32x512.Idx) :
    shapeCast S32x512 (View.readAt (Elt Ideal) (View.whole cc0_stg0_0) (xRows c sb).toLoadRect (Xb m ρ c)) shapeCasts_S1x32x512_S32x512 y
      = XX m c (64 * c.val + 32 * sb.val + (y 0).val) (y 1).val
        (by have := y0_lt y; have : c.val < 8 := c.isLt; have := sb.isLt; omega) (y1_lt y) := by
  rw [shapeCast_apply _ _ y (idx3s (y 0).val (y 1).val (y0_lt y) (y1_lt y)) (by
    rw [Shape.rowMajor_val_three, Shape.rowMajor_val_two]; simp)]
  unfold View.readAt
  rw [Xb_eq]
  show m ((c : Thread nD τ).loc main_arg0) _ = _
  unfold XX
  refine congrArg _ (funext fun a => Fin.ext ?_)
  show k0_off2 c (BitVec.ofNat 32 (32 * sb.val)) a + 1 * ((idx3s (y 0).val (y 1).val (y0_lt y) (y1_lt y)) a).val = _
  rw [k0_off2_eq]
  match a with
  | ⟨0, _⟩ => simp
  | ⟨1, _⟩ => simp
  | ⟨2, _⟩ => simp

/-- The reduced segment at an index: the device's own entry plus its seven partners', in the kernel's order. -/
theorem acc_apply (c : Dev nD) (sb : Fin 2) (y : S32x512.Idx) :
    acc m ρ c sb y = (fun (R K : ℕ) (hr : R < 512) (hk : K < 512) => (((((((XX m c R K hr hk + XX m (peer 5 c) R K hr hk) + XX m (peer 1 c) R K hr hk) + XX m (peer 4 c) R K hr hk) + XX m (peer 6 c) R K hr hk) + XX m (peer 0 c) R K hr hk) + XX m (peer 2 c) R K hr hk) + XX m (peer 3 c) R K hr hk))
      (64 * c.val + 32 * sb.val + (y 0).val) (y 1).val (by have := y0_lt y; have : c.val < 8 := c.isLt; have := sb.isLt; omega) (y1_lt y) := by
  unfold acc accStep
  simp only [addf_apply, extf_apply, wRS_apply]
  rw [x0_apply]

theorem wOut_apply (c : Dev nD) (sb : Fin 2) (j : Fin 7) (y : S32x512.Idx) : wOut m ρ c sb j y = acc m ρ (peer j c) sb y := by
  unfold wOut
  rw [extf_apply, wAG_eq]
  unfold wG
  rw [shapeCast_self, truncf_apply]

/-- A sum over the eight devices, written from any one of them: itself and its seven partners. -/
theorem dev_sum (c : Dev nD) (R K : ℕ) (hr : R < 512) (hk : K < 512) :
    ∑ d : Dev nD, XX m d R K hr hk = (((((((XX m c R K hr hk + XX m (peer 5 c) R K hr hk) + XX m (peer 1 c) R K hr hk) + XX m (peer 4 c) R K hr hk) + XX m (peer 6 c) R K hr hk) + XX m (peer 0 c) R K hr hk) + XX m (peer 2 c) R K hr hk) + XX m (peer 3 c) R K hr hk) := by
  have hu : ∀ c : Dev nD, (Finset.univ : Finset (Dev nD)) = {c, peer 5 c, peer 1 c, peer 4 c, peer 6 c, peer 0 c, peer 2 c, peer 3 c} := by decide
  rw [hu c]
  rw [Finset.sum_insert (by revert c; decide), Finset.sum_insert (by revert c; decide), Finset.sum_insert (by revert c; decide),
    Finset.sum_insert (by revert c; decide), Finset.sum_insert (by revert c; decide), Finset.sum_insert (by revert c; decide),
    Finset.sum_insert (by revert c; decide), Finset.sum_singleton]
  ac_rfl

/-- One store into the result read at an index: what was stored where the index is in the store's rows, what was there before elsewhere. -/
theorem layer_apply (off : Fin 2 → ℕ) (inb : ∀ a, off a + S32x512.size a ≤ S512x512.size a)
    (f : (cc0_stg1_0 : Ref sig .tc).ty.Contents (Elt Ideal)) (w : FVec Ideal S32x512 .f32) (x : S512x512.Idx) (T : EReal)
    (hit : ∀ y : S32x512.Idx, (∀ a, (x a).val = off a + (y a).val) → w y = T)
    (miss : (¬ ∀ a, off a ≤ (x a).val ∧ (x a).val < off a + S32x512.size a) → f x = T) :
    (oM.access (Rect.unit (s := S512x512) off S32x512.size inb)).write (Elt Ideal) f w Finset.univ x = T := by
  by_cases hx : x ∈ (oM.access (Rect.unit (s := S512x512) off S32x512.size inb)).setOn Finset.univ
  · obtain ⟨y, _, rfl⟩ := Finset.mem_map.mp hx
    rw [View.write_emb_of_mem _ _ (Finset.mem_univ y), cast_eq]
    exact hit y fun a => by
      show ((Rect.unit (s := S512x512) off S32x512.size inb).idx y a).val = _
      show off a + 1 * (y a).val = _
      omega
  · rw [View.write_of_not_mem _ _ _ hx]
    refine miss fun h => hx ?_
    show x ∈ ((View.whole cc0_stg1_0).slice (Rect.unit (s := S512x512) off S32x512.size inb)).set
    rw [View.set_slice_whole, Rect.mem_set_unit]; exact h

set_option maxHeartbeats 1600000 in
/-- The kernel's result on every device, at every index: the sum of the eight devices' blocks there. -/
theorem outFin_apply (c : Dev nD) (x : S512x512.Idx) :
    outFin m ρ c x = ∑ d : Dev nD, XX m d (x 0).val (x 1).val (x0_lt x) (x1_lt x) := by
  unfold outFin outW
  refine layer_apply _ _ _ _ x _ (fun y hy => ?_) (fun h_p1_3 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 3 c)]
    exact Finset.sum_congr rfl fun d _ => XX_congr' m d (by omega) (by omega)
  refine layer_apply _ _ _ _ x _ (fun y hy => ?_) (fun h_p1_2 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 2 c)]
    exact Finset.sum_congr rfl fun d _ => XX_congr' m d (by omega) (by omega)
  refine layer_apply _ _ _ _ x _ (fun y hy => ?_) (fun h_p1_0 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 0 c)]
    exact Finset.sum_congr rfl fun d _ => XX_congr' m d (by omega) (by omega)
  refine layer_apply _ _ _ _ x _ (fun y hy => ?_) (fun h_p1_6 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 6 c)]
    exact Finset.sum_congr rfl fun d _ => XX_congr' m d (by omega) (by omega)
  refine layer_apply _ _ _ _ x _ (fun y hy => ?_) (fun h_p1_4 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 4 c)]
    exact Finset.sum_congr rfl fun d _ => XX_congr' m d (by omega) (by omega)
  refine layer_apply _ _ _ _ x _ (fun y hy => ?_) (fun h_p1_1 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 1 c)]
    exact Finset.sum_congr rfl fun d _ => XX_congr' m d (by omega) (by omega)
  refine layer_apply _ _ _ _ x _ (fun y hy => ?_) (fun h_p1_5 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 5 c)]
    exact Finset.sum_congr rfl fun d _ => XX_congr' m d (by omega) (by omega)
  refine layer_apply _ _ _ _ x _ (fun y hy => ?_) (fun h_p0_3 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 3 c)]
    exact Finset.sum_congr rfl fun d _ => XX_congr' m d (by omega) (by omega)
  refine layer_apply _ _ _ _ x _ (fun y hy => ?_) (fun h_p0_2 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 2 c)]
    exact Finset.sum_congr rfl fun d _ => XX_congr' m d (by omega) (by omega)
  refine layer_apply _ _ _ _ x _ (fun y hy => ?_) (fun h_p0_0 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 0 c)]
    exact Finset.sum_congr rfl fun d _ => XX_congr' m d (by omega) (by omega)
  refine layer_apply _ _ _ _ x _ (fun y hy => ?_) (fun h_p0_6 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 6 c)]
    exact Finset.sum_congr rfl fun d _ => XX_congr' m d (by omega) (by omega)
  refine layer_apply _ _ _ _ x _ (fun y hy => ?_) (fun h_p0_4 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 4 c)]
    exact Finset.sum_congr rfl fun d _ => XX_congr' m d (by omega) (by omega)
  refine layer_apply _ _ _ _ x _ (fun y hy => ?_) (fun h_p0_1 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 1 c)]
    exact Finset.sum_congr rfl fun d _ => XX_congr' m d (by omega) (by omega)
  refine layer_apply _ _ _ _ x _ (fun y hy => ?_) (fun h_p0_5 => ?_)
  · have h0 := hy 0; have h1 := hy 1
    rw [off4_eq] at h0 h1
    simp only [Matrix.cons_val_zero, Matrix.cons_val_one, Matrix.head_cons] at h0 h1
    rw [wOut_apply, acc_apply]; beta_reduce
    rw [← dev_sum m (peer 5 c)]
    exact Finset.sum_congr rfl fun d _ => XX_congr' m d (by omega) (by omega)
  refine layer_apply _ _ _ _ x _ (fun y hy => ?_) (fun h_own1 => ?_)
  · have h0 := hy 0; have h1 := hy 1
    rw [k0_off3_eq] at h0 h1
    simp only [Matrix.cons_val_zero, Matrix.cons_val_one, Matrix.head_cons] at h0 h1
    rw [acc_apply]; beta_reduce
    rw [← dev_sum m c]
    exact Finset.sum_congr rfl fun d _ => XX_congr' m d (by omega) (by omega)
  refine layer_apply _ _ _ _ x _ (fun y hy => ?_) (fun h_own0 => ?_)
  · have h0 := hy 0; have h1 := hy 1
    rw [k0_off3_eq] at h0 h1
    simp only [Matrix.cons_val_zero, Matrix.cons_val_one, Matrix.head_cons] at h0 h1
    rw [acc_apply]; beta_reduce
    rw [← dev_sum m c]
    exact Finset.sum_congr rfl fun d _ => XX_congr' m d (by omega) (by omega)
  -- no store's rows hold the index: impossible, the sixteen blocks of 32 rows cover the 512
  exfalso
  have hr : (x 0).val < 512 := (x 0).isLt
  have hk : (x 1).val < 512 := (x 1).isLt
  have hc := c.isLt
  rw [k0_off3_eq] at h_own0 h_own1
  rw [off4_eq] at h_p1_3 h_p1_2 h_p1_0 h_p1_6 h_p1_4 h_p1_1 h_p1_5 h_p0_3 h_p0_2 h_p0_0 h_p0_6 h_p0_4 h_p0_1 h_p0_5
  have key : ∀ (o : ℕ), (¬ ∀ a : Fin 2, (![o, 0] : Fin 2 → ℕ) a ≤ (x a).val ∧ (x a).val < (![o, 0] : Fin 2 → ℕ) a + S32x512.size a) → ¬ (o ≤ (x 0).val ∧ (x 0).val < o + 32) := by
    intro o hno hh
    refine hno fun a => ?_
    match a with
    | ⟨0, _⟩ => exact hh
    | ⟨1, _⟩ => exact ⟨Nat.zero_le _, by show (x 1).val < 0 + 512; omega⟩
  replace h_p1_3 := key _ h_p1_3
  replace h_p1_2 := key _ h_p1_2
  replace h_p1_0 := key _ h_p1_0
  replace h_p1_6 := key _ h_p1_6
  replace h_p1_4 := key _ h_p1_4
  replace h_p1_1 := key _ h_p1_1
  replace h_p1_5 := key _ h_p1_5
  replace h_p0_3 := key _ h_p0_3
  replace h_p0_2 := key _ h_p0_2
  replace h_p0_0 := key _ h_p0_0
  replace h_p0_6 := key _ h_p0_6
  replace h_p0_4 := key _ h_p0_4
  replace h_p0_1 := key _ h_p0_1
  replace h_p0_5 := key _ h_p0_5
  replace h_own1 := key _ h_own1
  replace h_own0 := key _ h_own0
  by_cases hq : (x 0).val / 64 = c.val
  · simp only [Fin.val_zero, Fin.val_one] at h_own0 h_own1; omega
  · have hne : (⟨(x 0).val / 64, by show (x 0).val / 64 < 8; omega⟩ : Dev nD) ≠ c := fun h => hq (congrArg Fin.val h)
    rcases peer_cases c _ hne with h | h | h | h | h | h | h
    · have hv : (peer 0 c).val = (x 0).val / 64 := by rw [h]
      simp only [Fin.val_zero, Fin.val_one] at *; omega
    · have hv : (peer 1 c).val = (x 0).val / 64 := by rw [h]
      simp only [Fin.val_zero, Fin.val_one] at *; omega
    · have hv : (peer 2 c).val = (x 0).val / 64 := by rw [h]
      simp only [Fin.val_zero, Fin.val_one] at *; omega
    · have hv : (peer 3 c).val = (x 0).val / 64 := by rw [h]
      simp only [Fin.val_zero, Fin.val_one] at *; omega
    · have hv : (peer 4 c).val = (x 0).val / 64 := by rw [h]
      simp only [Fin.val_zero, Fin.val_one] at *; omega
    · have hv : (peer 5 c).val = (x 0).val / 64 := by rw [h]
      simp only [Fin.val_zero, Fin.val_one] at *; omega
    · have hv : (peer 6 c).val = (x 0).val / 64 := by rw [h]
      simp only [Fin.val_zero, Fin.val_one] at *; omega

end Cert.KernelIdealValue
end
-- ==== Proof.Ref.lean ====
import proofs.«900485_g7700000000000486_dist_treered_v7x_i8_m512_n512_f32_1_alg».proof.Defs
import proofs.«900485_g7700000000000486_dist_treered_v7x_i8_m512_n512_f32_1_alg».proof.Proof.Gen.ReferenceIdeal
import proofs.«900485_g7700000000000486_dist_treered_v7x_i8_m512_n512_f32_1_alg».proof.Proof.Gen.Pre_finite_inputs_ReferenceIdeal
import proofs.«900485_g7700000000000486_dist_treered_v7x_i8_m512_n512_f32_1_alg».proof.Proof.Gen.ReferenceIdeal.Run
import proofs.«900485_g7700000000000486_dist_treered_v7x_i8_m512_n512_f32_1_alg».proof.Proof.Gen.ReferenceIdeal.Read
import Idealize.ShloMosaic.Lib.ValueIdx
import Idealize.ShloMosaic.PureOps.Ideal.Laws

noncomputable section

namespace Cert.RefSide

open Idealize.ShloMosaic Idealize.ShloMosaic.TcCoe Idealize.SL.Sem
open Cert.ReferenceIdeal Cert.ReferenceIdeal.Gen

/-- The reference's result: the sum over the leading axis, from zero. -/
def refOut (x0 : (⟨S8x512x512, .f32⟩ : BufTy).Contents (Elt Ideal)) : (⟨S512x512, .f32⟩ : BufTy).Contents (Elt Ideal) :=
  Cert.ReferenceIdeal.Read.val_main_v0 (F := Ideal) x0

/-- At an index the reference's result is the sum of the eight blocks' entries there. -/
theorem refOut_apply (x0 : (⟨S8x512x512, .f32⟩ : BufTy).Contents (Elt Ideal)) (i : S512x512.Idx) :
    refOut x0 i = ∑ k : Fin 8, x0 (Cert.ReferenceIdeal.Read.idx_main_v0 i k) := by
  unfold refOut
  rw [Cert.ReferenceIdeal.Read.val_main_v0_apply, Cert.ReferenceIdeal.Read.val_main_cst_apply]
  show Ideal.ofBits .f32 0x00000000#32 + _ = _
  rw [Ideal.ofBits_zero_f32, zero_add]

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result named. -/
theorem run_ref (m : (ℓ : Loc nD τ sig) → Buf (Elt Ideal) ℓ) (ρ : Dev nD → PrngReg) :
    θ_run Cert.ReferenceIdeal.defs (onTc (τ := τ) (main (F := Ideal))) ⟨m, fun _ => 0, ρ⟩ fun r =>
      r.2.mem (((0 : Dev nD).tc : Thread nD τ).loc main_v0) = refOut (m (((0 : Dev nD).tc : Thread nD τ).loc main_arg0))
      ∧ r.2.mem (((0 : Dev nD).tc : Thread nD τ).loc main_arg0) = m (((0 : Dev nD).tc : Thread nD τ).loc main_arg0) :=
  (θ_run Cert.ReferenceIdeal.defs _ _).mono (fun _ h => ⟨(h 0).1.trans (Cert.ReferenceIdeal.Read.val_main_v0_eq _), (h 0).2⟩)
    (Cert.ReferenceIdeal.Value.run (F := Ideal) m ρ)

end Cert.RefSide

end
-- ==== Proof.lean ====
/- The proof of `Cert.Claim`: the three frames, `preserves` (the idealization rewrote nothing) and `algebraic`.

   The kernel is an all-reduce on eight devices: every device keeps a 16-bit copy of its block, meets the other seven at the
   barrier, sends each partner (its index exclusive-or a mask) the rows of that partner's segment, adds the seven blocks it
   receives to its own rows of its segment, and sends the sum back out to every partner; each device ends with all eight
   segments. Read at the ideal instance the changes of float format are the identity, so every entry of every device's result
   is the sum of the eight blocks' entries there, in some order: the reference's sum over the leading axis. Only commutativity
   and associativity of the sum are used; the precondition is never opened. -/
import proofs.«900485_g7700000000000486_dist_treered_v7x_i8_m512_n512_f32_1_alg».proof.Defs
import proofs.«900485_g7700000000000486_dist_treered_v7x_i8_m512_n512_f32_1_alg».proof.Proof.Gen.Kernel
import proofs.«900485_g7700000000000486_dist_treered_v7x_i8_m512_n512_f32_1_alg».proof.Proof.Gen.KernelIdeal
import proofs.«900485_g7700000000000486_dist_treered_v7x_i8_m512_n512_f32_1_alg».proof.Proof.Gen.ReferenceIdeal
import proofs.«900485_g7700000000000486_dist_treered_v7x_i8_m512_n512_f32_1_alg».proof.Proof.Gen.Pre_finite_inputs_Kernel
import proofs.«900485_g7700000000000486_dist_treered_v7x_i8_m512_n512_f32_1_alg».proof.Proof.Gen.Pre_finite_inputs_ReferenceIdeal
import proofs.«900485_g7700000000000486_dist_treered_v7x_i8_m512_n512_f32_1_alg».proof.Proof.LaunchKernel
import proofs.«900485_g7700000000000486_dist_treered_v7x_i8_m512_n512_f32_1_alg».proof.Proof.LaunchKernelIdeal
import proofs.«900485_g7700000000000486_dist_treered_v7x_i8_m512_n512_f32_1_alg».proof.Proof.ValueKernelIdeal
import proofs.«900485_g7700000000000486_dist_treered_v7x_i8_m512_n512_f32_1_alg».proof.Proof.Ref
import Idealize.ShloMosaic.Adequacy
import Idealize.ShloMosaic.Init

noncomputable section

namespace Cert.Proof

open Idealize.ShloMosaic Idealize.ShloMosaic.TcCoe Idealize.SL.Sem

theorem sum_congr_E {f g : Fin 8 → EReal} (h : ∀ d, f d = g d) : ∑ d, f d = ∑ d, g d := Finset.sum_congr rfl fun d _ => h d

/-- The word-level kernel runs and leaves its argument as it was: its run, read at the argument array. -/
theorem frame_k : Cert.frame_Kernel := by
  intro m ρ _
  exact (θ_run Cert.Kernel.defs _ _).mono (fun _ h c => (h c (0 : Fin 2)).trans (Cert.KernelProof.finalA_x m ρ c))
    (Cert.KernelProof.run_main (F := Bits) m ρ)

/-- The idealized kernel likewise. -/
theorem frame_ki : Cert.frame_KernelIdeal := by
  intro m ρ _
  exact (θ_run Cert.KernelIdeal.defs _ _).mono (fun _ h c => (h c (0 : Fin 2)).trans (Cert.KernelIdealProof.finalA_x m ρ c))
    (Cert.KernelIdealProof.run_main (F := Ideal) m ρ)

/-- The ideal pass rewrote no operation. -/
theorem preserves : Cert.preserves_Kernel_KernelIdeal := trivial

/-- Every device's result is the reference's: at each index the sum of the eight blocks' entries. -/
theorem algebraic : Cert.algebraic_KernelIdeal_ReferenceIdeal := by
  intro m ρ m' ρ' _ hagree
  refine ⟨Cert.RefSide.refOut (m' (((0 : Dev Cert.ReferenceIdeal.nD).tc : Thread _ Cert.ReferenceIdeal.τ).loc Cert.ReferenceIdeal.main_arg0)), ?_, ?_⟩
  · refine (θ_run Cert.KernelIdeal.defs _ _).mono
      (fun _ h c => ⟨(h c (1 : Fin 2)).trans ?_, (h c (0 : Fin 2)).trans (Cert.KernelIdealProof.finalA_x m ρ c)⟩)
      (Cert.KernelIdealProof.run_main (F := Ideal) m ρ)
    -- the result window's one block is the whole result array: reading it reads the array
    have hz : (fun a => (Cert.KernelIdeal.win0_1.index (0 : Fin 1)) a * Cert.KernelIdeal.main_v1.ty.shape.size a) = fun _ => 0 :=
      funext fun a => by fin_cases a <;> decide
    have hr := fun f => Memref.read_access_unit_zero (Elt Ideal) Cert.KernelIdeal.main_v1 hz (fun a => by fin_cases a <;> decide) f
    have ho := Cert.KernelIdealProof.finalA_o (F := Ideal) m ρ c
    rw [hr] at ho
    refine ho.trans (funext fun x => ?_)
    have e1 := Cert.KernelIdealValue.outFin_apply m ρ c x
    have e2 := Cert.RefSide.refOut_apply (m' (((0 : Dev Cert.ReferenceIdeal.nD).tc : Thread _ Cert.ReferenceIdeal.τ).loc Cert.ReferenceIdeal.main_arg0)) x
    refine e1.trans (Eq.trans ?_ e2.symm)
    refine sum_congr_E (f := fun d => Cert.KernelIdealValue.XX m d (x 0).val (x 1).val (Cert.KernelIdealValue.x0_lt x) (Cert.KernelIdealValue.x1_lt x))
      (g := fun k => m' (((0 : Dev Cert.ReferenceIdeal.nD).tc : Thread _ Cert.ReferenceIdeal.τ).loc Cert.ReferenceIdeal.main_arg0) (Cert.ReferenceIdeal.Read.idx_main_v0 x k)) (fun d => ?_)
    unfold Cert.KernelIdealValue.XX
    rw [hagree d, Layout.block_apply]
    refine congrArg _ (funext fun b => Fin.ext ?_)
    rw [Layout.Tiles.idx_val]
    match b with
    | ⟨0, _⟩ => simp
    | ⟨1, _⟩ => simp
    | ⟨2, _⟩ => simp
  · exact Cert.RefSide.run_ref m' ρ'

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefSide.frame_ri, preserves, algebraic⟩

end Cert.Proof

end
